-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S320000x16 : Shape := ⟨2, ![320000, 16]⟩
abbrev S10000 : Shape := ⟨1, ![10000]⟩
abbrev S320000x3 : Shape := ⟨2, ![320000, 3]⟩
abbrev S320000 : Shape := ⟨1, ![320000]⟩
abbrev S95x128 : Shape := ⟨2, ![95, 128]⟩
abbrev S16x128 : Shape := ⟨2, ![16, 128]⟩
abbrev S128 : Shape := ⟨1, ![128]⟩
abbrev S384x128 : Shape := ⟨2, ![384, 128]⟩
abbrev S_ : Shape := ⟨0, ![]⟩

class Facts : Prop where
  bcast_S_S320000x16 : S_.BroadcastsInDim S320000x16 (![] : Fin 0 → Fin S320000x16.rank)
  reducesTo_S320000x16_S_d0_1 : S320000x16.ReducesTo [0, 1] S_
  h_S_ : 0 < S_.numel
  bcast_S_S320000x3 : S_.BroadcastsInDim S320000x3 (![] : Fin 0 → Fin S320000x3.rank)
  reducesTo_S320000x3_S_d0_1 : S320000x3.ReducesTo [0, 1] S_
  bcast_S_S95x128 : S_.BroadcastsInDim S95x128 (![] : Fin 0 → Fin S95x128.rank)
  reducesTo_S95x128_S_d0_1 : S95x128.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S10000 : S_.BroadcastsInDim S10000 (![] : Fin 0 → Fin S10000.rank)
  reducesTo_S10000_S_d0 : S10000.ReducesTo [0] S_
  bcast_S_S320000 : S_.BroadcastsInDim S320000 (![] : Fin 0 → Fin S320000.rank)
  reducesTo_S320000_S_d0 : S320000.ReducesTo [0] S_

variable [Facts]

def fn_part3 {F : FTy → Type} [FloatOps F] (main_arg4 : IVec S320000 32) (main_v47 : IVec S_ 1) (main_v49 : IVec S320000 1) (main_c_19 : IVec S_ 32) : IVec S_ 1 :=
  let main_v50 : IVec S320000 32 := broadcastInDim S320000 ![] bcast_S_S320000 main_c_19
  let main_v51 : IVec S320000 1 := cmpi .sle main_arg4 main_v50
  let main_v52 : IVec S320000 1 := andi main_v49 main_v51
  let main_c_20 : IVec S_ 1 := constantI S_ 1 1#1
  let main_v53 : IVec S_ 1 := (fun x v => Host.reduce IntOp.andi x v reducesTo_S320000_S_d0 h_S_) main_v52 main_c_20
  let main_v54 : IVec S_ 1 := andi main_v47 main_v53
  main_v54

def fn_part2 {F : FTy → Type} [FloatOps F] (main_arg1 : IVec S10000 32) (main_arg3 : IVec S320000 32) (main_arg4 : IVec S320000 32) (main_v33 : IVec S_ 1) : IVec S_ 1 :=
  let main_c_12 : IVec S_ 32 := constantI S_ 32 0#32
  let main_v34 : IVec S10000 32 := broadcastInDim S10000 ![] bcast_S_S10000 main_c_12
  let main_v35 : IVec S10000 1 := cmpi .sge main_arg1 main_v34
  let main_c_13 : IVec S_ 32 := constantI S_ 32 94#32
  let main_v36 : IVec S10000 32 := broadcastInDim S10000 ![] bcast_S_S10000 main_c_13
  let main_v37 : IVec S10000 1 := cmpi .sle main_arg1 main_v36
  let main_v38 : IVec S10000 1 := andi main_v35 main_v37
  let main_c_14 : IVec S_ 1 := constantI S_ 1 1#1
  let main_v39 : IVec S_ 1 := (fun x v => Host.reduce IntOp.andi x v reducesTo_S10000_S_d0 h_S_) main_v38 main_c_14
  let main_v40 : IVec S_ 1 := andi main_v33 main_v39
  let main_c_15 : IVec S_ 32 := constantI S_ 32 0#32
  let main_v41 : IVec S320000 32 := broadcastInDim S320000 ![] bcast_S_S320000 main_c_15
  let main_v42 : IVec S320000 1 := cmpi .sge main_arg3 main_v41
  let main_c_16 : IVec S_ 32 := constantI S_ 32 9999#32
  let main_v43 : IVec S320000 32 := broadcastInDim S320000 ![] bcast_S_S320000 main_c_16
  let main_v44 : IVec S320000 1 := cmpi .sle main_arg3 main_v43
  let main_v45 : IVec S320000 1 := andi main_v42 main_v44
  let main_c_17 : IVec S_ 1 := constantI S_ 1 1#1
  let main_v46 : IVec S_ 1 := (fun x v => Host.reduce IntOp.andi x v reducesTo_S320000_S_d0 h_S_) main_v45 main_c_17
  let main_v47 : IVec S_ 1 := andi main_v40 main_v46
  let main_c_18 : IVec S_ 32 := constantI S_ 32 0#32
  let main_v48 : IVec S320000 32 := broadcastInDim S320000 ![] bcast_S_S320000 main_c_18
  let main_v49 : IVec S320000 1 := cmpi .sge main_arg4 main_v48
  let main_c_19 : IVec S_ 32 := constantI S_ 32 9999#32
  fn_part3 (F := F) main_arg4 main_v47 main_v49 main_c_19

def fn_part1 {F : FTy → Type} [FloatOps F] (main_arg1 : IVec S10000 32) (main_arg3 : IVec S320000 32) (main_arg4 : IVec S320000 32) (main_arg7 : FVec F S128 .f32) (main_arg8 : FVec F S384x128 .f32) (main_arg9 : FVec F S128 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x128 .f32 := Host.absf main_arg8
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg3 main_arg4 main_v33

def fn {F : FTy → Type} [FloatOps F] (main_arg0 : FVec F S320000x16 .f32) (main_arg1 : IVec S10000 32) (main_arg2 : FVec F S320000x3 .f32) (main_arg3 : IVec S320000 32) (main_arg4 : IVec S320000 32) (main_arg5 : FVec F S95x128 .f32) (main_arg6 : FVec F S16x128 .f32) (main_arg7 : FVec F S128 .f32) (main_arg8 : FVec F S384x128 .f32) (main_arg9 : FVec F S128 .f32) : IVec S_ 1 :=
  let main_v0 : FVec F S320000x16 .f32 := Host.absf main_arg0
  let main_cst : FVec F S_ .f32 := constant S_ .f32 0x7F800000#32
  let main_v1 : FVec F S320000x16 .f32 := broadcastInDim S320000x16 ![] bcast_S_S320000x16 main_cst
  let main_v2 : IVec S320000x16 1 := cmpf .olt main_v0 main_v1
  let main_c : IVec S_ 1 := constantI S_ 1 1#1
  let main_v3 : IVec S_ 1 := (fun x v => Host.reduce IntOp.andi x v reducesTo_S320000x16_S_d0_1 h_S_) main_v2 main_c
  let main_v4 : FVec F S320000x3 .f32 := Host.absf main_arg2
  let main_cst_0 : FVec F S_ .f32 := constant S_ .f32 0x7F800000#32
  let main_v5 : FVec F S320000x3 .f32 := broadcastInDim S320000x3 ![] bcast_S_S320000x3 main_cst_0
  let main_v6 : IVec S320000x3 1 := cmpf .olt main_v4 main_v5
  let main_c_1 : IVec S_ 1 := constantI S_ 1 1#1
  let main_v7 : IVec S_ 1 := (fun x v => Host.reduce IntOp.andi x v reducesTo_S320000x3_S_d0_1 h_S_) main_v6 main_c_1
  let main_v8 : IVec S_ 1 := andi main_v3 main_v7
  let main_v9 : FVec F S95x128 .f32 := Host.absf main_arg5
  let main_cst_2 : FVec F S_ .f32 := constant S_ .f32 0x7F800000#32
  let main_v10 : FVec F S95x128 .f32 := broadcastInDim S95x128 ![] bcast_S_S95x128 main_cst_2
  let main_v11 : IVec S95x128 1 := cmpf .olt main_v9 main_v10
  let main_c_3 : IVec S_ 1 := constantI S_ 1 1#1
  let main_v12 : IVec S_ 1 := (fun x v => Host.reduce IntOp.andi x v reducesTo_S95x128_S_d0_1 h_S_) main_v11 main_c_3
  let main_v13 : IVec S_ 1 := andi main_v8 main_v12
  let main_v14 : FVec F S16x128 .f32 := Host.absf main_arg6
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg1 main_arg3 main_arg4 main_arg7 main_arg8 main_arg9 main_v13 main_v16
-- ==== Kernel.lean ====
abbrev S320000x16 : Shape := ⟨2, ![320000, 16]⟩
abbrev S10000 : Shape := ⟨1, ![10000]⟩
abbrev S320000x3 : Shape := ⟨2, ![320000, 3]⟩
abbrev S320000 : Shape := ⟨1, ![320000]⟩
abbrev S95x128 : Shape := ⟨2, ![95, 128]⟩
abbrev S16x128 : Shape := ⟨2, ![16, 128]⟩
abbrev S128 : Shape := ⟨1, ![128]⟩
abbrev S384x128 : Shape := ⟨2, ![384, 128]⟩
abbrev S_ : Shape := ⟨0, ![]⟩
abbrev S16 : Shape := ⟨1, ![16]⟩
abbrev S128x128 : Shape := ⟨2, ![128, 128]⟩
abbrev S1 : Shape := ⟨1, ![1]⟩
abbrev S16x320000 : Shape := ⟨2, ![16, 320000]⟩
abbrev S1x128 : Shape := ⟨2, ![1, 128]⟩
abbrev S320000x128 : Shape := ⟨2, ![320000, 128]⟩
abbrev S16x16000 : Shape := ⟨2, ![16, 16000]⟩
abbrev S16000x128 : Shape := ⟨2, ![16000, 128]⟩
abbrev S16000 : Shape := ⟨1, ![16000]⟩
abbrev S16000x1 : Shape := ⟨2, ![16000, 1]⟩
abbrev S16000x384 : Shape := ⟨2, ![16000, 384]⟩

abbrev nBuf : Table → Nat
  | .hbm => 26
  | .local .tc .vmem => 14
  | .local .scVector .vmem => 5
  | _ => 0

abbrev bufTy : (tb : Table) → Fin (nBuf tb) → BufTy
  | .hbm, ⟨0, _⟩ => ⟨S320000x16, .f32⟩
  | .hbm, ⟨1, _⟩ => ⟨S10000, .i32⟩
  | .hbm, ⟨2, _⟩ => ⟨S320000x3, .f32⟩
  | .hbm, ⟨3, _⟩ => ⟨S320000, .i32⟩
  | .hbm, ⟨4, _⟩ => ⟨S320000, .i32⟩
  | .hbm, ⟨5, _⟩ => ⟨S95x128, .f32⟩
  | .hbm, ⟨6, _⟩ => ⟨S16x128, .f32⟩
  | .hbm, ⟨7, _⟩ => ⟨S128, .f32⟩
  | .hbm, ⟨8, _⟩ => ⟨S384x128, .f32⟩
  | .hbm, ⟨9, _⟩ => ⟨S128, .f32⟩
  | .hbm, ⟨10, _⟩ => ⟨S320000, .i32⟩
  | .hbm, ⟨11, _⟩ => ⟨S320000, .i32⟩
  | .hbm, ⟨12, _⟩ => ⟨S_, .f32⟩
  | .hbm, ⟨13, _⟩ => ⟨S128x128, .f32⟩
  | .hbm, ⟨14, _⟩ => ⟨S_, .i32⟩
  | .hbm, ⟨15, _⟩ => ⟨S1, .i32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S16x320000, .f32⟩
  | .hbm, ⟨21, _⟩ => ⟨S16x320000, .bf16⟩
  | .hbm, ⟨22, _⟩ => ⟨S16x128, .bf16⟩
  | .hbm, ⟨23, _⟩ => ⟨S1x128, .f32⟩
  | .hbm, ⟨24, _⟩ => ⟨S1x128, .f32⟩
  | .hbm, ⟨25, _⟩ => ⟨S320000x128, .f32⟩
  | .local .tc .vmem, ⟨0, _⟩ => ⟨S320000, .i32⟩
  | .local .tc .vmem, ⟨1, _⟩ => ⟨S320000, .i32⟩
  | .local .tc .vmem, ⟨2, _⟩ => ⟨S16x16000, .bf16⟩
  | .local .tc .vmem, ⟨3, _⟩ => ⟨S16x16000, .bf16⟩
  | .local .tc .vmem, ⟨4, _⟩ => ⟨S128x128, .f32⟩
  | .local .tc .vmem, ⟨5, _⟩ => ⟨S128x128, .f32⟩
  | .local .tc .vmem, ⟨6, _⟩ => ⟨S128x128, .f32⟩
  | .local .tc .vmem, ⟨7, _⟩ => ⟨S16x128, .bf16⟩
  | .local .tc .vmem, ⟨8, _⟩ => ⟨S1x128, .f32⟩
  | .local .tc .vmem, ⟨9, _⟩ => ⟨S128x128, .f32⟩
  | .local .tc .vmem, ⟨10, _⟩ => ⟨S1x128, .f32⟩
  | .local .tc .vmem, ⟨11, _⟩ => ⟨S16000x128, .f32⟩
  | .local .tc .vmem, ⟨12, _⟩ => ⟨S16000x128, .f32⟩
  | .local .tc .vmem, ⟨13, _⟩ => ⟨S384x128, .bf16⟩
  | .local .scVector .vmem, ⟨0, _⟩ => ⟨S10000, .i32⟩
  | .local .scVector .vmem, ⟨1, _⟩ => ⟨S10000, .i32⟩
  | .local .scVector .vmem, ⟨2, _⟩ => ⟨S10000, .i32⟩
  | .local .scVector .vmem, ⟨3, _⟩ => ⟨S10000, .i32⟩
  | .local .scVector .vmem, ⟨4, _⟩ => ⟨S10000, .i32⟩
  | _, _ => ⟨S320000x16, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_cst : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_arg1_scv : Ref sig .scVector := ⟨.hbm, 1, rfl⟩
abbrev main_arg3_scv : Ref sig .scVector := ⟨.hbm, 3, rfl⟩
abbrev main_arg4_scv : Ref sig .scVector := ⟨.hbm, 4, rfl⟩
abbrev main_v0_0_scv : Ref sig .scVector := ⟨.hbm, 10, rfl⟩
abbrev main_v0_1_scv : Ref sig .scVector := ⟨.hbm, 11, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_stg10_0 : Ref sig .tc := ⟨.vmem, 11, rfl⟩
abbrev cc1_stg10_1 : Ref sig .tc := ⟨.vmem, 12, rfl⟩
abbrev cc1_scratch0 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev cc1_sem10_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
@[reducible] def k0_t1_loop : Scf.Loop 32 :=
  let c0_i32_0 : BitVec 32 := 0#32
  let c625_i32 : BitVec 32 := 625#32
  let v9 : BitVec 32 := Scalar.addi c0_i32_0 c625_i32
  let c1_i32 : BitVec 32 := 1#32
  ⟨c0_i32_0, v9, c1_i32⟩
def k0_off2 (k0_t1 : Fin k0_t1_loop.trips) : Fin 1 → Nat :=
  let c0_i32_0 : BitVec 32 := 0#32
  let c1_i32 : BitVec 32 := 1#32
  let arg15 : BitVec 32 := Scf.iv c0_i32_0 c1_i32 k0_t1
  let c16_i32 : BitVec 32 := 16#32
  let v21 : BitVec 32 := Scalar.muli arg15 c16_i32
  let v22 : Index := Scalar.indexCast v21
  ![v22.toNat]

def k0_chk1 (v23 : IVec S16 32) : Prop :=
  (∀ a x, ((![v23] : Fin 1 → IVec S16 32) a x).toNat < S10000.size a)
instance k0_chk1.dec : ∀ (v23 : IVec S16 32), Decidable (k0_chk1 v23) := fun v23 => decidable_of_iff' _ (Iff.of_eq (k0_chk1.eq_1 v23))
theorem k0_idx1_inb : ∀ (v23 : IVec S16 32) (k0_hw1 : k0_chk1 v23), ∀ a x, ((![v23] : Fin 1 → IVec S16 32) a x).toNat < S10000.size a := fun v23 k0_hw1 => k0_hw1
def k0_off3 (k0_t1 : Fin k0_t1_loop.trips) : Fin 1 → Nat :=
  let c0_i32_0 : BitVec 32 := 0#32
  let c1_i32 : BitVec 32 := 1#32
  let arg15 : BitVec 32 := Scf.iv c0_i32_0 c1_i32 k0_t1
  let c16_i32 : BitVec 32 := 16#32
  let v21 : BitVec 32 := Scalar.muli arg15 c16_i32
  let v25 : Index := Scalar.indexCast v21
  ![v25.toNat]
@[reducible] def k0_t2_loop : Scf.Loop 32 :=
  let c0_i32_3 : BitVec 32 := 0#32
  let c625_i32_4 : BitVec 32 := 625#32
  let v14 : BitVec 32 := Scalar.addi c0_i32_3 c625_i32_4
  let c1_i32_5 : BitVec 32 := 1#32
  ⟨c0_i32_3, v14, c1_i32_5⟩
def k0_off4 (k0_t2 : Fin k0_t2_loop.trips) : Fin 1 → Nat :=
  let c0_i32_3 : BitVec 32 := 0#32
  let c1_i32_5 : BitVec 32 := 1#32
  let arg15 : BitVec 32 := Scf.iv c0_i32_3 c1_i32_5 k0_t2
  let c16_i32 : BitVec 32 := 16#32
  let v21 : BitVec 32 := Scalar.muli arg15 c16_i32
  let v22 : Index := Scalar.indexCast v21
  ![v22.toNat]

def k0_chk2 (v23 : IVec S16 32) : Prop :=
  (∀ a x, ((![v23] : Fin 1 → IVec S16 32) a x).toNat < S10000.size a)
instance k0_chk2.dec : ∀ (v23 : IVec S16 32), Decidable (k0_chk2 v23) := fun v23 => decidable_of_iff' _ (Iff.of_eq (k0_chk2.eq_1 v23))
theorem k0_idx2_inb : ∀ (v23 : IVec S16 32) (k0_hw2 : k0_chk2 v23), ∀ a x, ((![v23] : Fin 1 → IVec S16 32) a x).toNat < S10000.size a := fun v23 k0_hw2 => k0_hw2
def k0_off5 (k0_t2 : Fin k0_t2_loop.trips) : Fin 1 → Nat :=
  let c0_i32_3 : BitVec 32 := 0#32
  let c1_i32_5 : BitVec 32 := 1#32
  let arg15 : BitVec 32 := Scf.iv c0_i32_3 c1_i32_5 k0_t2
  let c16_i32 : BitVec 32 := 16#32
  let v21 : BitVec 32 := Scalar.muli arg15 c16_i32
  let v25 : Index := Scalar.indexCast v21
  ![v25.toNat]
abbrev grid1 : Pipeline.Grid := ⟨1, ![20], ![false]⟩

def k1_off1 (i : grid1.Coords) : Fin 1 → Nat :=
  let arg0 : BitVec 32 := BitVec.ofNat 32 (i 0).val
  let c16000_i32 : BitVec 32 := 16000#32
  let v3 : BitVec 32 := Scalar.muli arg0 c16000_i32
  let v4 : Index := Scalar.indexCast v3
  ![v4.toNat]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S320000 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S320000 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16x16000 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S16000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  h_S10000 : 0 < S10000.numel
  bcast_S_S128x128 : S_.BroadcastsInDim S128x128 (![] : Fin 0 → Fin S128x128.rank)
  bcast_S_S1 : S_.BroadcastsInDim S1 (![] : Fin 0 → Fin S1.rank)
  slices_S384x128_S128x128_0_0 : S384x128.Slices ![0, 0] S128x128
  slices_S384x128_S128x128_128_0 : S384x128.Slices ![128, 0] S128x128
  slices_S384x128_S128x128_256_0 : S384x128.Slices ![256, 0] S128x128
  transposes_S320000x16_S16x320000_1_0 : S320000x16.Transposes [1, 0] S16x320000
  bitsLt_bf16_f32 : FTy.bits .bf16 < FTy.bits .f32
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S384x128_S128x128_0_0 : ∀ a, (![0, 0] : Fin 2 → Nat) a + S128x128.size a ≤ S384x128.size a
  packedbf16_S384x128_S128x128_0_0 : (Rect.unit (s := S384x128) ![0, 0] S128x128.size inb_S384x128_S128x128_0_0).PackedRows (EltTy.packing .bf16)
  inb_S384x128_S128x128_128_0 : ∀ a, (![128, 0] : Fin 2 → Nat) a + S128x128.size a ≤ S384x128.size a
  packedbf16_S384x128_S128x128_128_0 : (Rect.unit (s := S384x128) ![128, 0] S128x128.size inb_S384x128_S128x128_128_0).PackedRows (EltTy.packing .bf16)
  inb_S384x128_S128x128_256_0 : ∀ a, (![256, 0] : Fin 2 → Nat) a + S128x128.size a ≤ S384x128.size a
  packedbf16_S384x128_S128x128_256_0 : (Rect.unit (s := S384x128) ![256, 0] S128x128.size inb_S384x128_S128x128_256_0).PackedRows (EltTy.packing .bf16)
  h_S16000 : 0 < S16000.numel
  shapeCasts_S16000_S16000 : S16000.ShapeCasts S16000
  iota_S16000x128_d1_w32 : S16000x128.Iotas .tc 32 [1]
  shapeCasts_S16000_S16000x1 : S16000.ShapeCasts S16000x1
  broadcasts_S16000x1_S16000x128 : S16000x1.Broadcasts S16000x128
  natLt_1_32 : 1 < 32
  inb_S16x16000_S16x16000_0_0 : ∀ a, (![0, 0] : Fin 2 → Nat) a + S16x16000.size a ≤ S16x16000.size a
  h_S16x16000 : 0 < S16x16000.numel
  shapeCasts_S16x16000_S16x16000 : S16x16000.ShapeCasts S16x16000
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  concatenates_S16000x128_S16000x128_S16000x128_S16000x384_d1 : Shape.Concatenates [S16000x128, S16000x128, S16000x128] S16000x384 1
  inb_S384x128_S384x128_0_0 : ∀ a, (![0, 0] : Fin 2 → Nat) a + S384x128.size a ≤ S384x128.size a
  h_S384x128 : 0 < S384x128.numel
  inb_S16000x128_S16000x128_0_0 : ∀ a, (![0, 0] : Fin 2 → Nat) a + S16000x128.size a ≤ S16000x128.size a
  h_S16000x128 : 0 < S16000x128.numel
  scatter_S128x128_S1_S95x128_01_n_0_0_wf : ScatterDims.WF S128x128 S1 S95x128 [0, 1] [] [0] 0
  dot_S128x128_S128x128_S128x128_1_0_0_1_n_n_wf : DotDims.WF S128x128 S128x128 S128x128 [1] [0] [0] [1] [] []
  dot_S16x16000_S16x128_S16000x128_0_0_1_1_n_n_wf : DotDims.WF S16x16000 S16x128 S16000x128 [0] [0] [1] [1] [] []
  dot_S16000x384_S384x128_S16000x128_1_0_0_1_n_n_wf : DotDims.WF S16000x384 S384x128 S16000x128 [1] [0] [0] [1] [] []
  hcc0_scratch5 : 0 + S_.numel ≤ 16
  hcc0_scratch6 : 1 + S_.numel ≤ 16
  hcc0_scratch7 : 2 + S_.numel ≤ 16
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S10000.size a ≤ S320000.size a
  k0_t1_ok : k0_t1_loop.OK
  k0_off2_inb : ∀ k0_t1 : Fin k0_t1_loop.trips, ∀ a, (k0_off2 k0_t1) a + S16.size a ≤ S10000.size a
  k0_off3_inb : ∀ k0_t1 : Fin k0_t1_loop.trips, ∀ a, (k0_off3 k0_t1) a + S16.size a ≤ S10000.size a
  k0_t2_ok : k0_t2_loop.OK
  k0_off4_inb : ∀ k0_t2 : Fin k0_t2_loop.trips, ∀ a, (k0_off4 k0_t2) a + S16.size a ≤ S10000.size a
  k0_off5_inb : ∀ k0_t2 : Fin k0_t2_loop.trips, ∀ a, (k0_off5 k0_t2) a + S16.size a ≤ S10000.size a
  hrank1 : 0 < grid1.rank
  k1_off1_inb : ∀ i : grid1.Coords, ∀ a, (k1_off1 i) a + S16000.size a ≤ S320000.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S320000.size a ≤ S320000.size a
  hwx1_0 : ∀ i : grid1.Coords, EltTy.bits .i32 = 32 ∨ (Rect.block (s := S320000) S320000.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S320000.size a ≤ S320000.size a
  hwx1_1 : ∀ i : grid1.Coords, EltTy.bits .i32 = 32 ∨ (Rect.block (s := S320000) S320000.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x16000.size a ≤ S16x320000.size a
  hwx1_2 : ∀ i : grid1.Coords, EltTy.bits .bf16 = 32 ∨ (Rect.block (s := S16x320000) S16x16000.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x128.size a ≤ S16x128.size a
  hwx1_6 : ∀ i : grid1.Coords, EltTy.bits .bf16 = 32 ∨ (Rect.block (s := S16x128) S16x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S16000x128.size a ≤ S320000x128.size a
  hwx1_10 : ∀ i : grid1.Coords, EltTy.bits .f32 = 32 ∨ (Rect.block (s := S320000x128) S16000x128.size (cc1_transform_10 i) (hinb1_10 i)).WholeWords (EltTy.packing .f32)

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
def scatter_S128x128_S1_S95x128_01_n_0_0 : ScatterDims S128x128 S1 S95x128 where
  updateWindowDims := [0, 1]
  insertedWindowDims := []
  scatterDimsToOperandDims := [0]
  indexVectorDim := 0
  wf := scatter_S128x128_S1_S95x128_01_n_0_0_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S16x16000_S16x128_S16000x128_0_0_1_1_n_n : DotDims S16x16000 S16x128 S16000x128 where
  lhsContracting := [0]
  rhsContracting := [0]
  lhsNonContracting := [1]
  rhsNonContracting := [1]
  lhsBatch := []
  rhsBatch := []
  wf := dot_S16x16000_S16x128_S16000x128_0_0_1_1_n_n_wf
def dot_S16000x384_S384x128_S16000x128_1_0_0_1_n_n : DotDims S16000x384 S384x128 S16000x128 where
  lhsContracting := [1]
  rhsContracting := [0]
  lhsNonContracting := [0]
  rhsNonContracting := [1]
  lhsBatch := []
  rhsBatch := []
  wf := dot_S16000x384_S384x128_S16000x128_1_0_0_1_n_n_wf

abbrev win1_0 : Pipeline.Window sig grid1 :=
  Pipeline.Window.ofSpec (Memref.whole main_v0_0) S320000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S320000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S16x16000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S16x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v6) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v11) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v12) S16000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S320000x16 : Shape := ⟨2, ![320000, 16]⟩
abbrev S10000 : Shape := ⟨1, ![10000]⟩
abbrev S320000x3 : Shape := ⟨2, ![320000, 3]⟩
abbrev S320000 : Shape := ⟨1, ![320000]⟩
abbrev S95x128 : Shape := ⟨2, ![95, 128]⟩
abbrev S16x128 : Shape := ⟨2, ![16, 128]⟩
abbrev S128 : Shape := ⟨1, ![128]⟩
abbrev S384x128 : Shape := ⟨2, ![384, 128]⟩
abbrev S_ : Shape := ⟨0, ![]⟩
abbrev S10000x1 : Shape := ⟨2, ![10000, 1]⟩
abbrev S1 : Shape := ⟨1, ![1]⟩
abbrev S1x1 : Shape := ⟨2, ![1, 1]⟩
abbrev S10000x128 : Shape := ⟨2, ![10000, 128]⟩
abbrev S320000x128 : Shape := ⟨2, ![320000, 128]⟩
abbrev S1x128 : Shape := ⟨2, ![1, 128]⟩
abbrev S320000x1 : Shape := ⟨2, ![320000, 1]⟩
abbrev S320000x384 : Shape := ⟨2, ![320000, 384]⟩

abbrev nBuf : Space → Nat
  | .hbm => 84
  | .vmem => 0
  | .smem => 0
  | _ => 0

abbrev bufTy : (tb : Table) → Fin (tcTables nBuf tb) → BufTy
  | .hbm, ⟨0, _⟩ => ⟨S320000x16, .f32⟩
  | .hbm, ⟨1, _⟩ => ⟨S10000, .i32⟩
  | .hbm, ⟨2, _⟩ => ⟨S320000x3, .f32⟩
  | .hbm, ⟨3, _⟩ => ⟨S320000, .i32⟩
  | .hbm, ⟨4, _⟩ => ⟨S320000, .i32⟩
  | .hbm, ⟨5, _⟩ => ⟨S95x128, .f32⟩
  | .hbm, ⟨6, _⟩ => ⟨S16x128, .f32⟩
  | .hbm, ⟨7, _⟩ => ⟨S128, .f32⟩
  | .hbm, ⟨8, _⟩ => ⟨S384x128, .f32⟩
  | .hbm, ⟨9, _⟩ => ⟨S128, .f32⟩
  | .hbm, ⟨10, _⟩ => ⟨S_, .i32⟩
  | .hbm, ⟨11, _⟩ => ⟨S10000, .i32⟩
  | .hbm, ⟨12, _⟩ => ⟨S10000, .i1⟩
  | .hbm, ⟨13, _⟩ => ⟨S_, .i32⟩
  | .hbm, ⟨14, _⟩ => ⟨S10000, .i32⟩
  | .hbm, ⟨15, _⟩ => ⟨S10000, .i32⟩
  | .hbm, ⟨16, _⟩ => ⟨S10000, .i32⟩
  | .hbm, ⟨17, _⟩ => ⟨S10000x1, .i32⟩
  | .hbm, ⟨18, _⟩ => ⟨S1, .i32⟩
  | .hbm, ⟨19, _⟩ => ⟨S_, .i32⟩
  | .hbm, ⟨20, _⟩ => ⟨S10000x1, .i32⟩
  | .hbm, ⟨21, _⟩ => ⟨S10000x1, .i1⟩
  | .hbm, ⟨22, _⟩ => ⟨S1x1, .i32⟩
  | .hbm, ⟨23, _⟩ => ⟨S10000x1, .i32⟩
  | .hbm, ⟨24, _⟩ => ⟨S10000x1, .i1⟩
  | .hbm, ⟨25, _⟩ => ⟨S10000x1, .i1⟩
  | .hbm, ⟨26, _⟩ => ⟨S_, .i1⟩
  | .hbm, ⟨27, _⟩ => ⟨S10000, .i1⟩
  | .hbm, ⟨28, _⟩ => ⟨S10000x128, .f32⟩
  | .hbm, ⟨29, _⟩ => ⟨S10000x128, .i1⟩
  | .hbm, ⟨30, _⟩ => ⟨S_, .f32⟩
  | .hbm, ⟨31, _⟩ => ⟨S10000x128, .f32⟩
  | .hbm, ⟨32, _⟩ => ⟨S10000x128, .f32⟩
  | .hbm, ⟨33, _⟩ => ⟨S320000x128, .f32⟩
  | .hbm, ⟨34, _⟩ => ⟨S1x128, .f32⟩
  | .hbm, ⟨35, _⟩ => ⟨S320000x128, .f32⟩
  | .hbm, ⟨36, _⟩ => ⟨S320000x128, .f32⟩
  | .hbm, ⟨37, _⟩ => ⟨S320000x128, .f32⟩
  | .hbm, ⟨38, _⟩ => ⟨S320000x128, .f32⟩
  | .hbm, ⟨39, _⟩ => ⟨S_, .f32⟩
  | .hbm, ⟨40, _⟩ => ⟨S320000x128, .f32⟩
  | .hbm, ⟨41, _⟩ => ⟨S320000x128, .f32⟩
  | .hbm, ⟨42, _⟩ => ⟨S_, .f32⟩
  | .hbm, ⟨43, _⟩ => ⟨S320000x128, .f32⟩
  | .hbm, ⟨44, _⟩ => ⟨S320000x128, .f32⟩
  | .hbm, ⟨45, _⟩ => ⟨S320000x128, .f32⟩
  | .hbm, ⟨46, _⟩ => ⟨S_, .f32⟩
  | .hbm, ⟨47, _⟩ => ⟨S320000x128, .f32⟩
  | .hbm, ⟨48, _⟩ => ⟨S320000x128, .f32⟩
  | .hbm, ⟨49, _⟩ => ⟨S_, .i32⟩
  | .hbm, ⟨50, _⟩ => ⟨S320000, .i32⟩
  | .hbm, ⟨51, _⟩ => ⟨S320000, .i1⟩
  | .hbm, ⟨52, _⟩ => ⟨S_, .i32⟩
  | .hbm, ⟨53, _⟩ => ⟨S320000, .i32⟩
  | .hbm, ⟨54, _⟩ => ⟨S320000, .i32⟩
  | .hbm, ⟨55, _⟩ => ⟨S320000, .i32⟩
  | .hbm, ⟨56, _⟩ => ⟨S320000x1, .i32⟩
  | .hbm, ⟨57, _⟩ => ⟨S320000x128, .f32⟩
  | .hbm, ⟨58, _⟩ => ⟨S_, .i32⟩
  | .hbm, ⟨59, _⟩ => ⟨S320000, .i32⟩
  | .hbm, ⟨60, _⟩ => ⟨S320000, .i1⟩
  | .hbm, ⟨61, _⟩ => ⟨S_, .i32⟩
  | .hbm, ⟨62, _⟩ => ⟨S320000, .i32⟩
  | .hbm, ⟨63, _⟩ => ⟨S320000, .i32⟩
  | .hbm, ⟨64, _⟩ => ⟨S320000, .i32⟩
  | .hbm, ⟨65, _⟩ => ⟨S320000x1, .i32⟩
  | .hbm, ⟨66, _⟩ => ⟨S320000x128, .f32⟩
  | .hbm, ⟨67, _⟩ => ⟨S320000x384, .f32⟩
  | .hbm, ⟨68, _⟩ => ⟨S320000x128, .f32⟩
  | .hbm, ⟨69, _⟩ => ⟨S1x128, .f32⟩
  | .hbm, ⟨70, _⟩ => ⟨S320000x128, .f32⟩
  | .hbm, ⟨71, _⟩ => ⟨S320000x128, .f32⟩
  | .hbm, ⟨72, _⟩ => ⟨S320000x128, .f32⟩
  | .hbm, ⟨73, _⟩ => ⟨S320000x128, .f32⟩
  | .hbm, ⟨74, _⟩ => ⟨S_, .f32⟩
  | .hbm, ⟨75, _⟩ => ⟨S320000x128, .f32⟩
  | .hbm, ⟨76, _⟩ => ⟨S320000x128, .f32⟩
  | .hbm, ⟨77, _⟩ => ⟨S_, .f32⟩
  | .hbm, ⟨78, _⟩ => ⟨S320000x128, .f32⟩
  | .hbm, ⟨79, _⟩ => ⟨S320000x128, .f32⟩
  | .hbm, ⟨80, _⟩ => ⟨S320000x128, .f32⟩
  | .hbm, ⟨81, _⟩ => ⟨S_, .f32⟩
  | .hbm, ⟨82, _⟩ => ⟨S320000x128, .f32⟩
  | .hbm, ⟨83, _⟩ => ⟨S320000x128, .f32⟩
  | _, _ => ⟨S320000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v5 : Ref sig .tc := ⟨.hbm, 45, rfl⟩
abbrev main_cst : Ref sig .tc := ⟨.hbm, 46, rfl⟩
abbrev main_v6 : Ref sig .tc := ⟨.hbm, 47, rfl⟩
abbrev main_v7 : Ref sig .tc := ⟨.hbm, 48, rfl⟩
abbrev main_c : Ref sig .tc := ⟨.hbm, 49, rfl⟩
abbrev main_v8 : Ref sig .tc := ⟨.hbm, 50, rfl⟩
abbrev main_v9 : Ref sig .tc := ⟨.hbm, 51, rfl⟩
abbrev main_c_0 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_c_1 : Ref sig .tc := ⟨.hbm, 58, rfl⟩
abbrev main_v15 : Ref sig .tc := ⟨.hbm, 59, rfl⟩
abbrev main_v16 : Ref sig .tc := ⟨.hbm, 60, rfl⟩
abbrev main_c_2 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_call2_v5 : Ref sig .tc := ⟨.hbm, 79, rfl⟩
abbrev main_v27 : Ref sig .tc := ⟨.hbm, 80, rfl⟩
abbrev main_cst_3 : Ref sig .tc := ⟨.hbm, 81, rfl⟩
abbrev main_v28 : Ref sig .tc := ⟨.hbm, 82, rfl⟩
abbrev main_v29 : Ref sig .tc := ⟨.hbm, 83, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  reducesTo_S10000x1_S10000_d1 : S10000x1.ReducesTo [1] S10000
  h_S_ : 0 < S_.numel
  bcast_S10000_S10000x128_0 : S10000.BroadcastsInDim S10000x128 (![0] : Fin 1 → Fin S10000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x128_S320000x384_d1 : Shape.Concatenates [S320000x128, S320000x128, S320000x128] S320000x384 1
  gather_S95x128_S10000x1_S10000x128_1_0_n_n_0_1_1128_wf : GatherDims.WF S95x128 S10000x1 S10000x128 [1] [0] [] [0] [] 1 ![1, 128]
  dot_S320000x16_S16x128_S320000x128_1_0_0_1_n_n_wf : DotDims.WF S320000x16 S16x128 S320000x128 [1] [0] [0] [1] [] []
  gather_S10000x128_S320000x1_S320000x128_1_0_n_n_0_1_1128_wf : GatherDims.WF S10000x128 S320000x1 S320000x128 [1] [0] [] [0] [] 1 ![1, 128]
  dot_S320000x384_S384x128_S320000x128_1_0_0_1_n_n_wf : DotDims.WF S320000x384 S384x128 S320000x128 [1] [0] [0] [1] [] []

variable [Facts₀]

def gather_S95x128_S10000x1_S10000x128_1_0_n_n_0_1_1128 : GatherDims S95x128 S10000x1 S10000x128 where
  offsetDims := [1]
  collapsedSliceDims := [0]
  operandBatchingDims := []
  startIndicesBatchingDims := []
  startIndexMap := [0]
  indexVectorDim := 1
  sliceSizes := ![1, 128]
  wf := gather_S95x128_S10000x1_S10000x128_1_0_n_n_0_1_1128_wf
def dot_S320000x16_S16x128_S320000x128_1_0_0_1_n_n : DotDims S320000x16 S16x128 S320000x128 where
  lhsContracting := [1]
  rhsContracting := [0]
  lhsNonContracting := [0]
  rhsNonContracting := [1]
  lhsBatch := []
  rhsBatch := []
  wf := dot_S320000x16_S16x128_S320000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x384_S384x128_S320000x128_1_0_0_1_n_n : DotDims S320000x384 S384x128 S320000x128 where
  lhsContracting := [1]
  rhsContracting := [0]
  lhsNonContracting := [0]
  rhsNonContracting := [1]
  lhsBatch := []
  rhsBatch := []
  wf := dot_S320000x384_S384x128_S320000x128_1_0_0_1_n_n_wf

class Facts : Prop extends Facts₀ where

variable [Facts]
-- ==== Proof.RefSpec.lean ====
/-
  What the reference program computes, as ONE pure term of its argument arrays, generic in the float instance:
  its lines composed in order, the three called functions (`take`, `silu` twice, `where` inside `take`) written out.

  `x = take(embed, charges)` (row `charges n` of the table, a filler where the index is outside `[0, 94]`),
  `r = g · silu(rbf · W_rbf + b_rbf)`, `h = [x[senders] | x[receivers] | r]`, result `g · silu(h · W_out + b_out)`,
  with `silu x = x · (1 / (1 + exp (-x)))`.
-/
import proofs.«206043_g84026740179769_cont_sun_m_427_41_alg».proof.ReferenceIdeal

noncomputable section

namespace Cert.ReferenceIdeal.Spec

open Idealize.ShloMosaic Cert.ReferenceIdeal
open Cert.ReferenceIdeal.Facts₀ Cert.ReferenceIdeal.Facts

variable {F : FTy → Type} [FloatOps F] [Cert.ReferenceIdeal.Facts]

/-- `silu`, as the reference's called function computes it. -/
def silu (x : FVec F S320000x128 .f32) : FVec F S320000x128 .f32 :=
  mulf x (Host.divf (broadcastInDim S320000x128 ![] bcast_S_S320000x128 (constant (F := F) S_ .f32 0x3F800000#32))
    (addf (broadcastInDim S320000x128 ![] bcast_S_S320000x128 (constant (F := F) S_ .f32 0x3F800000#32)) (Host.exp (Host.negf x))))

/-- An index array with its negative entries wrapped by `n` (numpy's indexing rule), as a column. -/
def wrapCol (ix : IVec S320000 32) : IVec S320000x1 32 :=
  broadcastInDim S320000x1 ![0] bcast_S320000_S320000x1_0
    (select (cmpi .slt ix (broadcastInDim S320000 ![] bcast_S_S320000 (constantI S_ 32 0#32)))
      (addi ix (broadcastInDim S320000 ![] bcast_S_S320000 (constantI S_ 32 10000#32))) ix)

/-- The wrapped charge column `take` gathers at. -/
def takeCol (ch : IVec S10000 32) : IVec S10000x1 32 :=
  broadcastInDim S10000x1 ![0] bcast_S10000_S10000x1_0
    (select (cmpi .slt ch (broadcastInDim S10000 ![] bcast_S_S10000 (constantI S_ 32 0#32)))
      (addi ch (broadcastInDim S10000 ![] bcast_S_S10000 (constantI S_ 32 95#32))) ch)

/-- `jnp.take(embed, charges, axis=0)`: the gathered rows where the index is in `[0, 94]`, the filler word elsewhere. -/
def take (emb : FVec F S95x128 .f32) (ch : IVec S10000 32) : FVec F S10000x128 .f32 :=
  select
    (broadcastInDim S10000x128 ![0] bcast_S10000_S10000x128_0
      (Host.reduce IntOp.andi
        (andi (cmpi .sge (takeCol ch) (broadcastInDim S10000x1 ![] bcast_S_S10000x1 (constantI S_ 32 0#32)))
          (cmpi .sle (takeCol ch) (broadcastInDim S10000x1 ![0, 1] bcast_S1x1_S10000x1_0_1
            (broadcastInDim S1x1 ![1] bcast_S1_S1x1_1 (constantI S1 32 94#32)))))
        (constantI S_ 1 1#1) reducesTo_S10000x1_S10000_d1 h_S_))
    (Host.gather gather_S95x128_S10000x1_S10000x128_1_0_n_n_0_1_1128 emb (takeCol ch))
    (broadcastInDim S10000x128 ![] bcast_S_S10000x128 (constant (F := F) S_ .f32 0x7FC00000#32))

/-- The gain as a full-size array. -/
def gain : FVec F S320000x128 .f32 := broadcastInDim S320000x128 ![] bcast_S_S320000x128 (constant (F := F) S_ .f32 0x3FD6978D#32)

/-- A bias vector as a full-size array, one copy per row. -/
def biasRows (b : FVec F S128 .f32) : FVec F S320000x128 .f32 :=
  broadcastInDim S320000x128 ![0, 1] bcast_S1x128_S320000x128_0_1 (broadcastInDim S1x128 ![1] bcast_S128_S1x128_1 b)

/-- The radial-basis embedding `g · silu(rbf · W_rbf + b_rbf)`. -/
def rbfE (rbf : FVec F S320000x16 .f32) (wrbf : FVec F S16x128 .f32) (brbf : FVec F S128 .f32) : FVec F S320000x128 .f32 :=
  mulf (silu (addf (Host.dotGeneral dot_S320000x16_S16x128_S320000x128_1_0_0_1_n_n none rbf wrbf) (biasRows brbf))) gain

/-- The rows of `x` at an index array. -/
def rowsAt (x : FVec F S10000x128 .f32) (ix : IVec S320000 32) : FVec F S320000x128 .f32 :=
  Host.gather gather_S10000x128_S320000x1_S320000x128_1_0_n_n_0_1_1128 x (wrapCol ix)

/-- The reference program's result, of its argument arrays. -/
def out (rbf : FVec F S320000x16 .f32) (charges : IVec S10000 32) (senders receivers : IVec S320000 32)
    (emb : FVec F S95x128 .f32) (wrbf : FVec F S16x128 .f32) (brbf : FVec F S128 .f32) (wout : FVec F S384x128 .f32)
    (bout : FVec F S128 .f32) : FVec F S320000x128 .f32 :=
  mulf (silu (addf
    (Host.dotGeneral dot_S320000x384_S384x128_S320000x128_1_0_0_1_n_n none
      (concatenate S320000x384 1 [⟨S320000x128, rowsAt (take emb charges) senders⟩, ⟨S320000x128, rowsAt (take emb charges) receivers⟩,
        ⟨S320000x128, rbfE rbf wrbf brbf⟩] concatenates_S320000x128_S320000x128_S320000x128_S320000x384_d1) wout)
    (biasRows bout))) gain

end Cert.ReferenceIdeal.Spec

end
-- ==== Proof.RefCongr.lean ====
/-
  The congruence lemmas that rewriting under the reference's named terms (`Spec.take`, `Spec.silu`, …), its gather and
  matrix-product dimension records and the host-operation builders asks for, stated once here: every module of this
  certificate that rewrites under them imports this one, so each such lemma has one home.
-/
import proofs.«206043_g84026740179769_cont_sun_m_427_41_alg».proof.Proof.RefSpec

namespace Cert.ReferenceIdeal.RefCongr

/-- Each auxiliary congruence lemma named, which is what brings it into being, here and nowhere else. -/
theorem congr_simp_realized : True := by
  have := @Cert.ReferenceIdeal.Spec.take.congr_simp
  have := @Cert.ReferenceIdeal.Spec.rowsAt.congr_simp
  have := @Cert.ReferenceIdeal.Spec.rbfE.congr_simp
  have := @Cert.ReferenceIdeal.Spec.biasRows.congr_simp
  have := @Cert.ReferenceIdeal.Spec.gain.congr_simp
  have := @Cert.ReferenceIdeal.Spec.silu.congr_simp
  have := @Cert.ReferenceIdeal.gather_S95x128_S10000x1_S10000x128_1_0_n_n_0_1_1128.congr_simp
  have := @Cert.ReferenceIdeal.gather_S10000x128_S320000x1_S320000x128_1_0_n_n_0_1_1128.congr_simp
  have := @Cert.ReferenceIdeal.dot_S320000x16_S16x128_S320000x128_1_0_0_1_n_n.congr_simp
  have := @Cert.ReferenceIdeal.dot_S320000x384_S384x128_S320000x128_1_0_0_1_n_n.congr_simp
  have := @Idealize.ShloMosaic.StableHlo.TRef.of.congr_simp
  have := @Idealize.ShloMosaic.Host.reduce.congr_simp
  have := @Idealize.ShloMosaic.StableHlo.nary.congr_simp
  trivial

end Cert.ReferenceIdeal.RefCongr
-- ==== Proof.RefRun.lean ====
/-
  The reference program's run. Its @main is a straight line of host operations once the three called functions
  (`take`, which calls `where`, and `silu` twice) are unfolded at their calls: each call contributes its body's
  operations over that call's own buffers. From any memory with zero counters every weakly fair execution
  terminates; the result buffer ends at the composed pure term `Spec.out` of the argument arrays, and the ten
  argument arrays are unchanged (no operation of the line writes an argument).

  The line is read in four segments — `take`; the radial-basis embedding; the two row gathers; the concatenation and
  the output layer — each leaving one or two buffers at a named piece of `Spec.out` and every buffer it does not
  write as it was; the whole line's value is the last segment's, read back through the three before it.
-/
import proofs.«206043_g84026740179769_cont_sun_m_427_41_alg».proof.Defs
import proofs.«206043_g84026740179769_cont_sun_m_427_41_alg».proof.Proof.RefSpec
import proofs.«206043_g84026740179769_cont_sun_m_427_41_alg».proof.Proof.RefCongr
import proofs.«206043_g84026740179769_cont_sun_m_427_41_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! ## The line: @main's 74 operations, the calls unfolded, in four segments -/

/-- `take(embed, charges)`: its twenty-three operations over the call's buffers, the select of the nested `where` seventh. -/
abbrev opsTake : List (HloOp τ sig (Elt F)) :=
  [
    TRef.nullary main_call0.c (constantI S_ 32 0#32),
    TRef.unary main_call0.c main_call0.v0 (broadcastInDim S10000 ![] bcast_S_S10000),
    TRef.binary (TRef.of (T := ⟨S10000, .i32⟩) main_arg1) main_call0.v0 main_call0.v1 (cmpi .slt),
    TRef.nullary main_call0.c_0 (constantI S_ 32 95#32),
    TRef.unary main_call0.c_0 main_call0.v2 (broadcastInDim S10000 ![] bcast_S_S10000),
    TRef.binary (TRef.of (T := ⟨S10000, .i32⟩) main_arg1) main_call0.v2 main_call0.v3 addi,
    TRef.ternary main_call0.v1 main_call0.v3 (TRef.of (T := ⟨S10000, .i32⟩) main_arg1) main_call0.call0.v0 select,
    TRef.unary main_call0.call0.v0 main_call0.v5 (broadcastInDim S10000x1 ![0] bcast_S10000_S10000x1_0),
    TRef.nullary main_call0.c_1 (constantI S1 32 94#32),
    TRef.nullary main_call0.c_2 (constantI S_ 32 0#32),
    TRef.unary main_call0.c_2 main_call0.v6 (broadcastInDim S10000x1 ![] bcast_S_S10000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S10000x1 ![0, 1] bcast_S1x1_S10000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S10000x1_S10000_d1 h_S_),
    TRef.binary (TRef.of (T := ⟨S95x128, .f32⟩) main_arg5) main_call0.v5 main_call0.v13 (fun x i => Host.gather gather_S95x128_S10000x1_S10000x128_1_0_n_n_0_1_1128 x i),
    TRef.unary main_call0.v12 main_call0.v14 (broadcastInDim S10000x128 ![0] bcast_S10000_S10000x128_0),
    TRef.nullary main_call0.cst (constant S_ .f32 0x7FC00000#32),
    TRef.unary main_call0.cst main_call0.v15 (broadcastInDim S10000x128 ![] bcast_S_S10000x128),
    TRef.ternary main_call0.v14 main_call0.v13 main_call0.v15 main_call0.v16 select ]

/-- The radial-basis embedding: the first matrix product, its bias, `silu`'s nine operations, the gain. -/
abbrev opsRbf : List (HloOp τ sig (Elt F)) :=
  [
    binary main_arg0 main_arg6 main_v1 ((fun l r => Host.dotGeneral dot_S320000x16_S16x128_S320000x128_1_0_0_1_n_n none l r) : (⟨S320000x16, .f32⟩ : BufTy).Contents (Elt F) → (⟨S16x128, .f32⟩ : BufTy).Contents (Elt F) → (⟨S320000x128, .f32⟩ : BufTy).Contents (Elt F)),
    unary main_arg7 main_v2 (broadcastInDim S1x128 ![1] bcast_S128_S1x128_1 : (⟨S128, .f32⟩ : BufTy).Contents (Elt F) → (⟨S1x128, .f32⟩ : BufTy).Contents (Elt F)),
    unary main_v2 main_v3 (broadcastInDim S320000x128 ![0, 1] bcast_S1x128_S320000x128_0_1 : (⟨S1x128, .f32⟩ : BufTy).Contents (Elt F) → (⟨S320000x128, .f32⟩ : BufTy).Contents (Elt F)),
    binary main_v1 main_v3 main_v4 (addf : (⟨S320000x128, .f32⟩ : BufTy).Contents (Elt F) → (⟨S320000x128, .f32⟩ : BufTy).Contents (Elt F) → (⟨S320000x128, .f32⟩ : BufTy).Contents (Elt F)),
    TRef.unary (TRef.of (T := ⟨S320000x128, .f32⟩) main_v4) main_call1.v0 Host.negf,
    TRef.unary main_call1.v0 main_call1.v1 Host.exp,
    TRef.nullary main_call1.cst (constant S_ .f32 0x3F800000#32),
    TRef.unary main_call1.cst main_call1.v2 (broadcastInDim S320000x128 ![] bcast_S_S320000x128),
    TRef.binary main_call1.v2 main_call1.v1 main_call1.v3 addf,
    TRef.nullary main_call1.cst_0 (constant S_ .f32 0x3F800000#32),
    TRef.unary main_call1.cst_0 main_call1.v4 (broadcastInDim S320000x128 ![] bcast_S_S320000x128),
    TRef.binary main_call1.v4 main_call1.v3 main_call1.v5 Host.divf,
    TRef.binary (TRef.of (T := ⟨S320000x128, .f32⟩) main_v4) main_call1.v5 main_call1.v6 mulf,
    nullary main_cst (constant S_ .f32 0x3FD6978D#32),
    unary main_cst main_v6 (broadcastInDim S320000x128 ![] bcast_S_S320000x128 : (⟨S_, .f32⟩ : BufTy).Contents (Elt F) → (⟨S320000x128, .f32⟩ : BufTy).Contents (Elt F)),
    binary main_v5 main_v6 main_v7 (mulf : (⟨S320000x128, .f32⟩ : BufTy).Contents (Elt F) → (⟨S320000x128, .f32⟩ : BufTy).Contents (Elt F) → (⟨S320000x128, .f32⟩ : BufTy).Contents (Elt F)) ]

/-- The two index wraps (senders, receivers), each followed by its gather of the rows of `take`'s result. -/
abbrev opsRows : List (HloOp τ sig (Elt F)) :=
  [
    nullary main_c (constantI S_ 32 0#32),
    unary main_c main_v8 (broadcastInDim S320000 ![] bcast_S_S320000 : (⟨S_, .i32⟩ : BufTy).Contents (Elt F) → (⟨S320000, .i32⟩ : BufTy).Contents (Elt F)),
    binary main_arg3 main_v8 main_v9 (cmpi .slt : (⟨S320000, .i32⟩ : BufTy).Contents (Elt F) → (⟨S320000, .i32⟩ : BufTy).Contents (Elt F) → (⟨S320000, .i1⟩ : BufTy).Contents (Elt F)),
    nullary main_c_0 (constantI S_ 32 10000#32),
    unary main_c_0 main_v10 (broadcastInDim S320000 ![] bcast_S_S320000 : (⟨S_, .i32⟩ : BufTy).Contents (Elt F) → (⟨S320000, .i32⟩ : BufTy).Contents (Elt F)),
    binary main_arg3 main_v10 main_v11 (addi : (⟨S320000, .i32⟩ : BufTy).Contents (Elt F) → (⟨S320000, .i32⟩ : BufTy).Contents (Elt F) → (⟨S320000, .i32⟩ : BufTy).Contents (Elt F)),
    ternary main_v9 main_v11 main_arg3 main_v12 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v12 main_v13 (broadcastInDim S320000x1 ![0] bcast_S320000_S320000x1_0 : (⟨S320000, .i32⟩ : BufTy).Contents (Elt F) → (⟨S320000x1, .i32⟩ : BufTy).Contents (Elt F)),
    binary main_v0 main_v13 main_v14 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    nullary main_c_1 (constantI S_ 32 0#32),
    unary main_c_1 main_v15 (broadcastInDim S320000 ![] bcast_S_S320000 : (⟨S_, .i32⟩ : BufTy).Contents (Elt F) → (⟨S320000, .i32⟩ : BufTy).Contents (Elt F)),
    binary main_arg4 main_v15 main_v16 (cmpi .slt : (⟨S320000, .i32⟩ : BufTy).Contents (Elt F) → (⟨S320000, .i32⟩ : BufTy).Contents (Elt F) → (⟨S320000, .i1⟩ : BufTy).Contents (Elt F)),
    nullary main_c_2 (constantI S_ 32 10000#32),
    unary main_c_2 main_v17 (broadcastInDim S320000 ![] bcast_S_S320000 : (⟨S_, .i32⟩ : BufTy).Contents (Elt F) → (⟨S320000, .i32⟩ : BufTy).Contents (Elt F)),
    binary main_arg4 main_v17 main_v18 (addi : (⟨S320000, .i32⟩ : BufTy).Contents (Elt F) → (⟨S320000, .i32⟩ : BufTy).Contents (Elt F) → (⟨S320000, .i32⟩ : BufTy).Contents (Elt F)),
    ternary main_v16 main_v18 main_arg4 main_v19 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v19 main_v20 (broadcastInDim S320000x1 ![0] bcast_S320000_S320000x1_0 : (⟨S320000, .i32⟩ : BufTy).Contents (Elt F) → (⟨S320000x1, .i32⟩ : BufTy).Contents (Elt F)),
    binary main_v0 main_v20 main_v21 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)) ]

/-- The concatenation, the second matrix product, its bias, `silu`'s nine operations, the gain. -/
abbrev opsOut : List (HloOp τ sig (Elt F)) :=
  [
    nary ![main_v14, main_v21, main_v7] main_v22 (fun u => concatenate S320000x384 1 [⟨S320000x128, u 0⟩, ⟨S320000x128, u 1⟩, ⟨S320000x128, u 2⟩] concatenates_S320000x128_S320000x128_S320000x128_S320000x384_d1),
    binary main_v22 main_arg8 main_v23 ((fun l r => Host.dotGeneral dot_S320000x384_S384x128_S320000x128_1_0_0_1_n_n none l r) : (⟨S320000x384, .f32⟩ : BufTy).Contents (Elt F) → (⟨S384x128, .f32⟩ : BufTy).Contents (Elt F) → (⟨S320000x128, .f32⟩ : BufTy).Contents (Elt F)),
    unary main_arg9 main_v24 (broadcastInDim S1x128 ![1] bcast_S128_S1x128_1 : (⟨S128, .f32⟩ : BufTy).Contents (Elt F) → (⟨S1x128, .f32⟩ : BufTy).Contents (Elt F)),
    unary main_v24 main_v25 (broadcastInDim S320000x128 ![0, 1] bcast_S1x128_S320000x128_0_1 : (⟨S1x128, .f32⟩ : BufTy).Contents (Elt F) → (⟨S320000x128, .f32⟩ : BufTy).Contents (Elt F)),
    binary main_v23 main_v25 main_v26 (addf : (⟨S320000x128, .f32⟩ : BufTy).Contents (Elt F) → (⟨S320000x128, .f32⟩ : BufTy).Contents (Elt F) → (⟨S320000x128, .f32⟩ : BufTy).Contents (Elt F)),
    TRef.unary (TRef.of (T := ⟨S320000x128, .f32⟩) main_v26) main_call2.v0 Host.negf,
    TRef.unary main_call2.v0 main_call2.v1 Host.exp,
    TRef.nullary main_call2.cst (constant S_ .f32 0x3F800000#32),
    TRef.unary main_call2.cst main_call2.v2 (broadcastInDim S320000x128 ![] bcast_S_S320000x128),
    TRef.binary main_call2.v2 main_call2.v1 main_call2.v3 addf,
    TRef.nullary main_call2.cst_0 (constant S_ .f32 0x3F800000#32),
    TRef.unary main_call2.cst_0 main_call2.v4 (broadcastInDim S320000x128 ![] bcast_S_S320000x128),
    TRef.binary main_call2.v4 main_call2.v3 main_call2.v5 Host.divf,
    TRef.binary (TRef.of (T := ⟨S320000x128, .f32⟩) main_v26) main_call2.v5 main_call2.v6 mulf,
    nullary main_cst_3 (constant S_ .f32 0x3FD6978D#32),
    unary main_cst_3 main_v28 (broadcastInDim S320000x128 ![] bcast_S_S320000x128 : (⟨S_, .f32⟩ : BufTy).Contents (Elt F) → (⟨S320000x128, .f32⟩ : BufTy).Contents (Elt F)),
    binary main_v27 main_v28 main_v29 (mulf : (⟨S320000x128, .f32⟩ : BufTy).Contents (Elt F) → (⟨S320000x128, .f32⟩ : BufTy).Contents (Elt F) → (⟨S320000x128, .f32⟩ : BufTy).Contents (Elt F)) ]

/-- @main's 74 operations, in order. -/
abbrev ops : List (HloOp τ sig (Elt F)) := opsTake ++ (opsRbf ++ (opsRows ++ opsOut))

-- the called functions' bodies and seventy-four binds unfolded: one step of depth per statement
set_option maxRecDepth 8192 in
set_option maxHeartbeats 4000000 in
/-- @main is that straight line: the called functions' definitions unfold at their calls and the records at their
    fields, and sequencing a sequence is sequencing its steps — all by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsTake_sub : (opsTake : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

theorem opsRbf_sub : (opsRbf : List (HloOp τ sig (Elt F))).Forall fun op => op.bufs ⊆ tcRefs τ sig :=
  ⟨
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., nullary_bufs_sub .., unary_bufs_sub .., binary_bufs_sub ..⟩

theorem opsRows_sub : (opsRows : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩

theorem opsOut_sub : (opsOut : List (HloOp τ sig (Elt F))).Forall fun op => op.bufs ⊆ tcRefs τ sig :=
  ⟨
    nary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., nullary_bufs_sub .., unary_bufs_sub .., binary_bufs_sub ..⟩

theorem ops_sub : (ops : List (HloOp τ sig (Elt F))).Forall fun op => op.bufs ⊆ tcRefs τ sig :=
  List.forall_append.mpr ⟨opsTake_sub, List.forall_append.mpr ⟨opsRbf_sub, List.forall_append.mpr ⟨opsRows_sub, opsOut_sub⟩⟩⟩

/-! ## What each segment writes, and that it leaves the rest -/

/-- The buffers the operations of `opsTake` write, in order. -/
abbrev wrTake : List (Ref sig .tc) :=
  [
    main_call0_c, main_call0_v0, main_call0_v1, main_call0_c_0, main_call0_v2, main_call0_v3, main_call0_v4, main_call0_v5,
    main_call0_c_1, main_call0_c_2, main_call0_v6, main_call0_v7, main_call0_v8, main_call0_v9, main_call0_v10, main_call0_v11,
    main_call0_c_3, main_call0_v12, main_call0_v13, main_call0_v14, main_call0_cst, main_call0_v15, main_v0 ]

/-- Each operation of `opsTake` writes one buffer, the one listed at its place. -/
theorem opsTake_writes : (opsTake : List (HloOp τ sig (Elt F))).Forall fun op =>
    op.writes ⊆ (wrTake.map (Proc.devRef (τ := τ) .tc)).toFinset :=
  have w {d : DevRef τ sig} {r : Ref sig .tc} (e : d = Proc.devRef .tc r) (h : r ∈ wrTake) :
      ({d} : Finset (DevRef τ sig)) ⊆ (wrTake.map (Proc.devRef (τ := τ) .tc)).toFinset :=
    Finset.singleton_subset_iff.mpr (List.mem_toFinset.mpr (e ▸ List.mem_map_of_mem h))
  ⟨
    w (r := main_call0_c) rfl (by decide),
    w (r := main_call0_v0) rfl (by decide),
    w (r := main_call0_v1) rfl (by decide),
    w (r := main_call0_c_0) rfl (by decide),
    w (r := main_call0_v2) rfl (by decide),
    w (r := main_call0_v3) rfl (by decide),
    w (r := main_call0_v4) rfl (by decide),
    w (r := main_call0_v5) rfl (by decide),
    w (r := main_call0_c_1) rfl (by decide),
    w (r := main_call0_c_2) rfl (by decide),
    w (r := main_call0_v6) rfl (by decide),
    w (r := main_call0_v7) rfl (by decide),
    w (r := main_call0_v8) rfl (by decide),
    w (r := main_call0_v9) rfl (by decide),
    w (r := main_call0_v10) rfl (by decide),
    w (r := main_call0_v11) rfl (by decide),
    w (r := main_call0_c_3) rfl (by decide),
    w (r := main_call0_v12) rfl (by decide),
    w (r := main_call0_v13) rfl (by decide),
    w (r := main_call0_v14) rfl (by decide),
    w (r := main_call0_cst) rfl (by decide),
    w (r := main_call0_v15) rfl (by decide),
    w (r := main_v0) rfl (by decide)⟩

/-- A buffer `opsTake` does not write keeps its contents through it. -/
theorem opsTake_keep (W : Valuation τ sig (Elt F)) (r : Ref sig .tc) (h : r ∉ wrTake) :
    after opsTake W (Proc.devRef .tc r) = W (Proc.devRef .tc r) :=
  after_of_writes_sub opsTake W opsTake_writes h

/-- The buffers the operations of `opsRbf` write, in order. -/
abbrev wrRbf : List (Ref sig .tc) :=
  [
    main_v1, main_v2, main_v3, main_v4, main_call1_v0, main_call1_v1, main_call1_cst, main_call1_v2,
    main_call1_v3, main_call1_cst_0, main_call1_v4, main_call1_v5, main_v5, main_cst, main_v6, main_v7 ]

/-- Each operation of `opsRbf` writes one buffer, the one listed at its place. -/
theorem opsRbf_writes : (opsRbf : List (HloOp τ sig (Elt F))).Forall fun op =>
    op.writes ⊆ (wrRbf.map (Proc.devRef (τ := τ) .tc)).toFinset :=
  have w {d : DevRef τ sig} {r : Ref sig .tc} (e : d = Proc.devRef .tc r) (h : r ∈ wrRbf) :
      ({d} : Finset (DevRef τ sig)) ⊆ (wrRbf.map (Proc.devRef (τ := τ) .tc)).toFinset :=
    Finset.singleton_subset_iff.mpr (List.mem_toFinset.mpr (e ▸ List.mem_map_of_mem h))
  ⟨
    w (r := main_v1) rfl (by decide),
    w (r := main_v2) rfl (by decide),
    w (r := main_v3) rfl (by decide),
    w (r := main_v4) rfl (by decide),
    w (r := main_call1_v0) rfl (by decide),
    w (r := main_call1_v1) rfl (by decide),
    w (r := main_call1_cst) rfl (by decide),
    w (r := main_call1_v2) rfl (by decide),
    w (r := main_call1_v3) rfl (by decide),
    w (r := main_call1_cst_0) rfl (by decide),
    w (r := main_call1_v4) rfl (by decide),
    w (r := main_call1_v5) rfl (by decide),
    w (r := main_v5) rfl (by decide),
    w (r := main_cst) rfl (by decide),
    w (r := main_v6) rfl (by decide),
    w (r := main_v7) rfl (by decide)⟩

/-- A buffer `opsRbf` does not write keeps its contents through it. -/
theorem opsRbf_keep (W : Valuation τ sig (Elt F)) (r : Ref sig .tc) (h : r ∉ wrRbf) :
    after opsRbf W (Proc.devRef .tc r) = W (Proc.devRef .tc r) :=
  after_of_writes_sub opsRbf W opsRbf_writes h

/-- The buffers the operations of `opsRows` write, in order. -/
abbrev wrRows : List (Ref sig .tc) :=
  [
    main_c, main_v8, main_v9, main_c_0, main_v10, main_v11, main_v12, main_v13,
    main_v14, main_c_1, main_v15, main_v16, main_c_2, main_v17, main_v18, main_v19,
    main_v20, main_v21 ]

/-- Each operation of `opsRows` writes one buffer, the one listed at its place. -/
theorem opsRows_writes : (opsRows : List (HloOp τ sig (Elt F))).Forall fun op =>
    op.writes ⊆ (wrRows.map (Proc.devRef (τ := τ) .tc)).toFinset :=
  have w {d : DevRef τ sig} {r : Ref sig .tc} (e : d = Proc.devRef .tc r) (h : r ∈ wrRows) :
      ({d} : Finset (DevRef τ sig)) ⊆ (wrRows.map (Proc.devRef (τ := τ) .tc)).toFinset :=
    Finset.singleton_subset_iff.mpr (List.mem_toFinset.mpr (e ▸ List.mem_map_of_mem h))
  ⟨
    w (r := main_c) rfl (by decide),
    w (r := main_v8) rfl (by decide),
    w (r := main_v9) rfl (by decide),
    w (r := main_c_0) rfl (by decide),
    w (r := main_v10) rfl (by decide),
    w (r := main_v11) rfl (by decide),
    w (r := main_v12) rfl (by decide),
    w (r := main_v13) rfl (by decide),
    w (r := main_v14) rfl (by decide),
    w (r := main_c_1) rfl (by decide),
    w (r := main_v15) rfl (by decide),
    w (r := main_v16) rfl (by decide),
    w (r := main_c_2) rfl (by decide),
    w (r := main_v17) rfl (by decide),
    w (r := main_v18) rfl (by decide),
    w (r := main_v19) rfl (by decide),
    w (r := main_v20) rfl (by decide),
    w (r := main_v21) rfl (by decide)⟩

/-- A buffer `opsRows` does not write keeps its contents through it. -/
theorem opsRows_keep (W : Valuation τ sig (Elt F)) (r : Ref sig .tc) (h : r ∉ wrRows) :
    after opsRows W (Proc.devRef .tc r) = W (Proc.devRef .tc r) :=
  after_of_writes_sub opsRows W opsRows_writes h

/-- The buffers the operations of `opsOut` write, in order. -/
abbrev wrOut : List (Ref sig .tc) :=
  [
    main_v22, main_v23, main_v24, main_v25, main_v26, main_call2_v0, main_call2_v1, main_call2_cst,
    main_call2_v2, main_call2_v3, main_call2_cst_0, main_call2_v4, main_call2_v5, main_v27, main_cst_3, main_v28,
    main_v29 ]

/-- Each operation of `opsOut` writes one buffer, the one listed at its place. -/
theorem opsOut_writes : (opsOut : List (HloOp τ sig (Elt F))).Forall fun op =>
    op.writes ⊆ (wrOut.map (Proc.devRef (τ := τ) .tc)).toFinset :=
  have w {d : DevRef τ sig} {r : Ref sig .tc} (e : d = Proc.devRef .tc r) (h : r ∈ wrOut) :
      ({d} : Finset (DevRef τ sig)) ⊆ (wrOut.map (Proc.devRef (τ := τ) .tc)).toFinset :=
    Finset.singleton_subset_iff.mpr (List.mem_toFinset.mpr (e ▸ List.mem_map_of_mem h))
  ⟨
    w (r := main_v22) rfl (by decide),
    w (r := main_v23) rfl (by decide),
    w (r := main_v24) rfl (by decide),
    w (r := main_v25) rfl (by decide),
    w (r := main_v26) rfl (by decide),
    w (r := main_call2_v0) rfl (by decide),
    w (r := main_call2_v1) rfl (by decide),
    w (r := main_call2_cst) rfl (by decide),
    w (r := main_call2_v2) rfl (by decide),
    w (r := main_call2_v3) rfl (by decide),
    w (r := main_call2_cst_0) rfl (by decide),
    w (r := main_call2_v4) rfl (by decide),
    w (r := main_call2_v5) rfl (by decide),
    w (r := main_v27) rfl (by decide),
    w (r := main_cst_3) rfl (by decide),
    w (r := main_v28) rfl (by decide),
    w (r := main_v29) rfl (by decide)⟩

/-- A buffer `opsOut` does not write keeps its contents through it. -/
theorem opsOut_keep (W : Valuation τ sig (Elt F)) (r : Ref sig .tc) (h : r ∉ wrOut) :
    after opsOut W (Proc.devRef .tc r) = W (Proc.devRef .tc r) :=
  after_of_writes_sub opsOut W opsOut_writes h

/-! ## What each segment computes

Each operation's result at its own buffer is its function's value, at any other buffer what was there; the buffer
conversions around a called function's operations are the identity at literal references, and the named pieces of
`Spec.out` unfold to the same composed terms. -/

/-- `take`'s operations leave its result buffer at `Spec.take` of the table and the charges. -/
theorem take_v0 (W : Valuation τ sig (Elt F)) :
    after opsTake W (Proc.devRef .tc main_v0) = Spec.take (F := F) (W (Proc.devRef .tc main_arg5)) (W (Proc.devRef .tc main_arg1)) := by
  after_results_simp
  rfl

/-- The radial-basis segment leaves `main_v7` at `Spec.rbfE` of the basis values, the weights and the bias. -/
theorem rbf_v7 (W : Valuation τ sig (Elt F)) :
    after opsRbf W (Proc.devRef .tc main_v7) = Spec.rbfE (F := F) (W (Proc.devRef .tc main_arg0)) (W (Proc.devRef .tc main_arg6)) (W (Proc.devRef .tc main_arg7)) := by
  after_results_simp
  rfl

/-- The senders' gather: the rows of `take`'s result at the wrapped senders. -/
theorem rows_v14 (W : Valuation τ sig (Elt F)) :
    after opsRows W (Proc.devRef .tc main_v14) = Spec.rowsAt (F := F) (W (Proc.devRef .tc main_v0)) (W (Proc.devRef .tc main_arg3)) := by
  after_results_simp
  rfl

/-- The receivers' gather: the rows of `take`'s result at the wrapped receivers. -/
theorem rows_v21 (W : Valuation τ sig (Elt F)) :
    after opsRows W (Proc.devRef .tc main_v21) = Spec.rowsAt (F := F) (W (Proc.devRef .tc main_v0)) (W (Proc.devRef .tc main_arg4)) := by
  after_results_simp
  rfl

/-- The last segment leaves the result buffer at the gain times `silu` of the second matrix product, of the three
    concatenated blocks, plus its bias. -/
theorem out_v29 (W : Valuation τ sig (Elt F)) :
    after opsOut W (Proc.devRef .tc main_v29)
      = mulf (Spec.silu (addf (Host.dotGeneral dot_S320000x384_S384x128_S320000x128_1_0_0_1_n_n none
            (concatenate S320000x384 1 [⟨S320000x128, (W (Proc.devRef .tc main_v14))⟩, ⟨S320000x128, (W (Proc.devRef .tc main_v21))⟩, ⟨S320000x128, (W (Proc.devRef .tc main_v7))⟩] concatenates_S320000x128_S320000x128_S320000x128_S320000x384_d1) (W (Proc.devRef .tc main_arg8)))
          (Spec.biasRows (W (Proc.devRef .tc main_arg9))))) (Spec.gain (F := F)) := by
  after_results_simp
  rfl

/-! ## The whole line -/

/-- Running a concatenation of lines is running them in turn. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The whole line is its four segments in turn. -/
theorem after_ops (V : Valuation τ sig (Elt F)) :
    after ops V = after opsOut (after opsRows (after opsRbf (after opsTake V))) := by
  show after (opsTake ++ (opsRbf ++ (opsRows ++ opsOut))) V = _
  rw [after_append', after_append', after_append']

/-- A buffer no segment writes keeps its contents through the whole line. -/
theorem ops_keep (V : Valuation τ sig (Elt F)) (r : Ref sig .tc) (h₁ : r ∉ wrTake) (h₂ : r ∉ wrRbf) (h₃ : r ∉ wrRows)
    (h₄ : r ∉ wrOut) : after ops V (Proc.devRef .tc r) = V (Proc.devRef .tc r) := by
  rw [after_ops, opsOut_keep _ r h₄, opsRows_keep _ r h₃, opsRbf_keep _ r h₂, opsTake_keep _ r h₁]

/-- The fold of the whole line at the result buffer is `Spec.out` of the argument buffers' contents: the last
    segment's value, its three blocks and two parameters read back through the segments before it. -/
theorem out_eq (V : Valuation τ sig (Elt F)) :
    after ops V (Proc.devRef .tc main_v29) = Spec.out (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_ops, out_v29, rows_v14, rows_v21,
    opsRows_keep _ main_v7 (by decide), opsRows_keep _ main_arg8 (by decide), opsRows_keep _ main_arg9 (by decide),
    rbf_v7, opsRbf_keep _ main_v0 (by decide), opsRbf_keep _ main_arg3 (by decide), opsRbf_keep _ main_arg4 (by decide),
    opsRbf_keep _ main_arg8 (by decide), opsRbf_keep _ main_arg9 (by decide),
    take_v0, opsTake_keep _ main_arg0 (by decide), opsTake_keep _ main_arg3 (by decide), opsTake_keep _ main_arg4 (by decide),
    opsTake_keep _ main_arg6 (by decide), opsTake_keep _ main_arg7 (by decide), opsTake_keep _ main_arg8 (by decide),
    opsTake_keep _ main_arg9 (by decide)]
  rfl

set_option maxRecDepth 8192 in
/-- On every device, for any float values, from any memory with zero counters: every weakly fair execution of @main
    terminates with the result buffer at `Spec.out` of the argument arrays' launch contents and the ten argument
    arrays unchanged. -/
theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v29) = Spec.out (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v29).trans (out_eq (launchContents m c)),
      (h c main_arg0).trans (ops_keep (launchContents m c) main_arg0 (by decide) (by decide) (by decide) (by decide)),
      (h c main_arg1).trans (ops_keep (launchContents m c) main_arg1 (by decide) (by decide) (by decide) (by decide)),
      (h c main_arg2).trans (ops_keep (launchContents m c) main_arg2 (by decide) (by decide) (by decide) (by decide)),
      (h c main_arg3).trans (ops_keep (launchContents m c) main_arg3 (by decide) (by decide) (by decide) (by decide)),
      (h c main_arg4).trans (ops_keep (launchContents m c) main_arg4 (by decide) (by decide) (by decide) (by decide)),
      (h c main_arg5).trans (ops_keep (launchContents m c) main_arg5 (by decide) (by decide) (by decide) (by decide)),
      (h c main_arg6).trans (ops_keep (launchContents m c) main_arg6 (by decide) (by decide) (by decide) (by decide)),
      (h c main_arg7).trans (ops_keep (launchContents m c) main_arg7 (by decide) (by decide) (by decide) (by decide)),
      (h c main_arg8).trans (ops_keep (launchContents m c) main_arg8 (by decide) (by decide) (by decide) (by decide)),
      (h c main_arg9).trans (ops_keep (launchContents m c) main_arg9 (by decide) (by decide) (by decide) (by decide))⟩)
    (run_seq scopedRefs_eq scopedSems_eq defs main (fun _ => ops) main_eq (fun _ => ops_sub) m g)

/-- The reference's frame claim: it runs, and its argument arrays end unchanged — the run without its first conjunct. -/
theorem frame [Cert.Pre_input_domain.Facts] : Cert.frame_ReferenceIdeal := fun m g _ =>
  (θ_run _ _ _).mono (fun _ h c => (h c).2) (run (F := Ideal) m g)

end Cert.ReferenceIdeal.RefRun

end
-- ==== Proof.PreDecode.lean ====
/-
  The input-domain precondition, read back. The predicate is the conjunction of ten universal tests over the
  argument arrays, each an and-reduction of a one-bit array down to a single bit, and the claims assume that the
  conjunction is 1. Then every one-bit array is 1 at every index. For a float array the bit at an index is the test
  |x| < +∞, where |x| is max x (-x): on the extended reals it fails at both infinities, so every entry is a real
  number. For an index array the bit is 0 ≤ w ∧ w ≤ c on signed 32-bit words with c a small literal: a nonnegative
  signed word reads the same unsigned, so w.toNat ≤ c. The integer tests do not depend on the float instance.
-/
import proofs.«206043_g84026740179769_cont_sun_m_427_41_alg».proof.Pre_input_domain
import proofs.«206043_g84026740179769_cont_sun_m_427_41_alg».proof.Proof.Gen.Pre_input_domain
import Idealize.ShloMosaic.Lib.ReduceAll
import Idealize.ShloMosaic.Lib.ValueIdx
import Idealize.ShloMosaic.PureOps.Ideal

noncomputable section

namespace Cert.PreDecode

open Idealize.ShloMosaic Idealize.ShloMosaic.ValueIdx
open Cert.Pre_input_domain

variable [Cert.Pre_input_domain.Facts]

/-- A rank-0 array has exactly one index. -/
instance : Subsingleton S_.Idx := ⟨fun a b => funext fun d => d.elim0⟩

/-- The conjunction of two one-bit arrays, read at an index. -/
theorem andi_apply_eq_one {s : Shape} (x y : IVec s 1) (i : s.Idx) :
    andi x y i = 1#1 ↔ x i = 1#1 ∧ y i = 1#1 := IntOp.andi_eq_one

/-- A word that tests `0 ≤ w` and `w ≤ c` signed, for a literal `c` with its top bit clear, is at most `c` unsigned:
    a nonnegative signed word reads the same unsigned. -/
theorem toNat_le_of_range (w c : BitVec 32) (hc : 2 * c.toNat < 2 ^ 32)
    (h : IntOp.andi (IntOp.cmpi .sge w 0#32) (IntOp.cmpi .sle w c) = 1#1) : w.toNat ≤ c.toNat := by
  obtain ⟨h0, h1⟩ := IntOp.andi_eq_one.1 h
  rw [IntOp.cmpi_sge] at h0
  rw [IntOp.cmpi_sle] at h1
  have z : (0#32 : BitVec 32).toInt = 0 := by decide
  have ew := BitVec.toInt_eq_toNat_cond w
  have ec := BitVec.toInt_eq_toNat_cond c
  have := w.isLt
  rw [z] at h0
  split at ew <;> split at ec <;> omega

/-- The test `|x| < +∞` on an extended real leaves the reals: at `⊥` and at `⊤` the absolute value `max x (-x)` is `⊤`. -/
theorem real_of_abs_lt_inf (x : EReal)
    (h : Ideal.cmp .olt (max x (-x)) (Ideal.ofBits .f32 0x7F800000#32) = 1#1) : ∃ r : ℝ, x = (r : EReal) := by
  have top : Ideal.ofBits .f32 0x7F800000#32 = ⊤ := by simp [Ideal.ofBits, Ideal.ieee]
  rw [top] at h
  induction x using EReal.rec with
  | bot => exact absurd h (by simp [Ideal.cmp])
  | coe r => exact ⟨r, rfl⟩
  | top => exact absurd h (by simp [Ideal.cmp])

/-- The printed predicate split into its ten universal tests and each read element by element, at any float instance:
    the seven float arrays pass the element test `|x| < +∞` (as the instance's comparison of `abs x` with the pattern
    of `+∞`) at every index, and the three integer arrays pass their two signed comparisons at every index. -/
theorem decoded {F : FTy → Type} [FloatOps F]
    (a0 : FVec F S320000x16 .f32) (a1 : IVec S10000 32) (a2 : FVec F S320000x3 .f32) (a3 : IVec S320000 32)
    (a4 : IVec S320000 32) (a5 : FVec F S95x128 .f32) (a6 : FVec F S16x128 .f32) (a7 : FVec F S128 .f32)
    (a8 : FVec F S384x128 .f32) (a9 : FVec F S128 .f32)
    (h : Cert.Pre_input_domain.fn (F := F) a0 a1 a2 a3 a4 a5 a6 a7 a8 a9 = fun _ => 1#1) :
    ((∀ i, FloatOps.cmpf .olt (FloatOps.hostAbsf (a0 i)) (FloatOps.ofBits .f32 0x7F800000#32) = 1#1)
      ∧ (∀ i, FloatOps.cmpf .olt (FloatOps.hostAbsf (a2 i)) (FloatOps.ofBits .f32 0x7F800000#32) = 1#1)
      ∧ (∀ i, FloatOps.cmpf .olt (FloatOps.hostAbsf (a5 i)) (FloatOps.ofBits .f32 0x7F800000#32) = 1#1)
      ∧ (∀ i, FloatOps.cmpf .olt (FloatOps.hostAbsf (a6 i)) (FloatOps.ofBits .f32 0x7F800000#32) = 1#1)
      ∧ (∀ i, FloatOps.cmpf .olt (FloatOps.hostAbsf (a7 i)) (FloatOps.ofBits .f32 0x7F800000#32) = 1#1)
      ∧ (∀ i, FloatOps.cmpf .olt (FloatOps.hostAbsf (a8 i)) (FloatOps.ofBits .f32 0x7F800000#32) = 1#1)
      ∧ (∀ i, FloatOps.cmpf .olt (FloatOps.hostAbsf (a9 i)) (FloatOps.ofBits .f32 0x7F800000#32) = 1#1))
    ∧ (∀ n, IntOp.andi (IntOp.cmpi .sge (a1 n) 0#32) (IntOp.cmpi .sle (a1 n) 94#32) = 1#1)
    ∧ (∀ e, IntOp.andi (IntOp.cmpi .sge (a3 e) 0#32) (IntOp.cmpi .sle (a3 e) 9999#32) = 1#1)
    ∧ (∀ e, IntOp.andi (IntOp.cmpi .sge (a4 e) 0#32) (IntOp.cmpi .sle (a4 e) 9999#32) = 1#1) := by
  have e := congrFun h ix0
  dsimp only [fn, fn_part1, fn_part2, fn_part3] at e
  simp only [andi_apply_eq_one] at e
  obtain ⟨⟨⟨⟨⟨⟨⟨⟨⟨f0, f2⟩, f5⟩, f6⟩, f7⟩, f8⟩, f9⟩, c1⟩, c3⟩, c4⟩ := e
  exact ⟨⟨Host.reduce_andi_all _ _ _ _ ix0 f0, Host.reduce_andi_all _ _ _ _ ix0 f2, Host.reduce_andi_all _ _ _ _ ix0 f5,
      Host.reduce_andi_all _ _ _ _ ix0 f6, Host.reduce_andi_all _ _ _ _ ix0 f7, Host.reduce_andi_all _ _ _ _ ix0 f8,
      Host.reduce_andi_all _ _ _ _ ix0 f9⟩,
    Host.reduce_andi_all _ _ _ _ ix0 c1, Host.reduce_andi_all _ _ _ _ ix0 c3, Host.reduce_andi_all _ _ _ _ ix0 c4⟩

/-- At any float instance the three integer arrays are in range, read unsigned: a word that is `≥ 0` and `≤ 9999`
    signed has `toNat ≤ 9999` (and likewise `≤ 94`). -/
theorem ranges {F : FTy → Type} [FloatOps F]
    (a0 : FVec F S320000x16 .f32) (a1 : IVec S10000 32) (a2 : FVec F S320000x3 .f32) (a3 : IVec S320000 32)
    (a4 : IVec S320000 32) (a5 : FVec F S95x128 .f32) (a6 : FVec F S16x128 .f32) (a7 : FVec F S128 .f32)
    (a8 : FVec F S384x128 .f32) (a9 : FVec F S128 .f32)
    (h : Cert.Pre_input_domain.fn (F := F) a0 a1 a2 a3 a4 a5 a6 a7 a8 a9 = fun _ => 1#1) :
    (∀ n, (a1 n).toNat ≤ 94) ∧ (∀ e, (a3 e).toNat ≤ 9999) ∧ (∀ e, (a4 e).toNat ≤ 9999) := by
  obtain ⟨-, c1, c3, c4⟩ := decoded a0 a1 a2 a3 a4 a5 a6 a7 a8 a9 h
  exact ⟨fun n => toNat_le_of_range (a1 n) 94#32 (by decide) (c1 n),
    fun e => toNat_le_of_range (a3 e) 9999#32 (by decide) (c3 e),
    fun e => toNat_le_of_range (a4 e) 9999#32 (by decide) (c4 e)⟩

/-- At the idealized instance every float entry of the six arrays the computation reads is a real number. -/
theorem allReal
    (a0 : FVec Ideal S320000x16 .f32) (a1 : IVec S10000 32) (a2 : FVec Ideal S320000x3 .f32) (a3 : IVec S320000 32)
    (a4 : IVec S320000 32) (a5 : FVec Ideal S95x128 .f32) (a6 : FVec Ideal S16x128 .f32) (a7 : FVec Ideal S128 .f32)
    (a8 : FVec Ideal S384x128 .f32) (a9 : FVec Ideal S128 .f32)
    (h : Cert.Pre_input_domain.fn (F := Ideal) a0 a1 a2 a3 a4 a5 a6 a7 a8 a9 = fun _ => 1#1) :
    (∀ i, ∃ r : ℝ, a0 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) ∧ (∀ i, ∃ r : ℝ, a9 i = (r : EReal)) := by
  obtain ⟨⟨f0, -, f5, f6, f7, f8, f9⟩, -⟩ := decoded a0 a1 a2 a3 a4 a5 a6 a7 a8 a9 h
  exact ⟨fun i => real_of_abs_lt_inf _ (f0 i), fun i => real_of_abs_lt_inf _ (f5 i), fun i => real_of_abs_lt_inf _ (f6 i),
    fun i => real_of_abs_lt_inf _ (f7 i), fun i => real_of_abs_lt_inf _ (f8 i), fun i => real_of_abs_lt_inf _ (f9 i)⟩

end Cert.PreDecode

end
-- ==== Proof.KerSpec.lean ====
/-
  What the kernel program computes, as ONE pure term of its argument arrays, generic in the float instance.

  The SparseCore call reads the charge table at the senders and at the receivers: two index arrays
  `cs e = charges (senders e)`, `cr e = charges (receivers e)`.  The host lines pad the embedding table with zero
  rows to 128 rows, cut the output weights in three 128-row slabs, transpose the radial basis and narrow it.  The
  TensorCore call, block `t` of 16000 edges at a time, multiplies the row `[onehot (cs e) | onehot (cr e) | act (rbf e · W_rbf + b_rbf)]`
  by the 384-row table `[E·W_s ; E·W_r ; g·W_q]` (built once, at the first block, and kept), adds the bias and applies
  the activation `x ↦ g · x · (½ tanh (½ x) + ½)`.  The result array is the blocks laid one under the other.
-/
import proofs.«206043_g84026740179769_cont_sun_m_427_41_alg».proof.Proof.Gen.KernelIdeal.Skeleton
import Idealize.ShloMosaic.Lib.ValueIdx

noncomputable section

namespace Cert.KernelIdeal.Spec

open Idealize.ShloMosaic Idealize.ShloMosaic.ValueIdx Cert.KernelIdeal
open Cert.KernelIdeal.Facts₀ Cert.KernelIdeal.Facts

variable {F : FTy → Type} [FloatOps F] [Cert.KernelIdeal.Facts]

/-- A table of 10000 words read at each of 320000 indices (zero where an index names no entry: never met under the
    certificate's precondition). -/
def gath (tbl : IVec S10000 32) (ix : IVec S320000 32) : IVec S320000 32 :=
  fun j => if h : (ix j).toNat < 10000 then tbl (ix1 ⟨(ix j).toNat, h⟩) else 0#32

/-- The embedding table under zero rows, 128 rows in all. -/
def embPad (emb : FVec F S95x128 .f32) : FVec F S128x128 .f32 :=
  Host.scatter scatter_S128x128_S1_S95x128_01_n_0_0 (fun _ b => b)
    (broadcastInDim S128x128 ![] bcast_S_S128x128 (constant (F := F) S_ .f32 0x00000000#32))
    (broadcastInDim S1 ![] bcast_S_S1 (constantI S_ 32 0#32)) emb

def wS (w : FVec F S384x128 .f32) : FVec F S128x128 .f32 := extractStridedSlice S128x128 ![0, 0] w slices_S384x128_S128x128_0_0
def wR (w : FVec F S384x128 .f32) : FVec F S128x128 .f32 := extractStridedSlice S128x128 ![128, 0] w slices_S384x128_S128x128_128_0
def wQ (w : FVec F S384x128 .f32) : FVec F S128x128 .f32 := extractStridedSlice S128x128 ![256, 0] w slices_S384x128_S128x128_256_0

/-- The radial basis transposed and narrowed. -/
def rbfT (rbf : FVec F S320000x16 .f32) : FVec F S16x320000 .bf16 :=
  truncf .bf16 (transpose S16x320000 [1, 0] rbf transposes_S320000x16_S16x320000_1_0) bitsLt_bf16_f32

def wRbf (w : FVec F S16x128 .f32) : FVec F S16x128 .bf16 := truncf .bf16 w bitsLt_bf16_f32

def rowOf (b : FVec F S128 .f32) : FVec F S1x128 .f32 := shapeCast S1x128 b shapeCasts_S128_S1x128

/-- The 384-row table the TensorCore call builds at its first block and keeps: three slabs of 128 rows. -/
def tbl (ep ws wr wq : FVec F S128x128 .f32) : Vec F S384x128 .bf16 :=
  fun y =>
    if h0 : (y 0).val < 128 then Gen.k1_pay2 ep ws (ix2 ⟨(y 0).val, h0⟩ (y 1))
    else if h1 : (y 0).val < 256 then Gen.k1_pay3 ep wr (ix2 ⟨(y 0).val - 128, by omega⟩ (y 1))
    else Gen.k1_pay4 wq (ix2 ⟨(y 0).val - 256, by have := (y 0).isLt; change (y 0).val < 384 at this; omega⟩ (y 1))

/-- Block `t` (16000 entries) of an index array. -/
def blk1 (v : IVec S320000 32) (t : Fin 20) : Vec F S16000 .i32 :=
  fun y => v (ix1 ⟨16000 * t.val + (y 0).val, by have := (y 0).isLt; change (y 0).val < 16000 at this; omega⟩)

/-- Column block `t` (16000 columns) of the transposed radial basis. -/
def blkC (v : FVec F S16x320000 .bf16) (t : Fin 20) : Vec F S16x16000 .bf16 :=
  fun y => v (ix2 ⟨(y 0).val, by have := (y 0).isLt; change (y 0).val < 16 at this; omega⟩
    ⟨16000 * t.val + (y 1).val, by have := (y 1).isLt; change (y 1).val < 16000 at this; omega⟩)

/-- What the TensorCore call stores for block `t`. -/
def outBlk (cs cr : IVec S320000 32) (rT : FVec F S16x320000 .bf16) (ep ws wr wq : FVec F S128x128 .f32)
    (wrbf : FVec F S16x128 .bf16) (brbf bout : FVec F S1x128 .f32) (t : Fin 20) : FVec F S16000x128 .f32 :=
  Gen.k1_pay1 (Gen.k1_pay5 (blk1 (F := F) cs t) (blk1 (F := F) cr t) (blkC rT t) wrbf brbf) (tbl ep ws wr wq) bout

/-- The blocks laid one under the other. -/
def stack (B : Fin 20 → FVec F S16000x128 .f32) : FVec F S320000x128 .f32 :=
  fun j => B ⟨(j 0).val / 16000, by have := (j 0).isLt; change (j 0).val < 320000 at this; omega⟩
    (ix2 ⟨(j 0).val % 16000, Nat.mod_lt _ (by norm_num)⟩ ⟨(j 1).val, by have := (j 1).isLt; change (j 1).val < 128 at this; omega⟩)

/-- The two index arrays the SparseCore call leaves. -/
def csOf (charges : IVec S10000 32) (senders : IVec S320000 32) : IVec S320000 32 := gath charges senders

/-- The kernel program's result, of its argument arrays. -/
def out (rbf : FVec F S320000x16 .f32) (charges : IVec S10000 32) (senders receivers : IVec S320000 32)
    (emb : FVec F S95x128 .f32) (wrbf : FVec F S16x128 .f32) (brbf : FVec F S128 .f32) (wout : FVec F S384x128 .f32)
    (bout : FVec F S128 .f32) : FVec F S320000x128 .f32 :=
  stack (outBlk (gath charges senders) (gath charges receivers) (rbfT rbf) (embPad emb) (wS wout) (wR wout) (wQ wout)
    (wRbf wrbf) (rowOf brbf) (rowOf bout))

end Cert.KernelIdeal.Spec

end
-- ==== Proof.Assemble.lean ====
/-
  The certificate's claim from its three runs and the algebra between the two closed terms.

  Given (i) that the word-level kernel program runs and keeps its arguments whenever the two edge-index arrays are in
  range, (ii) that the idealized kernel program runs to the kernel-side closed term `Cert.KernelIdeal.Spec.out` of its
  arguments and keeps them under the same condition, and (iii) that this term and the reference's closed term
  `Cert.ReferenceIdeal.Spec.out` agree on real entries and in-range indices, all five claims follow: the input-domain
  precondition supplies the ranges and the realness, the reference's own run (`RefRun.run`) supplies its side, and
  memories that agree on the arguments give the two terms the same arguments.
-/
import proofs.«206043_g84026740179769_cont_sun_m_427_41_alg».proof.Defs
import proofs.«206043_g84026740179769_cont_sun_m_427_41_alg».proof.Proof.Gen.Kernel
import proofs.«206043_g84026740179769_cont_sun_m_427_41_alg».proof.Proof.Gen.KernelIdeal
import proofs.«206043_g84026740179769_cont_sun_m_427_41_alg».proof.Proof.Gen.ReferenceIdeal
import proofs.«206043_g84026740179769_cont_sun_m_427_41_alg».proof.Proof.Gen.Pre_input_domain
import proofs.«206043_g84026740179769_cont_sun_m_427_41_alg».proof.Proof.RefRun
import proofs.«206043_g84026740179769_cont_sun_m_427_41_alg».proof.Proof.PreDecode
import proofs.«206043_g84026740179769_cont_sun_m_427_41_alg».proof.Proof.KerSpec
import proofs.«206043_g84026740179769_cont_sun_m_427_41_alg».proof.Proof.RefSpec

noncomputable section

namespace Cert.Proof.Assemble

open Idealize.ShloMosaic Idealize.SL.Sem

theorem claim_of
    (hK : ∀ (m : (ℓ : Loc Cert.Kernel.nD Cert.Kernel.τ Cert.Kernel.sig) → Buf (Elt Bits) ℓ) (g : Dev Cert.Kernel.nD → PrngReg),
        (∀ d : Dev Cert.Kernel.nD,
          (∀ e, ((m ((d.tc : Thread Cert.Kernel.nD Cert.Kernel.τ).loc Cert.Kernel.main_arg3) : IVec Cert.Kernel.S320000 32) e).toNat ≤ 9999)
          ∧ (∀ e, ((m ((d.tc : Thread Cert.Kernel.nD Cert.Kernel.τ).loc Cert.Kernel.main_arg4) : IVec Cert.Kernel.S320000 32) e).toNat ≤ 9999)) →
        θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7)
          ∧ r.2.mem ((c.tc : Thread Cert.Kernel.nD Cert.Kernel.τ).loc Cert.Kernel.main_arg8) = m ((c.tc : Thread Cert.Kernel.nD Cert.Kernel.τ).loc Cert.Kernel.main_arg8)
          ∧ r.2.mem ((c.tc : Thread Cert.Kernel.nD Cert.Kernel.τ).loc Cert.Kernel.main_arg9) = m ((c.tc : Thread Cert.Kernel.nD Cert.Kernel.τ).loc Cert.Kernel.main_arg9)))
    (hKI : ∀ (m : (ℓ : Loc Cert.KernelIdeal.nD Cert.KernelIdeal.τ Cert.KernelIdeal.sig) → Buf (Elt Ideal) ℓ) (g : Dev Cert.KernelIdeal.nD → PrngReg),
        (∀ d : Dev Cert.KernelIdeal.nD,
          (∀ e, ((m ((d.tc : Thread Cert.KernelIdeal.nD Cert.KernelIdeal.τ).loc Cert.KernelIdeal.main_arg3) : IVec Cert.KernelIdeal.S320000 32) e).toNat ≤ 9999)
          ∧ (∀ e, ((m ((d.tc : Thread Cert.KernelIdeal.nD Cert.KernelIdeal.τ).loc Cert.KernelIdeal.main_arg4) : IVec Cert.KernelIdeal.S320000 32) e).toNat ≤ 9999)) →
        θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = Cert.KernelIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)))
    (hB : ∀ (rbf : FVec Ideal Cert.KernelIdeal.S320000x16 .f32) (charges : IVec Cert.KernelIdeal.S10000 32)
        (senders receivers : IVec Cert.KernelIdeal.S320000 32) (emb : FVec Ideal Cert.KernelIdeal.S95x128 .f32)
        (wrbf : FVec Ideal Cert.KernelIdeal.S16x128 .f32) (brbf : FVec Ideal Cert.KernelIdeal.S128 .f32)
        (wout : FVec Ideal Cert.KernelIdeal.S384x128 .f32) (bout : FVec Ideal Cert.KernelIdeal.S128 .f32),
        (∀ i, ∃ r : ℝ, rbf i = (r : EReal)) → (∀ i, ∃ r : ℝ, emb i = (r : EReal)) → (∀ i, ∃ r : ℝ, wrbf i = (r : EReal)) →
        (∀ i, ∃ r : ℝ, brbf i = (r : EReal)) → (∀ i, ∃ r : ℝ, wout i = (r : EReal)) → (∀ i, ∃ r : ℝ, bout i = (r : EReal)) →
        (∀ n, (charges n).toNat ≤ 94) → (∀ e, (senders e).toNat ≤ 9999) → (∀ e, (receivers e).toNat ≤ 9999) →
        Cert.KernelIdeal.Spec.out (F := Ideal) rbf charges senders receivers emb wrbf brbf wout bout
          = Cert.ReferenceIdeal.Spec.out (F := Ideal) rbf charges senders receivers emb wrbf brbf wout bout) :
    Cert.Claim := by
  refine ⟨Cert.Kernel.Gen.facts, Cert.KernelIdeal.Gen.facts, Cert.ReferenceIdeal.Gen.facts, Cert.Pre_input_domain.Gen.facts,
    ?_, ?_, ?_, trivial, ?_⟩
  · -- the word-level kernel: the precondition gives the two ranges
    intro m g hpre
    exact hK m g fun d =>
      ⟨(Cert.PreDecode.ranges (F := Bits) _ _ _ _ _ _ _ _ _ _ (hpre d)).2.1,
        (Cert.PreDecode.ranges (F := Bits) _ _ _ _ _ _ _ _ _ _ (hpre d)).2.2⟩
  · -- the idealized kernel: its run, without the value
    intro m g hpre
    exact (θ_run _ _ _).mono (fun _ h c => (h c).2) (hKI m g fun d =>
      ⟨(Cert.PreDecode.ranges (F := Ideal) _ _ _ _ _ _ _ _ _ _ (hpre d)).2.1,
        (Cert.PreDecode.ranges (F := Ideal) _ _ _ _ _ _ _ _ _ _ (hpre d)).2.2⟩)
  · -- the reference: its run, without the value
    exact Cert.ReferenceIdeal.RefRun.frame
  · -- both run; the kernel's result is the kernel-side term, the reference's is the reference-side term of arguments
    -- that agree, and the two terms agree on real entries and in-range indices
    intro m g m' g' hpre hagree
    have hr := fun d => Cert.PreDecode.ranges (F := Ideal) _ _ _ _ _ _ _ _ _ _ (hpre d)
    have ha := fun d => Cert.PreDecode.allReal _ _ _ _ _ _ _ _ _ _ (hpre d)
    refine ⟨fun c => Cert.KernelIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
      hKI m g fun d => ⟨(hr d).2.1, (hr d).2.2⟩, ?_⟩
    refine (θ_run _ _ _).mono (fun _ h c => ⟨(h c).1.trans ?_, (h c).2⟩) (Cert.ReferenceIdeal.RefRun.run (F := Ideal) m' g')
    obtain ⟨e0, e1, e2, e3, e4, e5, e6, e7, e8, e9⟩ := hagree c
    rw [e0, e1, e3, e4, e5, e6, e7, e8, e9]
    exact (hB _ _ _ _ _ _ _ _ _ (ha c).1 (ha c).2.1 (ha c).2.2.1 (ha c).2.2.2.1 (ha c).2.2.2.2.1 (ha c).2.2.2.2.2
      (hr c).1 (hr c).2.1 (hr c).2.2).symm

end Cert.Proof.Assemble

end
-- ==== Proof.BridgeForm.lean ====
/-
  The closed forms both programs are read against, over the extended reals, entry by entry.

  For edge `e` and output column `c`:  the radial pre-activation `z1 e k = Σ_i rbf (e, i) · W_rbf (i, k) + b_rbf k`;
  the charge rows `cs e`, `cr e` (the charge of the edge's sender and of its receiver, a row number of the embedding
  table); the two embedding terms `Σ_m emb (row, m) · W_out (off + m, c)`.  The gate is written in two ways:
  `silu x = x · (1 / (1 + exp (-x)))` (the reference) and `act x = x · (½ · tanh (½ · x) + ½)` (the kernel).
-/
import Idealize.ShloMosaic.Lib.ValueIdx

noncomputable section

namespace Cert.Bridge

open Idealize.ShloMosaic Idealize.ShloMosaic.ValueIdx
open scoped BigOperators

/-- The gate by the exponential. -/
def silu (x : EReal) : EReal :=
  x * Ideal.div (Ideal.ofBits .f32 0x3F800000#32) (Ideal.ofBits .f32 0x3F800000#32 + Ideal.exp (-x))

/-- The gate by the hyperbolic tangent. -/
def act (x : EReal) : EReal :=
  x * (Ideal.ofBits .f32 0x3F000000#32 * Ideal.tanh (Ideal.ofBits .f32 0x3F000000#32 * x) + Ideal.ofBits .f32 0x3F000000#32)

/-- The gain. -/
def gW : EReal := Ideal.ofBits .f32 0x3FD6978D#32

/-- A node number read off a word (words above the last node never occur under the precondition). -/
def node (w : BitVec 32) : Fin 10000 := ⟨min w.toNat 9999, by omega⟩

/-- A row of the embedding table read off a word (words above the last row never occur under the precondition). -/
def row (w : BitVec 32) : Fin 95 := ⟨min w.toNat 94, by omega⟩

/-- The table row of the node an index array names for edge `e`. -/
def rowAt (charges : IVec ⟨1, ![10000]⟩ 32) (ends : IVec ⟨1, ![320000]⟩ 32) (e : Fin 320000) : Fin 95 :=
  row (charges (ix1 (node (ends (ix1 e)))))

/-- The radial pre-activation. -/
def z1 (rbf : FVec Ideal ⟨2, ![320000, 16]⟩ .f32) (wrbf : FVec Ideal ⟨2, ![16, 128]⟩ .f32) (brbf : FVec Ideal ⟨1, ![128]⟩ .f32)
    (e : Fin 320000) (k : Fin 128) : EReal :=
  ∑ i : Fin 16, rbf (ix2 e i) * wrbf (ix2 i k) + brbf (ix1 k)

/-- An embedding row against the 128 rows of the output weights that start at row `off`. -/
def embTerm (emb : FVec Ideal ⟨2, ![95, 128]⟩ .f32) (wout : FVec Ideal ⟨2, ![384, 128]⟩ .f32) (off : ℕ) (hoff : off + 128 ≤ 384)
    (q : Fin 95) (c : Fin 128) : EReal :=
  ∑ m : Fin 128, emb (ix2 q m) * wout (ix2 (⟨off + m.val, by have := m.isLt; omega⟩ : Fin 384) c)

end Cert.Bridge

end
-- ==== Proof.LibScatterRows.lean ====
/-
  The host's scatter that WRITES (its body returns the update) read at an index, and the case of a block of rows
  written at row zero.

  The scatter folds over the update elements in order; each lands on one operand element (or nowhere) and replaces it.
  So at an operand index `i` the result is the update that lands on `i` when one does — any of them, when all that land
  there carry the same value — and the operand's own element otherwise.  For an [M, C] block written into an [N, C]
  array at the start index zero (window axes both axes, the start index naming axis 0), update element (r, m) lands on
  (r, m): rows below M are the block's, the others the operand's.
-/
import Idealize.ShloMosaic.Lib.Pipeline.Value
import Idealize.ShloMosaic.Lib.ValueIdx

noncomputable section

namespace Cert.LibScatterRows

open Idealize.ShloMosaic Idealize.ShloMosaic.ValueIdx

/-- A fold of "replace the element the step names" read at one place: the common value of the steps that name it, if any;
    the starting element if none does. -/
theorem foldl_set_apply {ι σ α : Type} [DecidableEq σ] (g : ι → Option σ) (v : ι → α) (step : (σ → α) → ι → (σ → α))
    (hs : ∀ r n k, g n = some k → step r n = fun i' => if i' = k then v n else r i')
    (hn : ∀ r n, g n = none → step r n = r)
    (i : σ) (a0 : α) (huniq : ∀ n, g n = some i → v n = a0) (L : List ι) (x : σ → α) :
    ((∃ n ∈ L, g n = some i) → (L.foldl step x) i = a0) ∧ ((¬ ∃ n ∈ L, g n = some i) → (L.foldl step x) i = x i) := by
  induction L generalizing x with
  | nil => exact ⟨fun ⟨n, hm, _⟩ => absurd hm List.not_mem_nil, fun _ => rfl⟩
  | cons a L ih =>
    obtain ⟨ih1, ih2⟩ := ih (step x a)
    rw [List.foldl_cons]
    refine ⟨fun hne => ?_, fun hne => ?_⟩
    · by_cases hex : ∃ n ∈ L, g n = some i
      · exact ih1 hex
      · rw [ih2 hex]
        obtain ⟨n, hm, h⟩ := hne
        rcases List.mem_cons.mp hm with rfl | h'
        · rw [hs x n i h]
          show (if i = i then v n else x i) = a0
          rw [if_pos rfl]; exact huniq n h
        · exact absurd ⟨n, h', h⟩ hex
    · have hex : ¬ ∃ n ∈ L, g n = some i := fun ⟨n, hm, h⟩ => hne ⟨n, List.mem_cons_of_mem _ hm, h⟩
      rw [ih2 hex]
      rcases hga : g a with _ | k
      · rw [hn x a hga]
      · rw [hs x a k hga]
        show (if i = k then v a else x i) = x i
        rw [if_neg]
        intro hik; subst hik
        exact hne ⟨a, List.mem_cons_self, hga⟩

variable {α : Type}

/-- The writing scatter at an operand index some update lands on: the common value of the updates that land there. -/
theorem scatter_set_hit {s si u : Shape} {w : ℕ} (d : ScatterDims s si u) (x : s.Idx → α) (idx : IVec si w)
    (upd : u.Idx → α) (i : s.Idx) (a0 : α) (huniq : ∀ j, d.resultIdx? j idx = some i → upd j = a0)
    (hex : ∃ j, d.resultIdx? j idx = some i) :
    Host.scatter d (fun _ b => b) x idx upd i = a0 := by
  unfold Host.scatter
  refine (foldl_set_apply (fun n => d.resultIdx? (u.rowMajor.symm n) idx) (fun n => upd (u.rowMajor.symm n)) _
    (fun r n k h => ?_) (fun r n h => ?_) i a0 (fun n h => huniq _ h) _ x).1 ?_
  · simp only [h]
  · simp only [h]
  · obtain ⟨j, h⟩ := hex
    exact ⟨u.rowMajor j, List.mem_finRange _, by rw [Equiv.symm_apply_apply]; exact h⟩

/-- The writing scatter at an operand index no update lands on: the operand's element. -/
theorem scatter_set_miss {s si u : Shape} {w : ℕ} (d : ScatterDims s si u) (x : s.Idx → α) (idx : IVec si w)
    (upd : u.Idx → α) (i : s.Idx) (hno : ∀ j, d.resultIdx? j idx ≠ some i) :
    Host.scatter d (fun _ b => b) x idx upd i = x i := by
  unfold Host.scatter
  refine (foldl_set_apply (fun n => d.resultIdx? (u.rowMajor.symm n) idx) (fun n => upd (u.rowMajor.symm n)) _
    (fun r n k h => ?_) (fun r n h => ?_) i (x i) (fun n h => absurd h (hno _)) _ x).2 ?_
  · simp only [h]
  · simp only [h]
  · rintro ⟨n, _, h⟩; exact hno _ h

/-- Where update element (r, m) of a block written at row zero lands: on (r, m). -/
theorem resultIdx_rows {N M C w : ℕ} (hMN : M ≤ N)
    (wf : ScatterDims.WF ⟨2, ![N, C]⟩ ⟨1, ![1]⟩ ⟨2, ![M, C]⟩ [0, 1] [] [0] 0)
    (idx : IVec ⟨1, ![1]⟩ w) (h0 : (idx (ix1 (0 : Fin 1))).toInt = 0) (r : Fin M) (m : Fin C) :
    (⟨[0, 1], [], [0], 0, wf⟩ : ScatterDims ⟨2, ![N, C]⟩ ⟨1, ![1]⟩ ⟨2, ![M, C]⟩).resultIdx? (ix2 r m) idx
      = some (ix2 (⟨r.val, by have := r.isLt; omega⟩ : Fin N) m) := by
  let d : ScatterDims ⟨2, ![N, C]⟩ ⟨1, ![1]⟩ ⟨2, ![M, C]⟩ := ⟨[0, 1], [], [0], 0, wf⟩
  have hq : ∀ q : (⟨1, ![1]⟩ : Shape).Idx, q = ix1 (0 : Fin 1) := fun q => by
    funext a
    match a with
    | ⟨0, _⟩ => exact Fin.ext (by have := (q 0).isLt; change (q 0).val < 1 at this; show (q 0).val = 0; omega)
  have hst : ∀ a, d.start (ix2 r m) idx a = 0 := fun a => by
    unfold ScatterDims.start
    split
    · rw [hq (d.siIdx _ _)]; exact h0
    · rfl
  have hk : ∀ a : Fin 2, a ∈ d.sKept := fun a => by
    simp [ScatterDims.sKept, Shape.kept, d]
  have hw0 : d.window (ix2 r m) (0 : Fin 2) = r.val := by
    unfold ScatterDims.window
    rw [dif_pos (hk 0)]
    rfl
  have hw1 : d.window (ix2 r m) (1 : Fin 2) = m.val := by
    unfold ScatterDims.window
    rw [dif_pos (hk 1)]
    rfl
  have hin : ∀ a, 0 ≤ d.start (ix2 r m) idx a + d.window (ix2 r m) a
      ∧ d.start (ix2 r m) idx a + d.window (ix2 r m) a < (⟨2, ![N, C]⟩ : Shape).size a := fun a => by
    rw [hst]
    match a with
    | ⟨0, _⟩ =>
      have := r.isLt
      refine ⟨by omega, ?_⟩
      show (0 : Int) + (d.window (ix2 r m) (0 : Fin 2) : Int) < (N : Int)
      rw [hw0]; omega
    | ⟨1, _⟩ =>
      have := m.isLt
      refine ⟨by omega, ?_⟩
      show (0 : Int) + (d.window (ix2 r m) (1 : Fin 2) : Int) < (C : Int)
      rw [hw1]; omega
  show d.resultIdx? (ix2 r m) idx = _
  unfold ScatterDims.resultIdx?
  rw [dif_pos hin]
  congr 1
  funext a
  refine Fin.ext ?_
  match a with
  | ⟨0, _⟩ =>
    show (d.start (ix2 r m) idx (0 : Fin 2) + (d.window (ix2 r m) (0 : Fin 2) : Int)).toNat = r.val
    rw [hst, hw0]; omega
  | ⟨1, _⟩ =>
    show (d.start (ix2 r m) idx (1 : Fin 2) + (d.window (ix2 r m) (1 : Fin 2) : Int)).toNat = m.val
    rw [hst, hw1]; omega

/-- A block of M rows written at row zero into an N-row array: rows below M are the block's, the others the array's. -/
theorem scatter_rows_apply {N M C w : ℕ} (hMN : M ≤ N)
    (wf : ScatterDims.WF ⟨2, ![N, C]⟩ ⟨1, ![1]⟩ ⟨2, ![M, C]⟩ [0, 1] [] [0] 0)
    (x : (⟨2, ![N, C]⟩ : Shape).Idx → α) (idx : IVec ⟨1, ![1]⟩ w) (h0 : (idx (ix1 (0 : Fin 1))).toInt = 0)
    (upd : (⟨2, ![M, C]⟩ : Shape).Idx → α) (k : Fin N) (m : Fin C) :
    Host.scatter (⟨[0, 1], [], [0], 0, wf⟩ : ScatterDims ⟨2, ![N, C]⟩ ⟨1, ![1]⟩ ⟨2, ![M, C]⟩) (fun _ b => b) x idx upd (ix2 k m)
      = if h : k.val < M then upd (ix2 ⟨k.val, h⟩ m) else x (ix2 k m) := by
  have hres : ∀ j : (⟨2, ![M, C]⟩ : Shape).Idx,
      (⟨[0, 1], [], [0], 0, wf⟩ : ScatterDims ⟨2, ![N, C]⟩ ⟨1, ![1]⟩ ⟨2, ![M, C]⟩).resultIdx? j idx
        = some (ix2 (⟨(j 0).val, by have := idx2_lt0 j; omega⟩ : Fin N) (j 1)) := fun j => by
    obtain ⟨r, c, rfl⟩ : ∃ (r : Fin M) (c : Fin C), j = ix2 r c := ⟨j 0, j 1, eq_ix2 j⟩
    exact resultIdx_rows hMN wf idx h0 r c
  by_cases h : k.val < M
  · rw [dif_pos h]
    refine scatter_set_hit _ x idx upd (ix2 k m) (upd (ix2 ⟨k.val, h⟩ m)) (fun j hj => ?_)
      ⟨ix2 ⟨k.val, h⟩ m, (hres _).trans (congrArg some (by
        funext a; match a with | ⟨0, _⟩ => rfl | ⟨1, _⟩ => rfl))⟩
    rw [hres j] at hj
    have e := Option.some.inj hj
    have e0 : (j 0).val = k.val := congrArg (fun i => (i (0 : Fin 2)).val) e
    have e1 : (j 1) = m := congrFun e (1 : Fin 2)
    congr 1
    rw [eq_ix2 j]
    funext a
    match a with
    | ⟨0, _⟩ => exact Fin.ext e0
    | ⟨1, _⟩ => exact e1
  · rw [dif_neg h]
    refine scatter_set_miss _ x idx upd (ix2 k m) (fun j hj => ?_)
    rw [hres j] at hj
    have e := Option.some.inj hj
    have e0 : (j 0).val = k.val := congrArg (fun i => (i (0 : Fin 2)).val) e
    have := idx2_lt0 j
    omega

end Cert.LibScatterRows

end
-- ==== Proof.LibContrCongr.lean ====
/-
  The congruence lemma that rewriting under the one-axis contraction bijection asks for, stated once here: the modules
  that re-index a matrix product's sum through that bijection import this one, so the lemma has one home.
-/
import Idealize.ShloMosaic.Lib.ValueIdx

namespace Cert.LibContrCongr

/-- The auxiliary congruence lemma named, which is what brings it into being, here and nowhere else. -/
theorem congr_simp_realized : True := by
  have := @Idealize.ShloMosaic.ValueIdx.contrEquiv1.congr_simp
  trivial

end Cert.LibContrCongr
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import proofs.«206043_g84026740179769_cont_sun_m_427_41_alg».proof.Proof.LibContrCongr
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.BridgeKerHost.lean ====
/-
  The arrays the host lines of the kernel program prepare, read at an index over the extended reals: the embedding
  table padded with zero rows; the three 128-row slabs of the output weights; the radial basis transposed (narrowing is
  the identity on the extended reals); a bias vector as a row; the charge table read at an index array.
-/
import proofs.«206043_g84026740179769_cont_sun_m_427_41_alg».proof.Proof.KerSpec
import proofs.«206043_g84026740179769_cont_sun_m_427_41_alg».proof.Proof.BridgeForm
import proofs.«206043_g84026740179769_cont_sun_m_427_41_alg».proof.Proof.LibScatterRows
import proofs.«206043_g84026740179769_cont_sun_m_427_41_alg».proof.Proof.LibRowOps

noncomputable section

namespace Cert.Bridge

open Idealize.ShloMosaic Idealize.ShloMosaic.ValueIdx Cert.KernelIdeal Cert.KernelIdeal.Spec
open Cert.KernelIdeal.Facts₀ Cert.KernelIdeal.Facts

variable [Cert.KernelIdeal.Facts]

/-- The padded table: rows below 95 are the table's, the others zero. -/
theorem embPad_apply (emb : FVec Ideal S95x128 .f32) (k : Fin 128) (m : Fin 128) :
    embPad (F := Ideal) emb (ix2 k m) = if h : k.val < 95 then emb (ix2 ⟨k.val, h⟩ m) else 0 := by
  unfold embPad
  refine (Cert.LibScatterRows.scatter_rows_apply (N := 128) (M := 95) (C := 128) (by omega)
    scatter_S128x128_S1_S95x128_01_n_0_0_wf _ _ rfl emb k m).trans ?_
  split
  · rfl
  · exact Ideal.ofBits_zero_f32

/-- The first slab of the output weights: rows 0 … 127. -/
theorem wS_apply (w : FVec Ideal S384x128 .f32) (k : Fin 128) (c : Fin 128) :
    wS (F := Ideal) w (ix2 k c) = w (ix2 (⟨0 + k.val, by have := k.isLt; omega⟩ : Fin 384) c) :=
  extractStridedSlice_apply ![0, 0] w slices_S384x128_S128x128_0_0 (ix2 k c) (ix2 (⟨0 + k.val, by have := k.isLt; omega⟩ : Fin 384) c)
    (fun a => by
      match a with
      | ⟨0, _⟩ => rfl
      | ⟨1, _⟩ => show c.val = 0 + c.val; omega)

/-- The second slab: rows 128 … 255. -/
theorem wR_apply (w : FVec Ideal S384x128 .f32) (k : Fin 128) (c : Fin 128) :
    wR (F := Ideal) w (ix2 k c) = w (ix2 (⟨128 + k.val, by have := k.isLt; omega⟩ : Fin 384) c) :=
  extractStridedSlice_apply ![128, 0] w slices_S384x128_S128x128_128_0 (ix2 k c) (ix2 (⟨128 + k.val, by have := k.isLt; omega⟩ : Fin 384) c)
    (fun a => by
      match a with
      | ⟨0, _⟩ => rfl
      | ⟨1, _⟩ => show c.val = 0 + c.val; omega)

/-- The third slab: rows 256 … 383. -/
theorem wQ_apply (w : FVec Ideal S384x128 .f32) (k : Fin 128) (c : Fin 128) :
    wQ (F := Ideal) w (ix2 k c) = w (ix2 (⟨256 + k.val, by have := k.isLt; omega⟩ : Fin 384) c) :=
  extractStridedSlice_apply ![256, 0] w slices_S384x128_S128x128_256_0 (ix2 k c) (ix2 (⟨256 + k.val, by have := k.isLt; omega⟩ : Fin 384) c)
    (fun a => by
      match a with
      | ⟨0, _⟩ => rfl
      | ⟨1, _⟩ => show c.val = 0 + c.val; omega)

/-- The transposed radial basis: entry (i, e) is the basis' entry (e, i). -/
theorem rbfT_apply (rbf : FVec Ideal S320000x16 .f32) (i : Fin 16) (e : Fin 320000) :
    rbfT (F := Ideal) rbf (ix2 i e) = rbf (ix2 e i) := by
  unfold rbfT
  rw [truncf_apply]
  exact transpose_apply [1, 0] rbf transposes_S320000x16_S16x320000_1_0 (ix2 i e) (ix2 e i) (fun b => by
    match b with
    | ⟨0, _⟩ => rfl
    | ⟨1, _⟩ => rfl)

/-- Narrowing the radial weights is the identity. -/
theorem wRbf_apply (w : FVec Ideal S16x128 .f32) (j : S16x128.Idx) : wRbf (F := Ideal) w j = w j := rfl

/-- A bias vector as a row. -/
theorem rowOf_apply (b : FVec Ideal S128 .f32) (c : Fin 128) : rowOf (F := Ideal) b (ix2 (0 : Fin 1) c) = b (ix1 c) :=
  Cert.KernelBody.shapeCast_row_apply b shapeCasts_S128_S1x128 c

/-- The charge table read at an index array, where the index names a node. -/
theorem gath_apply (tbl : IVec S10000 32) (ix : IVec S320000 32) (e : Fin 320000) (h : (ix (ix1 e)).toNat ≤ 9999) :
    gath tbl ix (ix1 e) = tbl (ix1 (node (ix (ix1 e)))) := by
  unfold gath
  rw [dif_pos (by omega)]
  refine congrArg tbl (congrArg ix1 (Fin.ext ?_))
  show (ix (ix1 e)).toNat = min (ix (ix1 e)).toNat 9999
  omega

end Cert.Bridge

end
-- ==== Proof.BridgeKerTbl.lean ====
/-
  The 384-row table the TensorCore call builds at its first block, read at an index over the extended reals: rows
  0 … 127 are the padded embedding table times the first slab of the output weights, rows 128 … 255 the padded table
  times the second slab, rows 256 … 383 the third slab times the gain.
-/
import proofs.«206043_g84026740179769_cont_sun_m_427_41_alg».proof.Proof.KerSpec
import proofs.«206043_g84026740179769_cont_sun_m_427_41_alg».proof.Proof.BridgeForm
import proofs.«206043_g84026740179769_cont_sun_m_427_41_alg».proof.Proof.LibRowOps

noncomputable section

namespace Cert.Bridge

open Idealize.ShloMosaic Idealize.ShloMosaic.ValueIdx Cert.KernelIdeal Cert.KernelIdeal.Spec
open Cert.KernelIdeal.Facts₀ Cert.KernelIdeal.Facts

variable [Cert.KernelIdeal.Facts]

/-- A product of two 128×128 matrices accumulated into zero and narrowed. -/
theorem pay2_apply (A B : FVec Ideal S128x128 .f32) (k c : Fin 128) :
    Gen.k1_pay2 (F := Ideal) A B (ix2 k c) = ∑ m : Fin 128, A (ix2 k m) * B (ix2 m c) := by
  unfold Gen.k1_pay2
  simp only [shapeCast_self, truncf_apply]
  exact Cert.KernelBody.matmul_plain_zero_apply dot_S128x128_S128x128_S128x128_1_0_0_1_n_n_wf none A B k c

/-- The same for the second slab's payload. -/
theorem pay3_apply (A B : FVec Ideal S128x128 .f32) (k c : Fin 128) :
    Gen.k1_pay3 (F := Ideal) A B (ix2 k c) = ∑ m : Fin 128, A (ix2 k m) * B (ix2 m c) := by
  unfold Gen.k1_pay3
  simp only [shapeCast_self, truncf_apply]
  exact Cert.KernelBody.matmul_plain_zero_apply dot_S128x128_S128x128_S128x128_1_0_0_1_n_n_wf none A B k c

/-- A 128×128 matrix times the gain, narrowed. -/
theorem pay4_apply (W : FVec Ideal S128x128 .f32) (k c : Fin 128) :
    Gen.k1_pay4 (F := Ideal) W (ix2 k c) = W (ix2 k c) * gW := by
  unfold Gen.k1_pay4
  simp only [shapeCast_self, truncf_apply, mulf_apply, broadcast_apply]
  rfl

/-- Rows 0 … 127 of the table. -/
theorem tbl_first (ep ws wr wq : FVec Ideal S128x128 .f32) (k c : Fin 128) (h : k.val < 384) :
    tbl (F := Ideal) ep ws wr wq (ix2 (⟨k.val, h⟩ : Fin 384) c) = ∑ m : Fin 128, ep (ix2 k m) * ws (ix2 m c) := by
  unfold tbl
  rw [dif_pos (show ((ix2 (⟨k.val, h⟩ : Fin 384) c) 0).val < 128 from k.isLt)]
  exact pay2_apply ep ws k c

/-- Rows 128 … 255 of the table. -/
theorem tbl_second (ep ws wr wq : FVec Ideal S128x128 .f32) (k c : Fin 128) (h : 128 + k.val < 384) :
    tbl (F := Ideal) ep ws wr wq (ix2 (⟨128 + k.val, h⟩ : Fin 384) c) = ∑ m : Fin 128, ep (ix2 k m) * wr (ix2 m c) := by
  unfold tbl
  rw [dif_neg (show ¬ ((ix2 (⟨128 + k.val, h⟩ : Fin 384) c) 0).val < 128 from by show ¬ (128 + k.val < 128); omega),
    dif_pos (show ((ix2 (⟨128 + k.val, h⟩ : Fin 384) c) 0).val < 256 from by have := k.isLt; show 128 + k.val < 256; omega)]
  refine Eq.trans (congrArg (Gen.k1_pay3 (F := Ideal) ep wr) ?_) (pay3_apply ep wr k c)
  funext a
  match a with
  | ⟨0, _⟩ => exact Fin.ext (by show 128 + k.val - 128 = k.val; omega)
  | ⟨1, _⟩ => rfl

/-- Rows 256 … 383 of the table. -/
theorem tbl_third (ep ws wr wq : FVec Ideal S128x128 .f32) (k c : Fin 128) (h : 128 + 128 + k.val < 384) :
    tbl (F := Ideal) ep ws wr wq (ix2 (⟨128 + 128 + k.val, h⟩ : Fin 384) c) = wq (ix2 k c) * gW := by
  unfold tbl
  rw [dif_neg (show ¬ ((ix2 (⟨128 + 128 + k.val, h⟩ : Fin 384) c) 0).val < 128 from by show ¬ (128 + 128 + k.val < 128); omega),
    dif_neg (show ¬ ((ix2 (⟨128 + 128 + k.val, h⟩ : Fin 384) c) 0).val < 256 from by show ¬ (128 + 128 + k.val < 256); omega)]
  refine Eq.trans (congrArg (Gen.k1_pay4 (F := Ideal) wq) ?_) (pay4_apply wq k c)
  funext a
  match a with
  | ⟨0, _⟩ => exact Fin.ext (by show 128 + 128 + k.val - 256 = k.val; omega)
  | ⟨1, _⟩ => rfl

end Cert.Bridge

end
-- ==== Proof.LibConcat3.lean ====
/-
  A row-wise concatenation of THREE matrices read at an index, and a sum over the concatenated axis.

  For `x₁ : [m, a]`, `x₂ : [m, b]`, `x₃ : [m, c]` the concatenation along axis 1 is `[x₁ | x₂ | x₃] : [m, n]`,
  `n = a + b + c`: entry `(r, k)` is `x₁ (r, k)` for `k < a`, `x₂ (r, k − a)` for `a ≤ k < a + b` and
  `x₃ (r, k − a − b)` from there on.  A sum over the `n` columns splits into the sums over the three ranges; only
  commutativity and associativity of the sum are used, so this holds in any commutative additive monoid — on the
  extended reals too, infinities included.
-/
import Idealize.ShloMosaic.Lib.Pipeline.Value
import Idealize.ShloMosaic.Lib.ValueIdx

noncomputable section

namespace Cert.LibConcat3

open Idealize.ShloMosaic Idealize.ShloMosaic.ValueIdx
open scoped BigOperators

variable {α : Type} {m a b c n : ℕ}

/-- First range: entry `(r, k)`, `k < a`, of `[x₁ | x₂ | x₃]` is `x₁ (r, k)`. -/
theorem concat3_first (x₁ : (⟨2, ![m, a]⟩ : Shape).Idx → α) (x₂ : (⟨2, ![m, b]⟩ : Shape).Idx → α)
    (x₃ : (⟨2, ![m, c]⟩ : Shape).Idx → α)
    (h : Shape.Concatenates [⟨2, ![m, a]⟩, ⟨2, ![m, b]⟩, ⟨2, ![m, c]⟩] ⟨2, ![m, n]⟩ (1 : Fin 2)) (r : Fin m) (k : Fin a)
    (hk : k.val < n) :
    concatenate ⟨2, ![m, n]⟩ (1 : Fin 2) [⟨⟨2, ![m, a]⟩, x₁⟩, ⟨⟨2, ![m, b]⟩, x₂⟩, ⟨⟨2, ![m, c]⟩, x₃⟩] h (ix2 r ⟨k.val, hk⟩)
      = x₁ (ix2 r k) :=
  concatenate_apply_piece (t := ⟨2, ![m, n]⟩) (1 : Fin 2) [⟨⟨2, ![m, a]⟩, x₁⟩, ⟨⟨2, ![m, b]⟩, x₂⟩, ⟨⟨2, ![m, c]⟩, x₃⟩] h (ix2 r ⟨k.val, hk⟩)
    0 (by simp) ⟨2, ![m, a]⟩ x₁ rfl rfl 0 rfl (ix2 r k)
    (fun d hd => by
      match d with
      | ⟨0, _⟩ => rfl
      | ⟨1, _⟩ => exact absurd rfl hd)
    (by show 0 + k.val = k.val; omega)

/-- Second range: entry `(r, a + k)`, `k < b`, is `x₂ (r, k)`. -/
theorem concat3_second (x₁ : (⟨2, ![m, a]⟩ : Shape).Idx → α) (x₂ : (⟨2, ![m, b]⟩ : Shape).Idx → α)
    (x₃ : (⟨2, ![m, c]⟩ : Shape).Idx → α)
    (h : Shape.Concatenates [⟨2, ![m, a]⟩, ⟨2, ![m, b]⟩, ⟨2, ![m, c]⟩] ⟨2, ![m, n]⟩ (1 : Fin 2)) (r : Fin m) (k : Fin b)
    (hk : a + k.val < n) :
    concatenate ⟨2, ![m, n]⟩ (1 : Fin 2) [⟨⟨2, ![m, a]⟩, x₁⟩, ⟨⟨2, ![m, b]⟩, x₂⟩, ⟨⟨2, ![m, c]⟩, x₃⟩] h (ix2 r ⟨a + k.val, hk⟩)
      = x₂ (ix2 r k) :=
  concatenate_apply_piece (t := ⟨2, ![m, n]⟩) (1 : Fin 2) [⟨⟨2, ![m, a]⟩, x₁⟩, ⟨⟨2, ![m, b]⟩, x₂⟩, ⟨⟨2, ![m, c]⟩, x₃⟩] h (ix2 r ⟨a + k.val, hk⟩)
    1 (by simp) ⟨2, ![m, b]⟩ x₂ rfl rfl a (by simp) (ix2 r k)
    (fun d hd => by
      match d with
      | ⟨0, _⟩ => rfl
      | ⟨1, _⟩ => exact absurd rfl hd)
    (by show a + k.val = a + k.val; rfl)

/-- Third range: entry `(r, a + b + k)`, `k < c`, is `x₃ (r, k)`. -/
theorem concat3_third (x₁ : (⟨2, ![m, a]⟩ : Shape).Idx → α) (x₂ : (⟨2, ![m, b]⟩ : Shape).Idx → α)
    (x₃ : (⟨2, ![m, c]⟩ : Shape).Idx → α)
    (h : Shape.Concatenates [⟨2, ![m, a]⟩, ⟨2, ![m, b]⟩, ⟨2, ![m, c]⟩] ⟨2, ![m, n]⟩ (1 : Fin 2)) (r : Fin m) (k : Fin c)
    (hk : a + b + k.val < n) :
    concatenate ⟨2, ![m, n]⟩ (1 : Fin 2) [⟨⟨2, ![m, a]⟩, x₁⟩, ⟨⟨2, ![m, b]⟩, x₂⟩, ⟨⟨2, ![m, c]⟩, x₃⟩] h (ix2 r ⟨a + b + k.val, hk⟩)
      = x₃ (ix2 r k) :=
  concatenate_apply_piece (t := ⟨2, ![m, n]⟩) (1 : Fin 2) [⟨⟨2, ![m, a]⟩, x₁⟩, ⟨⟨2, ![m, b]⟩, x₂⟩, ⟨⟨2, ![m, c]⟩, x₃⟩] h (ix2 r ⟨a + b + k.val, hk⟩)
    2 (by simp) ⟨2, ![m, c]⟩ x₃ rfl rfl (a + b) (by simp) (ix2 r k)
    (fun d hd => by
      match d with
      | ⟨0, _⟩ => rfl
      | ⟨1, _⟩ => exact absurd rfl hd)
    (by show a + b + k.val = a + b + k.val; rfl)

/-- A sum over `n = a + b + c` positions is the sum over the first `a`, plus the next `b`, plus the last `c`. -/
theorem sum_split3 {β : Type*} [AddCommMonoid β] (f : Fin n → β) (hn : a + b + c = n) :
    ∑ k : Fin n, f k = ∑ k : Fin a, f ⟨k.val, by have := k.isLt; omega⟩
      + ∑ k : Fin b, f ⟨a + k.val, by have := k.isLt; omega⟩
      + ∑ k : Fin c, f ⟨a + b + k.val, by have := k.isLt; omega⟩ := by
  subst hn
  rw [Fin.sum_univ_add, Fin.sum_univ_add]
  rfl

end Cert.LibConcat3

end
-- ==== Proof.LibColOps.lean ====
/-
  Column and row forms of rank-2 arrays read at an index, for any element type and any extents, and the sum along the
  second axis read at a row: a vector of length `a` cast to a column [a, 1]; a column [a, 1] broadcast along the rows of
  [a, b]; a kernel's lane sum of an [a, b] array into a vector of length `a`, and the host's sum of the same kind from an
  initial value; the host's placements of a vector as a column, of a vector as a row, of a column along every row and of
  a row down every column.
-/
import Idealize.ShloMosaic.Lib.Pipeline.Value
import Idealize.ShloMosaic.Lib.ValueIdx
import Idealize.ShloMosaic.Lib.IdealHost
import Idealize.ShloMosaic.PureOps.Ideal.Laws

noncomputable section

namespace Cert.LibColOps

open Idealize.ShloMosaic Idealize.ShloMosaic.ValueIdx

variable {α : Type} {a b : ℕ}

/-- Entry `(p, 0)` of the column cast of a vector is the vector's entry `p`: both sit at row-major position `p`. -/
theorem shapeCast_col_apply (x : (⟨1, ![a]⟩ : Shape).Idx → α) (h : (⟨1, ![a]⟩ : Shape).ShapeCasts ⟨2, ![a, 1]⟩) (p : Fin a) :
    shapeCast ⟨2, ![a, 1]⟩ x h (ix2 p (0 : Fin 1)) = x (ix1 p) :=
  shapeCast_apply x h (ix2 p (0 : Fin 1)) (ix1 p) (by
    rw [Shape.rowMajor_val_one, Shape.rowMajor_val_two]
    show p.val = p.val * 1 + 0
    omega)

/-- Entry `(p, q)` of a column broadcast along the rows is the column's entry `(p, 0)`. -/
theorem broadcastTo_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p (0 : Fin 1)) :=
  broadcastTo_apply x h (ix2 p q) (ix2 p (0 : Fin 1)) (fun c => by
    match c with
    | ⟨0, _⟩ =>
      show p.val = if a = 1 then 0 else p.val
      have := p.isLt
      split <;> omega
    | ⟨1, _⟩ => rfl)

/-- The index a sum along axis 1 reads at row `p` and summation coordinate `k` is `(p, k)`. -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- A kernel's lane sum of an [a, b] array at row `p` is the sum of the row's entries. -/
theorem multiReduction_row {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (p : Fin a) :
    multiReduction .add [(1 : Fin 2)] ⟨1, ![a]⟩ src acc h hφ hacc (ix1 p) = ∑ k : Fin b, src (ix2 p k) := by
  rw [Ideal.multiReduction_add_single]
  exact Finset.sum_congr rfl fun k _ => congrArg src (lift_row h p k)

/-- The host's sum along axis 1 of an [a, b] array at row `p`: the initial value plus the sum of the row's entries. -/
theorem hostReduceAdd_row {φ : FTy} (x : FVec Ideal ⟨2, ![a, b]⟩ φ) (init : (⟨0, ![]⟩ : Shape).Idx → Ideal φ)
    (h' : (⟨2, ![a, b]⟩ : Shape).ReducesTo [(1 : Fin 2)] ⟨1, ![a]⟩) (h : (⟨2, ![a, b]⟩ : Shape).Reduces [(1 : Fin 2)] ⟨1, ![a]⟩)
    (hu : 0 < (⟨0, ![]⟩ : Shape).numel) (p : Fin a) :
    Host.reduceAdd x init h' hu (ix1 p) = init ix0 + ∑ k : Fin b, x (ix2 p k) := by
  rw [hostReduceAdd_apply, Ideal.hostReduceAdd_single h' h]
  congr 1
  · exact congrArg init (funext fun c => c.elim0)
  · exact Finset.sum_congr rfl fun k _ => congrArg x (lift_row h p k)

/-- The host places a vector as a column: entry `(p, 0)` is the vector's entry `p`. -/
theorem bcastCol_apply (x : (⟨1, ![a]⟩ : Shape).Idx → α) (h : (⟨1, ![a]⟩ : Shape).BroadcastsInDim ⟨2, ![a, 1]⟩ ![0]) (p : Fin a) :
    broadcastInDim ⟨2, ![a, 1]⟩ ![0] h x (ix2 p (0 : Fin 1)) = x (ix1 p) :=
  broadcastInDim_apply ![0] h x (ix2 p (0 : Fin 1)) (ix1 p) (fun c => by
    match c with
    | ⟨0, _⟩ =>
      show p.val = if a = 1 then 0 else p.val
      have := p.isLt
      split <;> omega)

/-- The host places a vector as a row: entry `(0, q)` is the vector's entry `q`. -/
theorem bcastRow_apply (x : (⟨1, ![b]⟩ : Shape).Idx → α) (h : (⟨1, ![b]⟩ : Shape).BroadcastsInDim ⟨2, ![1, b]⟩ ![1]) (q : Fin b) :
    broadcastInDim ⟨2, ![1, b]⟩ ![1] h x (ix2 (0 : Fin 1) q) = x (ix1 q) :=
  broadcastInDim_apply ![1] h x (ix2 (0 : Fin 1) q) (ix1 q) (fun c => by
    match c with
    | ⟨0, _⟩ =>
      show q.val = if b = 1 then 0 else q.val
      have := q.isLt
      split <;> omega)

/-- The host lays a column along every row: entry `(p, q)` is the column's entry `(p, 0)`. -/
theorem bcastCols_apply (x : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h x (ix2 p q) = x (ix2 p (0 : Fin 1)) :=
  broadcastInDim_apply ![0, 1] h x (ix2 p q) (ix2 p (0 : Fin 1)) (fun c => by
    match c with
    | ⟨0, _⟩ =>
      show p.val = if a = 1 then 0 else p.val
      have := p.isLt
      split <;> omega
    | ⟨1, _⟩ => rfl)

/-- The host lays a row down every column: entry `(p, q)` is the row's entry `(0, q)`. -/
theorem bcastRows_apply (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) :=
  broadcastInDim_apply ![0, 1] h x (ix2 p q) (ix2 (0 : Fin 1) q) (fun c => by
    match c with
    | ⟨0, _⟩ => rfl
    | ⟨1, _⟩ =>
      show q.val = if b = 1 then 0 else q.val
      have := q.isLt
      split <;> omega)

end Cert.LibColOps

end
-- ==== Proof.LibMatmulT.lean ====
/-
  A matrix product whose LEFT operand is read transposed, accumulated into the zero splat, read at an index over the
  extended reals: for `A : [k, m]` and `B : [k, n]`, contracting axis 0 of both, entry (r, c) of the product is
  the sum over the contracted coordinate `i` of `A (i, r) · B (i, c)` — the product of the transpose of `A` with `B`.
-/
import Idealize.ShloMosaic.Lib.Pipeline.Value
import Idealize.ShloMosaic.Lib.ValueIdx
import proofs.«206043_g84026740179769_cont_sun_m_427_41_alg».proof.Proof.LibContrCongr
import Idealize.ShloMosaic.PureOps.Ideal.Laws

noncomputable section

namespace Cert.LibMatmulT

open Idealize.ShloMosaic Idealize.ShloMosaic.ValueIdx

/-- The product of the transpose of a k×m matrix with a k×n matrix (axis 0 of both contracted) accumulated into the
    zero splat, read at `(r, c)`. `w` is the record's well-formedness, which a program states. -/
theorem matmulT_zero_apply {m k n : ℕ} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (r : Fin m) (c : Fin n) :
    matmul (⟨[0], [0], [1], [1], [], [], w⟩ : DotDims _ _ _) prec A B
        (constant (F := Ideal) ⟨2, ![m, n]⟩ .f32 0x00000000#32) (ix2 r c)
      = ∑ i : Fin k, A (ix2 i r) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[0], [0], [1], [1], [], [], w⟩ : DotDims _ _ _) k rfl rfl).symm]
  refine Finset.sum_congr rfl fun i _ => ?_
  have c2 := contrEquiv1_symm_val
    (⟨[0], [0], [1], [1], [], [], w⟩ : DotDims ⟨2, ![k, m]⟩ ⟨2, ![k, n]⟩ ⟨2, ![m, n]⟩) k rfl rfl i
  have l2 : (⟨[0], [0], [1], [1], [], [], w⟩ : DotDims ⟨2, ![k, m]⟩ ⟨2, ![k, n]⟩ ⟨2, ![m, n]⟩).lhsIdx (ix2 r c)
      ((contrEquiv1 _ k rfl rfl).symm i) = ix2 i r := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.LibMatmulT

end
-- ==== Proof.BridgeKerRow.lean ====
/-
  The 384-column row the TensorCore call multiplies into its table, read at an index over the extended reals.  Of edge
  `y` of a block: columns 0 … 127 are the one-hot row of the sender's charge (1 at the column the charge word names,
  0 elsewhere), columns 128 … 255 the one-hot row of the receiver's charge, columns 256 … 383 the gate (by the
  hyperbolic tangent) of the radial pre-activation, whose product reads the radial basis transposed.
-/
import proofs.«206043_g84026740179769_cont_sun_m_427_41_alg».proof.Proof.KerSpec
import proofs.«206043_g84026740179769_cont_sun_m_427_41_alg».proof.Proof.BridgeForm
import proofs.«206043_g84026740179769_cont_sun_m_427_41_alg».proof.Proof.LibConcat3
import proofs.«206043_g84026740179769_cont_sun_m_427_41_alg».proof.Proof.LibColOps
import proofs.«206043_g84026740179769_cont_sun_m_427_41_alg».proof.Proof.LibRowOps
import proofs.«206043_g84026740179769_cont_sun_m_427_41_alg».proof.Proof.LibMatmulT

noncomputable section

namespace Cert.Bridge

open Idealize.ShloMosaic Idealize.ShloMosaic.ValueIdx Cert.KernelIdeal Cert.KernelIdeal.Spec
open Cert.KernelIdeal.Facts₀ Cert.KernelIdeal.Facts

variable [Cert.KernelIdeal.Facts]

/-- The one-hot entry: 1 at the column the word names, 0 elsewhere. -/
def oneHot (w : BitVec 32) (k : Fin 128) : EReal := if w.toNat = k.val then 1 else 0

/-- Comparing a column number with a word, widening the bit and converting it gives the one-hot entry. -/
theorem onehot_word (k : Fin 128) (w : BitVec 32) :
    (FloatOps.sitofp (F := Ideal) .f32 ((IntOp.cmpi .eq (BitVec.ofNat 32 k.val) w).setWidth 32) : EReal) = oneHot w k := by
  have hk := k.isLt
  show (((((IntOp.cmpi .eq (BitVec.ofNat 32 k.val) w).setWidth 32).toInt : ℤ) : ℝ) : EReal) = oneHot w k
  unfold oneHot
  by_cases h : BitVec.ofNat 32 k.val = w
  · subst h
    have e : IntOp.cmpi .eq (BitVec.ofNat 32 k.val) (BitVec.ofNat 32 k.val) = 1#1 := by simp [IntOp.cmpi]
    rw [e, if_pos (by rw [BitVec.toNat_ofNat]; omega)]
    simp
  · have hb : (BitVec.ofNat 32 k.val == w) = false := by simpa using h
    have e : IntOp.cmpi .eq (BitVec.ofNat 32 k.val) w = 0#1 := by simp [IntOp.cmpi, hb]
    rw [e, if_neg]
    · simp
    · intro hw
      apply h
      apply BitVec.eq_of_toNat_eq
      rw [BitVec.toNat_ofNat, hw]; omega

/-- The radial pre-activation as the kernel computes it for edge `y` of a block: the product reads the transposed block. -/
def z1K (rT : FVec Ideal S16x16000 .bf16) (wrbf : FVec Ideal S16x128 .bf16) (brbf : FVec Ideal S1x128 .f32)
    (y : Fin 16000) (k : Fin 128) : EReal :=
  ∑ i : Fin 16, rT (ix2 i y) * wrbf (ix2 i k) + brbf (ix2 (0 : Fin 1) k)

/-- The hyperbolic tangent of a vector at an index. -/
theorem vtanh_apply {s : Shape} {φ : FTy} (x : FVec Ideal s φ) (i : s.Idx) : tanh x i = Ideal.tanh (x i) := rfl

/-- The kernel's radial product (the left operand read transposed) at an index. -/
theorem z1K_matmul (rT : FVec Ideal S16x16000 .bf16) (wrbf : FVec Ideal S16x128 .bf16) (y : Fin 16000) (k : Fin 128) :
    matmul dot_S16x16000_S16x128_S16000x128_0_0_1_1_n_n none rT wrbf (constant (F := Ideal) S16000x128 .f32 0x00000000#32) (ix2 y k)
      = ∑ i : Fin 16, rT (ix2 i y) * wrbf (ix2 i k) :=
  Cert.LibMatmulT.matmulT_zero_apply dot_S16x16000_S16x128_S16000x128_0_0_1_1_n_n_wf none rT wrbf y k

/-- A charge index vector as a column spread over the 128 columns: entry (y, k) is the vector's entry y. -/
theorem colSpread_apply (v : IVec S16000 32) (y : Fin 16000) (k : Fin 128) :
    broadcastTo S16000x128 (shapeCast S16000x1 (shapeCast S16000 v shapeCasts_S16000_S16000) shapeCasts_S16000_S16000x1)
      broadcasts_S16000x1_S16000x128 (ix2 y k) = v (ix1 y) := by
  rw [Cert.LibColOps.broadcastTo_col_apply, Cert.LibColOps.shapeCast_col_apply, shapeCast_self]

/-- Columns 0 … 127: the one-hot row of the first index vector. -/
theorem pay5_first (v5 v8 : IVec S16000 32) (rT : FVec Ideal S16x16000 .bf16) (wrbf : FVec Ideal S16x128 .bf16)
    (brbf : FVec Ideal S1x128 .f32) (y : Fin 16000) (k : Fin 128) (h : k.val < 384) :
    Gen.k1_pay5 (F := Ideal) v5 v8 rT wrbf brbf (ix2 y (⟨k.val, h⟩ : Fin 384)) = oneHot (v5 (ix1 y)) k := by
  unfold Gen.k1_pay5
  refine (Cert.LibConcat3.concat3_first _ _ _ concatenates_S16000x128_S16000x128_S16000x128_S16000x384_d1 y k h).trans ?_
  rw [truncf_apply, sitofp_apply, extui_apply]
  show (FloatOps.sitofp (F := Ideal) .f32 ((IntOp.cmpi .eq (iota .tc S16000x128 32 [1] iota_S16000x128_d1_w32 (ix2 y k))
    (broadcastTo S16000x128 (shapeCast S16000x1 (shapeCast S16000 v5 shapeCasts_S16000_S16000) shapeCasts_S16000_S16000x1)
      broadcasts_S16000x1_S16000x128 (ix2 y k))).setWidth 32) : EReal) = _
  rw [colSpread_apply, iota_single_apply]
  exact onehot_word k _

/-- Columns 128 … 255: the one-hot row of the second index vector. -/
theorem pay5_second (v5 v8 : IVec S16000 32) (rT : FVec Ideal S16x16000 .bf16) (wrbf : FVec Ideal S16x128 .bf16)
    (brbf : FVec Ideal S1x128 .f32) (y : Fin 16000) (k : Fin 128) (h : 128 + k.val < 384) :
    Gen.k1_pay5 (F := Ideal) v5 v8 rT wrbf brbf (ix2 y (⟨128 + k.val, h⟩ : Fin 384)) = oneHot (v8 (ix1 y)) k := by
  unfold Gen.k1_pay5
  refine (Cert.LibConcat3.concat3_second _ _ _ concatenates_S16000x128_S16000x128_S16000x128_S16000x384_d1 y k h).trans ?_
  rw [truncf_apply, sitofp_apply, extui_apply]
  show (FloatOps.sitofp (F := Ideal) .f32 ((IntOp.cmpi .eq (iota .tc S16000x128 32 [1] iota_S16000x128_d1_w32 (ix2 y k))
    (broadcastTo S16000x128 (shapeCast S16000x1 (shapeCast S16000 v8 shapeCasts_S16000_S16000) shapeCasts_S16000_S16000x1)
      broadcasts_S16000x1_S16000x128 (ix2 y k))).setWidth 32) : EReal) = _
  rw [colSpread_apply, iota_single_apply]
  exact onehot_word k _

/-- Columns 256 … 383: the gate of the radial pre-activation. -/
theorem pay5_third (v5 v8 : IVec S16000 32) (rT : FVec Ideal S16x16000 .bf16) (wrbf : FVec Ideal S16x128 .bf16)
    (brbf : FVec Ideal S1x128 .f32) (y : Fin 16000) (k : Fin 128) (h : 128 + 128 + k.val < 384) :
    Gen.k1_pay5 (F := Ideal) v5 v8 rT wrbf brbf (ix2 y (⟨128 + 128 + k.val, h⟩ : Fin 384)) = act (z1K rT wrbf brbf y k) := by
  unfold Gen.k1_pay5
  refine (Cert.LibConcat3.concat3_third _ _ _ concatenates_S16000x128_S16000x128_S16000x128_S16000x384_d1 y k h).trans ?_
  simp only [truncf_apply, mulf_apply, addf_apply, broadcast_apply, shapeCast_self, vtanh_apply]
  rw [Cert.KernelBody.broadcastTo_row_apply, z1K_matmul]
  rfl

end Cert.Bridge

end
-- ==== Proof.LibSigmoid.lean ====
/-
  Real-number facts that join a logistic gate written with the exponential to one written with the hyperbolic tangent,
  and the small algebra of the extended reals around them.

  For a real `r`,  1 / (1 + exp (-r)) = ½ · tanh (½ · r) + ½ : with a = exp (r/2) both sides are a / (a + 1/a).  So the
  gated value `r · (1 / (1 + exp (-r)))` equals `r · (½ · tanh (½ · r) + ½)`, and both are real numbers.  The words of
  the floats one and one half denote the reals 1 and ½.  An extended real is called real when it is the image of a real
  number; sums and products of reals are real (the coercion commutes with finite sums).  A row with a single one and
  zeros elsewhere, multiplied into any family of extended reals and summed, picks out one member: `0 · x = 0` and
  `1 · x = x` hold for every extended real, the infinities included.
-/
import Idealize.ShloMosaic.PureOps.Ideal.Laws

noncomputable section

namespace Cert.LibSigmoid

open Idealize.ShloMosaic
open scoped BigOperators

/-- The word of the float one half denotes the real ½. -/
theorem half_word : Ideal.ofBits .f32 0x3F000000#32 = ((1 / 2 : ℝ) : EReal) := by
  simp [Ideal.ofBits, Ideal.ieee, -EReal.coe_mul]; norm_num

/-- The word of the float one denotes the real 1. -/
theorem one_word : Ideal.ofBits .f32 0x3F800000#32 = ((1 : ℝ) : EReal) := by
  simp [Ideal.ofBits, Ideal.ieee, -EReal.coe_mul]; norm_num

/-- An extended real that is the image of a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- The word of a finite float (exponent field neither all ones) denotes a real number: here the gain's word. -/
theorem gain_real : IsReal (Ideal.ofBits .f32 0x3FD6978D#32) := by
  simp only [Ideal.ofBits, Ideal.ieee]
  rw [if_neg (by decide), if_neg (by decide)]
  exact ⟨_, rfl⟩

/-- The logistic function by the exponential and by the hyperbolic tangent. -/
theorem sigmoid_tanh (r : ℝ) : (1 + Real.exp (-r))⁻¹ = 1 / 2 * Real.tanh (1 / 2 * r) + 1 / 2 := by
  have h1 : Real.exp (-r) = (Real.exp (1 / 2 * r))⁻¹ * (Real.exp (1 / 2 * r))⁻¹ := by
    rw [← Real.exp_neg, ← Real.exp_add]; congr 1; ring
  have ha : 0 < Real.exp (1 / 2 * r) := Real.exp_pos _
  rw [h1, Real.tanh_eq_sinh_div_cosh, Real.sinh_eq, Real.cosh_eq, Real.exp_neg]
  generalize Real.exp (1 / 2 * r) = a at ha
  have : a ≠ 0 := ne_of_gt ha
  field_simp
  ring

/-- The gate by the exponential, on a real argument, is a real number. -/
theorem silu_coe (r : ℝ) :
    (r : EReal) * Ideal.div (Ideal.ofBits .f32 0x3F800000#32) (Ideal.ofBits .f32 0x3F800000#32 + Ideal.exp (-(r : EReal)))
      = ((r * (1 + Real.exp (-r))⁻¹ : ℝ) : EReal) := by
  have hpos : (1 + Real.exp (-r)) ≠ 0 := ne_of_gt (by positivity)
  rw [one_word, ← EReal.coe_neg, Ideal.exp_coe, ← EReal.coe_add, Ideal.div_coe hpos, ← EReal.coe_mul, ← EReal.coe_mul]
  congr 1
  rw [one_mul, one_div]

/-- The gate by the hyperbolic tangent, on a real argument, is a real number. -/
theorem act_coe (r : ℝ) :
    (r : EReal) * (Ideal.ofBits .f32 0x3F000000#32 * Ideal.tanh (Ideal.ofBits .f32 0x3F000000#32 * (r : EReal))
        + Ideal.ofBits .f32 0x3F000000#32)
      = ((r * (1 / 2 * Real.tanh (1 / 2 * r) + 1 / 2) : ℝ) : EReal) := by
  rw [half_word, ← EReal.coe_mul, Ideal.tanh_coe, ← EReal.coe_mul, ← EReal.coe_add, ← EReal.coe_mul]

/-- THE LAW: on a real argument the two gates are the same number. -/
theorem silu_eq_act (r : ℝ) :
    (r : EReal) * Ideal.div (Ideal.ofBits .f32 0x3F800000#32) (Ideal.ofBits .f32 0x3F800000#32 + Ideal.exp (-(r : EReal)))
      = (r : EReal) * (Ideal.ofBits .f32 0x3F000000#32 * Ideal.tanh (Ideal.ofBits .f32 0x3F000000#32 * (r : EReal))
        + Ideal.ofBits .f32 0x3F000000#32) := by
  rw [silu_coe, act_coe, sigmoid_tanh]

theorem silu_real {x : EReal} (hx : IsReal x) :
    IsReal (x * Ideal.div (Ideal.ofBits .f32 0x3F800000#32) (Ideal.ofBits .f32 0x3F800000#32 + Ideal.exp (-x))) := by
  obtain ⟨r, rfl⟩ := hx; exact ⟨_, silu_coe r⟩

/-- A row with a single one, multiplied into a family and summed, picks out one member. -/
theorem sum_onehot {n : ℕ} (c : Fin n) (oh X : Fin n → EReal) (h1 : oh c = 1) (h0 : ∀ k, k ≠ c → oh k = 0) :
    ∑ k : Fin n, oh k * X k = X c := by
  rw [Finset.sum_eq_single c]
  · rw [h1, one_mul]
  · intro k _ hk; rw [h0 k hk, zero_mul]
  · intro h; exact absurd (Finset.mem_univ c) h

/-- Moving a common factor across a product: `(a · g) · w = a · (w · g)`. -/
theorem mul_gain_comm (a g w : EReal) : (a * g) * w = a * (w * g) := by
  rw [mul_assoc, mul_comm g w]

end Cert.LibSigmoid

end
-- ==== Proof.BridgeKerOut.lean ====
/-
  The kernel program's result read at an index over the extended reals.

  Block `t`, edge `y` of the block, is edge `e = 16000 · t + y`.  The stored value is the gate (by the hyperbolic
  tangent) of the 384-term contraction of the row with the table, plus the bias, times the gain.  The contraction
  splits in three 128-term sums.  In the first two the row is one-hot at the charge's column, so the sum is the
  table's row at that column — `0 · x = 0` and `1 · x = x` for every extended real — and that row of the padded
  embedding table is the table's own row, the charge being at most 94.
-/
import proofs.«206043_g84026740179769_cont_sun_m_427_41_alg».proof.Proof.BridgeKerHost
import proofs.«206043_g84026740179769_cont_sun_m_427_41_alg».proof.Proof.BridgeKerTbl
import proofs.«206043_g84026740179769_cont_sun_m_427_41_alg».proof.Proof.BridgeKerRow
import proofs.«206043_g84026740179769_cont_sun_m_427_41_alg».proof.Proof.LibSigmoid

noncomputable section

namespace Cert.Bridge

open Idealize.ShloMosaic Idealize.ShloMosaic.ValueIdx Cert.KernelIdeal Cert.KernelIdeal.Spec
open Cert.KernelIdeal.Facts₀ Cert.KernelIdeal.Facts
open scoped BigOperators

variable [Cert.KernelIdeal.Facts]

/-- The final product (row times table) at an index. -/
theorem pay1_matmul (A : FVec Ideal S16000x384 .bf16) (T : FVec Ideal S384x128 .bf16) (y : Fin 16000) (c : Fin 128) :
    matmul dot_S16000x384_S384x128_S16000x128_1_0_0_1_n_n none A T (constant (F := Ideal) S16000x128 .f32 0x00000000#32) (ix2 y c)
      = ∑ k : Fin 384, A (ix2 y k) * T (ix2 k c) :=
  Cert.KernelBody.matmul_plain_zero_apply dot_S16000x384_S384x128_S16000x128_1_0_0_1_n_n_wf none A T y c

/-- What the TensorCore call stores, at an index: the gate of the contraction plus the bias, times the gain. -/
theorem pay1_apply (A : FVec Ideal S16000x384 .bf16) (T : FVec Ideal S384x128 .bf16) (b : FVec Ideal S1x128 .f32)
    (y : Fin 16000) (c : Fin 128) :
    Gen.k1_pay1 (F := Ideal) A T b (ix2 y c) = act (∑ k : Fin 384, A (ix2 y k) * T (ix2 k c) + b (ix2 (0 : Fin 1) c)) * gW := by
  unfold Gen.k1_pay1
  simp only [mulf_apply, addf_apply, broadcast_apply, shapeCast_self, vtanh_apply]
  rw [Cert.KernelBody.broadcastTo_row_apply, pay1_matmul]
  rfl

/-- Block `t` of an index array at `y` is the array at edge `16000 · t + y`. -/
theorem blk1_apply (v : IVec S320000 32) (t : Fin 20) (y : Fin 16000) (e : Fin 320000) (he : 16000 * t.val + y.val = e.val) :
    blk1 (F := Ideal) v t (ix1 y) = v (ix1 e) := by
  unfold blk1
  exact congrArg v (congrArg ix1 (Fin.ext he))

/-- Column block `t` of the transposed radial basis at (i, y) is the basis at (e, i). -/
theorem blkC_apply (rbf : FVec Ideal S320000x16 .f32) (t : Fin 20) (y : Fin 16000) (e : Fin 320000)
    (he : 16000 * t.val + y.val = e.val) (i : Fin 16) :
    blkC (F := Ideal) (rbfT rbf) t (ix2 i y) = rbf (ix2 e i) := by
  unfold blkC
  refine Eq.trans (congrArg (rbfT (F := Ideal) rbf) ?_) (rbfT_apply rbf i e)
  funext a
  match a with
  | ⟨0, _⟩ => rfl
  | ⟨1, _⟩ => exact Fin.ext he

/-- The kernel's radial pre-activation of edge `y` of block `t` is the radial pre-activation of edge `e`. -/
theorem z1K_eq (rbf : FVec Ideal S320000x16 .f32) (wrbf : FVec Ideal S16x128 .f32) (brbf : FVec Ideal S128 .f32)
    (t : Fin 20) (y : Fin 16000) (e : Fin 320000) (he : 16000 * t.val + y.val = e.val) (k : Fin 128) :
    z1K (blkC (F := Ideal) (rbfT rbf) t) (wRbf wrbf) (rowOf brbf) y k = z1 rbf wrbf brbf e k := by
  unfold z1K z1
  rw [rowOf_apply]
  congr 1
  exact Finset.sum_congr rfl fun i _ => by rw [blkC_apply rbf t y e he i, wRbf_apply]

/-- A one-hot row against the padded table times a slab: the embedding row of the charge against that slab. -/
theorem onehot_term (emb : FVec Ideal S95x128 .f32) (wout : FVec Ideal S384x128 .f32) (W : FVec Ideal S128x128 .f32)
    (off : ℕ) (hoff : off + 128 ≤ 384)
    (hW : ∀ (m c : Fin 128), W (ix2 m c) = wout (ix2 (⟨off + m.val, by have := m.isLt; omega⟩ : Fin 384) c))
    (w : BitVec 32) (hw : w.toNat ≤ 94) (c : Fin 128) :
    ∑ k : Fin 128, oneHot w k * ∑ m : Fin 128, embPad (F := Ideal) emb (ix2 k m) * W (ix2 m c)
      = embTerm emb wout off hoff (row w) c := by
  have h1 : oneHot w (⟨w.toNat, by omega⟩ : Fin 128) = 1 := if_pos rfl
  have h0 : ∀ k : Fin 128, k ≠ (⟨w.toNat, by omega⟩ : Fin 128) → oneHot w k = 0 :=
    fun k hk => if_neg (fun h => hk (Fin.ext h.symm))
  refine (Cert.LibSigmoid.sum_onehot (⟨w.toNat, by omega⟩ : Fin 128) (oneHot w)
    (fun k => ∑ m : Fin 128, embPad (F := Ideal) emb (ix2 k m) * W (ix2 m c)) h1 h0).trans ?_
  unfold embTerm
  refine Finset.sum_congr rfl fun m _ => ?_
  rw [embPad_apply, dif_pos (show w.toNat < 95 by omega), hW]
  refine congrArg (fun q => emb (ix2 q m) * _) (Fin.ext ?_)
  show w.toNat = min w.toNat 94
  omega

/-- Block `t` at (y, c): the closed form at edge `e = 16000 · t + y`. -/
theorem outBlk_apply (cs cr : IVec S320000 32) (rbf : FVec Ideal S320000x16 .f32) (emb : FVec Ideal S95x128 .f32)
    (wrbf : FVec Ideal S16x128 .f32) (brbf : FVec Ideal S128 .f32) (wout : FVec Ideal S384x128 .f32) (bout : FVec Ideal S128 .f32)
    (t : Fin 20) (y : Fin 16000) (c : Fin 128) (e : Fin 320000) (he : 16000 * t.val + y.val = e.val)
    (hcs : (cs (ix1 e)).toNat ≤ 94) (hcr : (cr (ix1 e)).toNat ≤ 94) :
    outBlk (F := Ideal) cs cr (rbfT rbf) (embPad emb) (wS wout) (wR wout) (wQ wout) (wRbf wrbf) (rowOf brbf) (rowOf bout) t (ix2 y c)
      = act (embTerm emb wout 0 (by norm_num) (row (cs (ix1 e))) c + embTerm emb wout 128 (by norm_num) (row (cr (ix1 e))) c
          + ∑ k : Fin 128, act (z1 rbf wrbf brbf e k) * (wout (ix2 (⟨256 + k.val, by have := k.isLt; omega⟩ : Fin 384) c) * gW)
          + bout (ix1 c)) * gW := by
  unfold outBlk
  rw [pay1_apply, Cert.LibConcat3.sum_split3 (a := 128) (b := 128) (c := 128) _ rfl, rowOf_apply]
  refine congrArg (fun s => act (s + bout (ix1 c)) * gW) ?_
  refine congrArg₂ (fun a b : EReal => a + b) (congrArg₂ (fun a b : EReal => a + b) ?_ ?_) ?_
  · -- the sender's one-hot columns
    refine Eq.trans (Finset.sum_congr rfl fun k _ => ?_) (onehot_term emb wout (wS wout) 0 (by norm_num) (wS_apply wout) _ hcs c)
    rw [pay5_first, tbl_first, blk1_apply cs t y e he]
  · -- the receiver's one-hot columns
    refine Eq.trans (Finset.sum_congr rfl fun k _ => ?_) (onehot_term emb wout (wR wout) 128 (by norm_num) (wR_apply wout) _ hcr c)
    rw [pay5_second, tbl_second, blk1_apply cr t y e he]
  · -- the radial columns
    refine Finset.sum_congr rfl fun k _ => ?_
    rw [pay5_third, tbl_third, z1K_eq rbf wrbf brbf t y e he k, wQ_apply]

/-- The kernel program's result at (e, c). -/
theorem ker_at (rbf : FVec Ideal S320000x16 .f32) (charges : IVec S10000 32) (senders receivers : IVec S320000 32)
    (emb : FVec Ideal S95x128 .f32) (wrbf : FVec Ideal S16x128 .f32) (brbf : FVec Ideal S128 .f32)
    (wout : FVec Ideal S384x128 .f32) (bout : FVec Ideal S128 .f32)
    (hch : ∀ n, (charges n).toNat ≤ 94) (hs : ∀ e, (senders e).toNat ≤ 9999) (hr : ∀ e, (receivers e).toNat ≤ 9999)
    (e : Fin 320000) (c : Fin 128) :
    Cert.KernelIdeal.Spec.out (F := Ideal) rbf charges senders receivers emb wrbf brbf wout bout (ix2 e c)
      = act (embTerm emb wout 0 (by norm_num) (rowAt charges senders e) c
          + embTerm emb wout 128 (by norm_num) (rowAt charges receivers e) c
          + ∑ k : Fin 128, act (z1 rbf wrbf brbf e k) * (wout (ix2 (⟨256 + k.val, by have := k.isLt; omega⟩ : Fin 384) c) * gW)
          + bout (ix1 c)) * gW := by
  have he := e.isLt
  have hgs := gath_apply charges senders e (hs _)
  have hgr := gath_apply charges receivers e (hr _)
  unfold Cert.KernelIdeal.Spec.out Cert.KernelIdeal.Spec.stack
  refine (outBlk_apply (gath charges senders) (gath charges receivers) rbf emb wrbf brbf wout bout
    ⟨e.val / 16000, by omega⟩ ⟨e.val % 16000, Nat.mod_lt _ (by norm_num)⟩ c e (Nat.div_add_mod e.val 16000)
    (by rw [hgs]; exact hch _) (by rw [hgr]; exact hch _)).trans ?_
  rw [hgs, hgr]
  rfl

end Cert.Bridge

end
-- ==== Proof.LibGatherRows.lean ====
/-
  The host's row gather read at an index.  Indexing the rows of an [N, C] array by an integer column of E row
  numbers (what `x[idx]` of a matrix at a vector of indices lowers to: offset axis 1, collapsed axis 0, start index
  map [0], the index vector on axis 1 of the [E, 1] start indices, slices of one row) gives at (r, j) the entry j of
  row `rowSel idx r` of the array: the r-th start index read as a signed integer and clamped into [0, N - 1].
  The row chosen does not depend on the width C, so gathering rows commutes with any map that acts row by row.
-/
import Idealize.ShloMosaic.Lib.Pipeline.Value
import Idealize.ShloMosaic.Lib.ValueIdx

noncomputable section

namespace Cert.HostGather

open Idealize.ShloMosaic Idealize.ShloMosaic.ValueIdx

variable {α : Type}

/-- The row of an N-row array that start index number `r` selects: the index word read signed, clamped to the last row. -/
def rowSel {N E w : ℕ} (hN : 0 < N) (idx : IVec ⟨2, ![E, 1]⟩ w) (r : Fin E) : Fin N :=
  ⟨min (idx (ix2 r (0 : Fin 1))).toInt.toNat (N - 1), by omega⟩

/-- The row gather at `(r, j)` is the array at row `rowSel idx r`, column `j`.  `wf` is the record's
    well-formedness, which a program states. -/
theorem gather_rows_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (r : Fin E) (j : Fin C) :
    Host.gather (⟨[1], [0], [], [], [0], 1, ![1, C], wf⟩ : GatherDims ⟨2, ![N, C]⟩ ⟨2, ![E, 1]⟩ ⟨2, ![E, C]⟩) x idx (ix2 r j)
      = x (ix2 (rowSel hN idx r) j) := by
  unfold Host.gather
  congr 1
  funext a
  refine Fin.ext ?_
  let d : GatherDims ⟨2, ![N, C]⟩ ⟨2, ![E, 1]⟩ ⟨2, ![E, C]⟩ := ⟨[1], [0], [], [], [0], 1, ![1, C], wf⟩
  have hb : ∀ a, d.batchCoord (ix2 r j) a = 0 := fun a => GatherDims.batchCoord_eq_zero _ _ _ List.not_mem_nil
  have ho0 : d.offCoord (ix2 r j) (0 : Fin 2) = 0 :=
    GatherDims.offCoord_eq_zero _ _ _ (fun h => ((GatherDims.mem_sKept _ _).mp h).1 (List.mem_singleton.mpr rfl))
  have hs0 : d.start (ix2 r j) idx (0 : Fin 2) = min (idx (ix2 r (0 : Fin 1))).toInt.toNat (N - 1) := by
    unfold GatherDims.start
    rw [dif_pos (show (0 : Fin 2) ∈ d.startIndexMap from List.mem_singleton.mpr rfl)]
    have hsi : d.siIdx (ix2 r j) ⟨List.idxOf (0 : Fin 2) d.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have hs1 : d.start (ix2 r j) idx (1 : Fin 2) = 0 := by
    unfold GatherDims.start
    rw [dif_neg (show (1 : Fin 2) ∉ d.startIndexMap from
      fun h => Nat.one_ne_zero (congrArg Fin.val (List.mem_singleton.mp h)))]
  have hk1 : (1 : Fin 2) ∈ d.sKept :=
    (GatherDims.mem_sKept _ _).mpr ⟨fun h => Nat.one_ne_zero (congrArg Fin.val (List.mem_singleton.mp h)), List.not_mem_nil⟩
  have ho1 : d.offCoord (ix2 r j) (1 : Fin 2) = j.val := by
    unfold GatherDims.offCoord
    rw [dif_pos hk1]
    rfl
  match a with
  | ⟨0, _⟩ =>
    show d.start (ix2 r j) idx (0 : Fin 2) + d.batchCoord (ix2 r j) (0 : Fin 2) + d.offCoord (ix2 r j) (0 : Fin 2)
      = min (idx (ix2 r (0 : Fin 1))).toInt.toNat (N - 1)
    rw [hs0, hb, ho0]
    rfl
  | ⟨1, _⟩ =>
    show d.start (ix2 r j) idx (1 : Fin 2) + d.batchCoord (ix2 r j) (1 : Fin 2) + d.offCoord (ix2 r j) (1 : Fin 2) = j.val
    rw [hs1, hb, ho1]; omega

end Cert.HostGather

end
-- ==== Proof.LibRefHost.lean ====
/-
  Host operations read at an index, for any extents: an and-reduction of all-ones bits; the gather of whole matrices
  of a stack [N, A, B] by a column of E row numbers (what `x[idx]` of a rank-3 array at a vector of indices lowers
  to), read at (r, p, q) as the stack at member `rowSel idx r`; the product of each row of an [M, K] array with the
  matching matrix of an [M, K, N] stack (batch axis 0 on both, the row contracted with the matrix's first axis), read at
  (m, c) as the sum over the contracted coordinate; and a 32-bit word below 2^31 read as a signed integer.
-/
import Idealize.ShloMosaic.Lib.Pipeline.Value
import Idealize.ShloMosaic.Lib.ValueIdx
import proofs.«206043_g84026740179769_cont_sun_m_427_41_alg».proof.Proof.LibContrCongr
import Idealize.ShloMosaic.Lib.IdealHost
import Idealize.ShloMosaic.PureOps.Ideal.Laws
import proofs.«206043_g84026740179769_cont_sun_m_427_41_alg».proof.Proof.LibGatherRows

noncomputable section

namespace Cert.LibRefHost

open Idealize.ShloMosaic Idealize.ShloMosaic.ValueIdx Cert.HostGather

/-! ## Words -/

/-- A 32-bit word below 2^31 read signed is its value. -/
theorem toInt_of_lt {x : BitVec 32} (h : x.toNat < 2 ^ 31) : x.toInt = (x.toNat : Int) := by
  rw [BitVec.toInt_eq_toNat_cond]
  split
  · rfl
  · omega

/-- Such a word is not below zero, signed. -/
theorem cmpi_slt_zero {x : BitVec 32} (h : x.toNat < 2 ^ 31) : IntOp.cmpi .slt x 0#32 = 0#1 := by
  have hx := toInt_of_lt h
  have h0 : ¬ ((x.toNat : Int) < 0) := by omega
  simp only [IntOp.cmpi, BitVec.slt, hx]
  simp [h0]

/-- Such a word is at least zero, signed. -/
theorem cmpi_sge_zero {x : BitVec 32} (h : x.toNat < 2 ^ 31) : IntOp.cmpi .sge x 0#32 = 1#1 := by
  have hx := toInt_of_lt h
  simp only [IntOp.cmpi, BitVec.sle, hx]
  simp

/-- A word at most `L`, both below 2^31, is at most `L` signed. -/
theorem cmpi_sle_of_le {x L : BitVec 32} (h : x.toNat ≤ L.toNat) (hL : L.toNat < 2 ^ 31) : IntOp.cmpi .sle x L = 1#1 := by
  have hx := toInt_of_lt (x := x) (by omega)
  have hl := toInt_of_lt hL
  simp only [IntOp.cmpi, BitVec.sle, hx, hl]
  simp [h]

/-! ## An and-reduction of ones -/

/-- The host's and-reduction of an array of one bits from the one bit is the one bit at every index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  generalize ((List.finRange s.numel).filter fun n => h.drop (s.rowMajor.symm n) = j) = l
  induction l with
  | nil => rfl
  | cons a l ih =>
    rw [List.foldl_cons, hx]
    exact ih

/-! ## The gather of whole matrices -/

variable {α : Type}

/-- The gather of matrices at `(r, p, q)` is the stack at member `rowSel idx r`, entry `(p, q)`. `wf` is the record's
    well-formedness, which a program states. -/
theorem gather_mats_apply {N E A B w : ℕ} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (r : Fin E) (p : Fin A) (q : Fin B) :
    Host.gather (⟨[1, 2], [0], [], [], [0], 1, ![1, A, B], wf⟩ : GatherDims ⟨3, ![N, A, B]⟩ ⟨2, ![E, 1]⟩ ⟨3, ![E, A, B]⟩) x idx
        (ix3 r p q)
      = x (ix3 (rowSel hN idx r) p q) := by
  unfold Host.gather
  congr 1
  funext a
  refine Fin.ext ?_
  let d : GatherDims ⟨3, ![N, A, B]⟩ ⟨2, ![E, 1]⟩ ⟨3, ![E, A, B]⟩ := ⟨[1, 2], [0], [], [], [0], 1, ![1, A, B], wf⟩
  have hb : ∀ a, d.batchCoord (ix3 r p q) a = 0 := fun a => GatherDims.batchCoord_eq_zero _ _ _ List.not_mem_nil
  have ho0 : d.offCoord (ix3 r p q) (0 : Fin 3) = 0 :=
    GatherDims.offCoord_eq_zero _ _ _ (fun h => ((GatherDims.mem_sKept _ _).mp h).1 (List.mem_singleton.mpr rfl))
  have hs0 : d.start (ix3 r p q) idx (0 : Fin 3) = min (idx (ix2 r (0 : Fin 1))).toInt.toNat (N - 1) := by
    unfold GatherDims.start
    rw [dif_pos (show (0 : Fin 3) ∈ d.startIndexMap from List.mem_singleton.mpr rfl)]
    have hsi : d.siIdx (ix3 r p q) ⟨List.idxOf (0 : Fin 3) d.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have hs1 : d.start (ix3 r p q) idx (1 : Fin 3) = 0 := by
    unfold GatherDims.start
    rw [dif_neg (show (1 : Fin 3) ∉ d.startIndexMap from
      fun h => Nat.one_ne_zero (congrArg Fin.val (List.mem_singleton.mp h)))]
  have hs2 : d.start (ix3 r p q) idx (2 : Fin 3) = 0 := by
    unfold GatherDims.start
    rw [dif_neg (show (2 : Fin 3) ∉ d.startIndexMap from
      fun h => (by decide : (2 : ℕ) ≠ 0) (congrArg Fin.val (List.mem_singleton.mp h)))]
  have hk1 : (1 : Fin 3) ∈ d.sKept :=
    (GatherDims.mem_sKept _ _).mpr ⟨fun h => Nat.one_ne_zero (congrArg Fin.val (List.mem_singleton.mp h)), List.not_mem_nil⟩
  have hk2 : (2 : Fin 3) ∈ d.sKept :=
    (GatherDims.mem_sKept _ _).mpr ⟨fun h => (by decide : (2 : ℕ) ≠ 0) (congrArg Fin.val (List.mem_singleton.mp h)), List.not_mem_nil⟩
  have ho1 : d.offCoord (ix3 r p q) (1 : Fin 3) = p.val := by
    unfold GatherDims.offCoord
    rw [dif_pos hk1]
    rfl
  have ho2 : d.offCoord (ix3 r p q) (2 : Fin 3) = q.val := by
    unfold GatherDims.offCoord
    rw [dif_pos hk2]
    rfl
  match a with
  | ⟨0, _⟩ =>
    show d.start (ix3 r p q) idx (0 : Fin 3) + d.batchCoord (ix3 r p q) (0 : Fin 3) + d.offCoord (ix3 r p q) (0 : Fin 3)
      = min (idx (ix2 r (0 : Fin 1))).toInt.toNat (N - 1)
    rw [hs0, hb, ho0]
    rfl
  | ⟨1, _⟩ =>
    show d.start (ix3 r p q) idx (1 : Fin 3) + d.batchCoord (ix3 r p q) (1 : Fin 3) + d.offCoord (ix3 r p q) (1 : Fin 3) = p.val
    rw [hs1, hb, ho1]; omega
  | ⟨2, _⟩ =>
    show d.start (ix3 r p q) idx (2 : Fin 3) + d.batchCoord (ix3 r p q) (2 : Fin 3) + d.offCoord (ix3 r p q) (2 : Fin 3) = q.val
    rw [hs2, hb, ho2]; omega

/-! ## Rows times their matrices -/

/-- The product of each row of an [M, K] array with the matching matrix of an [M, K, N] stack, read at `(m, c)`: the sum
    over the contracted coordinate of the row's entries times the matrix's column. At the ideal values. `w` is the
    record's well-formedness, which a program states. -/
theorem dotGeneral_rowmat_apply {M K N : ℕ} {φ₁ φ₂ : FTy}
    (w : DotDims.WF ⟨2, ![M, K]⟩ ⟨3, ![M, K, N]⟩ ⟨2, ![M, N]⟩ [1] [1] [] [2] [0] [0])
    (prec : Option ContractPrecision) (X : FVec Ideal ⟨2, ![M, K]⟩ φ₁) (Y : FVec Ideal ⟨3, ![M, K, N]⟩ φ₂)
    (m : Fin M) (c : Fin N) :
    Host.dotGeneral (⟨[1], [1], [], [2], [0], [0], w⟩ : DotDims _ _ _) prec X Y (ix2 m c)
      = ∑ k : Fin K, X (ix2 m k) * Y (ix3 m k c) := by
  show FloatOps.dotGeneral _ prec _ X Y (ix2 m c) = _
  rw [Ideal.dotGeneral_apply,
    ← Equiv.sum_comp (contrEquiv1 (⟨[1], [1], [], [2], [0], [0], w⟩ : DotDims _ _ _) K rfl rfl).symm]
  refine Finset.sum_congr rfl fun k _ => ?_
  have c3 := contrEquiv1_symm_val
    (⟨[1], [1], [], [2], [0], [0], w⟩ : DotDims ⟨2, ![M, K]⟩ ⟨3, ![M, K, N]⟩ ⟨2, ![M, N]⟩) K rfl rfl k
  have l3 : (⟨[1], [1], [], [2], [0], [0], w⟩ : DotDims ⟨2, ![M, K]⟩ ⟨3, ![M, K, N]⟩ ⟨2, ![M, N]⟩).lhsIdx (ix2 m c)
      ((contrEquiv1 _ K rfl rfl).symm k) = ix2 m k := by
    funext ax; apply Fin.ext
    match ax with
    | ⟨0, _⟩ => simp [DotDims.lhsIdx]; rfl
    | ⟨1, _⟩ => simp [DotDims.lhsIdx]; exact c3
  have r3 : (⟨[1], [1], [], [2], [0], [0], w⟩ : DotDims ⟨2, ![M, K]⟩ ⟨3, ![M, K, N]⟩ ⟨2, ![M, N]⟩).rhsIdx (ix2 m c)
      ((contrEquiv1 _ K rfl rfl).symm k) = ix3 m k c := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

end Cert.LibRefHost

end
-- ==== Proof.BridgeRefTake.lean ====
/-
  The reference's two gathers read at an index, under the precondition that the index words are small non-negative
  numbers.  `take` (rows of the embedding table at the charges): the negative-index wrap does nothing, the range test
  is true at every node, and the gather's clamp does nothing, so row `n` of the result is the table's row `charges n`.
  Indexing the result's rows by the senders (or receivers): the wrap and the clamp do nothing again.
-/
import proofs.«206043_g84026740179769_cont_sun_m_427_41_alg».proof.Proof.RefSpec
import proofs.«206043_g84026740179769_cont_sun_m_427_41_alg».proof.Proof.RefCongr
import proofs.«206043_g84026740179769_cont_sun_m_427_41_alg».proof.Proof.BridgeForm
import proofs.«206043_g84026740179769_cont_sun_m_427_41_alg».proof.Proof.LibGatherRows
import proofs.«206043_g84026740179769_cont_sun_m_427_41_alg».proof.Proof.LibRefHost
import proofs.«206043_g84026740179769_cont_sun_m_427_41_alg».proof.Proof.LibColOps

noncomputable section

namespace Cert.Bridge

open Idealize.ShloMosaic Idealize.ShloMosaic.ValueIdx Cert.ReferenceIdeal Cert.ReferenceIdeal.Spec
open Cert.ReferenceIdeal.Facts₀ Cert.ReferenceIdeal.Facts

variable [Cert.ReferenceIdeal.Facts]

/-- The wrapped charge column at a node whose charge is small: the charge word itself. -/
theorem takeCol_apply (ch : IVec S10000 32) (n : Fin 10000) (h : (ch (ix1 n)).toNat ≤ 94) :
    takeCol ch (ix2 n (0 : Fin 1)) = ch (ix1 n) := by
  unfold takeCol
  rw [Cert.LibColOps.bcastCol_apply, select_apply]
  show Scalar.select (IntOp.cmpi .slt (ch (ix1 n)) 0#32) _ _ = _
  rw [Cert.LibRefHost.cmpi_slt_zero (lt_of_le_of_lt h (by norm_num)), select_zero]

/-- The wrapped index column at an edge whose index is small: the index word itself. -/
theorem wrapCol_apply (ix : IVec S320000 32) (e : Fin 320000) (h : (ix (ix1 e)).toNat ≤ 9999) :
    wrapCol ix (ix2 e (0 : Fin 1)) = ix (ix1 e) := by
  unfold wrapCol
  rw [Cert.LibColOps.bcastCol_apply, select_apply]
  show Scalar.select (IntOp.cmpi .slt (ix (ix1 e)) 0#32) _ _ = _
  rw [Cert.LibRefHost.cmpi_slt_zero (lt_of_le_of_lt h (by norm_num)), select_zero]

/-- `take` at (n, k): the table's row `charges n`. -/
theorem take_apply (emb : FVec Ideal S95x128 .f32) (ch : IVec S10000 32) (hch : ∀ n, (ch n).toNat ≤ 94) (n : Fin 10000) (k : Fin 128) :
    take (F := Ideal) emb ch (ix2 n k) = emb (ix2 (row (ch (ix1 n))) k) := by
  have hx : ∀ i : S10000x1.Idx,
      andi (cmpi .sge (takeCol ch) (broadcastInDim S10000x1 ![] bcast_S_S10000x1 (constantI S_ 32 0#32)))
        (cmpi .sle (takeCol ch) (broadcastInDim S10000x1 ![0, 1] bcast_S1x1_S10000x1_0_1
          (broadcastInDim S1x1 ![1] bcast_S1_S1x1_1 (constantI S1 32 94#32)))) i = 1#1 := fun i => by
    obtain ⟨p, z, rfl⟩ : ∃ (p : Fin 10000) (z : Fin 1), i = ix2 p z := ⟨i 0, i 1, eq_ix2 i⟩
    have hz : z = 0 := Subsingleton.elim _ _
    subst hz
    show IntOp.andi (IntOp.cmpi .sge (takeCol ch (ix2 p (0 : Fin 1))) 0#32) (IntOp.cmpi .sle (takeCol ch (ix2 p (0 : Fin 1))) 94#32) = 1#1
    rw [takeCol_apply ch p (hch _), Cert.LibRefHost.cmpi_sge_zero (lt_of_le_of_lt (hch _) (by norm_num)),
      Cert.LibRefHost.cmpi_sle_of_le (L := 94#32) (hch _) (by decide)]
    rfl
  unfold take
  rw [select_apply]
  have hm : (broadcastInDim S10000x128 ![0] bcast_S10000_S10000x128_0
      (Host.reduce IntOp.andi
        (andi (cmpi .sge (takeCol ch) (broadcastInDim S10000x1 ![] bcast_S_S10000x1 (constantI S_ 32 0#32)))
          (cmpi .sle (takeCol ch) (broadcastInDim S10000x1 ![0, 1] bcast_S1x1_S10000x1_0_1
            (broadcastInDim S1x1 ![1] bcast_S1_S1x1_1 (constantI S1 32 94#32)))))
        (constantI S_ 1 1#1) reducesTo_S10000x1_S10000_d1 h_S_)) (ix2 n k) = 1#1 :=
    Cert.LibRefHost.reduce_andi_one _ _ _ _ hx (fun _ => rfl) _
  rw [hm, select_one]
  refine (Cert.HostGather.gather_rows_apply (N := 95) (E := 10000) (C := 128) (by norm_num)
    gather_S95x128_S10000x1_S10000x128_1_0_n_n_0_1_1128_wf emb (takeCol ch) n k).trans ?_
  refine congrArg emb (congrArg (fun q => ix2 q k) (Fin.ext ?_))
  show min (takeCol ch (ix2 n (0 : Fin 1))).toInt.toNat (95 - 1) = min (ch (ix1 n)).toNat 94
  rw [takeCol_apply ch n (hch _), Cert.LibRefHost.toInt_of_lt (lt_of_le_of_lt (hch _) (by norm_num))]
  simp

/-- The rows of `x` at an index array, at (e, k): row `ix e` of `x`. -/
theorem rowsAt_apply (x : FVec Ideal S10000x128 .f32) (ix : IVec S320000 32) (e : Fin 320000) (k : Fin 128)
    (h : (ix (ix1 e)).toNat ≤ 9999) :
    rowsAt (F := Ideal) x ix (ix2 e k) = x (ix2 (node (ix (ix1 e))) k) := by
  unfold rowsAt
  refine (Cert.HostGather.gather_rows_apply (N := 10000) (E := 320000) (C := 128) (by norm_num)
    gather_S10000x128_S320000x1_S320000x128_1_0_n_n_0_1_1128_wf x (wrapCol ix) e k).trans ?_
  refine congrArg x (congrArg (fun q => ix2 q k) (Fin.ext ?_))
  show min (wrapCol ix (ix2 e (0 : Fin 1))).toInt.toNat (10000 - 1) = min (ix (ix1 e)).toNat 9999
  rw [wrapCol_apply ix e h, Cert.LibRefHost.toInt_of_lt (lt_of_le_of_lt h (by norm_num))]
  simp

end Cert.Bridge

end
-- ==== Proof.LibHostDot.lean ====
/-
  The host's matrix product read at an index, and two facts about the extended reals that meet it: the product
  of an [m, k] by a [k, n] matrix (the left operand's axis 1 contracted with the right operand's axis 0), computed
  by the host's dot_general, is at (r, c) the sum over the contracted coordinate of the products of the entries —
  the same sum a zero-accumulated kernel matmul gives.  A quotient by a nonzero real is the product with its
  reciprocal on every extended real, which is how a kernel's folded reciprocal meets a reference's division.
-/
import Idealize.ShloMosaic.Lib.Pipeline.Value
import Idealize.ShloMosaic.Lib.ValueIdx
import proofs.«206043_g84026740179769_cont_sun_m_427_41_alg».proof.Proof.LibContrCongr
import Idealize.ShloMosaic.PureOps.Ideal.Laws

noncomputable section

namespace Cert.HostBody

open Idealize.ShloMosaic Idealize.ShloMosaic.ValueIdx

/-- The host's product of an m×k by a k×n matrix, read at `(r, c)`, is the sum over the contracted coordinate of
    the products of the entries.  `w` is the record's well-formedness, which a program states. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The word of the float `10.0` denotes the real number ten. -/
theorem ofBits_ten : Ideal.ofBits .f32 0x41200000#32 = ((10 : ℝ) : EReal) := by
  simp [Ideal.ofBits, Ideal.ieee, -EReal.coe_mul]; norm_num

/-- Dividing by the float ten is multiplying by the rational one tenth, on every extended real. -/
theorem div_ten (x : EReal) : Ideal.div x (Ideal.ofBits .f32 0x41200000#32) = x * ((1 / 10 : ℝ) : EReal) := by
  rw [ofBits_ten]; exact Ideal.div_coe (by norm_num) x

end Cert.HostBody

end
-- ==== Proof.BridgeRefOut.lean ====
/-
  The reference program's result read at an index over the extended reals, under the precondition on the index words.

  The 384-term contraction of the concatenated features with the output weights splits in three 128-term sums: the
  sender's embedding row against rows 0 … 127 of the weights, the receiver's against rows 128 … 255, the radial
  embedding (the gate by the exponential of the radial pre-activation, times the gain) against rows 256 … 383.
-/
import proofs.«206043_g84026740179769_cont_sun_m_427_41_alg».proof.Proof.BridgeRefTake
import proofs.«206043_g84026740179769_cont_sun_m_427_41_alg».proof.Proof.RefCongr
import proofs.«206043_g84026740179769_cont_sun_m_427_41_alg».proof.Proof.LibHostDot
import proofs.«206043_g84026740179769_cont_sun_m_427_41_alg».proof.Proof.LibConcat3

noncomputable section

namespace Cert.Bridge

open Idealize.ShloMosaic Idealize.ShloMosaic.ValueIdx Cert.ReferenceIdeal
open Cert.ReferenceIdeal.Facts₀ Cert.ReferenceIdeal.Facts
open scoped BigOperators

variable [Cert.ReferenceIdeal.Facts]

/-- The reference's gate at an index. -/
theorem refSilu_apply (x : FVec Ideal S320000x128 .f32) (j : S320000x128.Idx) :
    Spec.silu (F := Ideal) x j = silu (x j) := rfl

/-- The gain array at an index. -/
theorem gain_apply (j : S320000x128.Idx) : Spec.gain (F := Ideal) j = gW := rfl

/-- A bias vector laid along every row, at an index. -/
theorem biasRows_apply (b : FVec Ideal S128 .f32) (e : Fin 320000) (c : Fin 128) :
    Spec.biasRows (F := Ideal) b (ix2 e c) = b (ix1 c) := by
  unfold Spec.biasRows
  rw [Cert.LibColOps.bcastRows_apply, Cert.LibColOps.bcastRow_apply]

/-- The radial embedding at an index. -/
theorem rbfE_apply (rbf : FVec Ideal S320000x16 .f32) (wrbf : FVec Ideal S16x128 .f32) (brbf : FVec Ideal S128 .f32)
    (e : Fin 320000) (k : Fin 128) :
    Spec.rbfE (F := Ideal) rbf wrbf brbf (ix2 e k) = silu (z1 rbf wrbf brbf e k) * gW := by
  unfold Spec.rbfE
  rw [mulf_apply, refSilu_apply, gain_apply, addf_apply, biasRows_apply]
  unfold z1
  refine congrArg (fun s => silu (s + brbf (ix1 k)) * gW) ?_
  exact Cert.HostBody.dotGeneral_plain_apply dot_S320000x16_S16x128_S320000x128_1_0_0_1_n_n_wf none rbf wrbf e k

/-- The embedding row of the node an index array names, at an index. -/
theorem embRows_apply (emb : FVec Ideal S95x128 .f32) (charges : IVec S10000 32) (ends : IVec S320000 32)
    (hch : ∀ n, (charges n).toNat ≤ 94) (he : ∀ e, (ends e).toNat ≤ 9999) (e : Fin 320000) (k : Fin 128) :
    Spec.rowsAt (F := Ideal) (Spec.take emb charges) ends (ix2 e k) = emb (ix2 (rowAt charges ends e) k) := by
  rw [rowsAt_apply _ ends e k (he _), take_apply emb charges hch]
  rfl

/-- The reference program's result at (e, c). -/
theorem ref_at (rbf : FVec Ideal S320000x16 .f32) (charges : IVec S10000 32) (senders receivers : IVec S320000 32)
    (emb : FVec Ideal S95x128 .f32) (wrbf : FVec Ideal S16x128 .f32) (brbf : FVec Ideal S128 .f32)
    (wout : FVec Ideal S384x128 .f32) (bout : FVec Ideal S128 .f32)
    (hch : ∀ n, (charges n).toNat ≤ 94) (hs : ∀ e, (senders e).toNat ≤ 9999) (hr : ∀ e, (receivers e).toNat ≤ 9999)
    (e : Fin 320000) (c : Fin 128) :
    Cert.ReferenceIdeal.Spec.out (F := Ideal) rbf charges senders receivers emb wrbf brbf wout bout (ix2 e c)
      = silu (embTerm emb wout 0 (by norm_num) (rowAt charges senders e) c
          + embTerm emb wout 128 (by norm_num) (rowAt charges receivers e) c
          + ∑ k : Fin 128, (silu (z1 rbf wrbf brbf e k) * gW) * wout (ix2 (⟨256 + k.val, by have := k.isLt; omega⟩ : Fin 384) c)
          + bout (ix1 c)) * gW := by
  unfold Cert.ReferenceIdeal.Spec.out
  rw [mulf_apply, refSilu_apply, gain_apply, addf_apply, biasRows_apply]
  refine congrArg (fun s => silu (s + bout (ix1 c)) * gW) ?_
  refine (Cert.HostBody.dotGeneral_plain_apply dot_S320000x384_S384x128_S320000x128_1_0_0_1_n_n_wf none _ wout e c).trans ?_
  rw [Cert.LibConcat3.sum_split3 (a := 128) (b := 128) (c := 128) _ rfl]
  unfold embTerm
  refine congrArg₂ (fun a b : EReal => a + b) (congrArg₂ (fun a b : EReal => a + b) ?_ ?_) ?_
  · refine Finset.sum_congr rfl fun k _ => ?_
    rw [Cert.LibConcat3.concat3_first, embRows_apply emb charges senders hch hs]
    refine congrArg (fun z => emb (ix2 (rowAt charges senders e) k) * wout (ix2 z c)) (Fin.ext ?_)
    show k.val = 0 + k.val
    omega
  · refine Finset.sum_congr rfl fun k _ => ?_
    rw [Cert.LibConcat3.concat3_second, embRows_apply emb charges receivers hch hr]
  · refine Finset.sum_congr rfl fun k _ => ?_
    rw [Cert.LibConcat3.concat3_third, rbfE_apply]

end Cert.Bridge

end
-- ==== Proof.BridgeAlg.lean ====
/-
  The algebra that joins the two closed forms.  The radial pre-activations and the final pre-activation are real
  numbers when every float input entry is (finite sums of products of reals), so the gate by the hyperbolic tangent
  equals the gate by the exponential on them; the gain moves across a product by commutativity and associativity,
  `a · (w · g) = (a · g) · w`.
-/
import proofs.«206043_g84026740179769_cont_sun_m_427_41_alg».proof.Proof.BridgeForm
import proofs.«206043_g84026740179769_cont_sun_m_427_41_alg».proof.Proof.LibSigmoid

noncomputable section

namespace Cert.Bridge

open Idealize.ShloMosaic Idealize.ShloMosaic.ValueIdx Cert.LibSigmoid
open scoped BigOperators

/-- On a real argument the two gates agree. -/
theorem act_eq_silu {x : EReal} (hx : IsReal x) : act x = silu x := by
  obtain ⟨r, rfl⟩ := hx
  exact (silu_eq_act r).symm

/-- The gate of a real is real. -/
theorem silu_isReal {x : EReal} (hx : IsReal x) : IsReal (silu x) := silu_real hx

/-- The radial pre-activation is real when its inputs are. -/
theorem z1_real (rbf : FVec Ideal ⟨2, ![320000, 16]⟩ .f32) (wrbf : FVec Ideal ⟨2, ![16, 128]⟩ .f32) (brbf : FVec Ideal ⟨1, ![128]⟩ .f32)
    (h1 : ∀ i, IsReal (rbf i)) (h2 : ∀ i, IsReal (wrbf i)) (h3 : ∀ i, IsReal (brbf i)) (e : Fin 320000) (k : Fin 128) :
    IsReal (z1 rbf wrbf brbf e k) := by
  unfold z1
  exact (IsReal.sum _ _ fun i => (h1 _).mul (h2 _)).add (h3 _)

/-- An embedding term is real when its inputs are. -/
theorem embTerm_real (emb : FVec Ideal ⟨2, ![95, 128]⟩ .f32) (wout : FVec Ideal ⟨2, ![384, 128]⟩ .f32)
    (h1 : ∀ i, IsReal (emb i)) (h2 : ∀ i, IsReal (wout i)) (off : ℕ) (hoff : off + 128 ≤ 384) (q : Fin 95) (c : Fin 128) :
    IsReal (embTerm emb wout off hoff q c) := by
  unfold embTerm
  exact IsReal.sum _ _ fun m => (h1 _).mul (h2 _)

/-- THE BRIDGE between the closed forms: with real embedding terms `A`, `B`, bias `b`, radial pre-activations `zk` and
    weights `w`, the kernel's arrangement equals the reference's. -/
theorem closed_eq (A B b : EReal) (hA : IsReal A) (hB : IsReal B) (hb : IsReal b) (zk w : Fin 128 → EReal)
    (hz : ∀ k, IsReal (zk k)) (hw : ∀ k, IsReal (w k)) :
    act (A + B + ∑ k : Fin 128, act (zk k) * (w k * gW) + b) * gW
      = silu (A + B + ∑ k : Fin 128, (silu (zk k) * gW) * w k + b) * gW := by
  have hsum : ∑ k : Fin 128, act (zk k) * (w k * gW) = ∑ k : Fin 128, (silu (zk k) * gW) * w k :=
    Finset.sum_congr rfl fun k _ => by rw [act_eq_silu (hz k), ← mul_gain_comm]
  rw [hsum]
  have hreal : IsReal (A + B + ∑ k : Fin 128, (silu (zk k) * gW) * w k + b) :=
    ((hA.add hB).add (IsReal.sum _ _ fun k => ((silu_isReal (hz k)).mul gain_real).mul (hw k))).add hb
  rw [act_eq_silu hreal]

end Cert.Bridge

end
-- ==== Proof.Bridge.lean ====
/-
  The kernel program's result array and the reference program's are the same array over the extended reals, when every
  float input entry is a real number, the charges are row numbers of the embedding table and the senders and receivers
  are node numbers.  Index by index: both sides are read in closed form at edge `e` and column `c`, and the closed
  forms agree by the algebra of the gates and the gain.
-/
import proofs.«206043_g84026740179769_cont_sun_m_427_41_alg».proof.Proof.BridgeKerOut
import proofs.«206043_g84026740179769_cont_sun_m_427_41_alg».proof.Proof.BridgeRefOut
import proofs.«206043_g84026740179769_cont_sun_m_427_41_alg».proof.Proof.BridgeAlg

noncomputable section

namespace Cert.Bridge

open Idealize.ShloMosaic Idealize.ShloMosaic.ValueIdx

/-- every entry of a float array is a real number -/
def AllReal {S : Idealize.ShloMosaic.Shape} (x : S.Idx → EReal) : Prop := ∀ i, ∃ r : ℝ, x i = (r : EReal)

theorem out_eq [Cert.KernelIdeal.Facts] [Cert.ReferenceIdeal.Facts]
    (rbf : FVec Ideal Cert.KernelIdeal.S320000x16 .f32) (charges : IVec Cert.KernelIdeal.S10000 32) (senders receivers : IVec Cert.KernelIdeal.S320000 32)
    (emb : FVec Ideal Cert.KernelIdeal.S95x128 .f32) (wrbf : FVec Ideal Cert.KernelIdeal.S16x128 .f32) (brbf : FVec Ideal Cert.KernelIdeal.S128 .f32)
    (wout : FVec Ideal Cert.KernelIdeal.S384x128 .f32) (bout : FVec Ideal Cert.KernelIdeal.S128 .f32)
    (hrbf : AllReal rbf) (hemb : AllReal emb) (hwrbf : AllReal wrbf) (hbrbf : AllReal brbf) (hwout : AllReal wout) (hbout : AllReal bout)
    (hch : ∀ n, (charges n).toNat ≤ 94) (hs : ∀ e, (senders e).toNat ≤ 9999) (hr : ∀ e, (receivers e).toNat ≤ 9999) :
    Cert.KernelIdeal.Spec.out (F := Ideal) rbf charges senders receivers emb wrbf brbf wout bout
      = Cert.ReferenceIdeal.Spec.out (F := Ideal) rbf charges senders receivers emb wrbf brbf wout bout := by
  funext j
  obtain ⟨e, c, rfl⟩ : ∃ (e : Fin 320000) (c : Fin 128), j = ix2 e c := ⟨j 0, j 1, eq_ix2 j⟩
  rw [ker_at rbf charges senders receivers emb wrbf brbf wout bout hch hs hr e c,
    ref_at rbf charges senders receivers emb wrbf brbf wout bout hch hs hr e c]
  exact closed_eq _ _ _ (embTerm_real emb wout hemb hwout 0 (by norm_num) _ c)
    (embTerm_real emb wout hemb hwout 128 (by norm_num) _ c) (hbout _)
    (fun k => z1 rbf wrbf brbf e k) (fun k => wout (ix2 (⟨256 + k.val, by have := k.isLt; omega⟩ : Fin 384) c))
    (fun k => z1_real rbf wrbf brbf hrbf hwrbf hbrbf e k) (fun k => hwout _)

end Cert.Bridge

end
-- ==== Proof.Common.lean ====
/-
  The kernel program as the SparseCore launch theorem sees it, and the ghost state of its proof.

  The device's threads synchronise on three families of semaphores: the four launch handshakes between the TensorCore,
  the sequencers and the vector subcores; the staging semaphores of the TensorCore call's pipeline; and each vector
  subcore's own three DMA semaphores.  The first two are families of rounds cells, each under a schedule of its own;
  a vector subcore only ever waits for its own local copies, one at a time per semaphore, which needs no schedule:
  exclusive counters suffice.  So the ghost state is a product of two rounds algebras and the counters' algebra.
-/
import proofs.«206043_g84026740179769_cont_sun_m_427_41_alg».proof.KernelIdeal
import proofs.«206043_g84026740179769_cont_sun_m_427_41_alg».proof.Proof.Gen.KernelIdeal
import proofs.«206043_g84026740179769_cont_sun_m_427_41_alg».proof.Proof.Gen.KernelIdeal.Launch
import Idealize.ShloMosaic.Lib.SparseCore.Launch
import Idealize.ShloMosaic.Lib.Pipeline.Regions
import Idealize.ShloMosaic.Lib.StableHlo.Run
import Idealize.ShloMosaic.Lib.Tactic

noncomputable section

namespace Cert.KernelIdeal.Common

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the tiles' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- The certificate's launch element splits into the handshakes' and the pipeline's (the counters start at the unit). -/
theorem ownU_split (a : UH) (b : UP) :
    (ownU ((a, (b, (1 : Counters))) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, (1 : Counters)) : UP × Counters))))

end Cert.KernelIdeal.Common

end
-- ==== Proof.LaunchLemmas.lean ====
/-
  Small lemmas of the launch: the five arrays the SparseCore call takes out of the TensorCore's holdings and puts back,
  the launch element of the ghost state, and the TensorCore's handshake state after its one SparseCore call.
-/
import proofs.«206043_g84026740179769_cont_sun_m_427_41_alg».proof.Proof.Common
import proofs.«206043_g84026740179769_cont_sun_m_427_41_alg».proof.Proof.KerSpec
import Idealize.ShloMosaic.Lib.Pipeline.Frame

noncomputable section

namespace Cert.KernelIdeal.Launch

open Cert.KernelIdeal Cert.KernelIdeal.Gen Cert.KernelIdeal.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The five arrays of the SparseCore call -/

/-- The charge table, the two index arrays and the two result arrays, as device buffers. -/
def five : Finset (DevRef τ sig) :=
  {Proc.devRef .tc main_arg1, Proc.devRef .tc main_arg3, Proc.devRef .tc main_arg4, Proc.devRef .tc main_v0_0, Proc.devRef .tc main_v0_1}

theorem five_sub : five ⊆ Pipeline.ucRefs τ sig := by decide

theorem held_five (d : Dev nD) (W : Valuation τ sig (Elt F)) :
    (StableHlo.held (SparseCore.T d : Thread nD τ) five W : sProp 𝕄)
      = iprop(((SparseCore.T d : Thread nD τ).loc main_arg1 ↦{fullShare} W (Proc.devRef .tc main_arg1)) ∗ ((SparseCore.T d : Thread nD τ).loc main_arg3 ↦{fullShare} W (Proc.devRef .tc main_arg3))
          ∗ ((SparseCore.T d : Thread nD τ).loc main_arg4 ↦{fullShare} W (Proc.devRef .tc main_arg4)) ∗ ((SparseCore.T d : Thread nD τ).loc main_v0_0 ↦{fullShare} W (Proc.devRef .tc main_v0_0))
          ∗ ((SparseCore.T d : Thread nD τ).loc main_v0_1 ↦{fullShare} W (Proc.devRef .tc main_v0_1))) := by
  unfold StableHlo.held five
  rw [SparseCore.bigSep_insert' (by decide), SparseCore.bigSep_insert' (by decide), SparseCore.bigSep_insert' (by decide),
    SparseCore.bigSep_insert' (by decide), bigSep_singleton]

/-! ## The launch element -/

/-- The launch element: the handshake cells' rounds, the pipeline's staging cells' rounds, no counter yet. -/
def u₀ : UU :=
  (initOf (K (F := F)).hsCells (K (F := F)).hsToks,
    (initOf (Pipeline.cells (cfgs) cellOf_inj) (Pipeline.launchToks (cfgs) cellOf_inj), (1 : Counters)))

/-- What @main's proof on device `d` starts from besides the launch's dealings: the pipeline's cells' ghost state and duty tokens. -/
def G (d : Dev nD) : sProp 𝕄 :=
  iprop((bigSep Finset.univ fun p : Fin 1 => Pipeline.cellsGhost cfgs (EP (F := F)) p d)
    ∗ bigSep Finset.univ fun p : Fin 1 => (Pipeline.toksInit cfgs (EP (F := F)) p d : sProp 𝕄))

/-- The launch element gives the handshake cells' rounds and, per device, the pipeline's cells' ghost state and tokens. -/
theorem hu₀_core : (ownU (u₀ (F := F)) : sProp 𝕄)
    ⊢ |={Set.univ}=> iprop(BI.own (EH (initOf (K (F := F)).hsCells (K (F := F)).hsToks)) ∗ bigSep Finset.univ (G (F := F))) := by
  unfold u₀
  iintro Hu
  ihave H := (ownU_split _ _) $$ Hu
  icases H with ⟨HH, HP⟩
  imod (Pipeline.fund_ghost cfgs (EP (F := F)) cellOf_inj) $$ HP with ⟨Hcg, Htk⟩
  imodintro
  isplitl [HH]; · iexact HH
  unfold G
  rw [bigSep_sep']
  isplitl [Hcg]; · iexact Hcg
  iexact Htk

/-! ## The TensorCore's handshake state after its one SparseCore call -/

/-- What the state holds besides what the TensorCore owes: its position on its `done` cell and the rounds reached. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After the call the TensorCore owes nothing, its recorded waits at or below level 8. -/
theorem tcSt_one (d : Dev nD) :
    ((K (F := F)).tcSt EH d 1 : sProp 𝕄)
      = iprop((∃ W, ⌜(K (F := F)).WBelow (SparseCore.T d) W 8⌝ ∗ owes (SparseCore.T d : Thread nD τ) (0 : CellTallies nD τ sig (HIx 1)) W) ∗ tcRest d) := by
  unfold SparseCore.Cfg.tcSt tcRest
  rw [(K (F := F)).Otc_end d (le_refl 1)]

end Cert.KernelIdeal.Launch

end
-- ==== Proof.KerHost.lean ====
/-
  The kernel program's host lines. Between its two device calls the program runs thirteen host operations on the
  TensorCore: a zero matrix and a zero index, the embedding table scattered over the zero matrix at row 0 (the table
  under zero rows), the three 128-row slabs of the output weights, the radial basis transposed and then narrowed, the
  radial weights narrowed, and the two bias vectors reshaped to one-row matrices. Here the program is restated as the
  first call, then that line of operations, then the second call; every operation touches unscoped buffers only and
  determines what it writes; each result the second call reads is, as a function of the arguments, the term the
  specification names; and the arguments, the first call's two results and the second call's result buffer are not
  written by the line.
-/
import proofs.«206043_g84026740179769_cont_sun_m_427_41_alg».proof.Proof.Gen.KernelIdeal
import proofs.«206043_g84026740179769_cont_sun_m_427_41_alg».proof.Proof.KerSpec
import Idealize.ShloMosaic.Lib.StableHlo.Run
import Idealize.ShloMosaic.Lib.Pipeline.Frame

noncomputable section

namespace Cert.KernelIdeal.Host

open Cert.KernelIdeal
open Cert.KernelIdeal.Facts₀ Cert.KernelIdeal.Facts
open Idealize.ShloMosaic Idealize.ShloMosaic.TcCoe Idealize.SL Idealize.SL.RA Idealize.SL.BI Idealize.SL.Sem

variable {F : FTy → Type} [FloatOps F]

/-- The host operations between the SparseCore call and the TensorCore call, in order. -/
abbrev hostOps : List (HloOp τ sig (Elt F)) :=
  [ StableHlo.nullary main_cst (constant S_ .f32 0x00000000#32),
    StableHlo.unary main_cst main_v1 (broadcastInDim S128x128 ![] bcast_S_S128x128 : (⟨S_, .f32⟩ : BufTy).Contents (Elt F) → (⟨S128x128, .f32⟩ : BufTy).Contents (Elt F)),
    StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.ternary main_v1 main_v2 main_arg5 main_v3 ((fun x i u => Host.scatter scatter_S128x128_S1_S95x128_01_n_0_0 (fun _ b => b) x i u) : (⟨S128x128, .f32⟩ : BufTy).Contents (Elt F) → (⟨S1, .i32⟩ : BufTy).Contents (Elt F) → (⟨S95x128, .f32⟩ : BufTy).Contents (Elt F) → (⟨S128x128, .f32⟩ : BufTy).Contents (Elt F)),
    StableHlo.unary main_arg8 main_v4 ((extractStridedSlice S128x128 ![0, 0] · slices_S384x128_S128x128_0_0) : (⟨S384x128, .f32⟩ : BufTy).Contents (Elt F) → (⟨S128x128, .f32⟩ : BufTy).Contents (Elt F)),
    StableHlo.unary main_arg8 main_v5 ((extractStridedSlice S128x128 ![128, 0] · slices_S384x128_S128x128_128_0) : (⟨S384x128, .f32⟩ : BufTy).Contents (Elt F) → (⟨S128x128, .f32⟩ : BufTy).Contents (Elt F)),
    StableHlo.unary main_arg8 main_v6 ((extractStridedSlice S128x128 ![256, 0] · slices_S384x128_S128x128_256_0) : (⟨S384x128, .f32⟩ : BufTy).Contents (Elt F) → (⟨S128x128, .f32⟩ : BufTy).Contents (Elt F)),
    StableHlo.unary main_arg0 main_v7 ((transpose S16x320000 [1, 0] · transposes_S320000x16_S16x320000_1_0) : (⟨S320000x16, .f32⟩ : BufTy).Contents (Elt F) → (⟨S16x320000, .f32⟩ : BufTy).Contents (Elt F)),
    StableHlo.unary main_v7 main_v8 ((truncf .bf16 · bitsLt_bf16_f32) : (⟨S16x320000, .f32⟩ : BufTy).Contents (Elt F) → (⟨S16x320000, .bf16⟩ : BufTy).Contents (Elt F)),
    StableHlo.unary main_arg6 main_v9 ((truncf .bf16 · bitsLt_bf16_f32) : (⟨S16x128, .f32⟩ : BufTy).Contents (Elt F) → (⟨S16x128, .bf16⟩ : BufTy).Contents (Elt F)),
    StableHlo.reshape main_arg7 main_v10 rfl shapeCasts_S128_S1x128,
    StableHlo.reshape main_arg9 main_v11 rfl shapeCasts_S128_S1x128 ]

/-- The program: the SparseCore call, then the host operations as one line, then the TensorCore call. -/
theorem main_eq (d : Dev nD) :
    main (F := F) d = (sc.run d 0 >>= fun _ => StableHlo.seq hostOps >>= fun _ =>
      (Prog.op (.customCall (SparseCore.inner (Pipeline.entry 0)) ()) fun _ => Prog.ret ⟨⟩)) := by
  rfl

/-! ## The buffers the host operations run within -/

/-- Every host operation touches unscoped TensorCore buffers only. -/
theorem hostOps_sub : ∀ op ∈ hostOps (F := F), op.bufs ⊆ Pipeline.ucRefs τ sig := by
  intro op hop
  refine Pipeline.sub_ucRefs op ?_
  simp only [hostOps, List.mem_cons, List.mem_nil_iff, or_false] at hop
  rcases hop with rfl | rfl | rfl | rfl | rfl | rfl | rfl | rfl | rfl | rfl | rfl | rfl | rfl
  · exact StableHlo.nullary_bufs_sub ..
  · exact StableHlo.unary_bufs_sub ..
  · exact StableHlo.nullary_bufs_sub ..
  · exact StableHlo.unary_bufs_sub ..
  · exact StableHlo.ternary_bufs_sub ..
  · exact StableHlo.unary_bufs_sub ..
  · exact StableHlo.unary_bufs_sub ..
  · exact StableHlo.unary_bufs_sub ..
  · exact StableHlo.unary_bufs_sub ..
  · exact StableHlo.unary_bufs_sub ..
  · exact StableHlo.unary_bufs_sub ..
  · exact StableHlo.reshape_bufs_sub ..
  · exact StableHlo.reshape_bufs_sub ..

/-- No host operation leaves a buffer at contents it does not determine. -/
theorem hostOps_fresh : ∀ op ∈ hostOps (F := F), op.fresh = ∅ := by
  intro op hop
  simp only [hostOps, List.mem_cons, List.mem_nil_iff, or_false] at hop
  rcases hop with rfl | rfl | rfl | rfl | rfl | rfl | rfl | rfl | rfl | rfl | rfl | rfl | rfl <;> rfl

/-! ## What the host operations leave -/

section Values

variable (V : Valuation τ sig (Elt F))

/-- The padded embedding table: zero rows under the 95 given ones. -/
theorem after_v3 : (StableHlo.after (hostOps (F := F)) V main_v3 : FVec F S128x128 .f32) = Spec.embPad (V main_arg5) := by
  after_results; rfl

/-- The three 128-row slabs of the output weights. -/
theorem after_v4 : (StableHlo.after (hostOps (F := F)) V main_v4 : FVec F S128x128 .f32) = Spec.wS (V main_arg8) := by
  after_results; rfl
theorem after_v5 : (StableHlo.after (hostOps (F := F)) V main_v5 : FVec F S128x128 .f32) = Spec.wR (V main_arg8) := by
  after_results; rfl
theorem after_v6 : (StableHlo.after (hostOps (F := F)) V main_v6 : FVec F S128x128 .f32) = Spec.wQ (V main_arg8) := by
  after_results; rfl

/-- The radial basis transposed and narrowed. -/
theorem after_v8 : (StableHlo.after (hostOps (F := F)) V main_v8 : FVec F S16x320000 .bf16) = Spec.rbfT (V main_arg0) := by
  after_results; rfl

/-- The radial weights narrowed. -/
theorem after_v9 : (StableHlo.after (hostOps (F := F)) V main_v9 : FVec F S16x128 .bf16) = Spec.wRbf (V main_arg6) := by
  after_results; rfl

/-- The two bias vectors as one-row matrices. -/
theorem after_v10 : (StableHlo.after (hostOps (F := F)) V main_v10 : FVec F S1x128 .f32) = Spec.rowOf (V main_arg7) := by
  after_results; rfl
theorem after_v11 : (StableHlo.after (hostOps (F := F)) V main_v11 : FVec F S1x128 .f32) = Spec.rowOf (V main_arg9) := by
  after_results; rfl

end Values

/-! ## What the host operations leave alone -/

/-- A reference that is none of the thirteen results is written by no host operation. -/
theorem not_written (b : Ref sig .tc)
    (hb : b ≠ main_cst ∧ b ≠ main_v1 ∧ b ≠ main_c ∧ b ≠ main_v2 ∧ b ≠ main_v3 ∧ b ≠ main_v4 ∧ b ≠ main_v5 ∧ b ≠ main_v6
      ∧ b ≠ main_v7 ∧ b ≠ main_v8 ∧ b ≠ main_v9 ∧ b ≠ main_v10 ∧ b ≠ main_v11) :
    ∀ op ∈ (hostOps (F := F)), Proc.devRef .tc b ∉ op.writes := by
  obtain ⟨h0, h1, h2, h3, h4, h5, h6, h7, h8, h9, h10, h11, h12⟩ := hb
  intro op hop
  simp only [List.mem_cons, List.mem_nil_iff, or_false] at hop
  rcases hop with rfl | rfl | rfl | rfl | rfl | rfl | rfl | rfl | rfl | rfl | rfl | rfl | rfl <;>
    simp only [StableHlo.unary_writes, StableHlo.nullary_writes, StableHlo.ternary_writes, StableHlo.reshape_writes,
      Finset.mem_singleton] <;>
    exact StableHlo.devRef_ne_of_ne ‹_›

/-- Such a reference holds after the host operations what it held before. -/
theorem after_of_not_written (V : Valuation τ sig (Elt F)) (b : Ref sig .tc)
    (hb : b ≠ main_cst ∧ b ≠ main_v1 ∧ b ≠ main_c ∧ b ≠ main_v2 ∧ b ≠ main_v3 ∧ b ≠ main_v4 ∧ b ≠ main_v5 ∧ b ≠ main_v6
      ∧ b ≠ main_v7 ∧ b ≠ main_v8 ∧ b ≠ main_v9 ∧ b ≠ main_v10 ∧ b ≠ main_v11) :
    StableHlo.after (hostOps (F := F)) V b = V b :=
  StableHlo.after_of_forall_not_mem (b := Proc.devRef .tc b) hostOps V (not_written b hb)

section Kept

variable (V : Valuation τ sig (Elt F))

/-- The ten arguments, the SparseCore call's two results and the TensorCore call's result buffer are as they were. -/
theorem after_arg0 : StableHlo.after (hostOps (F := F)) V main_arg0 = V main_arg0 := after_of_not_written V main_arg0 (by decide)
theorem after_arg1 : StableHlo.after (hostOps (F := F)) V main_arg1 = V main_arg1 := after_of_not_written V main_arg1 (by decide)
theorem after_arg2 : StableHlo.after (hostOps (F := F)) V main_arg2 = V main_arg2 := after_of_not_written V main_arg2 (by decide)
theorem after_arg3 : StableHlo.after (hostOps (F := F)) V main_arg3 = V main_arg3 := after_of_not_written V main_arg3 (by decide)
theorem after_arg4 : StableHlo.after (hostOps (F := F)) V main_arg4 = V main_arg4 := after_of_not_written V main_arg4 (by decide)
theorem after_arg5 : StableHlo.after (hostOps (F := F)) V main_arg5 = V main_arg5 := after_of_not_written V main_arg5 (by decide)
theorem after_arg6 : StableHlo.after (hostOps (F := F)) V main_arg6 = V main_arg6 := after_of_not_written V main_arg6 (by decide)
theorem after_arg7 : StableHlo.after (hostOps (F := F)) V main_arg7 = V main_arg7 := after_of_not_written V main_arg7 (by decide)
theorem after_arg8 : StableHlo.after (hostOps (F := F)) V main_arg8 = V main_arg8 := after_of_not_written V main_arg8 (by decide)
theorem after_arg9 : StableHlo.after (hostOps (F := F)) V main_arg9 = V main_arg9 := after_of_not_written V main_arg9 (by decide)
theorem after_v0_0 : StableHlo.after (hostOps (F := F)) V main_v0_0 = V main_v0_0 := after_of_not_written V main_v0_0 (by decide)
theorem after_v0_1 : StableHlo.after (hostOps (F := F)) V main_v0_1 = V main_v0_1 := after_of_not_written V main_v0_1 (by decide)
theorem after_v12 : StableHlo.after (hostOps (F := F)) V main_v12 = V main_v12 := after_of_not_written V main_v12 (by decide)

end Kept

end Cert.KernelIdeal.Host

end
-- ==== Proof.ScPay.lean ====
/-
  The SparseCore call of the kernel program: what its handshakes carry.

  The call's one vector-subcore kernel runs 32 tasks, task (c, s) on vector subcore s of SparseCore c, numbered
  w = 2 s + c.  Every task reads the whole charge table (10000 words) and entries [10000 w, 10000 w + 10000) of the
  senders and of the receivers, and writes those entries of the two result arrays.  The table goes out as 32 read
  shares (two per-SparseCore halves, each cut in sixteen); the four long arrays go out slice by slice.  A result slice
  comes back holding, on its entries, the WHOLE-array function "the table read at the index array", so that the 32
  slices join with no bookkeeping of values.
-/
import proofs.«206043_g84026740179769_cont_sun_m_427_41_alg».proof.Proof.KerSpec
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic

noncomputable section

namespace Cert.KernelIdeal.Sc

open Cert.KernelIdeal Cert.KernelIdeal.Gen
open Cert.KernelIdeal.Facts₀ Cert.KernelIdeal.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts] {U : Type} [URA U] [CountersIn U]

local notation "𝕄" => MT nD τ sig (HIx 1) (Elt F) ℕ U ℕ

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
theorem nCore_zero : (K (F := F)).nCore 0 = 2 := rfl
theorem nSub_zero : (K (F := F)).nSub 0 = 16 := rfl

/-! ## The launch memory, the arrays, the slices -/

variable (m : (ℓ : Loc nD τ sig) → Buf (Elt F) ℓ)

/-- The charge table, the senders, the receivers, the two results, as locations of device `d`. -/
abbrev tLoc (d : Dev nD) : Loc nD τ sig := (SparseCore.T d).loc main_arg1
abbrev sLoc (d : Dev nD) : Loc nD τ sig := (SparseCore.T d).loc main_arg3
abbrev rLoc (d : Dev nD) : Loc nD τ sig := (SparseCore.T d).loc main_arg4
abbrev o0Loc (d : Dev nD) : Loc nD τ sig := (SparseCore.T d).loc main_v0_0
abbrev o1Loc (d : Dev nD) : Loc nD τ sig := (SparseCore.T d).loc main_v0_1

/-- What the two results hold after the call, as whole-array functions of the launch memory. -/
def G0 (d : Dev nD) : Buf (Elt F) (o0Loc d) := Spec.gath (m (tLoc d)) (m (sLoc d))
def G1 (d : Dev nD) : Buf (Elt F) (o1Loc d) := Spec.gath (m (tLoc d)) (m (rLoc d))

/-- The grid point of task `(c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- The task's slice of a long array, as the kernel cuts it, and the entries it names. -/
abbrev slR (L : grid0.Coords) : Rect S320000 := Rect.unit (s := S320000) (k0_off1 L) S10000.size (Facts₀.k0_off1_inb L)
abbrev slSet (L : grid0.Coords) : Finset S320000.Idx :=
  ((Memref.whole main_arg3_scv : Memref sig .scVector .hbm S320000 .i32).view.slice (slR L)).set

/-- What the proof asks of the launch memory: every sender and every receiver names an entry of the table. -/
def PreOK : Prop :=
  ∀ d : Dev nD, (∀ e, (m (sLoc d) e).toNat ≤ 9999) ∧ (∀ e, (m (rLoc d) e).toNat ≤ 9999)

/-! ## The read shares of the table -/

/-- SparseCore `c`'s share of the table (the whole cut in two pieces), and task `(c, s)`'s (that cut in sixteen). -/
def coreShare (c : Fin 2) : PosShare TreeShare := piece fullShare 1 c
def tileShare (c : Fin 2) (s : Fin 16) : PosShare TreeShare := piece (coreShare c) 15 s

/-! ## What the handshakes carry -/

/-- A task's operands at the grid point `L`: a read share `q` of the table, its slices of the senders and
    receivers, its slices of the two results at the contents `g0`, `g1`. -/
def tilePtsL (d : Dev nD) (q : PosShare TreeShare) (L : grid0.Coords) (g0 : Buf (Elt F) (o0Loc d)) (g1 : Buf (Elt F) (o1Loc d)) : sProp 𝕄 :=
  iprop((tLoc d ↦{q} m (tLoc d))
    ∗ (sLoc d ↦[slSet L]{fullShare} m (sLoc d)) ∗ (rLoc d ↦[slSet L]{fullShare} m (rLoc d))
    ∗ (o0Loc d ↦[slSet L]{fullShare} g0) ∗ (o1Loc d ↦[slSet L]{fullShare} g1))

/-- Task `(c, s)`'s operands. -/
def tilePts (d : Dev nD) (c : Fin 2) (s : Fin 16) (g0 : Buf (Elt F) (o0Loc d)) (g1 : Buf (Elt F) (o1Loc d)) : sProp 𝕄 :=
  tilePtsL m d (tileShare c s) (coordsV c s) g0 g1

/-- SparseCore `c`'s operands: its read share of the table and its sixteen tasks' slices. -/
def corePts (d : Dev nD) (c : Fin 2) (g0 : Buf (Elt F) (o0Loc d)) (g1 : Buf (Elt F) (o1Loc d)) : sProp 𝕄 :=
  iprop((tLoc d ↦{coreShare c} m (tLoc d))
    ∗ bigSep Finset.univ fun s : Fin 16 =>
        iprop((sLoc d ↦[slSet (coordsV c s)]{fullShare} m (sLoc d)) ∗ (rLoc d ↦[slSet (coordsV c s)]{fullShare} m (rLoc d))
          ∗ (o0Loc d ↦[slSet (coordsV c s)]{fullShare} g0) ∗ (o1Loc d ↦[slSet (coordsV c s)]{fullShare} g1)))

/-- The one call: out, the results at their launch contents; back, at the gathered arrays. Nothing of the launch's is
    consumed by the tasks (their transfers run on the counters' protocol, which needs no schedule). -/
def P : (K (F := F)).Pay (nD := nD) (Val := Elt F) (Name := ℕ) (U := U) where
  st := fun q d c => match q with | 0 => corePts m d (Fin.cast nCore_zero c) (m (o0Loc d)) (m (o1Loc d))
  dn := fun q d c => match q with | 0 => corePts m d (Fin.cast nCore_zero c) (G0 m d) (G1 m d)
  go := fun q d c i => match q with
    | 0 => tilePts m d (Fin.cast nCore_zero c) (Fin.cast nSub_zero i) (m (o0Loc d)) (m (o1Loc d))
  td := fun q d c i => match q with
    | 0 => tilePts m d (Fin.cast nCore_zero c) (Fin.cast nSub_zero i) (G0 m d) (G1 m d)
  x := fun _ _ => iprop(emp)

instance tilePts_storable (d : Dev nD) (c : Fin 2) (s : Fin 16) (g0 : Buf (Elt F) (o0Loc d)) (g1 : Buf (Elt F) (o1Loc d)) :
    BI.Storable (upEmb : UEmb _ 𝕄) (tilePts m d c s g0 g1) := by unfold tilePts tilePtsL; infer_instance
instance corePts_storable (d : Dev nD) (c : Fin 2) (g0 : Buf (Elt F) (o0Loc d)) (g1 : Buf (Elt F) (o1Loc d)) :
    BI.Storable (upEmb : UEmb _ 𝕄) (corePts m d c g0 g1) := by unfold corePts; infer_instance

instance P_storable : (P (F := F) (U := U) m).IsStorable where
  st q d c := match q with | 0 => corePts_storable m d _ _ _
  dn q d c := match q with | 0 => corePts_storable m d _ _ _
  go q d c i := match q with | 0 => tilePts_storable m d _ _ _ _
  td q d c i := match q with | 0 => tilePts_storable m d _ _ _ _

theorem P_st (d : Dev nD) (c : Fin ((K (F := F)).nCore 0)) :
    (P (F := F) (U := U) m).st 0 d c = corePts m d (Fin.cast nCore_zero c) (m (o0Loc d)) (m (o1Loc d)) := rfl
theorem P_dn (d : Dev nD) (c : Fin ((K (F := F)).nCore 0)) :
    (P (F := F) (U := U) m).dn 0 d c = corePts m d (Fin.cast nCore_zero c) (G0 m d) (G1 m d) := rfl
theorem P_go (d : Dev nD) (c : Fin ((K (F := F)).nCore 0)) (i : Fin ((K (F := F)).nSub 0)) :
    (P (F := F) (U := U) m).go 0 d c i = tilePts m d (Fin.cast nCore_zero c) (Fin.cast nSub_zero i) (m (o0Loc d)) (m (o1Loc d)) := rfl
theorem P_td (d : Dev nD) (c : Fin ((K (F := F)).nCore 0)) (i : Fin ((K (F := F)).nSub 0)) :
    (P (F := F) (U := U) m).td 0 d c i = tilePts m d (Fin.cast nCore_zero c) (Fin.cast nSub_zero i) (G0 m d) (G1 m d) := rfl
theorem P_x (q : Fin 1) (thr : Thread nD τ) : (P (F := F) (U := U) m).x q thr = iprop(emp) := rfl

end Cert.KernelIdeal.Sc

end
-- ==== Proof.TcDat.lean ====
/-
  The TensorCore call's proof data: what each window's staging buffer holds after the body at each grid point, and
  the invariant carried between points (the 384-row table in the scratch buffer: anything before the first point,
  the table of the three slabs after it).
-/
import proofs.«206043_g84026740179769_cont_sun_m_427_41_alg».proof.Proof.Gen.KernelIdeal.Launch
import proofs.«206043_g84026740179769_cont_sun_m_427_41_alg».proof.Proof.Gen.KernelIdeal.Points
import proofs.«206043_g84026740179769_cont_sun_m_427_41_alg».proof.Proof.KerSpec
import Idealize.ShloMosaic.Lib.Pipeline.Regions
import Idealize.ShloMosaic.Lib.Pipeline.Frame
import Idealize.ShloMosaic.Lib.SparseCore.Cells

noncomputable section

namespace Cert.KernelIdeal.Tc

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

/-- The prefetched tables' admissible contents: no table. -/
abbrev adm : (p : Fin 1) → (pcfgs (F := F) p).Adm := fun p => (cfgs p).toPCfg_adm

/-- A TensorCore reference's contents under a valuation of the device's buffers. -/
abbrev Vb (V : Dev nD → Valuation τ sig (Elt F)) (c : Dev nD) (b : Ref sig .tc) : Buf (Elt F) ((c.tc : Thread nD τ).loc b) :=
  V c (Proc.devRef .tc b)

section Data

variable (V : Dev nD → Valuation τ sig (Elt F)) (W₀ : Waits sig (HIx 1)) (c : Dev nD)

/-- The eleven arrays' entry contents, by name. -/
abbrev cs : IVec S320000 32 := Vb V c main_v0_0
abbrev cr : IVec S320000 32 := Vb V c main_v0_1
abbrev rT : FVec F S16x320000 .bf16 := Vb V c main_v8
abbrev ep : FVec F S128x128 .f32 := Vb V c main_v3
abbrev ws : FVec F S128x128 .f32 := Vb V c main_v4
abbrev wr : FVec F S128x128 .f32 := Vb V c main_v5
abbrev wrbf : FVec F S16x128 .bf16 := Vb V c main_v9
abbrev brbf : FVec F S1x128 .f32 := Vb V c main_v10
abbrev wq : FVec F S128x128 .f32 := Vb V c main_v6
abbrev bout : FVec F S1x128 .f32 := Vb V c main_v11

/-- What point `t` stores into the output's block. -/
abbrev oblk (t : Fin 20) : FVec F S16000x128 .f32 :=
  Spec.outBlk (cs V c) (cr V c) (rT V c) (ep V c) (ws V c) (wr V c) (wq V c) (wrbf V c) (brbf V c) (bout V c) t

/-- The table the scratch buffer holds from the first point on. -/
abbrev stbl : Vec F S384x128 .bf16 := Spec.tbl (ep V c) (ws V c) (wr V c) (wq V c)

/-- The valuation the region leaves: the result buffer at the stacked blocks, every other buffer as it was. -/
def V' : Valuation τ sig (Elt F) :=
  Function.update (V c) (Proc.devRef .tc main_v12) (Spec.stack (oblk V c))

theorem V'_out : V' V c (Proc.devRef .tc main_v12) = Spec.stack (oblk V c) := by
  unfold V'; rw [Function.update_self]

theorem V'_of_ne (b : DevRef τ sig) (hb : b ≠ Proc.devRef .tc main_v12) : V' V c b = V c b := by
  unfold V'; rw [Function.update_of_ne hb]

/-- The scratch operand: a whole scoped buffer of the kernel's own. -/
abbrev scM : Memref sig .tc .vmem S384x128 .bf16 := Memref.whole cc1_scratch0

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (Vb V c (Pipeline.arrRef spec1 w))

/-- The invariant before position `n`: the scratch at anything before the first point, at the table afterwards. -/
def PhiT : ℕ → sProp 𝕄
  | 0 => iprop(∃ d, owns (c.tc : Thread nD τ) scM fullShare d)
  | _ + 1 => owns (c.tc : Thread nD τ) scM fullShare (stbl V c)

theorem PhiT_zero : (PhiT V c 0 : sProp 𝕄) = iprop(∃ d, owns (c.tc : Thread nD τ) scM fullShare d) := rfl
theorem PhiT_succ (n : ℕ) : (PhiT V c (n + 1) : sProp 𝕄) = owns (c.tc : Thread nD τ) scM fullShare (stbl V c) := rfl
theorem PhiT_pos (n : ℕ) (hn : n ≠ 0) : (PhiT V c n : sProp 𝕄) = owns (c.tc : Thread nD τ) scM fullShare (stbl V c) := by
  cases n with
  | zero => exact absurd rfl hn
  | succ n => rfl

/-- The proof data of the one pipeline on core `c`: the arrays as the region finds them; after the body at point
    `t` each input's buffer at its block, the output's at the point's block of the result; the invariant the scratch;
    nothing owed, the recorded waits those the region was entered with and the loop's own; full shares. -/
def pdats (_ : Fin 1) (c : Dev nD) : Dat τ (Elt F) (HIx 1) ℕ U ℕ cfg1 c where
  A w := Vb V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => oblk V c (Fin.cast N_1 t)
  Φ t := PhiT V c t.val
  q _ := fullShare
  owed _ := 0
  recorded _ := {p | p ∈ W₀ ∨ p.2 = none}

end Data

end Cert.KernelIdeal.Tc

end
-- ==== Proof.TcRunLib.lean ====
/-
  What the two runs of the TensorCore kernel body share: the condition of its one conditional in closed form, the
  rectangle of the index arrays' loads, the value the body stores, and two read-back equations for accesses at
  offset zero through a whole rectangle.
-/
import proofs.«206043_g84026740179769_cont_sun_m_427_41_alg».proof.Proof.Gen.KernelIdeal.Launch
import proofs.«206043_g84026740179769_cont_sun_m_427_41_alg».proof.Proof.Gen.KernelIdeal.Skeleton
import proofs.«206043_g84026740179769_cont_sun_m_427_41_alg».proof.Proof.Gen.KernelIdeal.Points
import Idealize.ShloMosaic.Lib.Pipeline.FrameBody
import Idealize.ShloMosaic.Lib.Ring
import Idealize.ShloMosaic.Lib.Tactic
import Idealize.ShloMosaic.Lib.WholeRead
import Idealize.ShloMosaic.Lib.SparseCore.Cells

set_option maxRecDepth 16384
set_option pp.maxSteps 20000
set_option pp.deepTerms false

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

/-- The condition of the body's `scf.if`: the grid coordinate is zero. -/
abbrev cond1 (i : grid1.Coords) : Prop := (Scalar.cmpi .ne (Scalar.extui (Scalar.cmpi .eq (BitVec.ofNat 32 (i 0).val) 0#32)) 0#32) = 1#1
/-- It holds at the first point only — decided over the grid. -/
theorem hcond1 : ∀ t : Fin cfg1.N, cond1 (grid1.coords t) ↔ t.val = 0 :=
  (by decide +kernel : ∀ t : Fin grid1.N, cond1 (grid1.coords t) ↔ t.val = 0)

/-- The rectangle the body loads of each index array at grid coordinates `i`: 16000 entries from the point's offset. -/
abbrev Ri (i : grid1.Coords) : Rect S320000 := Rect.unit (s := S320000) (k1_off1 i) S16000.size (k1_off1_inb i)

/-- What the body stores into the output block, of what its memrefs hold: the index arrays `x1`, `x2` (read at the
    point's rectangle), the radial-basis block `x3`, its weights and bias `x7`, `x8`, the output bias `x10`, and the
    table `xs` in the scratch buffer. -/
def outB (i : grid1.Coords) (x1 x2 : Vec F S320000 .i32) (x3 : Vec F S16x16000 .bf16) (x7 : Vec F S16x128 .bf16)
    (x8 x10 : Vec F S1x128 .f32) (xs : Vec F S384x128 .bf16) : Vec F S16000x128 .f32 :=
  k1_pay1 (k1_pay5 (View.ld x1 (Ri i)) (View.ld x2 (Ri i)) x3 x7 x8) xs x10

section Whole

variable {sig' : RefSig} {Val : EltTy → Type} {κ : Kind} {sp : Space} {S : Shape} {e : EltTy}

/-- A store through the whole rectangle (zero offsets, the shape's own sizes), LAST, leaves its payload. -/
theorem read_writes_unit_zero (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have := View.read_writes_cons_emb v f (Rect.whole S) w L y
  rw [Rect.emb_whole_apply] at this
  exact this

/-- A load through the whole rectangle of a whole memref held at the contents that read `X` reads `X`. -/
theorem readAt_unread_unit_zero {m : Memref sig' κ sp S e} (hm : m.IsWhole) (X : S.Idx → Val e) {off : Fin S.rank → Nat}
    (h : off = fun _ => 0) (inb : ∀ a, off a + S.size a ≤ S.size a) :
    m.view.readAt Val (Rect.unit off S.size inb).toLoadRect (hm.unread X) = X := by
  rw [View.readAt_eq_ld, hm.read_unread, View.ld_unit_zero h]

/-- A load of a rectangle of a whole memref held at the contents that read `X` reads `X` at the rectangle. -/
theorem readAt_unread_ld {m : Memref sig' κ sp S e} (hm : m.IsWhole) (X : S.Idx → Val e) (r : Rect S) :
    m.view.readAt Val r.toLoadRect (hm.unread X) = View.ld X r := by
  rw [View.readAt_eq_ld, hm.read_unread]

end Whole

theorem z2 : (![0, 0] : Fin 2 → Nat) = fun _ => 0 := by funext a; fin_cases a <;> rfl

end Cert.KernelIdeal.Tc

end
-- ==== Proof.TcBlk.lean ====
/-
  The windows' blocks in closed form: a window that stages its whole array holds the array at every point, the
  radial-basis window holds the point's column block, and the body's load of an index array at the point's offset
  reads the point's block of it. With these the value the body stores is the specification's block.
-/
import proofs.«206043_g84026740179769_cont_sun_m_427_41_alg».proof.Proof.TcDat
import proofs.«206043_g84026740179769_cont_sun_m_427_41_alg».proof.Proof.TcRunLib

set_option maxRecDepth 16384
set_option pp.maxSteps 20000
set_option pp.deepTerms false

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

open Idealize.ShloMosaic.ValueIdx

/-- The grid has one axis: a point's coordinate is its position. -/
theorem coords_val : ∀ t : Fin cfg1.N, (grid1.coords t 0).val = t.val :=
  (by decide +kernel : ∀ t : Fin grid1.N, (grid1.coords t 0).val = t.val)

theorem idx_0 : ∀ t : Fin cfg1.N, ∀ a, (cfg1.win 0).index t a = 0 :=
  (by decide +kernel : ∀ t : Fin grid1.N, ∀ a, win1_0.index t a = 0)
theorem idx_1 : ∀ t : Fin cfg1.N, ∀ a, (cfg1.win 1).index t a = 0 :=
  (by decide +kernel : ∀ t : Fin grid1.N, ∀ a, win1_1.index t a = 0)
theorem idx_3 : ∀ t : Fin cfg1.N, ∀ a, (cfg1.win 3).index t a = 0 :=
  (by decide +kernel : ∀ t : Fin grid1.N, ∀ a, win1_3.index t a = 0)
theorem idx_4 : ∀ t : Fin cfg1.N, ∀ a, (cfg1.win 4).index t a = 0 :=
  (by decide +kernel : ∀ t : Fin grid1.N, ∀ a, win1_4.index t a = 0)
theorem idx_5 : ∀ t : Fin cfg1.N, ∀ a, (cfg1.win 5).index t a = 0 :=
  (by decide +kernel : ∀ t : Fin grid1.N, ∀ a, win1_5.index t a = 0)
theorem idx_6 : ∀ t : Fin cfg1.N, ∀ a, (cfg1.win 6).index t a = 0 :=
  (by decide +kernel : ∀ t : Fin grid1.N, ∀ a, win1_6.index t a = 0)
theorem idx_7 : ∀ t : Fin cfg1.N, ∀ a, (cfg1.win 7).index t a = 0 :=
  (by decide +kernel : ∀ t : Fin grid1.N, ∀ a, win1_7.index t a = 0)
theorem idx_8 : ∀ t : Fin cfg1.N, ∀ a, (cfg1.win 8).index t a = 0 :=
  (by decide +kernel : ∀ t : Fin grid1.N, ∀ a, win1_8.index t a = 0)
theorem idx_9 : ∀ t : Fin cfg1.N, ∀ a, (cfg1.win 9).index t a = 0 :=
  (by decide +kernel : ∀ t : Fin grid1.N, ∀ a, win1_9.index t a = 0)
theorem idx_2 : ∀ t : Fin cfg1.N, (cfg1.win 2).index t 0 = 0 ∧ (cfg1.win 2).index t 1 = t.val :=
  (by decide +kernel : ∀ t : Fin grid1.N, win1_2.index t 0 = 0 ∧ win1_2.index t 1 = t.val)

section Blocks

variable (V : Dev nD → Valuation τ sig (Elt F)) (c : Dev nD)

/-- Window 0 stages its whole array: its block at every point is the array. -/
theorem iblk_0 (t : Fin cfg1.N) : iblk V c 0 t = cs V c := by
  funext y
  unfold iblk
  rw [View.read_apply]
  show _root_.cast _ (Vb V c main_v0_0 (((cfg1.win 0).rect t).emb y)) = _
  rw [cast_eq]
  refine congrArg (Vb V c main_v0_0) ?_
  funext a
  exact Fin.ext ((cfg1.win 0).rect_emb_val_of_index_zero t a (idx_0 t a) y)

/-- Window 1 stages its whole array: its block at every point is the array. -/
theorem iblk_1 (t : Fin cfg1.N) : iblk V c 1 t = cr V c := by
  funext y
  unfold iblk
  rw [View.read_apply]
  show _root_.cast _ (Vb V c main_v0_1 (((cfg1.win 1).rect t).emb y)) = _
  rw [cast_eq]
  refine congrArg (Vb V c main_v0_1) ?_
  funext a
  exact Fin.ext ((cfg1.win 1).rect_emb_val_of_index_zero t a (idx_1 t a) y)

/-- Window 3 stages its whole array: its block at every point is the array. -/
theorem iblk_3 (t : Fin cfg1.N) : iblk V c 3 t = ep V c := by
  funext y
  unfold iblk
  rw [View.read_apply]
  show _root_.cast _ (Vb V c main_v3 (((cfg1.win 3).rect t).emb y)) = _
  rw [cast_eq]
  refine congrArg (Vb V c main_v3) ?_
  funext a
  exact Fin.ext ((cfg1.win 3).rect_emb_val_of_index_zero t a (idx_3 t a) y)

/-- Window 4 stages its whole array: its block at every point is the array. -/
theorem iblk_4 (t : Fin cfg1.N) : iblk V c 4 t = ws V c := by
  funext y
  unfold iblk
  rw [View.read_apply]
  show _root_.cast _ (Vb V c main_v4 (((cfg1.win 4).rect t).emb y)) = _
  rw [cast_eq]
  refine congrArg (Vb V c main_v4) ?_
  funext a
  exact Fin.ext ((cfg1.win 4).rect_emb_val_of_index_zero t a (idx_4 t a) y)

/-- Window 5 stages its whole array: its block at every point is the array. -/
theorem iblk_5 (t : Fin cfg1.N) : iblk V c 5 t = wr V c := by
  funext y
  unfold iblk
  rw [View.read_apply]
  show _root_.cast _ (Vb V c main_v5 (((cfg1.win 5).rect t).emb y)) = _
  rw [cast_eq]
  refine congrArg (Vb V c main_v5) ?_
  funext a
  exact Fin.ext ((cfg1.win 5).rect_emb_val_of_index_zero t a (idx_5 t a) y)

/-- Window 6 stages its whole array: its block at every point is the array. -/
theorem iblk_6 (t : Fin cfg1.N) : iblk V c 6 t = wrbf V c := by
  funext y
  unfold iblk
  rw [View.read_apply]
  show _root_.cast _ (Vb V c main_v9 (((cfg1.win 6).rect t).emb y)) = _
  rw [cast_eq]
  refine congrArg (Vb V c main_v9) ?_
  funext a
  exact Fin.ext ((cfg1.win 6).rect_emb_val_of_index_zero t a (idx_6 t a) y)

/-- Window 7 stages its whole array: its block at every point is the array. -/
theorem iblk_7 (t : Fin cfg1.N) : iblk V c 7 t = brbf V c := by
  funext y
  unfold iblk
  rw [View.read_apply]
  show _root_.cast _ (Vb V c main_v10 (((cfg1.win 7).rect t).emb y)) = _
  rw [cast_eq]
  refine congrArg (Vb V c main_v10) ?_
  funext a
  exact Fin.ext ((cfg1.win 7).rect_emb_val_of_index_zero t a (idx_7 t a) y)

/-- Window 8 stages its whole array: its block at every point is the array. -/
theorem iblk_8 (t : Fin cfg1.N) : iblk V c 8 t = wq V c := by
  funext y
  unfold iblk
  rw [View.read_apply]
  show _root_.cast _ (Vb V c main_v6 (((cfg1.win 8).rect t).emb y)) = _
  rw [cast_eq]
  refine congrArg (Vb V c main_v6) ?_
  funext a
  exact Fin.ext ((cfg1.win 8).rect_emb_val_of_index_zero t a (idx_8 t a) y)

/-- Window 9 stages its whole array: its block at every point is the array. -/
theorem iblk_9 (t : Fin cfg1.N) : iblk V c 9 t = bout V c := by
  funext y
  unfold iblk
  rw [View.read_apply]
  show _root_.cast _ (Vb V c main_v11 (((cfg1.win 9).rect t).emb y)) = _
  rw [cast_eq]
  refine congrArg (Vb V c main_v11) ?_
  funext a
  exact Fin.ext ((cfg1.win 9).rect_emb_val_of_index_zero t a (idx_9 t a) y)

/-- The radial-basis window holds the point's block of 16000 columns. -/
theorem iblk_2 (t : Fin cfg1.N) : iblk V c 2 t = Spec.blkC (rT V c) (Fin.cast N_1 t) := by
  funext y
  unfold iblk
  rw [View.read_apply]
  show _root_.cast _ (Vb V c main_v8 (((cfg1.win 2).rect t).emb y)) = _
  rw [cast_eq]
  unfold Spec.blkC
  refine congrArg (Vb V c main_v8) ?_
  funext a
  match a with
  | ⟨0, _⟩ =>
    apply Fin.ext
    rw [(cfg1.win 2).rect_emb_val t y]
    show (cfg1.win 2).index t 0 * 16 + (y 0).val = (y 0).val
    rw [(idx_2 t).1]
    omega
  | ⟨1, _⟩ =>
    apply Fin.ext
    rw [(cfg1.win 2).rect_emb_val t y]
    show (cfg1.win 2).index t 1 * 16000 + (y 1).val = 16000 * t.val + (y 1).val
    rw [(idx_2 t).2]
    omega

end Blocks

/-- The body's load of an index array at the point's offset reads the point's block of 16000 entries. -/
theorem ld_blk1 (v : Vec F S320000 .i32) (t : Fin cfg1.N) :
    View.ld v (Ri (grid1.coords t)) = Spec.blk1 (F := F) v (Fin.cast N_1 t) := by
  funext y
  unfold Spec.blk1
  show v ((Ri (grid1.coords t)).emb y) = _
  refine congrArg v ?_
  funext a
  match a with
  | ⟨0, _⟩ =>
    apply Fin.ext
    rw [Rect.emb_apply]
    show k1_off1 (grid1.coords t) 0 + 1 * (y 0).val = 16000 * t.val + (y 0).val
    rw [k1_off1_eq, ← coords_val t]
    show 16000 * (grid1.coords t 0).val + 1 * (y 0).val = _
    omega

/-- What the body stores at point `t`, of the arrays the region finds: the specification's block. -/
theorem outB_eq (V : Dev nD → Valuation τ sig (Elt F)) (c : Dev nD) (t : Fin cfg1.N) :
    outB (grid1.coords t) (cs V c) (cr V c) (iblk V c 2 t) (wrbf V c) (brbf V c) (bout V c) (stbl V c) = oblk V c (Fin.cast N_1 t) := by
  unfold outB
  rw [ld_blk1, ld_blk1, iblk_2]
  rfl

end Cert.KernelIdeal.Tc

end
-- ==== Proof.TcTbl.lean ====
/-
  The three slab stores into the 384-row scratch buffer read back as ONE function of the index: the table
  `Spec.tbl`. Each slab is the block of that function its rectangle names, and the three rectangles tile the buffer.
-/
import proofs.«206043_g84026740179769_cont_sun_m_427_41_alg».proof.Proof.TcRunLib
import proofs.«206043_g84026740179769_cont_sun_m_427_41_alg».proof.Proof.KerSpec
import Idealize.ShloMosaic.Lib.Pipeline.Value

set_option maxRecDepth 16384
set_option pp.maxSteps 20000
set_option pp.deepTerms false

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

open Idealize.ShloMosaic.ValueIdx

section Tbl

variable (x4 x5 x6 x9 : Vec F S128x128 .f32)

/-- The three slab stores, last first, as pieces of the scratch buffer's shape. -/
def slabs : List (View.Piece (Elt F) S384x128 .bf16) :=
  [⟨Rect.unit ![256, 0] S128x128.size inb_S384x128_S128x128_256_0, k1_pay4 x9⟩,
   ⟨Rect.unit ![128, 0] S128x128.size inb_S384x128_S128x128_128_0, k1_pay3 x4 x6⟩,
   ⟨Rect.unit ![0, 0] S128x128.size inb_S384x128_S128x128_0_0, k1_pay2 x4 x5⟩]

/-- Each slab is the block of the table its rectangle names. -/
theorem slabs_pieces : ∀ p ∈ slabs x4 x5 x6 x9, ∀ x : p.1.shape.Idx, p.2 x = Spec.tbl x4 x5 x6 x9 (p.1.emb x) := by
  intro p hp x
  simp only [slabs, List.mem_cons, List.mem_nil_iff, or_false] at hp
  rcases hp with rfl | rfl | rfl
  · have h0 := (x 0).isLt; change (x 0).val < 128 at h0
    have e0 : (((Rect.unit (s := S384x128) ![256, 0] S128x128.size inb_S384x128_S128x128_256_0).emb x) 0).val = 256 + 1 * (x 0).val := rfl
    unfold Spec.tbl
    rw [dif_neg (by rw [e0]; omega), dif_neg (by rw [e0]; omega)]
    refine congrArg (k1_pay4 x9) ?_
    funext d
    match d with
    | ⟨0, _⟩ => exact Fin.ext (by show (x 0).val = 256 + 1 * (x 0).val - 256; omega)
    | ⟨1, _⟩ => exact Fin.ext (by show (x 1).val = 0 + 1 * (x 1).val; omega)
  · have h0 := (x 0).isLt; change (x 0).val < 128 at h0
    have e0 : (((Rect.unit (s := S384x128) ![128, 0] S128x128.size inb_S384x128_S128x128_128_0).emb x) 0).val = 128 + 1 * (x 0).val := rfl
    unfold Spec.tbl
    rw [dif_neg (by rw [e0]; omega), dif_pos (by rw [e0]; omega)]
    refine congrArg (k1_pay3 x4 x6) ?_
    funext d
    match d with
    | ⟨0, _⟩ => exact Fin.ext (by show (x 0).val = 128 + 1 * (x 0).val - 128; omega)
    | ⟨1, _⟩ => exact Fin.ext (by show (x 1).val = 0 + 1 * (x 1).val; omega)
  · have h0 := (x 0).isLt; change (x 0).val < 128 at h0
    have e0 : (((Rect.unit (s := S384x128) ![0, 0] S128x128.size inb_S384x128_S128x128_0_0).emb x) 0).val = 0 + 1 * (x 0).val := rfl
    unfold Spec.tbl
    rw [dif_pos (by rw [e0]; omega)]
    refine congrArg (k1_pay2 x4 x5) ?_
    funext d
    match d with
    | ⟨0, _⟩ => exact Fin.ext (by show (x 0).val = 0 + 1 * (x 0).val; omega)
    | ⟨1, _⟩ => exact Fin.ext (by show (x 1).val = 0 + 1 * (x 1).val; omega)

/-- The three rectangles tile the buffer. -/
theorem slabs_cover (y : S384x128.Idx) : ∃ p ∈ slabs x4 x5 x6 x9, y ∈ p.1.set :=
  View.cover_of_tiledL (slabs x4 x5 x6 x9) S128x128.size (by sl_kernel_rfl) y

variable {κ : Kind} {sp : Space}

/-- What the buffer holds after the three stores, whatever it held before: the table. -/
theorem read_writes_slabs (v : View sig κ sp S384x128 .bf16) (f : v.ty.Contents (Elt F)) :
    v.read (Elt F) (v.writes (Elt F) f (slabs x4 x5 x6 x9)) = Spec.tbl x4 x5 x6 x9 :=
  funext fun y => View.read_writes_apply_of_pieces v f (Spec.tbl x4 x5 x6 x9) (slabs x4 x5 x6 x9) (slabs_pieces x4 x5 x6 x9) y (slabs_cover x4 x5 x6 x9 y)

/-- A load of the whole buffer after the three stores reads the table. -/
theorem readCov_slabs (v : View sig κ sp S384x128 .bf16) :
    v.readCov (slabs x4 x5 x6 x9) (Rect.unit ![0, 0] S384x128.size inb_S384x128_S384x128_0_0).toLoadRect = Spec.tbl x4 x5 x6 x9 := by
  rw [View.readCov_eq_canon']
  funext j
  rw [View.canon_apply_of_pieces (Spec.tbl x4 x5 x6 x9) (slabs x4 x5 x6 x9) (slabs_pieces x4 x5 x6 x9) _ (slabs_cover x4 x5 x6 x9 _)]
  refine congrArg (Spec.tbl x4 x5 x6 x9) ?_
  funext d
  match d with
  | ⟨0, _⟩ => exact Fin.ext (by show 0 + 1 * (j 0).val = (j 0).val; omega)
  | ⟨1, _⟩ => exact Fin.ext (by show 0 + 1 * (j 1).val = (j 1).val; omega)

end Tbl

end Cert.KernelIdeal.Tc

end
-- ==== Proof.TcRunA.lean ====
/-
  The TensorCore kernel body run at the first grid point: the conditional is taken, the three slabs are stored into
  the scratch buffer (held at anything), which then reads back as the one table; the one store covers the output block.
-/
import proofs.«206043_g84026740179769_cont_sun_m_427_41_alg».proof.Proof.TcTbl

set_option maxRecDepth 16384
set_option pp.maxSteps 20000
set_option pp.deepTerms false

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

set_option maxHeartbeats 4000000 in
/-- The body where the conditional is taken, on whole memrefs: the inputs at their contents, the output and the scratch
    at anything; it runs to the continuation holding the inputs as they were, the scratch at the table of the three
    slabs and the output at the stored value. -/
theorem kernelRun_A (c : Dev nD) (i : grid1.Coords) (arg1 : Memref sig .tc .vmem S320000 .i32) (harg1 : arg1.IsWhole) (arg2 : Memref sig .tc .vmem S320000 .i32) (harg2 : arg2.IsWhole) (arg3 : Memref sig .tc .vmem S16x16000 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S16x128 .bf16) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S16000x128 .f32) (harg11 : arg11.IsWhole) (arg12 : Memref sig .tc .vmem S384x128 .bf16) (harg12 : arg12.IsWhole) (hc : cond1 i)
    (x1 : Vec F S320000 .i32) (x2 : Vec F S320000 .i32) (x3 : Vec F S16x16000 .bf16) (x4 : Vec F S128x128 .f32) (x5 : Vec F S128x128 .f32) (x6 : Vec F S128x128 .f32) (x7 : Vec F S16x128 .bf16) (x8 : Vec F S1x128 .f32) (x9 : Vec F S128x128 .f32) (x10 : Vec F S1x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outB i x1 x2 x3 x7 x8 x10 (Spec.tbl x4 x5 x6 x9)) ∗ owns (c : Thread nD τ) arg12 fullShare (Spec.tbl x4 x5 x6 x9)) -∗ K ⟨⟩))
      ⊢ wp frame (wpE (defs₀ (F := F)) Variants.none c none) E (cc1_body i arg1 harg1 arg2 harg2 arg3 harg3 arg4 harg4 arg5 harg5 arg6 harg6 arg7 harg7 arg8 harg8 arg9 harg9 arg10 harg10 arg11 harg11 arg12 harg12) K := by
    simp only [cc1_body_eq_skeleton]; unfold cc1_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds, %fs, -, HS⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro
      sl_unfold_run_names
      have hT := readCov_slabs x4 x5 x6 x9 arg12.view
      unfold slabs at hT
      rw [read_writes_unit_zero _ _ z2, readAt_unread_ld harg1, readAt_unread_ld harg2, readAt_unread_unit_zero harg3 _ z2,
        readAt_unread_unit_zero harg7 _ z2, readAt_unread_unit_zero harg8 _ z2, readAt_unread_unit_zero harg10 _ z2,
        readAt_unread_unit_zero harg9 _ z2, readAt_unread_unit_zero harg4 _ z2, readAt_unread_unit_zero harg5 _ z2,
        readAt_unread_unit_zero harg6 _ z2, hT]
      rfl
    iexists _; isplitr; swap; · iexact HS
    ipureintro
    sl_unfold_run_names
    have hT := read_writes_slabs x4 x5 x6 x9 arg12.view fs
    unfold slabs at hT
    rw [readAt_unread_unit_zero harg9 _ z2, readAt_unread_unit_zero harg4 _ z2, readAt_unread_unit_zero harg5 _ z2,
      readAt_unread_unit_zero harg6 _ z2]
    exact hT

end Cert.KernelIdeal.Tc

end
-- ==== Proof.TcRunB.lean ====
/-
  The TensorCore kernel body run at a grid point after the first: the conditional is not taken, the scratch buffer
  holds what the first point left, and the one store covers the output block.
-/
import proofs.«206043_g84026740179769_cont_sun_m_427_41_alg».proof.Proof.TcRunLib

set_option maxRecDepth 16384
set_option pp.maxSteps 20000
set_option pp.deepTerms false

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

set_option maxHeartbeats 4000000 in
/-- The body where the conditional is not taken, on whole memrefs: the inputs at their contents, the output at anything,
    the scratch at contents `xs`; it runs to the continuation holding the inputs and the scratch as they were and the
    output at the stored value. -/
theorem kernelRun_B (c : Dev nD) (i : grid1.Coords) (arg1 : Memref sig .tc .vmem S320000 .i32) (harg1 : arg1.IsWhole) (arg2 : Memref sig .tc .vmem S320000 .i32) (harg2 : arg2.IsWhole) (arg3 : Memref sig .tc .vmem S16x16000 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S16x128 .bf16) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S16000x128 .f32) (harg11 : arg11.IsWhole) (arg12 : Memref sig .tc .vmem S384x128 .bf16) (harg12 : arg12.IsWhole) (hc : ¬cond1 i)
    (x1 : Vec F S320000 .i32) (x2 : Vec F S320000 .i32) (x3 : Vec F S16x16000 .bf16) (x4 : Vec F S128x128 .f32) (x5 : Vec F S128x128 .f32) (x6 : Vec F S128x128 .f32) (x7 : Vec F S16x128 .bf16) (x8 : Vec F S1x128 .f32) (x9 : Vec F S128x128 .f32) (x10 : Vec F S1x128 .f32) (xs : Vec F S384x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare xs
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outB i x1 x2 x3 x7 x8 x10 xs) ∗ owns (c : Thread nD τ) arg12 fullShare xs) -∗ K ⟨⟩))
      ⊢ wp frame (wpE (defs₀ (F := F)) Variants.none c none) E (cc1_body i arg1 harg1 arg2 harg2 arg3 harg3 arg4 harg4 arg5 harg5 arg6 harg6 arg7 harg7 arg8 harg8 arg9 harg9 arg10 harg10 arg11 harg11 arg12 harg12) K := by
    simp only [cc1_body_eq_skeleton]; unfold cc1_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    obtain rfl := harg12.eq_unread hfs
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro
      sl_unfold_run_names
      rw [read_writes_unit_zero _ _ z2, readAt_unread_ld harg1, readAt_unread_ld harg2, readAt_unread_unit_zero harg3 _ z2,
        readAt_unread_unit_zero harg7 _ z2, readAt_unread_unit_zero harg8 _ z2, readAt_unread_unit_zero harg12 _ z2,
        readAt_unread_unit_zero harg10 _ z2]
      rfl
    iexists _; isplitr; · ipureintro; exact harg12.read_unread _
    iexact HS

end Cert.KernelIdeal.Tc

end
-- ==== Proof.TcBody.lean ====
/-
  The body obligation of the TensorCore call. At every grid point the inputs' staging buffers hold their blocks; at
  the first point the conditional is taken and the scratch buffer, held at anything, is left at the table; at every
  later point the scratch holds the table and is left as it is; in both cases the output's staging buffer is left at
  the specification's block.
-/
import proofs.«206043_g84026740179769_cont_sun_m_427_41_alg».proof.Proof.TcBlk
import proofs.«206043_g84026740179769_cont_sun_m_427_41_alg».proof.Proof.TcRunA
import proofs.«206043_g84026740179769_cont_sun_m_427_41_alg».proof.Proof.TcRunB

set_option maxRecDepth 16384
set_option pp.maxSteps 20000
set_option pp.deepTerms false

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

section Body

variable (V : Dev nD → Valuation τ sig (Elt F)) (W₀ : Waits sig (HIx 1)) (c : Dev nD)

/-- The proof data's arrays are the region-entry contents (the definition projected). -/
theorem A_eq (w : Fin cfg1.W) : (pdats (U := U) V W₀ 0 c).A w = Vb V c (Pipeline.arrRef spec1 w) := by dsimp only [pdats]

/-- What the body leaves, window by window (the proof data's `match` reduced). -/
theorem after_0 (t : Fin cfg1.N) : (pdats (U := U) V W₀ 0 c).after 0 t = iblk V c 0 t := by dsimp only [pdats]
theorem after_1 (t : Fin cfg1.N) : (pdats (U := U) V W₀ 0 c).after 1 t = iblk V c 1 t := by dsimp only [pdats]
theorem after_2 (t : Fin cfg1.N) : (pdats (U := U) V W₀ 0 c).after 2 t = iblk V c 2 t := by dsimp only [pdats]
theorem after_3 (t : Fin cfg1.N) : (pdats (U := U) V W₀ 0 c).after 3 t = iblk V c 3 t := by dsimp only [pdats]
theorem after_4 (t : Fin cfg1.N) : (pdats (U := U) V W₀ 0 c).after 4 t = iblk V c 4 t := by dsimp only [pdats]
theorem after_5 (t : Fin cfg1.N) : (pdats (U := U) V W₀ 0 c).after 5 t = iblk V c 5 t := by dsimp only [pdats]
theorem after_6 (t : Fin cfg1.N) : (pdats (U := U) V W₀ 0 c).after 6 t = iblk V c 6 t := by dsimp only [pdats]
theorem after_7 (t : Fin cfg1.N) : (pdats (U := U) V W₀ 0 c).after 7 t = iblk V c 7 t := by dsimp only [pdats]
theorem after_8 (t : Fin cfg1.N) : (pdats (U := U) V W₀ 0 c).after 8 t = iblk V c 8 t := by dsimp only [pdats]
theorem after_9 (t : Fin cfg1.N) : (pdats (U := U) V W₀ 0 c).after 9 t = iblk V c 9 t := by dsimp only [pdats]
theorem after_10 (t : Fin cfg1.N) : (pdats (U := U) V W₀ 0 c).after 10 t = oblk V c (Fin.cast N_1 t) := by dsimp only [pdats]

/-- Each input's current staging buffer holds its block at every point, fetched there or not. -/
theorem before_0 (t : Fin cfg1.N) (d) : (pdats (U := U) V W₀ 0 c).before 0 t d = iblk V c 0 t :=
  ((pdats (U := U) V W₀ 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg1.N) (d) : (pdats (U := U) V W₀ 0 c).before 1 t d = iblk V c 1 t :=
  ((pdats (U := U) V W₀ 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin cfg1.N) (d) : (pdats (U := U) V W₀ 0 c).before 2 t d = iblk V c 2 t :=
  ((pdats (U := U) V W₀ 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (t : Fin cfg1.N) (d) : (pdats (U := U) V W₀ 0 c).before 3 t d = iblk V c 3 t :=
  ((pdats (U := U) V W₀ 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (t : Fin cfg1.N) (d) : (pdats (U := U) V W₀ 0 c).before 4 t d = iblk V c 4 t :=
  ((pdats (U := U) V W₀ 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (t : Fin cfg1.N) (d) : (pdats (U := U) V W₀ 0 c).before 5 t d = iblk V c 5 t :=
  ((pdats (U := U) V W₀ 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (t : Fin cfg1.N) (d) : (pdats (U := U) V W₀ 0 c).before 6 t d = iblk V c 6 t :=
  ((pdats (U := U) V W₀ 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (t : Fin cfg1.N) (d) : (pdats (U := U) V W₀ 0 c).before 7 t d = iblk V c 7 t :=
  ((pdats (U := U) V W₀ 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (t : Fin cfg1.N) (d) : (pdats (U := U) V W₀ 0 c).before 8 t d = iblk V c 8 t :=
  ((pdats (U := U) V W₀ 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (t : Fin cfg1.N) (d) : (pdats (U := U) V W₀ 0 c).before 9 t d = iblk V c 9 t :=
  ((pdats (U := U) V W₀ 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-- No window is idle anywhere: the body leaves each at the proof data's `after`. -/
theorem leaves_0 (t : Fin cfg1.N) : (pdats (U := U) V W₀ 0 c).leavesExact 0 t = owns (c : Thread nD τ) (st1_0 t) fullShare ((pdats (U := U) V W₀ 0 c).after 0 t) := by
  unfold Dat.leavesExact; rfl
theorem leaves_1 (t : Fin cfg1.N) : (pdats (U := U) V W₀ 0 c).leavesExact 1 t = owns (c : Thread nD τ) (st1_1 t) fullShare ((pdats (U := U) V W₀ 0 c).after 1 t) := by
  unfold Dat.leavesExact; rfl
theorem leaves_2 (t : Fin cfg1.N) : (pdats (U := U) V W₀ 0 c).leavesExact 2 t = owns (c : Thread nD τ) (st1_2 t) fullShare ((pdats (U := U) V W₀ 0 c).after 2 t) := by
  unfold Dat.leavesExact; rfl
theorem leaves_3 (t : Fin cfg1.N) : (pdats (U := U) V W₀ 0 c).leavesExact 3 t = owns (c : Thread nD τ) (st1_3 t) fullShare ((pdats (U := U) V W₀ 0 c).after 3 t) := by
  unfold Dat.leavesExact; rfl
theorem leaves_4 (t : Fin cfg1.N) : (pdats (U := U) V W₀ 0 c).leavesExact 4 t = owns (c : Thread nD τ) (st1_4 t) fullShare ((pdats (U := U) V W₀ 0 c).after 4 t) := by
  unfold Dat.leavesExact; rfl
theorem leaves_5 (t : Fin cfg1.N) : (pdats (U := U) V W₀ 0 c).leavesExact 5 t = owns (c : Thread nD τ) (st1_5 t) fullShare ((pdats (U := U) V W₀ 0 c).after 5 t) := by
  unfold Dat.leavesExact; rfl
theorem leaves_6 (t : Fin cfg1.N) : (pdats (U := U) V W₀ 0 c).leavesExact 6 t = owns (c : Thread nD τ) (st1_6 t) fullShare ((pdats (U := U) V W₀ 0 c).after 6 t) := by
  unfold Dat.leavesExact; rfl
theorem leaves_7 (t : Fin cfg1.N) : (pdats (U := U) V W₀ 0 c).leavesExact 7 t = owns (c : Thread nD τ) (st1_7 t) fullShare ((pdats (U := U) V W₀ 0 c).after 7 t) := by
  unfold Dat.leavesExact; rfl
theorem leaves_8 (t : Fin cfg1.N) : (pdats (U := U) V W₀ 0 c).leavesExact 8 t = owns (c : Thread nD τ) (st1_8 t) fullShare ((pdats (U := U) V W₀ 0 c).after 8 t) := by
  unfold Dat.leavesExact; rfl
theorem leaves_9 (t : Fin cfg1.N) : (pdats (U := U) V W₀ 0 c).leavesExact 9 t = owns (c : Thread nD τ) (st1_9 t) fullShare ((pdats (U := U) V W₀ 0 c).after 9 t) := by
  unfold Dat.leavesExact; rfl
theorem leaves_10 (t : Fin cfg1.N) : (pdats (U := U) V W₀ 0 c).leavesExact 10 t = owns (c : Thread nD τ) (st1_10 t) fullShare ((pdats (U := U) V W₀ 0 c).after 10 t) := by
  unfold Dat.leavesExact; rfl

theorem Phi_castSucc (t : Fin cfg1.N) : (pdats (U := U) V W₀ 0 c).Φ t.castSucc = PhiT V c t.val := by
  dsimp only [pdats]; simp only [Fin.coe_castSucc]
theorem Phi_succ (t : Fin cfg1.N) : (pdats (U := U) V W₀ 0 c).Φ t.succ = PhiT V c (t.val + 1) := by
  dsimp only [pdats]; simp only [Fin.val_succ]

/-- What the body is called with at point `t`, the windows one by one, -/
def bodyPre (t : Fin cfg1.N) : sProp 𝕄 :=
  iprop((pdats (U := U) V W₀ 0 c).Φ t.castSucc ∗ (pdats (U := U) V W₀ 0 c).owesAt (none : HIx 1) t.castSucc
    ∗ (∃ d, owns (c : Thread nD τ) (st1_0 t) fullShare ((pdats (U := U) V W₀ 0 c).before 0 t d))
    ∗ (∃ d, owns (c : Thread nD τ) (st1_1 t) fullShare ((pdats (U := U) V W₀ 0 c).before 1 t d))
    ∗ (∃ d, owns (c : Thread nD τ) (st1_2 t) fullShare ((pdats (U := U) V W₀ 0 c).before 2 t d))
    ∗ (∃ d, owns (c : Thread nD τ) (st1_3 t) fullShare ((pdats (U := U) V W₀ 0 c).before 3 t d))
    ∗ (∃ d, owns (c : Thread nD τ) (st1_4 t) fullShare ((pdats (U := U) V W₀ 0 c).before 4 t d))
    ∗ (∃ d, owns (c : Thread nD τ) (st1_5 t) fullShare ((pdats (U := U) V W₀ 0 c).before 5 t d))
    ∗ (∃ d, owns (c : Thread nD τ) (st1_6 t) fullShare ((pdats (U := U) V W₀ 0 c).before 6 t d))
    ∗ (∃ d, owns (c : Thread nD τ) (st1_7 t) fullShare ((pdats (U := U) V W₀ 0 c).before 7 t d))
    ∗ (∃ d, owns (c : Thread nD τ) (st1_8 t) fullShare ((pdats (U := U) V W₀ 0 c).before 8 t d))
    ∗ (∃ d, owns (c : Thread nD τ) (st1_9 t) fullShare ((pdats (U := U) V W₀ 0 c).before 9 t d))
    ∗ (∃ d, owns (c : Thread nD τ) (st1_10 t) fullShare ((pdats (U := U) V W₀ 0 c).before 10 t d)))

/-- and what it returns. -/
def bodyPost (t : Fin cfg1.N) : sProp 𝕄 :=
  iprop((pdats (U := U) V W₀ 0 c).Φ t.succ ∗ (pdats (U := U) V W₀ 0 c).owesAt (none : HIx 1) t.succ
    ∗ (pdats (U := U) V W₀ 0 c).leavesExact 0 t
    ∗ (pdats (U := U) V W₀ 0 c).leavesExact 1 t
    ∗ (pdats (U := U) V W₀ 0 c).leavesExact 2 t
    ∗ (pdats (U := U) V W₀ 0 c).leavesExact 3 t
    ∗ (pdats (U := U) V W₀ 0 c).leavesExact 4 t
    ∗ (pdats (U := U) V W₀ 0 c).leavesExact 5 t
    ∗ (pdats (U := U) V W₀ 0 c).leavesExact 6 t
    ∗ (pdats (U := U) V W₀ 0 c).leavesExact 7 t
    ∗ (pdats (U := U) V W₀ 0 c).leavesExact 8 t
    ∗ (pdats (U := U) V W₀ 0 c).leavesExact 9 t
    ∗ (pdats (U := U) V W₀ 0 c).leavesExact 10 t)

set_option maxHeartbeats 4000000 in
/-- The body at any point: by cases on whether it is the first. -/
theorem sound_body (t : Fin cfg1.N) :
    bodyPre (U := U) V W₀ c t ⊢ wp frame (wpE (defs₀ (F := F)) Variants.none c none) Set.univ (bodyAt1 t) (fun _ => bodyPost (U := U) V W₀ c t) := by
  unfold bodyPre bodyPost bodyAt1
  simp only [before_0, before_1, before_2, before_3, before_4, before_5, before_6, before_7, before_8, before_9]
  rw [show (pdats (U := U) V W₀ 0 c).owesAt (none : HIx 1) t.succ = (pdats (U := U) V W₀ 0 c).owesAt (none : HIx 1) t.castSucc from rfl]
  rw [leaves_0, leaves_1, leaves_2, leaves_3, leaves_4, leaves_5, leaves_6, leaves_7, leaves_8, leaves_9, leaves_10]
  simp only [after_0, after_1, after_2, after_3, after_4, after_5, after_6, after_7, after_8, after_9, after_10]
  simp only [iblk_0, iblk_1, iblk_3, iblk_4, iblk_5, iblk_6, iblk_7, iblk_8, iblk_9]
  rw [← outB_eq V c t, Phi_castSucc, Phi_succ, PhiT_succ]
  by_cases hz : t.val = 0
  · rw [hz, PhiT_zero]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (kernelRun_A c (grid1.coords t) _ _ _ _ _ _ _ _ _ _ _ _ _ _ _ _ _ _ _ _ _ _ _ _ ((hcond1 t).mpr hz)
      (cs V c) (cr V c) (iblk V c 2 t) (ep V c) (ws V c) (wr V c) (wrbf V c) (brbf V c) (wq V c) (bout V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, H10, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [PhiT_pos V c _ hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (kernelRun_B c (grid1.coords t) _ _ _ _ _ _ _ _ _ _ _ _ _ _ _ _ _ _ _ _ _ _ _ _ (fun h => hz ((hcond1 t).mp h))
      (cs V c) (cr V c) (iblk V c 2 t) (ep V c) (ws V c) (wr V c) (wrbf V c) (brbf V c) (wq V c) (bout V c) (stbl V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, H10, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The library's body obligation, at every point. -/
theorem body_obligation : BodyObligation (pdats (U := U) V W₀ 0 c) (defs₀ (F := F)) Variants.none (none : HIx 1) Set.univ := fun t => by
  rw [bigSep_W1, bigSep_W1]
  exact sound_body V W₀ c t

end Body

end Cert.KernelIdeal.Tc

end
-- ==== Proof.TcArr.lean ====
/-
  The TensorCore call's arrays after the run. The result array is written back at every one of the twenty grid points:
  point `t` writes the block of rows `16000 t … 16000 t + 15999`, all 128 columns. What it writes is the point's block
  of ONE whole-array function, the twenty blocks laid one under the other (row `r` is row `r % 16000` of block
  `r / 16000`), and the twenty row ranges cover every row; so after the last write-back the array holds that function.
  The ten other windows are inputs, and an input's array is never written: each holds at the end what it held at entry.
-/
import proofs.«206043_g84026740179769_cont_sun_m_427_41_alg».proof.Proof.TcDat
import Idealize.ShloMosaic.Lib.Pipeline.Value
import Idealize.ShloMosaic.Lib.Pipeline.Cells

noncomputable section

namespace Cert.KernelIdeal.Tc

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

section Arr

variable (V : Dev nD → Valuation τ sig (Elt F)) (W₀ : Waits sig (HIx 1)) (c : Dev nD)

/-- The stacked array at row `16000 t + y₀`, column `y₁`, is block `t` at `(y₀, y₁)`. -/
theorem stack_apply (B : Fin 20 → FVec F S16000x128 .f32) (t : Fin 20) (y : S16000x128.Idx) (i : S320000x128.Idx)
    (h0 : (i 0).val = 16000 * t.val + (y 0).val) (h1 : (i 1).val = (y 1).val) : Spec.stack B i = B t y := by
  have hy0 : (y 0).val < 16000 := (y 0).isLt
  have e1 : (⟨(i 0).val / 16000, by have := (i 0).isLt; change (i 0).val < 320000 at this; omega⟩ : Fin 20) = t :=
    Fin.ext (by show (i 0).val / 16000 = t.val; omega)
  have e2 : ix2 (⟨(i 0).val % 16000, Nat.mod_lt _ (by norm_num)⟩ : Fin 16000)
      (⟨(i 1).val, by have := (i 1).isLt; change (i 1).val < 128 at this; omega⟩ : Fin 128) = y := by
    funext a
    match a with
    | ⟨0, _⟩ => exact Fin.ext (by show (i 0).val % 16000 = (y 0).val; omega)
    | ⟨1, _⟩ => exact Fin.ext (by show (i 1).val = (y 1).val; omega)
  show B _ _ = B t y
  rw [e1, e2]

/-- The output window's index map: block `t` of the rows, the one block of the columns. -/
theorem idx_facts : ∀ t : Fin cfg1.N, win1_10.index t (0 : Fin 2) = t.val ∧ win1_10.index t (1 : Fin 2) = 0 :=
  (by decide +kernel : ∀ t : Fin grid1.N, _)

/-- What point `t` writes back is block `t` of the stacked array. -/
theorem flushed_out (t : Fin cfg1.N) :
    (pdats (U := U) V W₀ 0 c).flushed 10 t = ((cfg1.win 10).blk t).view.read (Elt F) (Spec.stack (oblk V c)) := by
  show (cfg1.win 10).cut (grid1.coords t) ((pdats (U := U) V W₀ 0 c).after 10 t) = _
  dsimp only [pdats]
  funext j
  show oblk V c (Fin.cast N_1 t) j = Spec.stack (oblk V c) (((cfg1.win 10).blk t).view.emb j)
  refine (stack_apply (oblk V c) (Fin.cast N_1 t) j _ ?_ ?_).symm
  · show win1_10.index t (0 : Fin 2) * 16000 + 1 * (j 0).val = 16000 * t.val + (j 0).val
    rw [(idx_facts t).1]; omega
  · show win1_10.index t (1 : Fin 2) * 128 + 1 * (j 1).val = (j 1).val
    rw [(idx_facts t).2]; omega

/-- An index of the result array is in point `t`'s block when each coordinate is in the block's range on its axis. -/
theorem mem_blk_out (t : Fin cfg1.N) (i : S320000x128.Idx) :
    i ∈ ((cfg1.win 10).blk t).view.set ↔ ∀ a : Fin 2, win1_10.index t a * S16000x128.size a ≤ (i a).val
      ∧ (i a).val < win1_10.index t a * S16000x128.size a + S16000x128.size a := by
  show i ∈ ((View.whole main_v12).slice (win1_10.rect t)).set ↔ _
  rw [View.set_slice_whole, Rect.mem_set_unit]
  exact Iff.rfl

/-- Every index of the result array is in the block of the point its row names: row `r` is in block `r / 16000`. -/
theorem cover_out (i : S320000x128.Idx) :
    ∃ t : Fin cfg1.N, (cfg1.win 10).flush t = true ∧ i ∈ ((cfg1.win 10).blk t).view.set := by
  have hi0 : (i 0).val < 320000 := (i 0).isLt
  have hi1 : (i 1).val < 128 := (i 1).isLt
  have hN : cfg1.N = 20 := N_1
  refine ⟨⟨(i 0).val / 16000, by rw [hN]; omega⟩, flush1_10 _, ?_⟩
  rw [mem_blk_out]
  obtain ⟨e0, e1⟩ := idx_facts (⟨(i 0).val / 16000, by rw [hN]; omega⟩ : Fin cfg1.N)
  intro a
  match a with
  | ⟨0, _⟩ =>
    show win1_10.index _ (0 : Fin 2) * 16000 ≤ (i 0).val ∧ (i 0).val < win1_10.index _ (0 : Fin 2) * 16000 + 16000
    rw [e0]; show (i 0).val / 16000 * 16000 ≤ (i 0).val ∧ (i 0).val < (i 0).val / 16000 * 16000 + 16000; omega
  | ⟨1, _⟩ =>
    show win1_10.index _ (1 : Fin 2) * 128 ≤ (i 1).val ∧ (i 1).val < win1_10.index _ (1 : Fin 2) * 128 + 128
    rw [e1]; omega

/-- THE RESULT ARRAY after the run: the twenty blocks laid one under the other. -/
theorem arrAt_out : (pdats (U := U) V W₀ 0 c).arrAt 10 cfg1.N = Spec.stack (oblk V c) :=
  (pdats (U := U) V W₀ 0 c).arrAt_eq_of_cover 10 (Spec.stack (oblk V c)) (fun t _ => flushed_out V W₀ c t) cover_out

/-- Every other window is an input: its array is never written back. -/
theorem arrAt_inputs (w : Fin cfg1.W) (hw : w ≠ 10) :
    (pdats (U := U) V W₀ 0 c).arrAt w cfg1.N = Vb V c (Pipeline.arrRef spec1 w) :=
  (pdats (U := U) V W₀ 0 c).arrAt_in w ((by decide : ∀ w : Fin 11, w ≠ 10 → (win1 w).isOut = false) w hw) cfg1.N

end Arr

end Cert.KernelIdeal.Tc

end
-- ==== Proof.TcEntail.lean ====
/-
  Two of the four entailments of the TensorCore call's region: what the carried invariant gives back at the last
  point, and how the region's exit reassembles the thread state.

  At the last point the invariant is the scratch buffer at the table: a whole scoped buffer at known contents is in
  particular that buffer at some contents, which is all the scoped rest asks; the kernel has no semaphore of its own.
  At the exit the eleven arrays sit at their final contents — the ten inputs as the region found them, the result at
  the stacked blocks — beside the unscoped buffers that are no window's array, untouched: together they are every
  unscoped buffer at the valuation that differs from the entry valuation at the result buffer only. The waits recorded
  by then lie within those recorded at entry and the loop's own, and each of the loop's own is tagged with no index.
-/
import proofs.«206043_g84026740179769_cont_sun_m_427_41_alg».proof.Proof.TcDat
import Idealize.ShloMosaic.Lib.Pipeline.RegionsLoop

noncomputable section

namespace Cert.KernelIdeal.Tc

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

variable (V : Dev nD → Valuation τ sig (Elt F)) (W₀ : Waits sig (HIx 1))

set_option backward.isDefEq.respectTransparency.types false in
/-- The invariant at the last point gives back the scoped buffer no window stages (the scratch, at the table it then
    holds), no semaphore, and nothing else. -/
theorem hout (c : Dev nD) :
    ((pdats (U := U) V W₀ 0 c).Φ (Fin.last (Pipeline.pin (pcfgs (F := F)) adm 0).N) : sProp 𝕄)
      ⊢ iprop(iprop(emp) ∗ Pipeline.ownSems0 (fun k : PEmpty => k.elim) c
          ∗ Pipeline.scopedRest (Pipeline.pin (pcfgs (F := F)) adm 0).spec c) := by
  rw [Pipeline.ownSems0_none, show (Pipeline.pin (pcfgs (F := F)) adm 0).spec = spec1 from rfl, Gen.scopedRest1_eq,
    show ((pdats (U := U) V W₀ 0 c).Φ (Fin.last (Pipeline.pin (pcfgs (F := F)) adm 0).N) : sProp 𝕄)
      = owns (c.tc : Thread nD τ) scM fullShare (stbl V c) from rfl,
    owns_whole]
  iintro H
  isplitr; · iempintro
  isplitr; · iempintro
  iexists _; iexact H

set_option backward.isDefEq.respectTransparency.types false in
/-- The exit: given the arrays' final contents (the ten inputs unchanged, the result the stacked blocks), the arrays
    and the unscoped rest are the core's unscoped buffers at `V'`, and the tallies come back with the recorded waits
    among those of the entry and pairs tagged with no index. -/
theorem hexit (c : Dev nD)
    (harr_out : (pdats (U := U) V W₀ 0 c).arrAt 10 cfg1.N = Spec.stack (oblk V c))
    (harr_in : ∀ (w : Fin cfg1.W), w ≠ 10 → (pdats (U := U) V W₀ 0 c).arrAt w cfg1.N = Vb V c (Pipeline.arrRef spec1 w)) :
    (iprop((pdats (U := U) V W₀ 0 c).arrays ((pdats (U := U) V W₀ 0 c).arrAt · (Pipeline.pin (pcfgs (F := F)) adm 0).N)
        ∗ (pdats (U := U) V W₀ 0 c).owesAt (none : HIx 1) (Fin.last (Pipeline.pin (pcfgs (F := F)) adm 0).N)
        ∗ iprop(emp) ∗ Pipeline.unscopedRest spec1 c (Vb V c)) : sProp 𝕄)
      ⊢ |={Set.univ}=> iprop(StableHlo.held (c.tc : Thread nD τ) (Pipeline.ucRefs τ sig) (V' V c)
        ∗ ∃ W', ⌜∀ p ∈ W', p ∈ W₀ ∨ p.2 = none⌝ ∗ owes (c.tc : Thread nD τ) (0 : CellTallies nD τ sig (HIx 1)) W') := by
  have h12 : Pipeline.arrRef spec1 (10 : Fin cfg1.W) = main_v12 := rfl
  have hF : ∀ w : Fin (Pipeline.pin (pcfgs (F := F)) adm 0).W,
      (pdats (U := U) V W₀ 0 c).arrAt w (Pipeline.pin (pcfgs (F := F)) adm 0).N
        = (fun b : Ref sig .tc => V' V c (Proc.devRef .tc b)) (Pipeline.arrRef (Pipeline.pin (pcfgs (F := F)) adm 0).spec w) := by
    intro w
    by_cases hw : w = 10
    · subst hw; exact harr_out.trans (V'_out V c).symm
    · refine (harr_in w hw).trans (V'_of_ne V c _ fun e => hw ?_).symm
      exact launch1.win.arr_inj ((Proc.devRef_injective _ e).trans h12.symm)
  have hrest : ∀ b : Ref sig .tc, b ∉ Finset.univ.image (Pipeline.arrRef (Pipeline.pin (pcfgs (F := F)) adm 0).spec) →
      (fun b : Ref sig .tc => V' V c (Proc.devRef .tc b)) b = Vb V c b := fun b hb =>
    V'_of_ne V c _ fun e => hb (Finset.mem_image.mpr ⟨10, Finset.mem_univ _, h12.trans (Proc.devRef_injective _ e).symm⟩)
  have hub := Pipeline.unscopedBufs_of_arrays (pcfgs (F := F)) adm launch1.win launch1.arr_whole c (pdats (U := U) V W₀)
    ((pdats (U := U) V W₀ 0 c).share_full fun _ => rfl) (Vb V c) (fun b => V' V c (Proc.devRef .tc b)) _ hF hrest
  rw [← Pipeline.unscopedBufs_held]
  iintro ⟨Ha, HO, -, HZ⟩
  imodintro
  isplitl [Ha HZ]
  · iapply hub
    isplitl [Ha]; · iexact Ha
    iexact HZ
  · unfold Pipeline.Dat.owesAt Pipeline.owesWithin
    icases HO with ⟨%W, %hW, HO⟩
    iexists W
    isplitr
    · ipureintro
      intro p hp
      rcases hW (Finset.mem_coe.mpr hp) with h | ⟨w, s, rfl⟩
      · exact h
      · exact Or.inr rfl
    · iexact HO

end Cert.KernelIdeal.Tc

end
-- ==== Proof.TcRegion.lean ====
/-
  The TensorCore call as a kernel region of @main: the launch kit's layout, the body obligation, and the region's
  protocol — entered holding the device's unscoped buffers at a valuation and the core's tallies, left holding them at
  the valuation with the result buffer at the stacked blocks. The windows' arrays enter the pipeline and come back at
  their final contents; the other unscoped buffers bypass the region; the scratch buffer is the invariant's.
-/
import proofs.«206043_g84026740179769_cont_sun_m_427_41_alg».proof.Proof.TcBody
import proofs.«206043_g84026740179769_cont_sun_m_427_41_alg».proof.Proof.TcArr
import proofs.«206043_g84026740179769_cont_sun_m_427_41_alg».proof.Proof.TcEntail

noncomputable section

namespace Cert.KernelIdeal.Tc

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

variable (V : Dev nD → Valuation τ sig (Elt F)) (W₀ : Waits sig (HIx 1))

/-- Every array is held at the full share. -/
theorem share_full (c : Dev nD) (w : Fin cfg1.W) : (pdats (U := U) V W₀ 0 c).share w = fullShare :=
  (pdats (U := U) V W₀ 0 c).share_full (fun _ => rfl) w

set_option backward.isDefEq.respectTransparency.types false in
/-- THE REGION: the launch kit's layout, no semaphore of the kernel's own, the body obligation; entered from the
    unscoped buffers at `V` and the core's tallies — the windows' arrays into the pipeline, the other unscoped buffers
    bypassing, the scratch buffer into the invariant —, left with the unscoped buffers at `V'`. -/
def region : Pipeline.RegionSeg (pcfgs (F := F)) adm (pdats (U := U) V W₀) (none : HIx 1) defs₀ Variants.none
    (sc (F := F)).L (sc (F := F)).lev 0 where
  win := launch1.win.to₀
  block_pos := launch1.block_pos
  stage_whole := launch1.stage_whole
  K := PEmpty
  osem := fun k => k.elim
  ho := Pipeline.OwnSemFacts.none _
  hbody c := (body_obligation V W₀ c).loose
  hwaits := Pipeline.hwaits_of_owed_zero _ _ _ _ (sc (F := F)).L (sc (F := F)).lev 0 fun _ _ => rfl
  pre c := iprop(StableHlo.held (c.tc : Thread nD τ) (Pipeline.ucRefs τ sig) (V c)
    ∗ owes (c.tc : Thread nD τ) (0 : CellTallies nD τ sig (HIx 1)) W₀)
  post c := iprop(StableHlo.held (c.tc : Thread nD τ) (Pipeline.ucRefs τ sig) (V' V c)
    ∗ ∃ W', ⌜∀ p ∈ W', p ∈ W₀ ∨ p.2 = none⌝ ∗ owes (c.tc : Thread nD τ) (0 : CellTallies nD τ sig (HIx 1)) W')
  X c := iprop(emp)
  Y c := iprop(emp)
  Z c := Pipeline.unscopedRest spec1 c (Vb V c)
  hentry c := by
    rw [show StableHlo.held (c.tc : Thread nD τ) (Pipeline.ucRefs τ sig) (V c) = unscopedBufs c (Vb V c) from (Pipeline.unscopedBufs_held c _).symm]
    have hsplit := Pipeline.arrays_of_unscopedBufs (pcfgs (F := F)) adm (pdats (U := U) V W₀) launch1.win launch1.arr_whole c
      (share_full V W₀ c) (Vb V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W₀; isplitr; · ipureintro; exact fun p hp => Or.inl (Or.inl hp)
      iexact HO
    isplitr; · iempintro
    iexact Hrest
  hin c := by
    rw [show (pdats (U := U) V W₀ 0 c).Φ 0 = PhiT V c 0 from rfl, PhiT_zero, scopedRest1_eq]
    simp only [scM, owns_whole]
    iintro ⟨-, -, Hr⟩; iexact Hr
  hout c := by
    rw [show (pdats (U := U) V W₀ 0 c).Φ (Fin.last cfg1.N) = PhiT V c cfg1.N from rfl, PhiT_pos V c _ (by rw [show cfg1.N = 20 from N_1]; omega), scopedRest1_eq]
    simp only [scM, owns_whole]
    iintro Hs
    isplitr; · iempintro
    isplitr; · unfold Pipeline.ownSems0; rw [show (Finset.univ : Finset PEmpty) = ∅ from rfl, BI.bigSep_empty]; iempintro
    iexists _; iexact Hs
  hexit c := hexit V W₀ c (arrAt_out V W₀ c) (fun w hw => arrAt_inputs V W₀ c w hw)

end Cert.KernelIdeal.Tc

end
-- ==== Proof.Launch.lean ====
/-
  The kernel program's run: @main on the TensorCore, the launch, and what the final memory holds.

  @main hands the SparseCore call the charge table, the two index arrays and the two result arrays, and gets them back
  with the results at "the table read at the index array"; thirteen host lines then pad the embedding table, cut the
  output weights in three, transpose and narrow the radial basis; the TensorCore call, entered holding every unscoped
  buffer of the device at those contents, leaves the result buffer at the stacked blocks.  Through the whole run the
  ten argument arrays are only read.
-/
import proofs.«206043_g84026740179769_cont_sun_m_427_41_alg».proof.Proof.LaunchLemmas
import proofs.«206043_g84026740179769_cont_sun_m_427_41_alg».proof.Proof.KerHost
import proofs.«206043_g84026740179769_cont_sun_m_427_41_alg».proof.Proof.ScPay
import proofs.«206043_g84026740179769_cont_sun_m_427_41_alg».proof.Proof.TcRegion

noncomputable section

namespace Cert.KernelIdeal.Launch

open Cert.KernelIdeal Cert.KernelIdeal.Gen Cert.KernelIdeal.Common

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The device's buffers, stage by stage -/

/-- Device `d`'s buffers at launch, -/
abbrev V₀ (d : Dev nD) : Valuation τ sig (Elt F) := fun b => m (d, b)
/-- after the SparseCore call (the two result arrays at the gathered words), -/
def V₁ (d : Dev nD) : Valuation τ sig (Elt F) :=
  Function.update (Function.update (V₀ m d) (Proc.devRef .tc main_v0_0) (Sc.G0 m d)) (Proc.devRef .tc main_v0_1) (Sc.G1 m d)
/-- after the host lines, -/
def V₂ (d : Dev nD) : Valuation τ sig (Elt F) := StableHlo.after (Host.hostOps (F := F)) (V₁ m d)
/-- and after the TensorCore call. -/
def V₃ (d : Dev nD) : Valuation τ sig (Elt F) := Tc.V' (V₂ m) d

theorem V₁_v0_0 (d : Dev nD) : V₁ m d (Proc.devRef .tc main_v0_0) = Sc.G0 m d := by
  unfold V₁
  rw [Function.update_of_ne (by decide), Function.update_self]
theorem V₁_v0_1 (d : Dev nD) : V₁ m d (Proc.devRef .tc main_v0_1) = Sc.G1 m d := by
  unfold V₁
  rw [Function.update_self]
theorem V₁_of_ne (d : Dev nD) (b : DevRef τ sig) (h0 : b ≠ Proc.devRef .tc main_v0_0) (h1 : b ≠ Proc.devRef .tc main_v0_1) :
    V₁ m d b = m (d, b) := by
  unfold V₁
  rw [Function.update_of_ne h1, Function.update_of_ne h0]

/-! ## The SparseCore call's arrays back among the device's holdings -/

theorem mem_five_v0_0 : Proc.devRef .tc main_v0_0 ∈ (five : Finset (DevRef τ sig)) := by decide
theorem mem_five_v0_1 : Proc.devRef .tc main_v0_1 ∈ (five : Finset (DevRef τ sig)) := by decide

/-- The five arrays as the call left them, beside the rest as launched, are the device's unscoped buffers at the
    valuation after the call. -/
theorem held_rejoin (d : Dev nD) :
    (iprop((Sc.tLoc d ↦{fullShare} m (Sc.tLoc d)) ∗ (Sc.sLoc d ↦{fullShare} m (Sc.sLoc d)) ∗ (Sc.rLoc d ↦{fullShare} m (Sc.rLoc d))
        ∗ (Sc.o0Loc d ↦{fullShare} Sc.G0 m d) ∗ (Sc.o1Loc d ↦{fullShare} Sc.G1 m d)
        ∗ StableHlo.held (SparseCore.T d : Thread nD τ) (Pipeline.ucRefs τ sig \ five) (V₀ m d)) : sProp 𝕄)
      ⊢ StableHlo.held (SparseCore.T d : Thread nD τ) (Pipeline.ucRefs τ sig) (V₁ m d) := by
  rw [StableHlo.held_sub_split (SparseCore.T d : Thread nD τ) five_sub (V₁ m d), held_five, V₁_v0_0, V₁_v0_1,
    V₁_of_ne m d _ (by decide) (by decide), V₁_of_ne m d _ (by decide) (by decide), V₁_of_ne m d _ (by decide) (by decide),
    StableHlo.held_congr (SparseCore.T d : Thread nD τ) (S := Pipeline.ucRefs τ sig \ five) (V := V₁ m d) (V' := V₀ m d)
      (fun b hb => V₁_of_ne m d b (fun h => (Finset.mem_sdiff.mp hb).2 (h ▸ mem_five_v0_0)) (fun h => (Finset.mem_sdiff.mp hb).2 (h ▸ mem_five_v0_1)))]
  iintro ⟨H1, H3, H4, Ho0, Ho1, Hr⟩
  isplitl [H1 H3 H4 Ho0 Ho1]
  · isplitl [H1]; · iexact H1
    isplitl [H3]; · iexact H3
    isplitl [H4]; · iexact H4
    isplitl [Ho0]; · iexact Ho0
    iexact Ho1
  · iexact Hr

/-! ## @main on the TensorCore -/

/-- What device `d`'s TensorCore holds at the end: every unscoped buffer, at the final valuation. -/
abbrev FIN (d : Dev nD) : sProp 𝕄 := StableHlo.held (SparseCore.T d : Thread nD τ) (Pipeline.ucRefs τ sig) (V₃ m d)

theorem G_eq (d : Dev nD) :
    (G (F := F) d : sProp 𝕄) = iprop(Pipeline.cellsGhost cfgs (EP (F := F)) 0 d ∗ (Pipeline.toksInit cfgs (EP (F := F)) 0 d : sProp 𝕄)) := by
  unfold G
  rw [bigSep_univ_of_subsingleton (0 : Fin 1), bigSep_univ_of_subsingleton (0 : Fin 1)]

/-- The TensorCore call in @main is the inner program's entry call, lifted to the launch's extended signature. -/
theorem region_call_eq [FloatOps F] :
    (Prog.op (.customCall (SparseCore.inner (Pipeline.entry (0 : Fin 1))) ()) fun _ => Prog.ret ⟨⟩ :
        Prog (TpuEff nD τ sig (Elt F) (SparseCore.Sig (ΛP (F := F)) 1) .tc) PUnit)
      = SparseCore.liftProg (Q := 1) (Prog.op (.customCall (Pipeline.entry (0 : Fin 1)) ()) fun _ => Prog.ret ⟨⟩) := by
  rw [SparseCore.liftProg_op]
  rfl

set_option backward.isDefEq.respectTransparency.types false in
/-- The region is entered holding the device's unscoped buffers at the valuation after the host lines, -/
theorem region_pre (W₀ : Waits sig (HIx 1)) (c : Dev nD) :
    ((Tc.region (F := F) (U := UU) (V₂ m) W₀).pre c : sProp 𝕄)
      = iprop(StableHlo.held (c.tc : Thread nD τ) (Pipeline.ucRefs τ sig) (V₂ m c) ∗ owes (c.tc : Thread nD τ) (0 : CellTallies nD τ sig (HIx 1)) W₀) := rfl

set_option backward.isDefEq.respectTransparency.types false in
/-- and left holding them at the valuation with the result buffer at the stacked blocks, the recorded waits grown only
    by pairs at the index that sits below every level. -/
theorem region_post (W₀ : Waits sig (HIx 1)) (c : Dev nD) :
    ((Tc.region (F := F) (U := UU) (V₂ m) W₀).post c : sProp 𝕄)
      = iprop(StableHlo.held (c.tc : Thread nD τ) (Pipeline.ucRefs τ sig) (Tc.V' (V₂ m) c)
          ∗ ∃ W', ⌜∀ p ∈ W', p ∈ W₀ ∨ p.2 = none⌝ ∗ owes (c.tc : Thread nD τ) (0 : CellTallies nD τ sig (HIx 1)) W') := rfl

section Main

variable [Cert.KernelIdeal.Facts] [∀ e, Nonempty (Elt F e)]
set_option backward.isDefEq.respectTransparency.types false in
/-- @main on device `d`'s TensorCore: the SparseCore call, the host lines, the TensorCore call. -/
theorem hmain
    (hst : ∀ d : Dev nD, (iprop((Sc.tLoc d ↦{fullShare} m (Sc.tLoc d)) ∗ (Sc.sLoc d ↦{fullShare} m (Sc.sLoc d)) ∗ (Sc.rLoc d ↦{fullShare} m (Sc.rLoc d))
      ∗ (Sc.o0Loc d ↦{fullShare} m (Sc.o0Loc d)) ∗ (Sc.o1Loc d ↦{fullShare} m (Sc.o1Loc d))) : sProp 𝕄)
    ⊢ bigSep Finset.univ fun c : Fin ((K (F := F)).nCore 0) => (Sc.P (F := F) (U := UU) m).st 0 d c)
    (hdn : ∀ d : Dev nD, (bigSep Finset.univ fun c : Fin ((K (F := F)).nCore 0) => (Sc.P (F := F) (U := UU) m).dn 0 d c)
    ⊢ (iprop((Sc.tLoc d ↦{fullShare} m (Sc.tLoc d)) ∗ (Sc.sLoc d ↦{fullShare} m (Sc.sLoc d)) ∗ (Sc.rLoc d ↦{fullShare} m (Sc.rLoc d))
      ∗ (Sc.o0Loc d ↦{fullShare} Sc.G0 m d) ∗ (Sc.o1Loc d ↦{fullShare} Sc.G1 m d)) : sProp 𝕄))
    (κ : GSem nD τ sig → ℕ) (d : Dev nD) :
    iprop((K (F := F)).ctx EH (Sc.P (F := F) (U := UU) m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [Host.main_eq, show (unscopedBufs d (fun b => m ((SparseCore.T d : Thread nD τ).loc b)) : sProp 𝕄)
        = StableHlo.held (SparseCore.T d : Thread nD τ) (Pipeline.ucRefs τ sig) (V₀ m d) from Pipeline.unscopedBufs_held d (V₀ m d),
    StableHlo.held_sub_split (SparseCore.T d : Thread nD τ) five_sub (V₀ m d), held_five, G_eq, wp_bind]
  iintro ⟨#Hctx, Hst, ⟨Hbd, ⟨⟨H1, H3, H4, Ho0, Ho1⟩, Hrest⟩, Hsems, Hprng⟩, ⟨Hcg, Htk⟩⟩
  iapply ((K (F := F)).wp_run (D (F := F)) 𝒱 (EH := EH) (P := Sc.P (F := F) (U := UU) m) κ d 0) $$ [Hst H1 H3 H4 Ho0 Ho1 Hbd Hrest Hcg Htk]
  isplitr; · iexact Hctx
  isplitl [Hst]; · iexact Hst
  isplitl [H1 H3 H4 Ho0 Ho1]
  · iapply (hst d)
    isplitl [H1]; · iexact H1
    isplitl [H3]; · iexact H3
    isplitl [H4]; · iexact H4
    isplitl [Ho0]; · iexact Ho0
    iexact Ho1
  iintro ⟨Hst, Hdn⟩
  ihave Hdn' := (hdn d) $$ Hdn
  icases Hdn' with ⟨H1, H3, H4, Ho0, Ho1⟩
  ihave Hheld := (held_rejoin m d) $$ [H1 H3 H4 Ho0 Ho1 Hrest]
  · isplitl [H1]; · iexact H1
    isplitl [H3]; · iexact H3
    isplitl [H4]; · iexact H4
    isplitl [Ho0]; · iexact Ho0
    isplitl [Ho1]; · iexact Ho1
    iexact Hrest
  -- the host lines
  iapply (StableHlo.wp_seq (defs := (K (F := F)).defs (D (F := F))) 𝒱 none Set.univ d (Pipeline.ucRefs τ sig) _ (Host.hostOps (F := F))
      Host.hostOps_sub Host.hostOps_fresh (V₁ m d)) $$ [Hbd Hheld]
  · isplitl [Hbd] <;> iassumption
  iintro ⟨Hbd, Hheld⟩
  -- what the TensorCore owes after its one call: nothing
  ihave Hst' := (Entails.of_eq (show ((K (F := F)).tcSt EH d ((0 : Fin 1).val + 1) : sProp 𝕄) = _ from tcSt_one d)) $$ Hst
  icases Hst' with ⟨⟨%W₀, %hW₀, HO⟩, Hrest1⟩
  -- the TensorCore call, a region of the inner program
  rw [region_call_eq]
  iapply ((K (F := F)).wp_liftProg (D (F := F)) 𝒱 (SparseCore.T d) Set.univ none
      (Prog.op (.customCall (Pipeline.entry 0) ()) fun _ => Prog.ret ⟨⟩) _)
  iapply (Pipeline.RegionSeg.wp (pcfgs (F := F)) Tc.adm (Tc.pdats (U := UU) (V₂ m) W₀) none cellOf_inj (EP (F := F)) defs₀ 𝒱₀
      (K (F := F)).L (K (F := F)).lev (Tc.region (U := UU) (V₂ m) W₀) d none (fun u hu => nomatch hu) _ _) $$ [Hbd Hheld HO Hcg Htk Hrest1]
  isplitl [Hrest1]
  · iintro ⟨Hbd, Hpost⟩
    rw [wp_ret]; imodintro
    ihave Hpost' := (Entails.of_eq (region_post m W₀ d)) $$ Hpost
    icases Hpost' with ⟨Hheld, %W', %hW', HO⟩
    rw [tcSt_one]
    isplitl [HO Hrest1]
    · isplitl [HO]
      · iexists W'; isplitr
        · ipureintro
          intro p hp
          rcases hW' p hp with h | h
          · exact hW₀ p h
          · show (K (F := F)).lev ((SparseCore.T d : Thread nD τ), p.1) p.2 ≤ 8
            rw [h]; exact Nat.zero_le _
        · iexact HO
      · iexact Hrest1
    · iexact Hheld
  isplitl [Hbd]; · iexact Hbd
  isplitl [Hheld HO]
  · rw [region_pre]
    isplitl [Hheld]; · iexact Hheld
    iexact HO
  isplitr
  · iapply ((K (F := F)).ctx_levAts (EH := EH) (P := Sc.P (F := F) (U := UU) m) κ); iexact Hctx
  isplitl [Hcg]; · iexact Hcg
  iexact Htk

end Main

/-! ## The launch element, whole -/

/-- The launch element, with nothing dealt to the SparseCore threads' kernels (their copies run on the counters). -/
theorem hu₀ [Cert.KernelIdeal.Facts] : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (Sc.P (F := F) (U := UU) m).x q thr) := by
  rw [show (bigSep Finset.univ fun thr : Thread nD τ => bigSep Finset.univ fun q : Fin 1 => (Sc.P (F := F) (U := UU) m).x q thr)
      = (iprop(emp) : sProp 𝕄) from by
        simp only [Sc.P_x]
        rw [show (fun _ : Thread nD τ => bigSep Finset.univ fun _ : Fin 1 => (iprop(emp) : sProp 𝕄)) = fun _ => iprop(emp) from
          funext fun _ => BI.bigSep_emp_const _]
        exact BI.bigSep_emp_const _]
  iintro Hu
  imod (hu₀_core (F := F)) $$ Hu with ⟨HH, HG⟩
  imodintro
  isplitl [HH]; · iexact HH
  isplitl [HG]; · iexact HG
  iempintro

/-! ## What the buffers hold at the end -/

theorem V₂_v0_0 (d : Dev nD) : V₂ m d (Proc.devRef .tc main_v0_0) = Spec.gath (m (Sc.tLoc d)) (m (Sc.sLoc d)) := by
  unfold V₂; rw [Host.after_v0_0, V₁_v0_0]; rfl
theorem V₂_v0_1 (d : Dev nD) : V₂ m d (Proc.devRef .tc main_v0_1) = Spec.gath (m (Sc.tLoc d)) (m (Sc.rLoc d)) := by
  unfold V₂; rw [Host.after_v0_1, V₁_v0_1]; rfl
theorem V₂_v8 (d : Dev nD) : (V₂ m d (Proc.devRef .tc main_v8) : FVec F S16x320000 .bf16) = Spec.rbfT (m ((SparseCore.T d : Thread nD τ).loc main_arg0)) := by
  unfold V₂; rw [Host.after_v8, V₁_of_ne m d _ (by decide) (by decide)]
theorem V₂_v3 (d : Dev nD) : (V₂ m d (Proc.devRef .tc main_v3) : FVec F S128x128 .f32) = Spec.embPad (m ((SparseCore.T d : Thread nD τ).loc main_arg5)) := by
  unfold V₂; rw [Host.after_v3, V₁_of_ne m d _ (by decide) (by decide)]
theorem V₂_v4 (d : Dev nD) : (V₂ m d (Proc.devRef .tc main_v4) : FVec F S128x128 .f32) = Spec.wS (m ((SparseCore.T d : Thread nD τ).loc main_arg8)) := by
  unfold V₂; rw [Host.after_v4, V₁_of_ne m d _ (by decide) (by decide)]
theorem V₂_v5 (d : Dev nD) : (V₂ m d (Proc.devRef .tc main_v5) : FVec F S128x128 .f32) = Spec.wR (m ((SparseCore.T d : Thread nD τ).loc main_arg8)) := by
  unfold V₂; rw [Host.after_v5, V₁_of_ne m d _ (by decide) (by decide)]
theorem V₂_v6 (d : Dev nD) : (V₂ m d (Proc.devRef .tc main_v6) : FVec F S128x128 .f32) = Spec.wQ (m ((SparseCore.T d : Thread nD τ).loc main_arg8)) := by
  unfold V₂; rw [Host.after_v6, V₁_of_ne m d _ (by decide) (by decide)]
theorem V₂_v9 (d : Dev nD) : (V₂ m d (Proc.devRef .tc main_v9) : FVec F S16x128 .bf16) = Spec.wRbf (m ((SparseCore.T d : Thread nD τ).loc main_arg6)) := by
  unfold V₂; rw [Host.after_v9, V₁_of_ne m d _ (by decide) (by decide)]
theorem V₂_v10 (d : Dev nD) : (V₂ m d (Proc.devRef .tc main_v10) : FVec F S1x128 .f32) = Spec.rowOf (m ((SparseCore.T d : Thread nD τ).loc main_arg7)) := by
  unfold V₂; rw [Host.after_v10, V₁_of_ne m d _ (by decide) (by decide)]
theorem V₂_v11 (d : Dev nD) : (V₂ m d (Proc.devRef .tc main_v11) : FVec F S1x128 .f32) = Spec.rowOf (m ((SparseCore.T d : Thread nD τ).loc main_arg9)) := by
  unfold V₂; rw [Host.after_v11, V₁_of_ne m d _ (by decide) (by decide)]

/-- The result buffer ends at the kernel program's term of the launch memory's arguments. -/
theorem V₃_out [Cert.KernelIdeal.Facts] (d : Dev nD) :
    (V₃ m d (Proc.devRef .tc main_v12) : FVec F S320000x128 .f32)
      = Spec.out (m ((SparseCore.T d : Thread nD τ).loc main_arg0)) (m ((SparseCore.T d : Thread nD τ).loc main_arg1))
          (m ((SparseCore.T d : Thread nD τ).loc main_arg3)) (m ((SparseCore.T d : Thread nD τ).loc main_arg4))
          (m ((SparseCore.T d : Thread nD τ).loc main_arg5)) (m ((SparseCore.T d : Thread nD τ).loc main_arg6))
          (m ((SparseCore.T d : Thread nD τ).loc main_arg7)) (m ((SparseCore.T d : Thread nD τ).loc main_arg8))
          (m ((SparseCore.T d : Thread nD τ).loc main_arg9)) := by
  unfold V₃
  rw [Tc.V'_out]
  show Spec.stack (Spec.outBlk (V₂ m d (Proc.devRef .tc main_v0_0)) (V₂ m d (Proc.devRef .tc main_v0_1)) (V₂ m d (Proc.devRef .tc main_v8))
    (V₂ m d (Proc.devRef .tc main_v3)) (V₂ m d (Proc.devRef .tc main_v4)) (V₂ m d (Proc.devRef .tc main_v5)) (V₂ m d (Proc.devRef .tc main_v6))
    (V₂ m d (Proc.devRef .tc main_v9)) (V₂ m d (Proc.devRef .tc main_v10)) (V₂ m d (Proc.devRef .tc main_v11))) = _
  rw [V₂_v0_0, V₂_v0_1, V₂_v8, V₂_v3, V₂_v4, V₂_v5, V₂_v6, V₂_v9, V₂_v10, V₂_v11]
  rfl

/-- An argument array is written by nobody. -/
theorem V₃_arg (d : Dev nD) (r : Ref sig .tc) (hk : StableHlo.after (Host.hostOps (F := F)) (V₁ m d) r = V₁ m d r)
    (h12 : (Proc.devRef .tc r : DevRef τ sig) ≠ Proc.devRef .tc main_v12)
    (h0 : (Proc.devRef .tc r : DevRef τ sig) ≠ Proc.devRef .tc main_v0_0) (h1 : (Proc.devRef .tc r : DevRef τ sig) ≠ Proc.devRef .tc main_v0_1) :
    V₃ m d (Proc.devRef .tc r) = m (d, Proc.devRef .tc r) := by
  unfold V₃
  rw [Tc.V'_of_ne _ _ _ h12]
  unfold V₂
  exact hk.trans (V₁_of_ne m d _ h0 h1)

/-! ## Reading the final memory -/

/-- The result buffer and the ten argument arrays, as device buffers. -/
def eleven : Finset (DevRef τ sig) :=
  {Proc.devRef .tc main_v12, Proc.devRef .tc main_arg0, Proc.devRef .tc main_arg1, Proc.devRef .tc main_arg2, Proc.devRef .tc main_arg3, Proc.devRef .tc main_arg4, Proc.devRef .tc main_arg5, Proc.devRef .tc main_arg6, Proc.devRef .tc main_arg7, Proc.devRef .tc main_arg8, Proc.devRef .tc main_arg9}

theorem eleven_sub : eleven ⊆ Pipeline.ucRefs τ sig := by decide

theorem held_eleven (d : Dev nD) (W : Valuation τ sig (Elt F)) :
    (StableHlo.held (SparseCore.T d : Thread nD τ) eleven W : sProp 𝕄)
      = iprop(((SparseCore.T d : Thread nD τ).loc main_v12 ↦{fullShare} W (Proc.devRef .tc main_v12))
          ∗ ((SparseCore.T d : Thread nD τ).loc main_arg0 ↦{fullShare} W (Proc.devRef .tc main_arg0))
          ∗ ((SparseCore.T d : Thread nD τ).loc main_arg1 ↦{fullShare} W (Proc.devRef .tc main_arg1))
          ∗ ((SparseCore.T d : Thread nD τ).loc main_arg2 ↦{fullShare} W (Proc.devRef .tc main_arg2))
          ∗ ((SparseCore.T d : Thread nD τ).loc main_arg3 ↦{fullShare} W (Proc.devRef .tc main_arg3))
          ∗ ((SparseCore.T d : Thread nD τ).loc main_arg4 ↦{fullShare} W (Proc.devRef .tc main_arg4))
          ∗ ((SparseCore.T d : Thread nD τ).loc main_arg5 ↦{fullShare} W (Proc.devRef .tc main_arg5))
          ∗ ((SparseCore.T d : Thread nD τ).loc main_arg6 ↦{fullShare} W (Proc.devRef .tc main_arg6))
          ∗ ((SparseCore.T d : Thread nD τ).loc main_arg7 ↦{fullShare} W (Proc.devRef .tc main_arg7))
          ∗ ((SparseCore.T d : Thread nD τ).loc main_arg8 ↦{fullShare} W (Proc.devRef .tc main_arg8))
          ∗ ((SparseCore.T d : Thread nD τ).loc main_arg9 ↦{fullShare} W (Proc.devRef .tc main_arg9))) := by
  unfold StableHlo.held eleven
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- What the final memory of device `d` must hold: the eleven buffers at the final valuation. -/
def fq (d : Dev nD) (s' : Phys nD τ sig (Elt F)) : Prop :=
  s'.mem.mem ((SparseCore.T d : Thread nD τ).loc main_v12) = V₃ m d (Proc.devRef .tc main_v12)
    ∧ s'.mem.mem ((SparseCore.T d : Thread nD τ).loc main_arg0) = V₃ m d (Proc.devRef .tc main_arg0)
    ∧ s'.mem.mem ((SparseCore.T d : Thread nD τ).loc main_arg1) = V₃ m d (Proc.devRef .tc main_arg1)
    ∧ s'.mem.mem ((SparseCore.T d : Thread nD τ).loc main_arg2) = V₃ m d (Proc.devRef .tc main_arg2)
    ∧ s'.mem.mem ((SparseCore.T d : Thread nD τ).loc main_arg3) = V₃ m d (Proc.devRef .tc main_arg3)
    ∧ s'.mem.mem ((SparseCore.T d : Thread nD τ).loc main_arg4) = V₃ m d (Proc.devRef .tc main_arg4)
    ∧ s'.mem.mem ((SparseCore.T d : Thread nD τ).loc main_arg5) = V₃ m d (Proc.devRef .tc main_arg5)
    ∧ s'.mem.mem ((SparseCore.T d : Thread nD τ).loc main_arg6) = V₃ m d (Proc.devRef .tc main_arg6)
    ∧ s'.mem.mem ((SparseCore.T d : Thread nD τ).loc main_arg7) = V₃ m d (Proc.devRef .tc main_arg7)
    ∧ s'.mem.mem ((SparseCore.T d : Thread nD τ).loc main_arg8) = V₃ m d (Proc.devRef .tc main_arg8)
    ∧ s'.mem.mem ((SparseCore.T d : Thread nD τ).loc main_arg9) = V₃ m d (Proc.devRef .tc main_arg9)

theorem hfin (d : Dev nD) (s' : Phys nD τ sig (Elt F)) : iprop(FIN m d ∗ SI s') ⊢ (⌜fq m d s'⌝ : sProp 𝕄) := by
  rw [show (FIN m d : sProp 𝕄) = StableHlo.held (SparseCore.T d : Thread nD τ) (Pipeline.ucRefs τ sig) (V₃ m d) from rfl,
    StableHlo.held_sub_split (SparseCore.T d : Thread nD τ) eleven_sub (V₃ m d), held_eleven]
  iintro ⟨⟨⟨H12, H0, H1, H2, H3, H4, H5, H6, H7, H8, H9⟩, -⟩, HSI⟩
  icombine HSI H12 gives %h12
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  icombine HSI H8 gives %h8
  icombine HSI H9 gives %h9
  ipureintro
  exact ⟨Buf.eq_of_forall_mem_univ h12, Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6, Buf.eq_of_forall_mem_univ h7, Buf.eq_of_forall_mem_univ h8, Buf.eq_of_forall_mem_univ h9⟩

/-! ## The run -/

/-- The run's post: on every device the result buffer at the kernel program's term of the arguments, the ten arguments
    as launched. -/
def QC [Cert.KernelIdeal.Facts] : PUnit × MemSt nD τ sig (Elt F) → Prop := fun r => ∀ c : Dev nD,
  r.2.mem ((c.tc : Thread nD τ).loc main_v12)
      = Spec.out (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)

theorem hQ [Cert.KernelIdeal.Facts] (s' : Phys nD τ sig (Elt F)) (h : ∀ d, fq m d s') : QC m (⟨⟩, s'.mem) := by
  intro c
  obtain ⟨h12, h0, h1, h2, h3, h4, h5, h6, h7, h8, h9⟩ := h c
  exact ⟨h12.trans (V₃_out m c),
    h0.trans (V₃_arg m c main_arg0 (Host.after_arg0 _) (by decide) (by decide) (by decide)),
    h1.trans (V₃_arg m c main_arg1 (Host.after_arg1 _) (by decide) (by decide) (by decide)),
    h2.trans (V₃_arg m c main_arg2 (Host.after_arg2 _) (by decide) (by decide) (by decide)),
    h3.trans (V₃_arg m c main_arg3 (Host.after_arg3 _) (by decide) (by decide) (by decide)),
    h4.trans (V₃_arg m c main_arg4 (Host.after_arg4 _) (by decide) (by decide) (by decide)),
    h5.trans (V₃_arg m c main_arg5 (Host.after_arg5 _) (by decide) (by decide) (by decide)),
    h6.trans (V₃_arg m c main_arg6 (Host.after_arg6 _) (by decide) (by decide) (by decide)),
    h7.trans (V₃_arg m c main_arg7 (Host.after_arg7 _) (by decide) (by decide) (by decide)),
    h8.trans (V₃_arg m c main_arg8 (Host.after_arg8 _) (by decide) (by decide) (by decide)),
    h9.trans (V₃_arg m c main_arg9 (Host.after_arg9 _) (by decide) (by decide) (by decide))⟩

section Run

variable [Cert.KernelIdeal.Facts] [∀ e, Nonempty (Elt F e)]

/-- From a memory whose senders and receivers name entries of the charge table, every weakly fair execution of the
    device's threads terminates, nothing faulting, with the result buffer at the kernel program's term and the ten
    arguments unchanged — given one vector subcore's task (`htile`), the split of the call's operands among the
    tasks (`hvec`) and the hand-over of the five arrays to the call and back (`hst`, `hdn`). -/
theorem run_main
    (htile : (K (F := F)).TileObl (D (F := F)) 𝒱 (Sc.P (F := F) (U := UU) m) v₀ 0)
    (hvec : (K (F := F)).VecSplit' (Sc.P (F := F) (U := UU) m) 0)
    (hst : ∀ d : Dev nD, (iprop((Sc.tLoc d ↦{fullShare} m (Sc.tLoc d)) ∗ (Sc.sLoc d ↦{fullShare} m (Sc.sLoc d)) ∗ (Sc.rLoc d ↦{fullShare} m (Sc.rLoc d))
        ∗ (Sc.o0Loc d ↦{fullShare} m (Sc.o0Loc d)) ∗ (Sc.o1Loc d ↦{fullShare} m (Sc.o1Loc d))) : sProp 𝕄)
      ⊢ bigSep Finset.univ fun c : Fin ((K (F := F)).nCore 0) => (Sc.P (F := F) (U := UU) m).st 0 d c)
    (hdn : ∀ d : Dev nD, (bigSep Finset.univ fun c : Fin ((K (F := F)).nCore 0) => (Sc.P (F := F) (U := UU) m).dn 0 d c)
      ⊢ (iprop((Sc.tLoc d ↦{fullShare} m (Sc.tLoc d)) ∗ (Sc.sLoc d ↦{fullShare} m (Sc.sLoc d)) ∗ (Sc.rLoc d ↦{fullShare} m (Sc.rLoc d))
        ∗ (Sc.o0Loc d ↦{fullShare} Sc.G0 m d) ∗ (Sc.o1Loc d ↦{fullShare} Sc.G1 m d)) : sProp 𝕄)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := Sc.P (F := F) (U := UU) m) facts v₀
    (fun q hq => match q with | 0 => nomatch hq)
    (fun q _ => match q with | 0 => htile)
    (fun q _ => match q with | 0 => SparseCore.Cfg.VecSplit.of_plain hvec)
    m ρ main (G (F := F)) (FIN m) (u₀ (F := F)) (sep_elim_left.trans (hu₀ m)) (hmain m ρ hst hdn) (fq m) (hfin m) (QC m) (hQ m)

end Run

end Cert.KernelIdeal.Launch

end
-- ==== Proof.ScBody.lean ====
/-
  The task of one vector subcore, proved once at a symbolic grid point.

  The task starts three copies — the whole charge table into its first scratch, its slice of the senders into the
  second, of the receivers into the third, each on a semaphore of its own — and waits for the first two.  A counted loop
  of 625 trips then reads sixteen senders at a time, reads the table scratch at them, and stores the sixteen words into
  the fourth scratch at the same place; the loop's invariant says that before trip k the first 16 k words of that
  scratch are the table read at the senders.  The scratch is copied out over the task's slice of the first result on the
  senders' semaphore, by then free again; the same loop runs over the receivers into the fifth scratch, which is copied
  out over the slice of the second result; the two copies out are waited for.  One copy at a time is outstanding on each
  semaphore, and no buffer is touched between a copy's start and its wait.  Every index read is below 10000 because the
  launch memory's senders and receivers are (the hypothesis `PreOK`).  What a result slice holds at the end is stated
  as the whole-array function "the table read at the index array" on the slice's entries.
-/
import proofs.«206043_g84026740179769_cont_sun_m_427_41_alg».proof.Proof.ScPay
import Idealize.ShloMosaic.Lib.SparseCore.Launch
import Idealize.ShloMosaic.Lib.SparseCore.Ops
import Idealize.ShloMosaic.Lib.Pipeline.Kit
import Idealize.ShloMosaic.Lib.Tactic

noncomputable section

namespace Cert.KernelIdeal.Sc

open Cert.KernelIdeal
open Cert.KernelIdeal.Gen (cc0_k_eq_skeleton cc0_k_skel k0_t1_body k0_t2_body)
open Cert.KernelIdeal.Facts₀ Cert.KernelIdeal.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts] {U : Type} [URA U] [CountersIn U]

local notation "𝕄" => MT nD τ sig (HIx 1) (Elt F) ℕ U ℕ

variable (m : (ℓ : Loc nD τ sig) → Buf (Elt F) ℓ)

abbrev 𝒱₀ : Variants := Variants.none

/-! ## The kernel's memrefs, spelt as the body table passes them -/

local notation "tW" => (Memref.whole Cert.KernelIdeal.main_arg1_scv : Memref Cert.KernelIdeal.sig Kind.scVector Space.hbm Cert.KernelIdeal.S10000 EltTy.i32)
local notation "sW" => (Memref.whole Cert.KernelIdeal.main_arg3_scv : Memref Cert.KernelIdeal.sig Kind.scVector Space.hbm Cert.KernelIdeal.S320000 EltTy.i32)
local notation "rW" => (Memref.whole Cert.KernelIdeal.main_arg4_scv : Memref Cert.KernelIdeal.sig Kind.scVector Space.hbm Cert.KernelIdeal.S320000 EltTy.i32)
local notation "aW" => (Memref.whole Cert.KernelIdeal.main_v0_0_scv : Memref Cert.KernelIdeal.sig Kind.scVector Space.hbm Cert.KernelIdeal.S320000 EltTy.i32)
local notation "bW" => (Memref.whole Cert.KernelIdeal.main_v0_1_scv : Memref Cert.KernelIdeal.sig Kind.scVector Space.hbm Cert.KernelIdeal.S320000 EltTy.i32)
local notation "c0W" => (Memref.whole Cert.KernelIdeal.cc0_scratch0 : Memref Cert.KernelIdeal.sig Kind.scVector Space.vmem Cert.KernelIdeal.S10000 EltTy.i32)
local notation "c1W" => (Memref.whole Cert.KernelIdeal.cc0_scratch1 : Memref Cert.KernelIdeal.sig Kind.scVector Space.vmem Cert.KernelIdeal.S10000 EltTy.i32)
local notation "c2W" => (Memref.whole Cert.KernelIdeal.cc0_scratch2 : Memref Cert.KernelIdeal.sig Kind.scVector Space.vmem Cert.KernelIdeal.S10000 EltTy.i32)
local notation "c3W" => (Memref.whole Cert.KernelIdeal.cc0_scratch3 : Memref Cert.KernelIdeal.sig Kind.scVector Space.vmem Cert.KernelIdeal.S10000 EltTy.i32)
local notation "c4W" => (Memref.whole Cert.KernelIdeal.cc0_scratch4 : Memref Cert.KernelIdeal.sig Kind.scVector Space.vmem Cert.KernelIdeal.S10000 EltTy.i32)

section Tile

variable (d : Dev nD) (L : grid0.Coords)

abbrev cV (L : grid0.Coords) : Fin τ.nSC := (L 0).castLE hcore0
abbrev jV (L : grid0.Coords) : Fin τ.nSub := (L 1).castLE hsub0
abbrev thr (L : grid0.Coords) : Thread nD τ := V d (cV L) (jV L)

/-- The task's slices, as the kernel cuts them. -/
abbrev sSl (L : grid0.Coords) : Memref sig .scVector .hbm S10000 .i32 := (sW).slice (slR L) (fun _ => rfl)
abbrev rSl (L : grid0.Coords) : Memref sig .scVector .hbm S10000 .i32 := (rW).slice (slR L) (fun _ => rfl)
abbrev aSl (L : grid0.Coords) : Memref sig .scVector .hbm S10000 .i32 := (aW).slice (slR L) (fun _ => rfl)
abbrev bSl (L : grid0.Coords) : Memref sig .scVector .hbm S10000 .i32 := (bW).slice (slR L) (fun _ => rfl)

abbrev cell5 : GSem nD τ sig := (thr d L, .dma cc0_scratch5.sem)
abbrev cell6 : GSem nD τ sig := (thr d L, .dma cc0_scratch6.sem)
abbrev cell7 : GSem nD τ sig := (thr d L, .dma cc0_scratch7.sem)

omit [FloatOps F] [CountersIn U] in
theorem ownSems0_V :
    (ownSems0 (thr d L) : sProp 𝕄)
      = iprop(semVal (cell5 d L) 0 ∗ semVal (cell6 d L) 0 ∗ semVal (cell7 d L) 0
          ∗ bigSep ((((ownCells (thr d L)).erase (cell5 d L)).erase (cell6 d L)).erase (cell7 d L))
              fun g => semVal g 0) := by
  unfold SparseCore.Cfg.ownSems0
  rw [SparseCore.bigSep_erase' ((mem_ownCells (g := cell5 d L)).mpr ⟨rfl, by
      show (SemLoc.dma cc0_scratch5.sem : SemLoc sig).isScoped .scVector = true; decide⟩),
    SparseCore.bigSep_erase' (Finset.mem_erase.mpr ⟨by simp [cell5, cell6]; decide, (mem_ownCells (g := cell6 d L)).mpr ⟨rfl, by
      show (SemLoc.dma cc0_scratch6.sem : SemLoc sig).isScoped .scVector = true; decide⟩⟩),
    SparseCore.bigSep_erase' (Finset.mem_erase.mpr ⟨by simp [cell6, cell7]; decide, Finset.mem_erase.mpr ⟨by simp [cell5, cell7]; decide,
      (mem_ownCells (g := cell7 d L)).mpr ⟨rfl, by show (SemLoc.dma cc0_scratch7.sem : SemLoc sig).isScoped .scVector = true; decide⟩⟩⟩)]

omit [FloatOps F] [CountersIn U] in
/-- The five scratch buffers are among the subcore's own: they are them, at some contents, and the rest. -/
theorem ownBufs_V :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

omit [FloatOps F] [CountersIn U] in
theorem pts_t (q : PosShare TreeShare) (f : Buf (Elt F) (tLoc d)) :
    ((tW).view.loc (thr d L) ↦{q} f : sProp 𝕄) = tLoc d ↦{q} f := rfl
omit [FloatOps F] [CountersIn U] in
theorem pts_s (f : Buf (Elt F) (sLoc d)) :
    ((sSl L).view.loc (thr d L) ↦[(sSl L).view.set]{fullShare} f : sProp 𝕄) = sLoc d ↦[slSet L]{fullShare} f := rfl
omit [FloatOps F] [CountersIn U] in
theorem pts_r (f : Buf (Elt F) (rLoc d)) :
    ((rSl L).view.loc (thr d L) ↦[(rSl L).view.set]{fullShare} f : sProp 𝕄) = rLoc d ↦[slSet L]{fullShare} f := rfl
omit [FloatOps F] [CountersIn U] in
theorem pts_a (f : Buf (Elt F) (o0Loc d)) :
    ((aSl L).view.loc (thr d L) ↦[(aSl L).view.set]{fullShare} f : sProp 𝕄) = o0Loc d ↦[slSet L]{fullShare} f := rfl
omit [FloatOps F] [CountersIn U] in
theorem pts_b (f : Buf (Elt F) (o1Loc d)) :
    ((bSl L).view.loc (thr d L) ↦[(bSl L).view.set]{fullShare} f : sProp 𝕄) = o1Loc d ↦[slSet L]{fullShare} f := rfl
omit [FloatOps F] [CountersIn U] in
theorem pts_c0 (f : Buf (Elt F) ((thr d L).loc cc0_scratch0)) :
    ((c0W).view.loc (thr d L) ↦{fullShare} f : sProp 𝕄) = (thr d L).loc cc0_scratch0 ↦{fullShare} f := rfl
omit [FloatOps F] [CountersIn U] in
theorem pts_c1 (f : Buf (Elt F) ((thr d L).loc cc0_scratch1)) :
    ((c1W).view.loc (thr d L) ↦{fullShare} f : sProp 𝕄) = (thr d L).loc cc0_scratch1 ↦{fullShare} f := rfl
omit [FloatOps F] [CountersIn U] in
theorem pts_c2 (f : Buf (Elt F) ((thr d L).loc cc0_scratch2)) :
    ((c2W).view.loc (thr d L) ↦{fullShare} f : sProp 𝕄) = (thr d L).loc cc0_scratch2 ↦{fullShare} f := rfl
omit [FloatOps F] [CountersIn U] in
theorem pts_c3 (f : Buf (Elt F) ((thr d L).loc cc0_scratch3)) :
    ((c3W).view.loc (thr d L) ↦{fullShare} f : sProp 𝕄) = (thr d L).loc cc0_scratch3 ↦{fullShare} f := rfl
omit [FloatOps F] [CountersIn U] in
theorem pts_c4 (f : Buf (Elt F) ((thr d L).loc cc0_scratch4)) :
    ((c4W).view.loc (thr d L) ↦{fullShare} f : sProp 𝕄) = (thr d L).loc cc0_scratch4 ↦{fullShare} f := rfl

/-- A table of 10000 words read at each of 10000 indices (zero where an index names no entry). -/
def gat1 (tbl ix : IVec S10000 32) : IVec S10000 32 :=
  fun j => if h : (ix j).toNat < 10000 then tbl (ValueIdx.ix1 ⟨(ix j).toNat, h⟩) else 0#32

/-- Before trip `k` of the first gather loop: the table scratch at `X0`, the senders scratch at `X1`, and the first
    `16 k` words of the first out scratch the table read at those indices. -/
def inv1 (X0 : Buf (Elt F) ((thr d L).loc cc0_scratch0)) (X1 : Buf (Elt F) ((thr d L).loc cc0_scratch1)) (k : ℕ) (_ : PUnit) : sProp 𝕄 :=
  iprop(((c0W).view.loc (thr d L) ↦{fullShare} X0) ∗ ((c1W).view.loc (thr d L) ↦{fullShare} X1)
    ∗ ∃ f : Buf (Elt F) ((thr d L).loc cc0_scratch3), ((c3W).view.loc (thr d L) ↦{fullShare} f)
        ∗ ⌜∀ j : S10000.Idx, (j 0).val < 16 * k → f j = gat1 X0 X1 j⌝)

omit [FloatOps F] [CountersIn U] [URA U] in
/-- One trip's store extends the gathered prefix: below `16 k` the out scratch is unchanged, and each of the sixteen
    words stored at `16 k` is the table read at the index loaded from the same place. -/
theorem trip1_val (X0 X1 f : IVec S10000 32) (hX1 : ∀ j, (X1 j).toNat < 10000) (k : Fin k0_t1_loop.trips)
    (hchk : ∀ a x, ((![(c1W).view.readAt (Elt F) (Rect.unit (s := S10000) (k0_off2 k) S16.size (Facts₀.k0_off2_inb k)).toLoadRect X1] : Fin 1 → IVec S16 32) a x).toNat < S10000.size a)
    (hf : ∀ j : S10000.Idx, (j 0).val < 16 * k.val → f j = gat1 X0 X1 j) :
    ∀ j : S10000.Idx, (j 0).val < 16 * (k.val + 1) →
      View.write (Elt F) ((c3W).access (Rect.unit (s := S10000) (k0_off3 k) S16.size (Facts₀.k0_off3_inb k))) f
        (loadIdx (View.read (Elt F) ((c0W).access (Rect.whole S10000)) X0)
          ![(c1W).view.readAt (Elt F) (Rect.unit (s := S10000) (k0_off2 k) S16.size (Facts₀.k0_off2_inb k)).toLoadRect X1] hchk)
        Finset.univ j = gat1 X0 X1 j := by
  intro j hj
  have ho3 : k0_off3 k 0 = 16 * k.val := by rw [Gen.k0_off3_eq]; rfl
  have ho2 : k0_off2 k 0 = 16 * k.val := by rw [Gen.k0_off2_eq]; rfl
  by_cases hlt : (j 0).val < 16 * k.val
  · rw [View.write_of_not_mem, hf j hlt]
    rw [View.setOn_univ]
    show j ∉ ((View.whole cc0_scratch3).slice (Rect.unit (s := S10000) (k0_off3 k) S16.size (Facts₀.k0_off3_inb k))).set
    rw [View.set_slice_whole, Rect.mem_set_unit]
    intro h
    have := (h 0).1
    omega
  · have hx : (j 0).val - 16 * k.val < 16 := by omega
    have hjx : j = ((c3W).access (Rect.unit (s := S10000) (k0_off3 k) S16.size (Facts₀.k0_off3_inb k))).emb (ValueIdx.ix1 ⟨(j 0).val - 16 * k.val, hx⟩) := by
      funext a; obtain rfl : a = 0 := Subsingleton.elim _ _
      apply Fin.ext
      show (j 0).val = k0_off3 k 0 + 1 * ((j 0).val - 16 * k.val)
      rw [ho3]; omega
    have hjx2 : (Rect.unit (s := S10000) (k0_off2 k) S16.size (Facts₀.k0_off2_inb k)).toLoadRect.idx (ValueIdx.ix1 ⟨(j 0).val - 16 * k.val, hx⟩) = j := by
      funext a; obtain rfl : a = 0 := Subsingleton.elim _ _
      apply Fin.ext
      show k0_off2 k 0 + 1 * ((j 0).val - 16 * k.val) = (j 0).val
      rw [ho2]; omega
    refine (congrArg _ hjx).trans ?_
    rw [View.write_emb_of_mem _ _ (Finset.mem_univ _)]
    simp only [cast_eq]
    show (View.read (Elt F) ((c0W).access (Rect.whole S10000)) X0) (idxAt _ hchk _) = _
    rw [View.read_apply]; simp only [cast_eq]
    unfold gat1
    rw [dif_pos (hX1 j)]
    congr 1
    refine funext fun (a : Fin 1) => ?_
    obtain rfl : a = 0 := Subsingleton.elim _ _
    apply Fin.ext
    show 0 + 1 * ((c1W).view.readAt (Elt F) (Rect.unit (s := S10000) (k0_off2 k) S16.size (Facts₀.k0_off2_inb k)).toLoadRect X1 (ValueIdx.ix1 ⟨(j 0).val - 16 * k.val, hx⟩)).toNat = (X1 j).toNat
    rw [View.readAt_apply, hjx2]
    simp only [Memref.view_whole, View.read_whole]
    omega

section Trip

variable (X0 : Buf (Elt F) ((thr d L).loc cc0_scratch0)) (X1 : Buf (Elt F) ((thr d L).loc cc0_scratch1))

/-- The words a trip loads are indices of the table. -/
theorem chk1_of (hX1 : ∀ j, (X1 j).toNat < 10000) (k : Fin k0_t1_loop.trips) :
    k0_chk1 ((c1W).view.readAt (Elt F) (Rect.unit (s := S10000) (k0_off2 k) S16.size (Facts₀.k0_off2_inb k)).toLoadRect X1) := by
  intro a x
  obtain rfl : a = 0 := Subsingleton.elim _ _
  show ((c1W).view.readAt (Elt F) (Rect.unit (s := S10000) (k0_off2 k) S16.size (Facts₀.k0_off2_inb k)).toLoadRect X1 x).toNat < 10000
  simp only [View.readAt_apply, Memref.view_whole, View.read_whole]
  exact hX1 _

/-- One trip of the first loop keeps the invariant: a load of sixteen indices, their check, the indexed load of the
    table scratch, a load and a store of the out scratch. -/
theorem trip1 (hX1 : ∀ j, (X1 j).toNat < 10000) (k : Fin k0_t1_loop.trips) (acc : PUnit) :
    inv1 (U := U) d L X0 X1 k acc
      ⊢ wp frame (wpE (defs₀ (F := F)) 𝒱₀ (thr d L) none) Set.univ
          (k0_t1_body L tW (Memref.isWhole_whole _) sW (Memref.isWhole_whole _) rW (Memref.isWhole_whole _) aW (Memref.isWhole_whole _) bW (Memref.isWhole_whole _)
            c0W (Memref.isWhole_whole _) c1W (Memref.isWhole_whole _) c2W (Memref.isWhole_whole _) c3W (Memref.isWhole_whole _) c4W (Memref.isWhole_whole _)
            cc0_scratch5 cc0_scratch6 cc0_scratch7 k acc)
          (inv1 (U := U) d L X0 X1 (k.val + 1)) := by
  unfold inv1 k0_t1_body
  simp only [Prog.lift, Prog.bind_op, Prog.bind_ret, Prog.pure_eq_ret]
  iintro ⟨H0, H1, %f, H3, %hf⟩
  iapply (wp_load 𝒱₀ (thr d L) none Set.univ (m := c1W) (S := Finset.univ) (Finset.subset_univ _)) $$ H1; iintro H1
  rw [wp_assume_of _ _ _ _ (chk1_of d L X1 hX1 k)]
  iapply (SparseCore.wp_vectorLoadIdx 𝒱₀ (thr d L) none Set.univ (base := c0W) (S := Finset.univ) (q := fullShare) (Finset.subset_univ _)) $$ H0; iintro H0
  iapply (wp_load 𝒱₀ (thr d L) none Set.univ (m := c3W) (S := Finset.univ) (Finset.subset_univ _)) $$ H3; iintro H3
  iapply (wp_store 𝒱₀ (thr d L) none Set.univ (m := c3W) (r := Rect.unit (s := S10000) (k0_off3 k) S16.size (Facts₀.k0_off3_inb k)) (Mk := Finset.univ) (S := Finset.univ) (Finset.subset_univ _)) $$ H3; iintro H3
  rw [wp_ret]; imodintro
  isplitl [H0]; · iexact H0
  isplitl [H1]; · iexact H1
  iexists _; isplitl [H3]; · iexact H3
  ipureintro
  exact trip1_val (F := F) X0 X1 f hX1 k _ hf

end Trip

/-- The same before trip `k` of the second loop, over the receivers scratch and the second out scratch. -/
def inv2 (X0 : Buf (Elt F) ((thr d L).loc cc0_scratch0)) (X1 : Buf (Elt F) ((thr d L).loc cc0_scratch2)) (k : ℕ) (_ : PUnit) : sProp 𝕄 :=
  iprop(((c0W).view.loc (thr d L) ↦{fullShare} X0) ∗ ((c2W).view.loc (thr d L) ↦{fullShare} X1)
    ∗ ∃ f : Buf (Elt F) ((thr d L).loc cc0_scratch4), ((c4W).view.loc (thr d L) ↦{fullShare} f)
        ∗ ⌜∀ j : S10000.Idx, (j 0).val < 16 * k → f j = gat1 X0 X1 j⌝)

omit [FloatOps F] [CountersIn U] [URA U] in
/-- The same for a trip of the second loop. -/
theorem trip2_val (X0 X1 f : IVec S10000 32) (hX1 : ∀ j, (X1 j).toNat < 10000) (k : Fin k0_t2_loop.trips)
    (hchk : ∀ a x, ((![(c2W).view.readAt (Elt F) (Rect.unit (s := S10000) (k0_off4 k) S16.size (Facts₀.k0_off4_inb k)).toLoadRect X1] : Fin 1 → IVec S16 32) a x).toNat < S10000.size a)
    (hf : ∀ j : S10000.Idx, (j 0).val < 16 * k.val → f j = gat1 X0 X1 j) :
    ∀ j : S10000.Idx, (j 0).val < 16 * (k.val + 1) →
      View.write (Elt F) ((c4W).access (Rect.unit (s := S10000) (k0_off5 k) S16.size (Facts₀.k0_off5_inb k))) f
        (loadIdx (View.read (Elt F) ((c0W).access (Rect.whole S10000)) X0)
          ![(c2W).view.readAt (Elt F) (Rect.unit (s := S10000) (k0_off4 k) S16.size (Facts₀.k0_off4_inb k)).toLoadRect X1] hchk)
        Finset.univ j = gat1 X0 X1 j := by
  intro j hj
  have ho5 : k0_off5 k 0 = 16 * k.val := by rw [Gen.k0_off5_eq]; rfl
  have ho4 : k0_off4 k 0 = 16 * k.val := by rw [Gen.k0_off4_eq]; rfl
  by_cases hlt : (j 0).val < 16 * k.val
  · rw [View.write_of_not_mem, hf j hlt]
    rw [View.setOn_univ]
    show j ∉ ((View.whole cc0_scratch4).slice (Rect.unit (s := S10000) (k0_off5 k) S16.size (Facts₀.k0_off5_inb k))).set
    rw [View.set_slice_whole, Rect.mem_set_unit]
    intro h
    have := (h 0).1
    omega
  · have hx : (j 0).val - 16 * k.val < 16 := by omega
    have hjx : j = ((c4W).access (Rect.unit (s := S10000) (k0_off5 k) S16.size (Facts₀.k0_off5_inb k))).emb (ValueIdx.ix1 ⟨(j 0).val - 16 * k.val, hx⟩) := by
      funext a; obtain rfl : a = 0 := Subsingleton.elim _ _
      apply Fin.ext
      show (j 0).val = k0_off5 k 0 + 1 * ((j 0).val - 16 * k.val)
      rw [ho5]; omega
    have hjx2 : (Rect.unit (s := S10000) (k0_off4 k) S16.size (Facts₀.k0_off4_inb k)).toLoadRect.idx (ValueIdx.ix1 ⟨(j 0).val - 16 * k.val, hx⟩) = j := by
      funext a; obtain rfl : a = 0 := Subsingleton.elim _ _
      apply Fin.ext
      show k0_off4 k 0 + 1 * ((j 0).val - 16 * k.val) = (j 0).val
      rw [ho4]; omega
    refine (congrArg _ hjx).trans ?_
    rw [View.write_emb_of_mem _ _ (Finset.mem_univ _)]
    simp only [cast_eq]
    show (View.read (Elt F) ((c0W).access (Rect.whole S10000)) X0) (idxAt _ hchk _) = _
    rw [View.read_apply]; simp only [cast_eq]
    unfold gat1
    rw [dif_pos (hX1 j)]
    congr 1
    refine funext fun (a : Fin 1) => ?_
    obtain rfl : a = 0 := Subsingleton.elim _ _
    apply Fin.ext
    show 0 + 1 * ((c2W).view.readAt (Elt F) (Rect.unit (s := S10000) (k0_off4 k) S16.size (Facts₀.k0_off4_inb k)).toLoadRect X1 (ValueIdx.ix1 ⟨(j 0).val - 16 * k.val, hx⟩)).toNat = (X1 j).toNat
    rw [View.readAt_apply, hjx2]
    simp only [Memref.view_whole, View.read_whole]
    omega

section Trip2

variable (X0 : Buf (Elt F) ((thr d L).loc cc0_scratch0)) (X1 : Buf (Elt F) ((thr d L).loc cc0_scratch2))

/-- The words a trip loads are indices of the table. -/
theorem chk2_of (hX1 : ∀ j, (X1 j).toNat < 10000) (k : Fin k0_t2_loop.trips) :
    k0_chk2 ((c2W).view.readAt (Elt F) (Rect.unit (s := S10000) (k0_off4 k) S16.size (Facts₀.k0_off4_inb k)).toLoadRect X1) := by
  intro a x
  obtain rfl : a = 0 := Subsingleton.elim _ _
  show ((c2W).view.readAt (Elt F) (Rect.unit (s := S10000) (k0_off4 k) S16.size (Facts₀.k0_off4_inb k)).toLoadRect X1 x).toNat < 10000
  simp only [View.readAt_apply, Memref.view_whole, View.read_whole]
  exact hX1 _

/-- One trip of the second loop keeps its invariant. -/
theorem trip2 (hX1 : ∀ j, (X1 j).toNat < 10000) (k : Fin k0_t2_loop.trips) (acc : PUnit) :
    inv2 (U := U) d L X0 X1 k acc
      ⊢ wp frame (wpE (defs₀ (F := F)) 𝒱₀ (thr d L) none) Set.univ
          (k0_t2_body L tW (Memref.isWhole_whole _) sW (Memref.isWhole_whole _) rW (Memref.isWhole_whole _) aW (Memref.isWhole_whole _) bW (Memref.isWhole_whole _)
            c0W (Memref.isWhole_whole _) c2W (Memref.isWhole_whole _) c2W (Memref.isWhole_whole _) c4W (Memref.isWhole_whole _) c4W (Memref.isWhole_whole _)
            cc0_scratch5 cc0_scratch6 cc0_scratch7 k acc)
          (inv2 (U := U) d L X0 X1 (k.val + 1)) := by
  unfold inv2 k0_t2_body
  simp only [Prog.lift, Prog.bind_op, Prog.bind_ret, Prog.pure_eq_ret]
  iintro ⟨H0, H1, %f, H3, %hf⟩
  iapply (wp_load 𝒱₀ (thr d L) none Set.univ (m := c2W) (S := Finset.univ) (Finset.subset_univ _)) $$ H1; iintro H1
  rw [wp_assume_of _ _ _ _ (chk2_of d L X1 hX1 k)]
  iapply (SparseCore.wp_vectorLoadIdx 𝒱₀ (thr d L) none Set.univ (base := c0W) (S := Finset.univ) (q := fullShare) (Finset.subset_univ _)) $$ H0; iintro H0
  iapply (wp_load 𝒱₀ (thr d L) none Set.univ (m := c4W) (S := Finset.univ) (Finset.subset_univ _)) $$ H3; iintro H3
  iapply (wp_store 𝒱₀ (thr d L) none Set.univ (m := c4W) (r := Rect.unit (s := S10000) (k0_off5 k) S16.size (Facts₀.k0_off5_inb k)) (Mk := Finset.univ) (S := Finset.univ) (Finset.subset_univ _)) $$ H3; iintro H3
  rw [wp_ret]; imodintro
  isplitl [H0]; · iexact H0
  isplitl [H1]; · iexact H1
  iexists _; isplitl [H3]; · iexact H3
  ipureintro
  exact trip2_val (F := F) X0 X1 f hX1 k _ hf

end Trip2

/-- The first result's slice, once the gathered scratch has been copied out over it, holds on its entries the
    whole-array function: the table read at the senders. -/
theorem out_val_a (g X0 X1 : IVec S10000 32) (hg : ∀ j : S10000.Idx, (j 0).val < 16 * 625 → g j = gat1 X0 X1 j)
    (hX0 : X0 = m (tLoc d)) (hX1 : ∀ x, X1 x = m (sLoc d) ((sSl L).view.emb x)) (hb : ∀ x, (X1 x).toNat < 10000) :
    ∀ i ∈ slSet L, (aSl L).view.writes (Elt F) (m (o0Loc d)) [⟨Rect.whole S10000, (c3W).view.read (Elt F) g⟩] i = G0 m d i := by
  intro i hi
  obtain ⟨x, -, rfl⟩ := Finset.mem_map.mp hi
  have h1 := View.read_writes_cons_emb (aSl L).view (m (o0Loc d)) (Rect.whole S10000) ((c3W).view.read (Elt F) g) [] x
  have hw : (Rect.whole S10000).emb x = x := funext fun a => Fin.ext (by simp)
  rw [hw, View.read_apply] at h1
  simp only [cast_eq] at h1
  refine h1.trans ?_
  show g x = G0 m d ((sSl L).view.emb x)
  have hx : (x 0).val < 16 * 625 := by have := (x 0).isLt; change (x 0).val < 10000 at this; omega
  rw [hg x hx]
  have e := hX1 x
  have hb' : (m (sLoc d) ((sSl L).view.emb x)).toNat < 10000 := e ▸ hb x
  unfold gat1 G0 Spec.gath
  rw [dif_pos (hb x), dif_pos hb']
  subst hX0
  exact congrArg (m (tLoc d)) (congrArg ValueIdx.ix1 (Fin.ext (congrArg BitVec.toNat e)))

/-- The second result's slice, once the gathered scratch has been copied out over it, holds on its entries the
    whole-array function: the table read at the receivers. -/
theorem out_val_b (g X0 X1 : IVec S10000 32) (hg : ∀ j : S10000.Idx, (j 0).val < 16 * 625 → g j = gat1 X0 X1 j)
    (hX0 : X0 = m (tLoc d)) (hX1 : ∀ x, X1 x = m (rLoc d) ((rSl L).view.emb x)) (hb : ∀ x, (X1 x).toNat < 10000) :
    ∀ i ∈ slSet L, (bSl L).view.writes (Elt F) (m (o1Loc d)) [⟨Rect.whole S10000, (c4W).view.read (Elt F) g⟩] i = G1 m d i := by
  intro i hi
  obtain ⟨x, -, rfl⟩ := Finset.mem_map.mp hi
  have h1 := View.read_writes_cons_emb (bSl L).view (m (o1Loc d)) (Rect.whole S10000) ((c4W).view.read (Elt F) g) [] x
  have hw : (Rect.whole S10000).emb x = x := funext fun a => Fin.ext (by simp)
  rw [hw, View.read_apply] at h1
  simp only [cast_eq] at h1
  refine h1.trans ?_
  show g x = G1 m d ((rSl L).view.emb x)
  have hx : (x 0).val < 16 * 625 := by have := (x 0).isLt; change (x 0).val < 10000 at this; omega
  rw [hg x hx]
  have e := hX1 x
  have hb' : (m (rLoc d) ((rSl L).view.emb x)).toNat < 10000 := e ▸ hb x
  unfold gat1 G1 Spec.gath
  rw [dif_pos (hb x), dif_pos hb']
  subst hX0
  exact congrArg (m (tLoc d)) (congrArg ValueIdx.ix1 (Fin.ext (congrArg BitVec.toNat e)))

/-- The task at the grid point `L`, from its operands (a read share `q` of the table, its four slices) and the vector
    subcore's own scratches and semaphores: the operands back, the two result slices at the gathered arrays. -/
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp ∗ tilePtsL (U := U) m d q L (m (o0Loc d)) (m (o1Loc d))
        ∗ scopedBufs (thr d L) ∗ scopedSems0 (thr d L) ∗ owes (thr d L) O W)
      ⊢ wp frame (wpE (defs₀ (F := F)) 𝒱₀ (thr d L) none) Set.univ
          (cc0_k L tW (Memref.isWhole_whole _) sW (Memref.isWhole_whole _) rW (Memref.isWhole_whole _) aW (Memref.isWhole_whole _) bW (Memref.isWhole_whole _)
            c0W (Memref.isWhole_whole _) c1W (Memref.isWhole_whole _) c2W (Memref.isWhole_whole _) c3W (Memref.isWhole_whole _) c4W (Memref.isWhole_whole _)
            cc0_scratch5 cc0_scratch6 cc0_scratch7)
          fun _ => iprop(tilePtsL (U := U) m d q L (G0 m d) (G1 m d) ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold tilePtsL
  iintro ⟨#Hlv, -, ⟨Ht, Hs, Hr, Ha, Hb⟩, ⟨⟨%f0, H0⟩, ⟨%f1, H1⟩, ⟨%f2, H2⟩, ⟨%f3, H3⟩, ⟨%f4, H4⟩, Hbufs⟩, ⟨Hsem5, Hsem6, Hsem7, Hsems⟩, HO⟩
  ihave Hmw := ((K (F := F)).mayWaits_none (thr := thr d L) hO) $$ Hlv
  ihave Ht := (Entails.of_eq (pts_t (F := F) (U := U) d L _ _).symm) $$ Ht
  ihave Hs := (Entails.of_eq (pts_s (F := F) (U := U) d L _).symm) $$ Hs
  ihave Hr := (Entails.of_eq (pts_r (F := F) (U := U) d L _).symm) $$ Hr
  ihave Ha := (Entails.of_eq (pts_a (F := F) (U := U) d L _).symm) $$ Ha
  ihave Hb := (Entails.of_eq (pts_b (F := F) (U := U) d L _).symm) $$ Hb
  ihave H0 := (Entails.of_eq (pts_c0 (F := F) (U := U) d L _).symm) $$ H0
  ihave H1 := (Entails.of_eq (pts_c1 (F := F) (U := U) d L _).symm) $$ H1
  ihave H2 := (Entails.of_eq (pts_c2 (F := F) (U := U) d L _).symm) $$ H2
  ihave H3 := (Entails.of_eq (pts_c3 (F := F) (U := U) d L _).symm) $$ H3
  ihave H4 := (Entails.of_eq (pts_c4 (F := F) (U := U) d L _).symm) $$ H4
  sl_exec
  have hd0 : tile_body.sl.dma0 m d = (tW).view.read (Elt F) (m (tLoc d)) := rfl
  have hd1 : tile_body.sl.dma0_1 m d L = (sSl L).view.read (Elt F) (m (sLoc d)) := rfl
  have hX0 : View.write (Elt F) (c0W).view f0 (tile_body.sl.dma0 m d) Finset.univ = m (tLoc d) := by
    rw [hd0]; exact View.write_whole_univ _ _ _
  have hX1 : ∀ x, View.write (Elt F) (c1W).view f1 (tile_body.sl.dma0_1 m d L) Finset.univ x = m (sLoc d) ((sSl L).view.emb x) := by
    intro x; rw [hd1]
    exact (congrFun (View.write_whole_univ _ _ _) x).trans ((View.read_apply _ _).trans (cast_eq _ _))
  generalize View.write (Elt F) (c0W).view f0 (tile_body.sl.dma0 m d) Finset.univ = X0 at hX0
  generalize View.write (Elt F) (c1W).view f1 (tile_body.sl.dma0_1 m d L) Finset.univ = X1 at hX1
  have hX1b : ∀ j, (X1 j).toNat < 10000 := fun j => by rw [hX1]; exact Nat.lt_succ_of_le ((hpre d).1 _)
  sl_for (inv1 (U := U) d L X0 X1) $$ [H0 H1 H3]
  case region => exact fun k acc => trip1 d L X0 X1 hX1b k acc
  · unfold inv1
    isplitl [H0]; · iexact H0
    isplitl [H1]; · iexact H1
    iexists f3; isplitl [H3]; · iexact H3
    ipureintro; intro j hj; exact absurd hj (by omega)
  iintro %_ HI
  unfold inv1
  icases HI with ⟨H0, H1, %g3, H3, %hg3⟩
  sl_exec
  have hd2 : tile_body.sl.dma0_2 m d L = (rSl L).view.read (Elt F) (m (rLoc d)) := rfl
  have hX2 : ∀ x, View.write (Elt F) (c2W).view f2 (tile_body.sl.dma0_2 m d L) Finset.univ x = m (rLoc d) ((rSl L).view.emb x) := by
    intro x; rw [hd2]
    exact (congrFun (View.write_whole_univ _ _ _) x).trans ((View.read_apply _ _).trans (cast_eq _ _))
  generalize View.write (Elt F) (c2W).view f2 (tile_body.sl.dma0_2 m d L) Finset.univ = X2 at hX2
  have hX2b : ∀ j, (X2 j).toNat < 10000 := fun j => by rw [hX2]; exact Nat.lt_succ_of_le ((hpre d).2 _)
  sl_for (inv2 (U := U) d L X0 X2) $$ [H0 H2 H4]
  case region => exact fun k acc => trip2 d L X0 X2 hX2b k acc
  · unfold inv2
    isplitl [H0]; · iexact H0
    isplitl [H2]; · iexact H2
    iexists f4; isplitl [H4]; · iexact H4
    ipureintro; intro j hj; exact absurd hj (by omega)
  iintro %_ HI
  unfold inv2
  icases HI with ⟨H0, H2, %g4, H4, %hg4⟩
  sl_exec
  have hd3 : tile_body.sl.dma0_3 d L g3 = (c3W).view.read (Elt F) g3 := rfl
  have hd4 : tile_body.sl.dma0_4 d L g4 = (c4W).view.read (Elt F) g4 := rfl
  rw [hd3, hd4]
  ihave Ha := (Entails.of_eq ((pts_a (F := F) (U := U) d L _).trans (pointsTo_congr (out_val_a m d L g3 X0 X1 hg3 hX0 hX1 hX1b)))) $$ Ha
  ihave Hb := (Entails.of_eq ((pts_b (F := F) (U := U) d L _).trans (pointsTo_congr (out_val_b m d L g4 X0 X2 hg4 hX0 hX2 hX2b)))) $$ Hb
  rw [wp_ret]; imodintro
  isplitl [Ht Hs Hr Ha Hb]
  · isplitl [Ht]; · iexact Ht
    isplitl [Hs]; · iexact Hs
    isplitl [Hr]; · iexact Hr
    isplitl [Ha]; · iexact Ha
    iexact Hb
  isplitl [H0 H1 H2 H3 H4 Hbufs]
  · isplitl [H0]; · iexists _; iexact H0
    isplitl [H1]; · iexists _; iexact H1
    isplitl [H2]; · iexists _; iexact H2
    isplitl [H3]; · iexists _; iexact H3
    isplitl [H4]; · iexists _; iexact H4
    iexact Hbufs
  isplitl [Hsem5 Hsem6 Hsem7 Hsems]
  · isplitl [Hsem5]; · iexact Hsem5
    isplitl [Hsem6]; · iexact Hsem6
    isplitl [Hsem7]; · iexact Hsem7
    iexact Hsems
  iexists (insert (SemLoc.dma cc0_scratch7.sem, none) (insert (SemLoc.dma cc0_scratch6.sem, none) (insert (SemLoc.dma cc0_scratch7.sem, none)
    (insert (SemLoc.dma cc0_scratch6.sem, none) (insert (SemLoc.dma cc0_scratch5.sem, none) W))))); isplitr
  · ipureintro; intro p hp
    simp only [Finset.mem_insert] at hp
    rcases hp with rfl | rfl | rfl | rfl | rfl | hp
    · exact .inr rfl
    · exact .inr rfl
    · exact .inr rfl
    · exact .inr rfl
    · exact .inr rfl
    · exact .inl hp
  iexact HO

end Tile

end Cert.KernelIdeal.Sc

end
-- ==== Proof.ScLaunch.lean ====
/-
  The SparseCore call's tile obligation for the launch theorem: the task's body, proved at a symbolic grid point, in the
  launch theorem's spelling of thread and program.
-/
import proofs.«206043_g84026740179769_cont_sun_m_427_41_alg».proof.Proof.ScBody
import Idealize.ShloMosaic.Lib.SparseCore.Launch
import Idealize.ShloMosaic.Lib.SparseCore.Ops
import Idealize.ShloMosaic.Lib.Pipeline.Kit
import Idealize.ShloMosaic.Lib.Tactic

noncomputable section

namespace Cert.KernelIdeal.Sc

open Cert.KernelIdeal
open Cert.KernelIdeal.Gen (cc0_k_eq_skeleton cc0_k_skel k0_t1_body k0_t2_body)
open Cert.KernelIdeal.Facts₀ Cert.KernelIdeal.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts] {U : Type} [URA U] [CountersIn U]

local notation "𝕄" => MT nD τ sig (HIx 1) (Elt F) ℕ U ℕ

variable (m : (ℓ : Loc nD τ sig) → Buf (Elt F) ℓ)

local notation "tW" => (Memref.whole Cert.KernelIdeal.main_arg1_scv : Memref Cert.KernelIdeal.sig Kind.scVector Space.hbm Cert.KernelIdeal.S10000 EltTy.i32)
local notation "sW" => (Memref.whole Cert.KernelIdeal.main_arg3_scv : Memref Cert.KernelIdeal.sig Kind.scVector Space.hbm Cert.KernelIdeal.S320000 EltTy.i32)
local notation "rW" => (Memref.whole Cert.KernelIdeal.main_arg4_scv : Memref Cert.KernelIdeal.sig Kind.scVector Space.hbm Cert.KernelIdeal.S320000 EltTy.i32)
local notation "aW" => (Memref.whole Cert.KernelIdeal.main_v0_0_scv : Memref Cert.KernelIdeal.sig Kind.scVector Space.hbm Cert.KernelIdeal.S320000 EltTy.i32)
local notation "bW" => (Memref.whole Cert.KernelIdeal.main_v0_1_scv : Memref Cert.KernelIdeal.sig Kind.scVector Space.hbm Cert.KernelIdeal.S320000 EltTy.i32)
local notation "c0W" => (Memref.whole Cert.KernelIdeal.cc0_scratch0 : Memref Cert.KernelIdeal.sig Kind.scVector Space.vmem Cert.KernelIdeal.S10000 EltTy.i32)
local notation "c1W" => (Memref.whole Cert.KernelIdeal.cc0_scratch1 : Memref Cert.KernelIdeal.sig Kind.scVector Space.vmem Cert.KernelIdeal.S10000 EltTy.i32)
local notation "c2W" => (Memref.whole Cert.KernelIdeal.cc0_scratch2 : Memref Cert.KernelIdeal.sig Kind.scVector Space.vmem Cert.KernelIdeal.S10000 EltTy.i32)
local notation "c3W" => (Memref.whole Cert.KernelIdeal.cc0_scratch3 : Memref Cert.KernelIdeal.sig Kind.scVector Space.vmem Cert.KernelIdeal.S10000 EltTy.i32)
local notation "c4W" => (Memref.whole Cert.KernelIdeal.cc0_scratch4 : Memref Cert.KernelIdeal.sig Kind.scVector Space.vmem Cert.KernelIdeal.S10000 EltTy.i32)

abbrev 𝒱 : Variants := 𝒱₀.lift
abbrev v₀ : 𝒱.V := Sum.inl none

/-! ## The tile obligation -/

theorem defs₀_vector (c : Fin τ.nSC) (s : Fin τ.nSub) :
    defs₀ (F := F) (.scVector c s) 0 ()
      = SparseCore.onTile hcore0 hsub0 (fun c s => cc0_k (coordsV c s)
          tW (Memref.isWhole_whole _) sW (Memref.isWhole_whole _) rW (Memref.isWhole_whole _) aW (Memref.isWhole_whole _) bW (Memref.isWhole_whole _)
          c0W (Memref.isWhole_whole _) c1W (Memref.isWhole_whole _) c2W (Memref.isWhole_whole _) c3W (Memref.isWhole_whole _) c4W (Memref.isWhole_whole _)
          cc0_scratch5 cc0_scratch6 cc0_scratch7) ⟨⟩ c s := rfl

omit [FloatOps F] [CountersIn U] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) :
    (K (F := F)).TileObl (D (F := F)) 𝒱 (P (U := U) m) v₀ 0 := by
  intro d c i O W hO _ _
  -- this kernel owes nothing for a protocol of its own
  simp only [show (P (U := U) m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre _ O W hO).trans (wp_mono frame _ _ fun _ => obl_post)

end Cert.KernelIdeal.Sc

end
-- ==== Proof.ScSplit.lean ====
/-
  The SparseCore call of the kernel program: how its operands are cut up and put back.

  A long array of 320000 words is cut into the 32 tasks' slices: task (c, s), numbered w = 2 s + c, holds entries
  [10000 w, 10000 w + 10000).  The slices are pairwise disjoint (two different task numbers are 10000 apart) and cover
  the array (entry e lies in the slice numbered e / 10000).  So a whole array held at the full share is the 32 slices
  held at the full share, grouped by SparseCore; the charge table, which every task reads, is held at read shares: the
  full share cut in two pieces, one per SparseCore, each cut in sixteen, one per task.  From these: a SparseCore's
  operands are its sixteen tasks' operands, and the two SparseCores' operands are the five arrays whole — at any
  contents of the two result arrays, so the same equations bring the results back.
-/
import proofs.«206043_g84026740179769_cont_sun_m_427_41_alg».proof.Proof.ScPay
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic

noncomputable section

namespace Cert.KernelIdeal.Sc

open Cert.KernelIdeal Cert.KernelIdeal.Gen
open Cert.KernelIdeal.Facts₀ Cert.KernelIdeal.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts] {U : Type} [URA U] [CountersIn U]

local notation "𝕄" => MT nD τ sig (HIx 1) (Elt F) ℕ U ℕ

variable (m : (ℓ : Loc nD τ sig) → Buf (Elt F) ℓ)

/-! ## The slices: disjoint, covering -/

theorem slSet_eq (L : grid0.Coords) : slSet L = (slR L).set := View.set_slice_whole _ _

theorem off_eq (c : Fin 2) (s : Fin 16) : k0_off1 (coordsV c s) 0 = 20000 * s.val + 10000 * c.val := by
  rw [Gen.k0_off1_eq]; rfl

theorem sl_disjoint : ∀ p ∈ (Finset.univ : Finset (Fin 2 × Fin 16)), ∀ p' ∈ (Finset.univ : Finset (Fin 2 × Fin 16)), p ≠ p' →
    Disjoint (slSet (coordsV p.1 p.2)) (slSet (coordsV p'.1 p'.2)) := by
  intro p _ p' _ hne
  rw [slSet_eq, slSet_eq]
  refine Rect.unit_disjoint 0 ?_
  rw [off_eq, off_eq]
  have h1 := p.1.isLt; have h2 := p'.1.isLt
  have : ¬ (p.1.val = p'.1.val ∧ p.2.val = p'.2.val) := fun ⟨e1, e2⟩ => hne (Prod.ext (Fin.ext e1) (Fin.ext e2))
  show 20000 * p.2.val + 10000 * p.1.val + 10000 ≤ 20000 * p'.2.val + 10000 * p'.1.val
    ∨ 20000 * p'.2.val + 10000 * p'.1.val + 10000 ≤ 20000 * p.2.val + 10000 * p.1.val
  omega

theorem sl_cover : (Finset.univ : Finset (Fin 2 × Fin 16)).biUnion (fun p => slSet (coordsV p.1 p.2)) = Finset.univ := by
  ext i
  simp only [Finset.mem_biUnion, Finset.mem_univ, true_and, iff_true]
  have hi : (i 0).val < 320000 := (i 0).isLt
  refine ⟨(⟨(i 0).val / 10000 % 2, by omega⟩, ⟨(i 0).val / 20000, by omega⟩), ?_⟩
  rw [slSet_eq, Rect.mem_set_unit]
  intro a
  obtain rfl : a = 0 := Subsingleton.elim _ _
  rw [off_eq]
  show 20000 * ((i 0).val / 20000) + 10000 * ((i 0).val / 10000 % 2) ≤ (i 0).val
    ∧ (i 0).val < 20000 * ((i 0).val / 20000) + 10000 * ((i 0).val / 10000 % 2) + 10000
  omega

omit [FloatOps F] [CountersIn U] in
theorem slices_s (d : Dev nD) (f : Buf (Elt F) (sLoc d)) :
    (bigSep Finset.univ fun c : Fin 2 => bigSep Finset.univ fun s : Fin 16 => (sLoc d ↦[slSet (coordsV c s)]{fullShare} f : sProp 𝕄))
      = (sLoc d ↦{fullShare} f) := by
  rw [← bigSep_univ_prod (fun p : Fin 2 × Fin 16 => (sLoc d ↦[slSet (coordsV p.1 p.2)]{fullShare} f : sProp 𝕄)),
    ← pointsTo_biUnion Finset.univ (ℓ := sLoc d) (fun p : Fin 2 × Fin 16 => slSet (coordsV p.1 p.2)) sl_disjoint, sl_cover]

omit [FloatOps F] [CountersIn U] in
theorem slices_r (d : Dev nD) (f : Buf (Elt F) (rLoc d)) :
    (bigSep Finset.univ fun c : Fin 2 => bigSep Finset.univ fun s : Fin 16 => (rLoc d ↦[slSet (coordsV c s)]{fullShare} f : sProp 𝕄))
      = (rLoc d ↦{fullShare} f) := by
  rw [← bigSep_univ_prod (fun p : Fin 2 × Fin 16 => (rLoc d ↦[slSet (coordsV p.1 p.2)]{fullShare} f : sProp 𝕄)),
    ← pointsTo_biUnion Finset.univ (ℓ := rLoc d) (fun p : Fin 2 × Fin 16 => slSet (coordsV p.1 p.2)) sl_disjoint, sl_cover]

omit [FloatOps F] [CountersIn U] in
theorem slices_a (d : Dev nD) (f : Buf (Elt F) (o0Loc d)) :
    (bigSep Finset.univ fun c : Fin 2 => bigSep Finset.univ fun s : Fin 16 => (o0Loc d ↦[slSet (coordsV c s)]{fullShare} f : sProp 𝕄))
      = (o0Loc d ↦{fullShare} f) := by
  rw [← bigSep_univ_prod (fun p : Fin 2 × Fin 16 => (o0Loc d ↦[slSet (coordsV p.1 p.2)]{fullShare} f : sProp 𝕄)),
    ← pointsTo_biUnion Finset.univ (ℓ := o0Loc d) (fun p : Fin 2 × Fin 16 => slSet (coordsV p.1 p.2)) sl_disjoint, sl_cover]

omit [FloatOps F] [CountersIn U] in
theorem slices_b (d : Dev nD) (f : Buf (Elt F) (o1Loc d)) :
    (bigSep Finset.univ fun c : Fin 2 => bigSep Finset.univ fun s : Fin 16 => (o1Loc d ↦[slSet (coordsV c s)]{fullShare} f : sProp 𝕄))
      = (o1Loc d ↦{fullShare} f) := by
  rw [← bigSep_univ_prod (fun p : Fin 2 × Fin 16 => (o1Loc d ↦[slSet (coordsV p.1 p.2)]{fullShare} f : sProp 𝕄)),
    ← pointsTo_biUnion Finset.univ (ℓ := o1Loc d) (fun p : Fin 2 × Fin 16 => slSet (coordsV p.1 p.2)) sl_disjoint, sl_cover]

/-! ## A SparseCore's operands among its tasks; the TensorCore's arrays between the SparseCores -/

omit [FloatOps F] [CountersIn U] in
theorem corePts_eq (d : Dev nD) (c : Fin 2) (g0 : Buf (Elt F) (o0Loc d)) (g1 : Buf (Elt F) (o1Loc d)) :
    corePts (U := U) m d c g0 g1 = bigSep Finset.univ fun s : Fin 16 => tilePts (U := U) m d c s g0 g1 := by
  unfold corePts tilePts tilePtsL tileShare
  rw [pointsTo_pieces (ℓ := tLoc d) Finset.univ (m (tLoc d)) 15 (coreShare c), ← bigSep_sep']

omit [CountersIn U] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [CountersIn U] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P (U := U) m) 0 := by
  intro d c
  rw [P_st, P_dn]
  show _ ⊢ |={Set.univ}=> iprop((bigSep Finset.univ fun i : Fin ((K (F := F)).nSub 0) =>
        tilePts (U := U) m d (Fin.cast nCore_zero c) (Fin.cast nSub_zero i) (m (o0Loc d)) (m (o1Loc d)))
      ∗ ((bigSep Finset.univ fun i : Fin ((K (F := F)).nSub 0) =>
          tilePts (U := U) m d (Fin.cast nCore_zero c) (Fin.cast nSub_zero i) (G0 m d) (G1 m d)) -∗ _))
  rw [bigSep_tasks (F := F) (fun s => tilePts (U := U) m d (Fin.cast nCore_zero c) s (m (o0Loc d)) (m (o1Loc d))),
    bigSep_tasks (F := F) (fun s => tilePts (U := U) m d (Fin.cast nCore_zero c) s (G0 m d) (G1 m d)), corePts_eq, corePts_eq]
  iintro H; imodintro
  isplitl [H]; · iexact H
  iintro H; iexact H

omit [FloatOps F] [CountersIn U] in
/-- The two SparseCores' operands are the five arrays whole. -/
theorem cores_eq (d : Dev nD) (g0 : Buf (Elt F) (o0Loc d)) (g1 : Buf (Elt F) (o1Loc d)) :
    (bigSep Finset.univ fun c : Fin 2 => corePts (U := U) m d c g0 g1)
      = iprop((tLoc d ↦{fullShare} m (tLoc d)) ∗ (sLoc d ↦{fullShare} m (sLoc d)) ∗ (rLoc d ↦{fullShare} m (rLoc d))
          ∗ (o0Loc d ↦{fullShare} g0) ∗ (o1Loc d ↦{fullShare} g1)) := by
  unfold corePts coreShare
  simp only [bigSep_sep']
  rw [← pointsTo_pieces (ℓ := tLoc d) Finset.univ (m (tLoc d)) 1 fullShare, slices_s, slices_r, slices_a, slices_b]

theorem st_intro (d : Dev nD) :
    (iprop((tLoc d ↦{fullShare} m (tLoc d)) ∗ (sLoc d ↦{fullShare} m (sLoc d)) ∗ (rLoc d ↦{fullShare} m (rLoc d))
        ∗ (o0Loc d ↦{fullShare} m (o0Loc d)) ∗ (o1Loc d ↦{fullShare} m (o1Loc d))) : sProp 𝕄)
      ⊢ bigSep Finset.univ fun c : Fin ((K (F := F)).nCore 0) => (P (U := U) m).st 0 d c := by
  show _ ⊢ bigSep Finset.univ fun c : Fin ((K (F := F)).nCore 0) => corePts (U := U) m d (Fin.cast nCore_zero c) (m (o0Loc d)) (m (o1Loc d))
  rw [bigSep_cores (F := F) (fun c => corePts (U := U) m d c (m (o0Loc d)) (m (o1Loc d))), cores_eq]

theorem dn_elim (d : Dev nD) :
    (bigSep Finset.univ fun c : Fin ((K (F := F)).nCore 0) => (P (U := U) m).dn 0 d c)
      ⊢ (iprop((tLoc d ↦{fullShare} m (tLoc d)) ∗ (sLoc d ↦{fullShare} m (sLoc d)) ∗ (rLoc d ↦{fullShare} m (rLoc d))
        ∗ (o0Loc d ↦{fullShare} G0 m d) ∗ (o1Loc d ↦{fullShare} G1 m d)) : sProp 𝕄) := by
  show (bigSep Finset.univ fun c : Fin ((K (F := F)).nCore 0) => corePts (U := U) m d (Fin.cast nCore_zero c) (G0 m d) (G1 m d)) ⊢ _
  rw [bigSep_cores (F := F) (fun c => corePts (U := U) m d c (G0 m d) (G1 m d)), cores_eq]

end Cert.KernelIdeal.Sc

end
-- ==== Proof.Bits.Common.lean ====
/-
  The kernel program as the SparseCore launch theorem sees it, and the ghost state of its proof.

  The device's threads synchronise on three families of semaphores: the four launch handshakes between the TensorCore,
  the sequencers and the vector subcores; the staging semaphores of the TensorCore call's pipeline; and each vector
  subcore's own three DMA semaphores.  The first two are families of rounds cells, each under a schedule of its own;
  a vector subcore only ever waits for its own local copies, one at a time per semaphore, which needs no schedule:
  exclusive counters suffice.  So the ghost state is a product of two rounds algebras and the counters' algebra.
-/
import proofs.«206043_g84026740179769_cont_sun_m_427_41_alg».proof.Kernel
import proofs.«206043_g84026740179769_cont_sun_m_427_41_alg».proof.Proof.Gen.Kernel
import proofs.«206043_g84026740179769_cont_sun_m_427_41_alg».proof.Proof.Gen.Kernel.Launch
import Idealize.ShloMosaic.Lib.SparseCore.Launch
import Idealize.ShloMosaic.Lib.Pipeline.Regions
import Idealize.ShloMosaic.Lib.StableHlo.Run
import Idealize.ShloMosaic.Lib.Tactic

noncomputable section

namespace Cert.Kernel.Common

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the tiles' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- The certificate's launch element splits into the handshakes' and the pipeline's (the counters start at the unit). -/
theorem ownU_split (a : UH) (b : UP) :
    (ownU ((a, (b, (1 : Counters))) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, (1 : Counters)) : UP × Counters))))

end Cert.Kernel.Common

end
-- ==== Proof.Bits.KerSpec.lean ====
/-
  What the kernel program computes, as ONE pure term of its argument arrays, generic in the float instance.

  The SparseCore call reads the charge table at the senders and at the receivers: two index arrays
  `cs e = charges (senders e)`, `cr e = charges (receivers e)`.  The host lines pad the embedding table with zero
  rows to 128 rows, cut the output weights in three 128-row slabs, transpose the radial basis and narrow it.  The
  TensorCore call, block `t` of 16000 edges at a time, multiplies the row `[onehot (cs e) | onehot (cr e) | act (rbf e · W_rbf + b_rbf)]`
  by the 384-row table `[E·W_s ; E·W_r ; g·W_q]` (built once, at the first block, and kept), adds the bias and applies
  the activation `x ↦ g · x · (½ tanh (½ x) + ½)`.  The result array is the blocks laid one under the other.
-/
import proofs.«206043_g84026740179769_cont_sun_m_427_41_alg».proof.Proof.Gen.Kernel.Skeleton
import Idealize.ShloMosaic.Lib.ValueIdx

noncomputable section

namespace Cert.Kernel.Spec

open Idealize.ShloMosaic Idealize.ShloMosaic.ValueIdx Cert.Kernel
open Cert.Kernel.Facts₀ Cert.Kernel.Facts

variable {F : FTy → Type} [FloatOps F] [Cert.Kernel.Facts]

/-- A table of 10000 words read at each of 320000 indices (zero where an index names no entry: never met under the
    certificate's precondition). -/
def gath (tbl : IVec S10000 32) (ix : IVec S320000 32) : IVec S320000 32 :=
  fun j => if h : (ix j).toNat < 10000 then tbl (ix1 ⟨(ix j).toNat, h⟩) else 0#32

/-- The embedding table under zero rows, 128 rows in all. -/
def embPad (emb : FVec F S95x128 .f32) : FVec F S128x128 .f32 :=
  Host.scatter scatter_S128x128_S1_S95x128_01_n_0_0 (fun _ b => b)
    (broadcastInDim S128x128 ![] bcast_S_S128x128 (constant (F := F) S_ .f32 0x00000000#32))
    (broadcastInDim S1 ![] bcast_S_S1 (constantI S_ 32 0#32)) emb

def wS (w : FVec F S384x128 .f32) : FVec F S128x128 .f32 := extractStridedSlice S128x128 ![0, 0] w slices_S384x128_S128x128_0_0
def wR (w : FVec F S384x128 .f32) : FVec F S128x128 .f32 := extractStridedSlice S128x128 ![128, 0] w slices_S384x128_S128x128_128_0
def wQ (w : FVec F S384x128 .f32) : FVec F S128x128 .f32 := extractStridedSlice S128x128 ![256, 0] w slices_S384x128_S128x128_256_0

/-- The radial basis transposed and narrowed. -/
def rbfT (rbf : FVec F S320000x16 .f32) : FVec F S16x320000 .bf16 :=
  truncf .bf16 (transpose S16x320000 [1, 0] rbf transposes_S320000x16_S16x320000_1_0) bitsLt_bf16_f32

def wRbf (w : FVec F S16x128 .f32) : FVec F S16x128 .bf16 := truncf .bf16 w bitsLt_bf16_f32

def rowOf (b : FVec F S128 .f32) : FVec F S1x128 .f32 := shapeCast S1x128 b shapeCasts_S128_S1x128

/-- The 384-row table the TensorCore call builds at its first block and keeps: three slabs of 128 rows. -/
def tbl (ep ws wr wq : FVec F S128x128 .f32) : Vec F S384x128 .bf16 :=
  fun y =>
    if h0 : (y 0).val < 128 then Gen.k1_pay2 ep ws (ix2 ⟨(y 0).val, h0⟩ (y 1))
    else if h1 : (y 0).val < 256 then Gen.k1_pay3 ep wr (ix2 ⟨(y 0).val - 128, by omega⟩ (y 1))
    else Gen.k1_pay4 wq (ix2 ⟨(y 0).val - 256, by have := (y 0).isLt; change (y 0).val < 384 at this; omega⟩ (y 1))

/-- Block `t` (16000 entries) of an index array. -/
def blk1 (v : IVec S320000 32) (t : Fin 20) : Vec F S16000 .i32 :=
  fun y => v (ix1 ⟨16000 * t.val + (y 0).val, by have := (y 0).isLt; change (y 0).val < 16000 at this; omega⟩)

/-- Column block `t` (16000 columns) of the transposed radial basis. -/
def blkC (v : FVec F S16x320000 .bf16) (t : Fin 20) : Vec F S16x16000 .bf16 :=
  fun y => v (ix2 ⟨(y 0).val, by have := (y 0).isLt; change (y 0).val < 16 at this; omega⟩
    ⟨16000 * t.val + (y 1).val, by have := (y 1).isLt; change (y 1).val < 16000 at this; omega⟩)

/-- What the TensorCore call stores for block `t`. -/
def outBlk (cs cr : IVec S320000 32) (rT : FVec F S16x320000 .bf16) (ep ws wr wq : FVec F S128x128 .f32)
    (wrbf : FVec F S16x128 .bf16) (brbf bout : FVec F S1x128 .f32) (t : Fin 20) : FVec F S16000x128 .f32 :=
  Gen.k1_pay1 (Gen.k1_pay5 (blk1 (F := F) cs t) (blk1 (F := F) cr t) (blkC rT t) wrbf brbf) (tbl ep ws wr wq) bout

/-- The blocks laid one under the other. -/
def stack (B : Fin 20 → FVec F S16000x128 .f32) : FVec F S320000x128 .f32 :=
  fun j => B ⟨(j 0).val / 16000, by have := (j 0).isLt; change (j 0).val < 320000 at this; omega⟩
    (ix2 ⟨(j 0).val % 16000, Nat.mod_lt _ (by norm_num)⟩ ⟨(j 1).val, by have := (j 1).isLt; change (j 1).val < 128 at this; omega⟩)

/-- The two index arrays the SparseCore call leaves. -/
def csOf (charges : IVec S10000 32) (senders : IVec S320000 32) : IVec S320000 32 := gath charges senders

/-- The kernel program's result, of its argument arrays. -/
def out (rbf : FVec F S320000x16 .f32) (charges : IVec S10000 32) (senders receivers : IVec S320000 32)
    (emb : FVec F S95x128 .f32) (wrbf : FVec F S16x128 .f32) (brbf : FVec F S128 .f32) (wout : FVec F S384x128 .f32)
    (bout : FVec F S128 .f32) : FVec F S320000x128 .f32 :=
  stack (outBlk (gath charges senders) (gath charges receivers) (rbfT rbf) (embPad emb) (wS wout) (wR wout) (wQ wout)
    (wRbf wrbf) (rowOf brbf) (rowOf bout))

end Cert.Kernel.Spec

end
-- ==== Proof.Bits.LaunchLemmas.lean ====
/-
  Small lemmas of the launch: the five arrays the SparseCore call takes out of the TensorCore's holdings and puts back,
  the launch element of the ghost state, and the TensorCore's handshake state after its one SparseCore call.
-/
import proofs.«206043_g84026740179769_cont_sun_m_427_41_alg».proof.Proof.Bits.Common
import proofs.«206043_g84026740179769_cont_sun_m_427_41_alg».proof.Proof.Bits.KerSpec
import Idealize.ShloMosaic.Lib.Pipeline.Frame

noncomputable section

namespace Cert.Kernel.Launch

open Cert.Kernel Cert.Kernel.Gen Cert.Kernel.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The five arrays of the SparseCore call -/

/-- The charge table, the two index arrays and the two result arrays, as device buffers. -/
def five : Finset (DevRef τ sig) :=
  {Proc.devRef .tc main_arg1, Proc.devRef .tc main_arg3, Proc.devRef .tc main_arg4, Proc.devRef .tc main_v0_0, Proc.devRef .tc main_v0_1}

theorem five_sub : five ⊆ Pipeline.ucRefs τ sig := by decide

theorem held_five (d : Dev nD) (W : Valuation τ sig (Elt F)) :
    (StableHlo.held (SparseCore.T d : Thread nD τ) five W : sProp 𝕄)
      = iprop(((SparseCore.T d : Thread nD τ).loc main_arg1 ↦{fullShare} W (Proc.devRef .tc main_arg1)) ∗ ((SparseCore.T d : Thread nD τ).loc main_arg3 ↦{fullShare} W (Proc.devRef .tc main_arg3))
          ∗ ((SparseCore.T d : Thread nD τ).loc main_arg4 ↦{fullShare} W (Proc.devRef .tc main_arg4)) ∗ ((SparseCore.T d : Thread nD τ).loc main_v0_0 ↦{fullShare} W (Proc.devRef .tc main_v0_0))
          ∗ ((SparseCore.T d : Thread nD τ).loc main_v0_1 ↦{fullShare} W (Proc.devRef .tc main_v0_1))) := by
  unfold StableHlo.held five
  rw [SparseCore.bigSep_insert' (by decide), SparseCore.bigSep_insert' (by decide), SparseCore.bigSep_insert' (by decide),
    SparseCore.bigSep_insert' (by decide), bigSep_singleton]

/-! ## The launch element -/

/-- The launch element: the handshake cells' rounds, the pipeline's staging cells' rounds, no counter yet. -/
def u₀ : UU :=
  (initOf (K (F := F)).hsCells (K (F := F)).hsToks,
    (initOf (Pipeline.cells (cfgs) cellOf_inj) (Pipeline.launchToks (cfgs) cellOf_inj), (1 : Counters)))

/-- What @main's proof on device `d` starts from besides the launch's dealings: the pipeline's cells' ghost state and duty tokens. -/
def G (d : Dev nD) : sProp 𝕄 :=
  iprop((bigSep Finset.univ fun p : Fin 1 => Pipeline.cellsGhost cfgs (EP (F := F)) p d)
    ∗ bigSep Finset.univ fun p : Fin 1 => (Pipeline.toksInit cfgs (EP (F := F)) p d : sProp 𝕄))

/-- The launch element gives the handshake cells' rounds and, per device, the pipeline's cells' ghost state and tokens. -/
theorem hu₀_core : (ownU (u₀ (F := F)) : sProp 𝕄)
    ⊢ |={Set.univ}=> iprop(BI.own (EH (initOf (K (F := F)).hsCells (K (F := F)).hsToks)) ∗ bigSep Finset.univ (G (F := F))) := by
  unfold u₀
  iintro Hu
  ihave H := (ownU_split _ _) $$ Hu
  icases H with ⟨HH, HP⟩
  imod (Pipeline.fund_ghost cfgs (EP (F := F)) cellOf_inj) $$ HP with ⟨Hcg, Htk⟩
  imodintro
  isplitl [HH]; · iexact HH
  unfold G
  rw [bigSep_sep']
  isplitl [Hcg]; · iexact Hcg
  iexact Htk

/-! ## The TensorCore's handshake state after its one SparseCore call -/

/-- What the state holds besides what the TensorCore owes: its position on its `done` cell and the rounds reached. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After the call the TensorCore owes nothing, its recorded waits at or below level 8. -/
theorem tcSt_one (d : Dev nD) :
    ((K (F := F)).tcSt EH d 1 : sProp 𝕄)
      = iprop((∃ W, ⌜(K (F := F)).WBelow (SparseCore.T d) W 8⌝ ∗ owes (SparseCore.T d : Thread nD τ) (0 : CellTallies nD τ sig (HIx 1)) W) ∗ tcRest d) := by
  unfold SparseCore.Cfg.tcSt tcRest
  rw [(K (F := F)).Otc_end d (le_refl 1)]

end Cert.Kernel.Launch

end
-- ==== Proof.Bits.KerHost.lean ====
/-
  The kernel program's host lines. Between its two device calls the program runs thirteen host operations on the
  TensorCore: a zero matrix and a zero index, the embedding table scattered over the zero matrix at row 0 (the table
  under zero rows), the three 128-row slabs of the output weights, the radial basis transposed and then narrowed, the
  radial weights narrowed, and the two bias vectors reshaped to one-row matrices. Here the program is restated as the
  first call, then that line of operations, then the second call; every operation touches unscoped buffers only and
  determines what it writes; each result the second call reads is, as a function of the arguments, the term the
  specification names; and the arguments, the first call's two results and the second call's result buffer are not
  written by the line.
-/
import proofs.«206043_g84026740179769_cont_sun_m_427_41_alg».proof.Proof.Gen.Kernel
import proofs.«206043_g84026740179769_cont_sun_m_427_41_alg».proof.Proof.Bits.KerSpec
import Idealize.ShloMosaic.Lib.StableHlo.Run
import Idealize.ShloMosaic.Lib.Pipeline.Frame

noncomputable section

namespace Cert.Kernel.Host

open Cert.Kernel
open Cert.Kernel.Facts₀ Cert.Kernel.Facts
open Idealize.ShloMosaic Idealize.ShloMosaic.TcCoe Idealize.SL Idealize.SL.RA Idealize.SL.BI Idealize.SL.Sem

variable {F : FTy → Type} [FloatOps F]

/-- The host operations between the SparseCore call and the TensorCore call, in order. -/
abbrev hostOps : List (HloOp τ sig (Elt F)) :=
  [ StableHlo.nullary main_cst (constant S_ .f32 0x00000000#32),
    StableHlo.unary main_cst main_v1 (broadcastInDim S128x128 ![] bcast_S_S128x128 : (⟨S_, .f32⟩ : BufTy).Contents (Elt F) → (⟨S128x128, .f32⟩ : BufTy).Contents (Elt F)),
    StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.ternary main_v1 main_v2 main_arg5 main_v3 ((fun x i u => Host.scatter scatter_S128x128_S1_S95x128_01_n_0_0 (fun _ b => b) x i u) : (⟨S128x128, .f32⟩ : BufTy).Contents (Elt F) → (⟨S1, .i32⟩ : BufTy).Contents (Elt F) → (⟨S95x128, .f32⟩ : BufTy).Contents (Elt F) → (⟨S128x128, .f32⟩ : BufTy).Contents (Elt F)),
    StableHlo.unary main_arg8 main_v4 ((extractStridedSlice S128x128 ![0, 0] · slices_S384x128_S128x128_0_0) : (⟨S384x128, .f32⟩ : BufTy).Contents (Elt F) → (⟨S128x128, .f32⟩ : BufTy).Contents (Elt F)),
    StableHlo.unary main_arg8 main_v5 ((extractStridedSlice S128x128 ![128, 0] · slices_S384x128_S128x128_128_0) : (⟨S384x128, .f32⟩ : BufTy).Contents (Elt F) → (⟨S128x128, .f32⟩ : BufTy).Contents (Elt F)),
    StableHlo.unary main_arg8 main_v6 ((extractStridedSlice S128x128 ![256, 0] · slices_S384x128_S128x128_256_0) : (⟨S384x128, .f32⟩ : BufTy).Contents (Elt F) → (⟨S128x128, .f32⟩ : BufTy).Contents (Elt F)),
    StableHlo.unary main_arg0 main_v7 ((transpose S16x320000 [1, 0] · transposes_S320000x16_S16x320000_1_0) : (⟨S320000x16, .f32⟩ : BufTy).Contents (Elt F) → (⟨S16x320000, .f32⟩ : BufTy).Contents (Elt F)),
    StableHlo.unary main_v7 main_v8 ((truncf .bf16 · bitsLt_bf16_f32) : (⟨S16x320000, .f32⟩ : BufTy).Contents (Elt F) → (⟨S16x320000, .bf16⟩ : BufTy).Contents (Elt F)),
    StableHlo.unary main_arg6 main_v9 ((truncf .bf16 · bitsLt_bf16_f32) : (⟨S16x128, .f32⟩ : BufTy).Contents (Elt F) → (⟨S16x128, .bf16⟩ : BufTy).Contents (Elt F)),
    StableHlo.reshape main_arg7 main_v10 rfl shapeCasts_S128_S1x128,
    StableHlo.reshape main_arg9 main_v11 rfl shapeCasts_S128_S1x128 ]

/-- The program: the SparseCore call, then the host operations as one line, then the TensorCore call. -/
theorem main_eq (d : Dev nD) :
    main (F := F) d = (sc.run d 0 >>= fun _ => StableHlo.seq hostOps >>= fun _ =>
      (Prog.op (.customCall (SparseCore.inner (Pipeline.entry 0)) ()) fun _ => Prog.ret ⟨⟩)) := by
  rfl

/-! ## The buffers the host operations run within -/

/-- Every host operation touches unscoped TensorCore buffers only. -/
theorem hostOps_sub : ∀ op ∈ hostOps (F := F), op.bufs ⊆ Pipeline.ucRefs τ sig := by
  intro op hop
  refine Pipeline.sub_ucRefs op ?_
  simp only [hostOps, List.mem_cons, List.mem_nil_iff, or_false] at hop
  rcases hop with rfl | rfl | rfl | rfl | rfl | rfl | rfl | rfl | rfl | rfl | rfl | rfl | rfl
  · exact StableHlo.nullary_bufs_sub ..
  · exact StableHlo.unary_bufs_sub ..
  · exact StableHlo.nullary_bufs_sub ..
  · exact StableHlo.unary_bufs_sub ..
  · exact StableHlo.ternary_bufs_sub ..
  · exact StableHlo.unary_bufs_sub ..
  · exact StableHlo.unary_bufs_sub ..
  · exact StableHlo.unary_bufs_sub ..
  · exact StableHlo.unary_bufs_sub ..
  · exact StableHlo.unary_bufs_sub ..
  · exact StableHlo.unary_bufs_sub ..
  · exact StableHlo.reshape_bufs_sub ..
  · exact StableHlo.reshape_bufs_sub ..

/-- No host operation leaves a buffer at contents it does not determine. -/
theorem hostOps_fresh : ∀ op ∈ hostOps (F := F), op.fresh = ∅ := by
  intro op hop
  simp only [hostOps, List.mem_cons, List.mem_nil_iff, or_false] at hop
  rcases hop with rfl | rfl | rfl | rfl | rfl | rfl | rfl | rfl | rfl | rfl | rfl | rfl | rfl <;> rfl

/-! ## What the host operations leave -/

section Values

variable (V : Valuation τ sig (Elt F))

/-- The padded embedding table: zero rows under the 95 given ones. -/
theorem after_v3 : (StableHlo.after (hostOps (F := F)) V main_v3 : FVec F S128x128 .f32) = Spec.embPad (V main_arg5) := by
  after_results; rfl

/-- The three 128-row slabs of the output weights. -/
theorem after_v4 : (StableHlo.after (hostOps (F := F)) V main_v4 : FVec F S128x128 .f32) = Spec.wS (V main_arg8) := by
  after_results; rfl
theorem after_v5 : (StableHlo.after (hostOps (F := F)) V main_v5 : FVec F S128x128 .f32) = Spec.wR (V main_arg8) := by
  after_results; rfl
theorem after_v6 : (StableHlo.after (hostOps (F := F)) V main_v6 : FVec F S128x128 .f32) = Spec.wQ (V main_arg8) := by
  after_results; rfl

/-- The radial basis transposed and narrowed. -/
theorem after_v8 : (StableHlo.after (hostOps (F := F)) V main_v8 : FVec F S16x320000 .bf16) = Spec.rbfT (V main_arg0) := by
  after_results; rfl

/-- The radial weights narrowed. -/
theorem after_v9 : (StableHlo.after (hostOps (F := F)) V main_v9 : FVec F S16x128 .bf16) = Spec.wRbf (V main_arg6) := by
  after_results; rfl

/-- The two bias vectors as one-row matrices. -/
theorem after_v10 : (StableHlo.after (hostOps (F := F)) V main_v10 : FVec F S1x128 .f32) = Spec.rowOf (V main_arg7) := by
  after_results; rfl
theorem after_v11 : (StableHlo.after (hostOps (F := F)) V main_v11 : FVec F S1x128 .f32) = Spec.rowOf (V main_arg9) := by
  after_results; rfl

end Values

/-! ## What the host operations leave alone -/

/-- A reference that is none of the thirteen results is written by no host operation. -/
theorem not_written (b : Ref sig .tc)
    (hb : b ≠ main_cst ∧ b ≠ main_v1 ∧ b ≠ main_c ∧ b ≠ main_v2 ∧ b ≠ main_v3 ∧ b ≠ main_v4 ∧ b ≠ main_v5 ∧ b ≠ main_v6
      ∧ b ≠ main_v7 ∧ b ≠ main_v8 ∧ b ≠ main_v9 ∧ b ≠ main_v10 ∧ b ≠ main_v11) :
    ∀ op ∈ (hostOps (F := F)), Proc.devRef .tc b ∉ op.writes := by
  obtain ⟨h0, h1, h2, h3, h4, h5, h6, h7, h8, h9, h10, h11, h12⟩ := hb
  intro op hop
  simp only [List.mem_cons, List.mem_nil_iff, or_false] at hop
  rcases hop with rfl | rfl | rfl | rfl | rfl | rfl | rfl | rfl | rfl | rfl | rfl | rfl | rfl <;>
    simp only [StableHlo.unary_writes, StableHlo.nullary_writes, StableHlo.ternary_writes, StableHlo.reshape_writes,
      Finset.mem_singleton] <;>
    exact StableHlo.devRef_ne_of_ne ‹_›

/-- Such a reference holds after the host operations what it held before. -/
theorem after_of_not_written (V : Valuation τ sig (Elt F)) (b : Ref sig .tc)
    (hb : b ≠ main_cst ∧ b ≠ main_v1 ∧ b ≠ main_c ∧ b ≠ main_v2 ∧ b ≠ main_v3 ∧ b ≠ main_v4 ∧ b ≠ main_v5 ∧ b ≠ main_v6
      ∧ b ≠ main_v7 ∧ b ≠ main_v8 ∧ b ≠ main_v9 ∧ b ≠ main_v10 ∧ b ≠ main_v11) :
    StableHlo.after (hostOps (F := F)) V b = V b :=
  StableHlo.after_of_forall_not_mem (b := Proc.devRef .tc b) hostOps V (not_written b hb)

section Kept

variable (V : Valuation τ sig (Elt F))

/-- The ten arguments, the SparseCore call's two results and the TensorCore call's result buffer are as they were. -/
theorem after_arg0 : StableHlo.after (hostOps (F := F)) V main_arg0 = V main_arg0 := after_of_not_written V main_arg0 (by decide)
theorem after_arg1 : StableHlo.after (hostOps (F := F)) V main_arg1 = V main_arg1 := after_of_not_written V main_arg1 (by decide)
theorem after_arg2 : StableHlo.after (hostOps (F := F)) V main_arg2 = V main_arg2 := after_of_not_written V main_arg2 (by decide)
theorem after_arg3 : StableHlo.after (hostOps (F := F)) V main_arg3 = V main_arg3 := after_of_not_written V main_arg3 (by decide)
theorem after_arg4 : StableHlo.after (hostOps (F := F)) V main_arg4 = V main_arg4 := after_of_not_written V main_arg4 (by decide)
theorem after_arg5 : StableHlo.after (hostOps (F := F)) V main_arg5 = V main_arg5 := after_of_not_written V main_arg5 (by decide)
theorem after_arg6 : StableHlo.after (hostOps (F := F)) V main_arg6 = V main_arg6 := after_of_not_written V main_arg6 (by decide)
theorem after_arg7 : StableHlo.after (hostOps (F := F)) V main_arg7 = V main_arg7 := after_of_not_written V main_arg7 (by decide)
theorem after_arg8 : StableHlo.after (hostOps (F := F)) V main_arg8 = V main_arg8 := after_of_not_written V main_arg8 (by decide)
theorem after_arg9 : StableHlo.after (hostOps (F := F)) V main_arg9 = V main_arg9 := after_of_not_written V main_arg9 (by decide)
theorem after_v0_0 : StableHlo.after (hostOps (F := F)) V main_v0_0 = V main_v0_0 := after_of_not_written V main_v0_0 (by decide)
theorem after_v0_1 : StableHlo.after (hostOps (F := F)) V main_v0_1 = V main_v0_1 := after_of_not_written V main_v0_1 (by decide)
theorem after_v12 : StableHlo.after (hostOps (F := F)) V main_v12 = V main_v12 := after_of_not_written V main_v12 (by decide)

end Kept

end Cert.Kernel.Host

end
-- ==== Proof.Bits.ScPay.lean ====
/-
  The SparseCore call of the kernel program: what its handshakes carry.

  The call's one vector-subcore kernel runs 32 tasks, task (c, s) on vector subcore s of SparseCore c, numbered
  w = 2 s + c.  Every task reads the whole charge table (10000 words) and entries [10000 w, 10000 w + 10000) of the
  senders and of the receivers, and writes those entries of the two result arrays.  The table goes out as 32 read
  shares (two per-SparseCore halves, each cut in sixteen); the four long arrays go out slice by slice.  A result slice
  comes back holding, on its entries, the WHOLE-array function "the table read at the index array", so that the 32
  slices join with no bookkeeping of values.
-/
import proofs.«206043_g84026740179769_cont_sun_m_427_41_alg».proof.Proof.Bits.KerSpec
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic

noncomputable section

namespace Cert.Kernel.Sc

open Cert.Kernel Cert.Kernel.Gen
open Cert.Kernel.Facts₀ Cert.Kernel.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts] {U : Type} [URA U] [CountersIn U]

local notation "𝕄" => MT nD τ sig (HIx 1) (Elt F) ℕ U ℕ

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
theorem nCore_zero : (K (F := F)).nCore 0 = 2 := rfl
theorem nSub_zero : (K (F := F)).nSub 0 = 16 := rfl

/-! ## The launch memory, the arrays, the slices -/

variable (m : (ℓ : Loc nD τ sig) → Buf (Elt F) ℓ)

/-- The charge table, the senders, the receivers, the two results, as locations of device `d`. -/
abbrev tLoc (d : Dev nD) : Loc nD τ sig := (SparseCore.T d).loc main_arg1
abbrev sLoc (d : Dev nD) : Loc nD τ sig := (SparseCore.T d).loc main_arg3
abbrev rLoc (d : Dev nD) : Loc nD τ sig := (SparseCore.T d).loc main_arg4
abbrev o0Loc (d : Dev nD) : Loc nD τ sig := (SparseCore.T d).loc main_v0_0
abbrev o1Loc (d : Dev nD) : Loc nD τ sig := (SparseCore.T d).loc main_v0_1

/-- What the two results hold after the call, as whole-array functions of the launch memory. -/
def G0 (d : Dev nD) : Buf (Elt F) (o0Loc d) := Spec.gath (m (tLoc d)) (m (sLoc d))
def G1 (d : Dev nD) : Buf (Elt F) (o1Loc d) := Spec.gath (m (tLoc d)) (m (rLoc d))

/-- The grid point of task `(c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- The task's slice of a long array, as the kernel cuts it, and the entries it names. -/
abbrev slR (L : grid0.Coords) : Rect S320000 := Rect.unit (s := S320000) (k0_off1 L) S10000.size (Facts₀.k0_off1_inb L)
abbrev slSet (L : grid0.Coords) : Finset S320000.Idx :=
  ((Memref.whole main_arg3_scv : Memref sig .scVector .hbm S320000 .i32).view.slice (slR L)).set

/-- What the proof asks of the launch memory: every sender and every receiver names an entry of the table. -/
def PreOK : Prop :=
  ∀ d : Dev nD, (∀ e, (m (sLoc d) e).toNat ≤ 9999) ∧ (∀ e, (m (rLoc d) e).toNat ≤ 9999)

/-! ## The read shares of the table -/

/-- SparseCore `c`'s share of the table (the whole cut in two pieces), and task `(c, s)`'s (that cut in sixteen). -/
def coreShare (c : Fin 2) : PosShare TreeShare := piece fullShare 1 c
def tileShare (c : Fin 2) (s : Fin 16) : PosShare TreeShare := piece (coreShare c) 15 s

/-! ## What the handshakes carry -/

/-- A task's operands at the grid point `L`: a read share `q` of the table, its slices of the senders and
    receivers, its slices of the two results at the contents `g0`, `g1`. -/
def tilePtsL (d : Dev nD) (q : PosShare TreeShare) (L : grid0.Coords) (g0 : Buf (Elt F) (o0Loc d)) (g1 : Buf (Elt F) (o1Loc d)) : sProp 𝕄 :=
  iprop((tLoc d ↦{q} m (tLoc d))
    ∗ (sLoc d ↦[slSet L]{fullShare} m (sLoc d)) ∗ (rLoc d ↦[slSet L]{fullShare} m (rLoc d))
    ∗ (o0Loc d ↦[slSet L]{fullShare} g0) ∗ (o1Loc d ↦[slSet L]{fullShare} g1))

/-- Task `(c, s)`'s operands. -/
def tilePts (d : Dev nD) (c : Fin 2) (s : Fin 16) (g0 : Buf (Elt F) (o0Loc d)) (g1 : Buf (Elt F) (o1Loc d)) : sProp 𝕄 :=
  tilePtsL m d (tileShare c s) (coordsV c s) g0 g1

/-- SparseCore `c`'s operands: its read share of the table and its sixteen tasks' slices. -/
def corePts (d : Dev nD) (c : Fin 2) (g0 : Buf (Elt F) (o0Loc d)) (g1 : Buf (Elt F) (o1Loc d)) : sProp 𝕄 :=
  iprop((tLoc d ↦{coreShare c} m (tLoc d))
    ∗ bigSep Finset.univ fun s : Fin 16 =>
        iprop((sLoc d ↦[slSet (coordsV c s)]{fullShare} m (sLoc d)) ∗ (rLoc d ↦[slSet (coordsV c s)]{fullShare} m (rLoc d))
          ∗ (o0Loc d ↦[slSet (coordsV c s)]{fullShare} g0) ∗ (o1Loc d ↦[slSet (coordsV c s)]{fullShare} g1)))

/-- The one call: out, the results at their launch contents; back, at the gathered arrays. Nothing of the launch's is
    consumed by the tasks (their transfers run on the counters' protocol, which needs no schedule). -/
def P : (K (F := F)).Pay (nD := nD) (Val := Elt F) (Name := ℕ) (U := U) where
  st := fun q d c => match q with | 0 => corePts m d (Fin.cast nCore_zero c) (m (o0Loc d)) (m (o1Loc d))
  dn := fun q d c => match q with | 0 => corePts m d (Fin.cast nCore_zero c) (G0 m d) (G1 m d)
  go := fun q d c i => match q with
    | 0 => tilePts m d (Fin.cast nCore_zero c) (Fin.cast nSub_zero i) (m (o0Loc d)) (m (o1Loc d))
  td := fun q d c i => match q with
    | 0 => tilePts m d (Fin.cast nCore_zero c) (Fin.cast nSub_zero i) (G0 m d) (G1 m d)
  x := fun _ _ => iprop(emp)

instance tilePts_storable (d : Dev nD) (c : Fin 2) (s : Fin 16) (g0 : Buf (Elt F) (o0Loc d)) (g1 : Buf (Elt F) (o1Loc d)) :
    BI.Storable (upEmb : UEmb _ 𝕄) (tilePts m d c s g0 g1) := by unfold tilePts tilePtsL; infer_instance
instance corePts_storable (d : Dev nD) (c : Fin 2) (g0 : Buf (Elt F) (o0Loc d)) (g1 : Buf (Elt F) (o1Loc d)) :
    BI.Storable (upEmb : UEmb _ 𝕄) (corePts m d c g0 g1) := by unfold corePts; infer_instance

instance P_storable : (P (F := F) (U := U) m).IsStorable where
  st q d c := match q with | 0 => corePts_storable m d _ _ _
  dn q d c := match q with | 0 => corePts_storable m d _ _ _
  go q d c i := match q with | 0 => tilePts_storable m d _ _ _ _
  td q d c i := match q with | 0 => tilePts_storable m d _ _ _ _

theorem P_st (d : Dev nD) (c : Fin ((K (F := F)).nCore 0)) :
    (P (F := F) (U := U) m).st 0 d c = corePts m d (Fin.cast nCore_zero c) (m (o0Loc d)) (m (o1Loc d)) := rfl
theorem P_dn (d : Dev nD) (c : Fin ((K (F := F)).nCore 0)) :
    (P (F := F) (U := U) m).dn 0 d c = corePts m d (Fin.cast nCore_zero c) (G0 m d) (G1 m d) := rfl
theorem P_go (d : Dev nD) (c : Fin ((K (F := F)).nCore 0)) (i : Fin ((K (F := F)).nSub 0)) :
    (P (F := F) (U := U) m).go 0 d c i = tilePts m d (Fin.cast nCore_zero c) (Fin.cast nSub_zero i) (m (o0Loc d)) (m (o1Loc d)) := rfl
theorem P_td (d : Dev nD) (c : Fin ((K (F := F)).nCore 0)) (i : Fin ((K (F := F)).nSub 0)) :
    (P (F := F) (U := U) m).td 0 d c i = tilePts m d (Fin.cast nCore_zero c) (Fin.cast nSub_zero i) (G0 m d) (G1 m d) := rfl
theorem P_x (q : Fin 1) (thr : Thread nD τ) : (P (F := F) (U := U) m).x q thr = iprop(emp) := rfl

end Cert.Kernel.Sc

end
-- ==== Proof.Bits.TcDat.lean ====
/-
  The TensorCore call's proof data: what each window's staging buffer holds after the body at each grid point, and
  the invariant carried between points (the 384-row table in the scratch buffer: anything before the first point,
  the table of the three slabs after it).
-/
import proofs.«206043_g84026740179769_cont_sun_m_427_41_alg».proof.Proof.Gen.Kernel.Launch
import proofs.«206043_g84026740179769_cont_sun_m_427_41_alg».proof.Proof.Gen.Kernel.Points
import proofs.«206043_g84026740179769_cont_sun_m_427_41_alg».proof.Proof.Bits.KerSpec
import Idealize.ShloMosaic.Lib.Pipeline.Regions
import Idealize.ShloMosaic.Lib.Pipeline.Frame
import Idealize.ShloMosaic.Lib.SparseCore.Cells

noncomputable section

namespace Cert.Kernel.Tc

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

/-- The prefetched tables' admissible contents: no table. -/
abbrev adm : (p : Fin 1) → (pcfgs (F := F) p).Adm := fun p => (cfgs p).toPCfg_adm

/-- A TensorCore reference's contents under a valuation of the device's buffers. -/
abbrev Vb (V : Dev nD → Valuation τ sig (Elt F)) (c : Dev nD) (b : Ref sig .tc) : Buf (Elt F) ((c.tc : Thread nD τ).loc b) :=
  V c (Proc.devRef .tc b)

section Data

variable (V : Dev nD → Valuation τ sig (Elt F)) (W₀ : Waits sig (HIx 1)) (c : Dev nD)

/-- The eleven arrays' entry contents, by name. -/
abbrev cs : IVec S320000 32 := Vb V c main_v0_0
abbrev cr : IVec S320000 32 := Vb V c main_v0_1
abbrev rT : FVec F S16x320000 .bf16 := Vb V c main_v8
abbrev ep : FVec F S128x128 .f32 := Vb V c main_v3
abbrev ws : FVec F S128x128 .f32 := Vb V c main_v4
abbrev wr : FVec F S128x128 .f32 := Vb V c main_v5
abbrev wrbf : FVec F S16x128 .bf16 := Vb V c main_v9
abbrev brbf : FVec F S1x128 .f32 := Vb V c main_v10
abbrev wq : FVec F S128x128 .f32 := Vb V c main_v6
abbrev bout : FVec F S1x128 .f32 := Vb V c main_v11

/-- What point `t` stores into the output's block. -/
abbrev oblk (t : Fin 20) : FVec F S16000x128 .f32 :=
  Spec.outBlk (cs V c) (cr V c) (rT V c) (ep V c) (ws V c) (wr V c) (wq V c) (wrbf V c) (brbf V c) (bout V c) t

/-- The table the scratch buffer holds from the first point on. -/
abbrev stbl : Vec F S384x128 .bf16 := Spec.tbl (ep V c) (ws V c) (wr V c) (wq V c)

/-- The valuation the region leaves: the result buffer at the stacked blocks, every other buffer as it was. -/
def V' : Valuation τ sig (Elt F) :=
  Function.update (V c) (Proc.devRef .tc main_v12) (Spec.stack (oblk V c))

theorem V'_out : V' V c (Proc.devRef .tc main_v12) = Spec.stack (oblk V c) := by
  unfold V'; rw [Function.update_self]

theorem V'_of_ne (b : DevRef τ sig) (hb : b ≠ Proc.devRef .tc main_v12) : V' V c b = V c b := by
  unfold V'; rw [Function.update_of_ne hb]

/-- The scratch operand: a whole scoped buffer of the kernel's own. -/
abbrev scM : Memref sig .tc .vmem S384x128 .bf16 := Memref.whole cc1_scratch0

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (Vb V c (Pipeline.arrRef spec1 w))

/-- The invariant before position `n`: the scratch at anything before the first point, at the table afterwards. -/
def PhiT : ℕ → sProp 𝕄
  | 0 => iprop(∃ d, owns (c.tc : Thread nD τ) scM fullShare d)
  | _ + 1 => owns (c.tc : Thread nD τ) scM fullShare (stbl V c)

theorem PhiT_zero : (PhiT V c 0 : sProp 𝕄) = iprop(∃ d, owns (c.tc : Thread nD τ) scM fullShare d) := rfl
theorem PhiT_succ (n : ℕ) : (PhiT V c (n + 1) : sProp 𝕄) = owns (c.tc : Thread nD τ) scM fullShare (stbl V c) := rfl
theorem PhiT_pos (n : ℕ) (hn : n ≠ 0) : (PhiT V c n : sProp 𝕄) = owns (c.tc : Thread nD τ) scM fullShare (stbl V c) := by
  cases n with
  | zero => exact absurd rfl hn
  | succ n => rfl

/-- The proof data of the one pipeline on core `c`: the arrays as the region finds them; after the body at point
    `t` each input's buffer at its block, the output's at the point's block of the result; the invariant the scratch;
    nothing owed, the recorded waits those the region was entered with and the loop's own; full shares. -/
def pdats (_ : Fin 1) (c : Dev nD) : Dat τ (Elt F) (HIx 1) ℕ U ℕ cfg1 c where
  A w := Vb V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => oblk V c (Fin.cast N_1 t)
  Φ t := PhiT V c t.val
  q _ := fullShare
  owed _ := 0
  recorded _ := {p | p ∈ W₀ ∨ p.2 = none}

end Data

end Cert.Kernel.Tc

end
-- ==== Proof.Bits.TcRunLib.lean ====
/-
  What the two runs of the TensorCore kernel body share: the condition of its one conditional in closed form, the
  rectangle of the index arrays' loads, the value the body stores, and two read-back equations for accesses at
  offset zero through a whole rectangle.
-/
import proofs.«206043_g84026740179769_cont_sun_m_427_41_alg».proof.Proof.Gen.Kernel.Launch
import proofs.«206043_g84026740179769_cont_sun_m_427_41_alg».proof.Proof.Gen.Kernel.Skeleton
import proofs.«206043_g84026740179769_cont_sun_m_427_41_alg».proof.Proof.Gen.Kernel.Points
import Idealize.ShloMosaic.Lib.Pipeline.FrameBody
import Idealize.ShloMosaic.Lib.Ring
import Idealize.ShloMosaic.Lib.Tactic
import Idealize.ShloMosaic.Lib.WholeRead
import Idealize.ShloMosaic.Lib.SparseCore.Cells

set_option maxRecDepth 16384
set_option pp.maxSteps 20000
set_option pp.deepTerms false

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

/-- The condition of the body's `scf.if`: the grid coordinate is zero. -/
abbrev cond1 (i : grid1.Coords) : Prop := (Scalar.cmpi .ne (Scalar.extui (Scalar.cmpi .eq (BitVec.ofNat 32 (i 0).val) 0#32)) 0#32) = 1#1
/-- It holds at the first point only — decided over the grid. -/
theorem hcond1 : ∀ t : Fin cfg1.N, cond1 (grid1.coords t) ↔ t.val = 0 :=
  (by decide +kernel : ∀ t : Fin grid1.N, cond1 (grid1.coords t) ↔ t.val = 0)

/-- The rectangle the body loads of each index array at grid coordinates `i`: 16000 entries from the point's offset. -/
abbrev Ri (i : grid1.Coords) : Rect S320000 := Rect.unit (s := S320000) (k1_off1 i) S16000.size (k1_off1_inb i)

/-- What the body stores into the output block, of what its memrefs hold: the index arrays `x1`, `x2` (read at the
    point's rectangle), the radial-basis block `x3`, its weights and bias `x7`, `x8`, the output bias `x10`, and the
    table `xs` in the scratch buffer. -/
def outB (i : grid1.Coords) (x1 x2 : Vec F S320000 .i32) (x3 : Vec F S16x16000 .bf16) (x7 : Vec F S16x128 .bf16)
    (x8 x10 : Vec F S1x128 .f32) (xs : Vec F S384x128 .bf16) : Vec F S16000x128 .f32 :=
  k1_pay1 (k1_pay5 (View.ld x1 (Ri i)) (View.ld x2 (Ri i)) x3 x7 x8) xs x10

section Whole

variable {sig' : RefSig} {Val : EltTy → Type} {κ : Kind} {sp : Space} {S : Shape} {e : EltTy}

/-- A store through the whole rectangle (zero offsets, the shape's own sizes), LAST, leaves its payload. -/
theorem read_writes_unit_zero (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have := View.read_writes_cons_emb v f (Rect.whole S) w L y
  rw [Rect.emb_whole_apply] at this
  exact this

/-- A load through the whole rectangle of a whole memref held at the contents that read `X` reads `X`. -/
theorem readAt_unread_unit_zero {m : Memref sig' κ sp S e} (hm : m.IsWhole) (X : S.Idx → Val e) {off : Fin S.rank → Nat}
    (h : off = fun _ => 0) (inb : ∀ a, off a + S.size a ≤ S.size a) :
    m.view.readAt Val (Rect.unit off S.size inb).toLoadRect (hm.unread X) = X := by
  rw [View.readAt_eq_ld, hm.read_unread, View.ld_unit_zero h]

/-- A load of a rectangle of a whole memref held at the contents that read `X` reads `X` at the rectangle. -/
theorem readAt_unread_ld {m : Memref sig' κ sp S e} (hm : m.IsWhole) (X : S.Idx → Val e) (r : Rect S) :
    m.view.readAt Val r.toLoadRect (hm.unread X) = View.ld X r := by
  rw [View.readAt_eq_ld, hm.read_unread]

end Whole

theorem z2 : (![0, 0] : Fin 2 → Nat) = fun _ => 0 := by funext a; fin_cases a <;> rfl

end Cert.Kernel.Tc

end
-- ==== Proof.Bits.TcBlk.lean ====
/-
  The windows' blocks in closed form: a window that stages its whole array holds the array at every point, the
  radial-basis window holds the point's column block, and the body's load of an index array at the point's offset
  reads the point's block of it. With these the value the body stores is the specification's block.
-/
import proofs.«206043_g84026740179769_cont_sun_m_427_41_alg».proof.Proof.Bits.TcDat
import proofs.«206043_g84026740179769_cont_sun_m_427_41_alg».proof.Proof.Bits.TcRunLib

set_option maxRecDepth 16384
set_option pp.maxSteps 20000
set_option pp.deepTerms false

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

open Idealize.ShloMosaic.ValueIdx

/-- The grid has one axis: a point's coordinate is its position. -/
theorem coords_val : ∀ t : Fin cfg1.N, (grid1.coords t 0).val = t.val :=
  (by decide +kernel : ∀ t : Fin grid1.N, (grid1.coords t 0).val = t.val)

theorem idx_0 : ∀ t : Fin cfg1.N, ∀ a, (cfg1.win 0).index t a = 0 :=
  (by decide +kernel : ∀ t : Fin grid1.N, ∀ a, win1_0.index t a = 0)
theorem idx_1 : ∀ t : Fin cfg1.N, ∀ a, (cfg1.win 1).index t a = 0 :=
  (by decide +kernel : ∀ t : Fin grid1.N, ∀ a, win1_1.index t a = 0)
theorem idx_3 : ∀ t : Fin cfg1.N, ∀ a, (cfg1.win 3).index t a = 0 :=
  (by decide +kernel : ∀ t : Fin grid1.N, ∀ a, win1_3.index t a = 0)
theorem idx_4 : ∀ t : Fin cfg1.N, ∀ a, (cfg1.win 4).index t a = 0 :=
  (by decide +kernel : ∀ t : Fin grid1.N, ∀ a, win1_4.index t a = 0)
theorem idx_5 : ∀ t : Fin cfg1.N, ∀ a, (cfg1.win 5).index t a = 0 :=
  (by decide +kernel : ∀ t : Fin grid1.N, ∀ a, win1_5.index t a = 0)
theorem idx_6 : ∀ t : Fin cfg1.N, ∀ a, (cfg1.win 6).index t a = 0 :=
  (by decide +kernel : ∀ t : Fin grid1.N, ∀ a, win1_6.index t a = 0)
theorem idx_7 : ∀ t : Fin cfg1.N, ∀ a, (cfg1.win 7).index t a = 0 :=
  (by decide +kernel : ∀ t : Fin grid1.N, ∀ a, win1_7.index t a = 0)
theorem idx_8 : ∀ t : Fin cfg1.N, ∀ a, (cfg1.win 8).index t a = 0 :=
  (by decide +kernel : ∀ t : Fin grid1.N, ∀ a, win1_8.index t a = 0)
theorem idx_9 : ∀ t : Fin cfg1.N, ∀ a, (cfg1.win 9).index t a = 0 :=
  (by decide +kernel : ∀ t : Fin grid1.N, ∀ a, win1_9.index t a = 0)
theorem idx_2 : ∀ t : Fin cfg1.N, (cfg1.win 2).index t 0 = 0 ∧ (cfg1.win 2).index t 1 = t.val :=
  (by decide +kernel : ∀ t : Fin grid1.N, win1_2.index t 0 = 0 ∧ win1_2.index t 1 = t.val)

section Blocks

variable (V : Dev nD → Valuation τ sig (Elt F)) (c : Dev nD)

/-- Window 0 stages its whole array: its block at every point is the array. -/
theorem iblk_0 (t : Fin cfg1.N) : iblk V c 0 t = cs V c := by
  funext y
  unfold iblk
  rw [View.read_apply]
  show _root_.cast _ (Vb V c main_v0_0 (((cfg1.win 0).rect t).emb y)) = _
  rw [cast_eq]
  refine congrArg (Vb V c main_v0_0) ?_
  funext a
  exact Fin.ext ((cfg1.win 0).rect_emb_val_of_index_zero t a (idx_0 t a) y)

/-- Window 1 stages its whole array: its block at every point is the array. -/
theorem iblk_1 (t : Fin cfg1.N) : iblk V c 1 t = cr V c := by
  funext y
  unfold iblk
  rw [View.read_apply]
  show _root_.cast _ (Vb V c main_v0_1 (((cfg1.win 1).rect t).emb y)) = _
  rw [cast_eq]
  refine congrArg (Vb V c main_v0_1) ?_
  funext a
  exact Fin.ext ((cfg1.win 1).rect_emb_val_of_index_zero t a (idx_1 t a) y)

/-- Window 3 stages its whole array: its block at every point is the array. -/
theorem iblk_3 (t : Fin cfg1.N) : iblk V c 3 t = ep V c := by
  funext y
  unfold iblk
  rw [View.read_apply]
  show _root_.cast _ (Vb V c main_v3 (((cfg1.win 3).rect t).emb y)) = _
  rw [cast_eq]
  refine congrArg (Vb V c main_v3) ?_
  funext a
  exact Fin.ext ((cfg1.win 3).rect_emb_val_of_index_zero t a (idx_3 t a) y)

/-- Window 4 stages its whole array: its block at every point is the array. -/
theorem iblk_4 (t : Fin cfg1.N) : iblk V c 4 t = ws V c := by
  funext y
  unfold iblk
  rw [View.read_apply]
  show _root_.cast _ (Vb V c main_v4 (((cfg1.win 4).rect t).emb y)) = _
  rw [cast_eq]
  refine congrArg (Vb V c main_v4) ?_
  funext a
  exact Fin.ext ((cfg1.win 4).rect_emb_val_of_index_zero t a (idx_4 t a) y)

/-- Window 5 stages its whole array: its block at every point is the array. -/
theorem iblk_5 (t : Fin cfg1.N) : iblk V c 5 t = wr V c := by
  funext y
  unfold iblk
  rw [View.read_apply]
  show _root_.cast _ (Vb V c main_v5 (((cfg1.win 5).rect t).emb y)) = _
  rw [cast_eq]
  refine congrArg (Vb V c main_v5) ?_
  funext a
  exact Fin.ext ((cfg1.win 5).rect_emb_val_of_index_zero t a (idx_5 t a) y)

/-- Window 6 stages its whole array: its block at every point is the array. -/
theorem iblk_6 (t : Fin cfg1.N) : iblk V c 6 t = wrbf V c := by
  funext y
  unfold iblk
  rw [View.read_apply]
  show _root_.cast _ (Vb V c main_v9 (((cfg1.win 6).rect t).emb y)) = _
  rw [cast_eq]
  refine congrArg (Vb V c main_v9) ?_
  funext a
  exact Fin.ext ((cfg1.win 6).rect_emb_val_of_index_zero t a (idx_6 t a) y)

/-- Window 7 stages its whole array: its block at every point is the array. -/
theorem iblk_7 (t : Fin cfg1.N) : iblk V c 7 t = brbf V c := by
  funext y
  unfold iblk
  rw [View.read_apply]
  show _root_.cast _ (Vb V c main_v10 (((cfg1.win 7).rect t).emb y)) = _
  rw [cast_eq]
  refine congrArg (Vb V c main_v10) ?_
  funext a
  exact Fin.ext ((cfg1.win 7).rect_emb_val_of_index_zero t a (idx_7 t a) y)

/-- Window 8 stages its whole array: its block at every point is the array. -/
theorem iblk_8 (t : Fin cfg1.N) : iblk V c 8 t = wq V c := by
  funext y
  unfold iblk
  rw [View.read_apply]
  show _root_.cast _ (Vb V c main_v6 (((cfg1.win 8).rect t).emb y)) = _
  rw [cast_eq]
  refine congrArg (Vb V c main_v6) ?_
  funext a
  exact Fin.ext ((cfg1.win 8).rect_emb_val_of_index_zero t a (idx_8 t a) y)

/-- Window 9 stages its whole array: its block at every point is the array. -/
theorem iblk_9 (t : Fin cfg1.N) : iblk V c 9 t = bout V c := by
  funext y
  unfold iblk
  rw [View.read_apply]
  show _root_.cast _ (Vb V c main_v11 (((cfg1.win 9).rect t).emb y)) = _
  rw [cast_eq]
  refine congrArg (Vb V c main_v11) ?_
  funext a
  exact Fin.ext ((cfg1.win 9).rect_emb_val_of_index_zero t a (idx_9 t a) y)

/-- The radial-basis window holds the point's block of 16000 columns. -/
theorem iblk_2 (t : Fin cfg1.N) : iblk V c 2 t = Spec.blkC (rT V c) (Fin.cast N_1 t) := by
  funext y
  unfold iblk
  rw [View.read_apply]
  show _root_.cast _ (Vb V c main_v8 (((cfg1.win 2).rect t).emb y)) = _
  rw [cast_eq]
  unfold Spec.blkC
  refine congrArg (Vb V c main_v8) ?_
  funext a
  match a with
  | ⟨0, _⟩ =>
    apply Fin.ext
    rw [(cfg1.win 2).rect_emb_val t y]
    show (cfg1.win 2).index t 0 * 16 + (y 0).val = (y 0).val
    rw [(idx_2 t).1]
    omega
  | ⟨1, _⟩ =>
    apply Fin.ext
    rw [(cfg1.win 2).rect_emb_val t y]
    show (cfg1.win 2).index t 1 * 16000 + (y 1).val = 16000 * t.val + (y 1).val
    rw [(idx_2 t).2]
    omega

end Blocks

/-- The body's load of an index array at the point's offset reads the point's block of 16000 entries. -/
theorem ld_blk1 (v : Vec F S320000 .i32) (t : Fin cfg1.N) :
    View.ld v (Ri (grid1.coords t)) = Spec.blk1 (F := F) v (Fin.cast N_1 t) := by
  funext y
  unfold Spec.blk1
  show v ((Ri (grid1.coords t)).emb y) = _
  refine congrArg v ?_
  funext a
  match a with
  | ⟨0, _⟩ =>
    apply Fin.ext
    rw [Rect.emb_apply]
    show k1_off1 (grid1.coords t) 0 + 1 * (y 0).val = 16000 * t.val + (y 0).val
    rw [k1_off1_eq, ← coords_val t]
    show 16000 * (grid1.coords t 0).val + 1 * (y 0).val = _
    omega

/-- What the body stores at point `t`, of the arrays the region finds: the specification's block. -/
theorem outB_eq (V : Dev nD → Valuation τ sig (Elt F)) (c : Dev nD) (t : Fin cfg1.N) :
    outB (grid1.coords t) (cs V c) (cr V c) (iblk V c 2 t) (wrbf V c) (brbf V c) (bout V c) (stbl V c) = oblk V c (Fin.cast N_1 t) := by
  unfold outB
  rw [ld_blk1, ld_blk1, iblk_2]
  rfl

end Cert.Kernel.Tc

end
-- ==== Proof.Bits.TcTbl.lean ====
/-
  The three slab stores into the 384-row scratch buffer read back as ONE function of the index: the table
  `Spec.tbl`. Each slab is the block of that function its rectangle names, and the three rectangles tile the buffer.
-/
import proofs.«206043_g84026740179769_cont_sun_m_427_41_alg».proof.Proof.Bits.TcRunLib
import proofs.«206043_g84026740179769_cont_sun_m_427_41_alg».proof.Proof.Bits.KerSpec
import Idealize.ShloMosaic.Lib.Pipeline.Value

set_option maxRecDepth 16384
set_option pp.maxSteps 20000
set_option pp.deepTerms false

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

open Idealize.ShloMosaic.ValueIdx

section Tbl

variable (x4 x5 x6 x9 : Vec F S128x128 .f32)

/-- The three slab stores, last first, as pieces of the scratch buffer's shape. -/
def slabs : List (View.Piece (Elt F) S384x128 .bf16) :=
  [⟨Rect.unit ![256, 0] S128x128.size inb_S384x128_S128x128_256_0, k1_pay4 x9⟩,
   ⟨Rect.unit ![128, 0] S128x128.size inb_S384x128_S128x128_128_0, k1_pay3 x4 x6⟩,
   ⟨Rect.unit ![0, 0] S128x128.size inb_S384x128_S128x128_0_0, k1_pay2 x4 x5⟩]

/-- Each slab is the block of the table its rectangle names. -/
theorem slabs_pieces : ∀ p ∈ slabs x4 x5 x6 x9, ∀ x : p.1.shape.Idx, p.2 x = Spec.tbl x4 x5 x6 x9 (p.1.emb x) := by
  intro p hp x
  simp only [slabs, List.mem_cons, List.mem_nil_iff, or_false] at hp
  rcases hp with rfl | rfl | rfl
  · have h0 := (x 0).isLt; change (x 0).val < 128 at h0
    have e0 : (((Rect.unit (s := S384x128) ![256, 0] S128x128.size inb_S384x128_S128x128_256_0).emb x) 0).val = 256 + 1 * (x 0).val := rfl
    unfold Spec.tbl
    rw [dif_neg (by rw [e0]; omega), dif_neg (by rw [e0]; omega)]
    refine congrArg (k1_pay4 x9) ?_
    funext d
    match d with
    | ⟨0, _⟩ => exact Fin.ext (by show (x 0).val = 256 + 1 * (x 0).val - 256; omega)
    | ⟨1, _⟩ => exact Fin.ext (by show (x 1).val = 0 + 1 * (x 1).val; omega)
  · have h0 := (x 0).isLt; change (x 0).val < 128 at h0
    have e0 : (((Rect.unit (s := S384x128) ![128, 0] S128x128.size inb_S384x128_S128x128_128_0).emb x) 0).val = 128 + 1 * (x 0).val := rfl
    unfold Spec.tbl
    rw [dif_neg (by rw [e0]; omega), dif_pos (by rw [e0]; omega)]
    refine congrArg (k1_pay3 x4 x6) ?_
    funext d
    match d with
    | ⟨0, _⟩ => exact Fin.ext (by show (x 0).val = 128 + 1 * (x 0).val - 128; omega)
    | ⟨1, _⟩ => exact Fin.ext (by show (x 1).val = 0 + 1 * (x 1).val; omega)
  · have h0 := (x 0).isLt; change (x 0).val < 128 at h0
    have e0 : (((Rect.unit (s := S384x128) ![0, 0] S128x128.size inb_S384x128_S128x128_0_0).emb x) 0).val = 0 + 1 * (x 0).val := rfl
    unfold Spec.tbl
    rw [dif_pos (by rw [e0]; omega)]
    refine congrArg (k1_pay2 x4 x5) ?_
    funext d
    match d with
    | ⟨0, _⟩ => exact Fin.ext (by show (x 0).val = 0 + 1 * (x 0).val; omega)
    | ⟨1, _⟩ => exact Fin.ext (by show (x 1).val = 0 + 1 * (x 1).val; omega)

/-- The three rectangles tile the buffer. -/
theorem slabs_cover (y : S384x128.Idx) : ∃ p ∈ slabs x4 x5 x6 x9, y ∈ p.1.set :=
  View.cover_of_tiledL (slabs x4 x5 x6 x9) S128x128.size (by sl_kernel_rfl) y

variable {κ : Kind} {sp : Space}

/-- What the buffer holds after the three stores, whatever it held before: the table. -/
theorem read_writes_slabs (v : View sig κ sp S384x128 .bf16) (f : v.ty.Contents (Elt F)) :
    v.read (Elt F) (v.writes (Elt F) f (slabs x4 x5 x6 x9)) = Spec.tbl x4 x5 x6 x9 :=
  funext fun y => View.read_writes_apply_of_pieces v f (Spec.tbl x4 x5 x6 x9) (slabs x4 x5 x6 x9) (slabs_pieces x4 x5 x6 x9) y (slabs_cover x4 x5 x6 x9 y)

/-- A load of the whole buffer after the three stores reads the table. -/
theorem readCov_slabs (v : View sig κ sp S384x128 .bf16) :
    v.readCov (slabs x4 x5 x6 x9) (Rect.unit ![0, 0] S384x128.size inb_S384x128_S384x128_0_0).toLoadRect = Spec.tbl x4 x5 x6 x9 := by
  rw [View.readCov_eq_canon']
  funext j
  rw [View.canon_apply_of_pieces (Spec.tbl x4 x5 x6 x9) (slabs x4 x5 x6 x9) (slabs_pieces x4 x5 x6 x9) _ (slabs_cover x4 x5 x6 x9 _)]
  refine congrArg (Spec.tbl x4 x5 x6 x9) ?_
  funext d
  match d with
  | ⟨0, _⟩ => exact Fin.ext (by show 0 + 1 * (j 0).val = (j 0).val; omega)
  | ⟨1, _⟩ => exact Fin.ext (by show 0 + 1 * (j 1).val = (j 1).val; omega)

end Tbl

end Cert.Kernel.Tc

end
-- ==== Proof.Bits.TcRunA.lean ====
/-
  The TensorCore kernel body run at the first grid point: the conditional is taken, the three slabs are stored into
  the scratch buffer (held at anything), which then reads back as the one table; the one store covers the output block.
-/
import proofs.«206043_g84026740179769_cont_sun_m_427_41_alg».proof.Proof.Bits.TcTbl

set_option maxRecDepth 16384
set_option pp.maxSteps 20000
set_option pp.deepTerms false

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

set_option maxHeartbeats 4000000 in
/-- The body where the conditional is taken, on whole memrefs: the inputs at their contents, the output and the scratch
    at anything; it runs to the continuation holding the inputs as they were, the scratch at the table of the three
    slabs and the output at the stored value. -/
theorem kernelRun_A (c : Dev nD) (i : grid1.Coords) (arg1 : Memref sig .tc .vmem S320000 .i32) (harg1 : arg1.IsWhole) (arg2 : Memref sig .tc .vmem S320000 .i32) (harg2 : arg2.IsWhole) (arg3 : Memref sig .tc .vmem S16x16000 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S16x128 .bf16) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S16000x128 .f32) (harg11 : arg11.IsWhole) (arg12 : Memref sig .tc .vmem S384x128 .bf16) (harg12 : arg12.IsWhole) (hc : cond1 i)
    (x1 : Vec F S320000 .i32) (x2 : Vec F S320000 .i32) (x3 : Vec F S16x16000 .bf16) (x4 : Vec F S128x128 .f32) (x5 : Vec F S128x128 .f32) (x6 : Vec F S128x128 .f32) (x7 : Vec F S16x128 .bf16) (x8 : Vec F S1x128 .f32) (x9 : Vec F S128x128 .f32) (x10 : Vec F S1x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outB i x1 x2 x3 x7 x8 x10 (Spec.tbl x4 x5 x6 x9)) ∗ owns (c : Thread nD τ) arg12 fullShare (Spec.tbl x4 x5 x6 x9)) -∗ K ⟨⟩))
      ⊢ wp frame (wpE (defs₀ (F := F)) Variants.none c none) E (cc1_body i arg1 harg1 arg2 harg2 arg3 harg3 arg4 harg4 arg5 harg5 arg6 harg6 arg7 harg7 arg8 harg8 arg9 harg9 arg10 harg10 arg11 harg11 arg12 harg12) K := by
    simp only [cc1_body_eq_skeleton]; unfold cc1_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds, %fs, -, HS⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro
      sl_unfold_run_names
      have hT := readCov_slabs x4 x5 x6 x9 arg12.view
      unfold slabs at hT
      rw [read_writes_unit_zero _ _ z2, readAt_unread_ld harg1, readAt_unread_ld harg2, readAt_unread_unit_zero harg3 _ z2,
        readAt_unread_unit_zero harg7 _ z2, readAt_unread_unit_zero harg8 _ z2, readAt_unread_unit_zero harg10 _ z2,
        readAt_unread_unit_zero harg9 _ z2, readAt_unread_unit_zero harg4 _ z2, readAt_unread_unit_zero harg5 _ z2,
        readAt_unread_unit_zero harg6 _ z2, hT]
      rfl
    iexists _; isplitr; swap; · iexact HS
    ipureintro
    sl_unfold_run_names
    have hT := read_writes_slabs x4 x5 x6 x9 arg12.view fs
    unfold slabs at hT
    rw [readAt_unread_unit_zero harg9 _ z2, readAt_unread_unit_zero harg4 _ z2, readAt_unread_unit_zero harg5 _ z2,
      readAt_unread_unit_zero harg6 _ z2]
    exact hT

end Cert.Kernel.Tc

end
-- ==== Proof.Bits.TcRunB.lean ====
/-
  The TensorCore kernel body run at a grid point after the first: the conditional is not taken, the scratch buffer
  holds what the first point left, and the one store covers the output block.
-/
import proofs.«206043_g84026740179769_cont_sun_m_427_41_alg».proof.Proof.Bits.TcRunLib

set_option maxRecDepth 16384
set_option pp.maxSteps 20000
set_option pp.deepTerms false

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

set_option maxHeartbeats 4000000 in
/-- The body where the conditional is not taken, on whole memrefs: the inputs at their contents, the output at anything,
    the scratch at contents `xs`; it runs to the continuation holding the inputs and the scratch as they were and the
    output at the stored value. -/
theorem kernelRun_B (c : Dev nD) (i : grid1.Coords) (arg1 : Memref sig .tc .vmem S320000 .i32) (harg1 : arg1.IsWhole) (arg2 : Memref sig .tc .vmem S320000 .i32) (harg2 : arg2.IsWhole) (arg3 : Memref sig .tc .vmem S16x16000 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S16x128 .bf16) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S16000x128 .f32) (harg11 : arg11.IsWhole) (arg12 : Memref sig .tc .vmem S384x128 .bf16) (harg12 : arg12.IsWhole) (hc : ¬cond1 i)
    (x1 : Vec F S320000 .i32) (x2 : Vec F S320000 .i32) (x3 : Vec F S16x16000 .bf16) (x4 : Vec F S128x128 .f32) (x5 : Vec F S128x128 .f32) (x6 : Vec F S128x128 .f32) (x7 : Vec F S16x128 .bf16) (x8 : Vec F S1x128 .f32) (x9 : Vec F S128x128 .f32) (x10 : Vec F S1x128 .f32) (xs : Vec F S384x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare xs
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outB i x1 x2 x3 x7 x8 x10 xs) ∗ owns (c : Thread nD τ) arg12 fullShare xs) -∗ K ⟨⟩))
      ⊢ wp frame (wpE (defs₀ (F := F)) Variants.none c none) E (cc1_body i arg1 harg1 arg2 harg2 arg3 harg3 arg4 harg4 arg5 harg5 arg6 harg6 arg7 harg7 arg8 harg8 arg9 harg9 arg10 harg10 arg11 harg11 arg12 harg12) K := by
    simp only [cc1_body_eq_skeleton]; unfold cc1_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    obtain rfl := harg12.eq_unread hfs
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro
      sl_unfold_run_names
      rw [read_writes_unit_zero _ _ z2, readAt_unread_ld harg1, readAt_unread_ld harg2, readAt_unread_unit_zero harg3 _ z2,
        readAt_unread_unit_zero harg7 _ z2, readAt_unread_unit_zero harg8 _ z2, readAt_unread_unit_zero harg12 _ z2,
        readAt_unread_unit_zero harg10 _ z2]
      rfl
    iexists _; isplitr; · ipureintro; exact harg12.read_unread _
    iexact HS

end Cert.Kernel.Tc

end
-- ==== Proof.Bits.TcBody.lean ====
/-
  The body obligation of the TensorCore call. At every grid point the inputs' staging buffers hold their blocks; at
  the first point the conditional is taken and the scratch buffer, held at anything, is left at the table; at every
  later point the scratch holds the table and is left as it is; in both cases the output's staging buffer is left at
  the specification's block.
-/
import proofs.«206043_g84026740179769_cont_sun_m_427_41_alg».proof.Proof.Bits.TcBlk
import proofs.«206043_g84026740179769_cont_sun_m_427_41_alg».proof.Proof.Bits.TcRunA
import proofs.«206043_g84026740179769_cont_sun_m_427_41_alg».proof.Proof.Bits.TcRunB

set_option maxRecDepth 16384
set_option pp.maxSteps 20000
set_option pp.deepTerms false

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

section Body

variable (V : Dev nD → Valuation τ sig (Elt F)) (W₀ : Waits sig (HIx 1)) (c : Dev nD)

/-- The proof data's arrays are the region-entry contents (the definition projected). -/
theorem A_eq (w : Fin cfg1.W) : (pdats (U := U) V W₀ 0 c).A w = Vb V c (Pipeline.arrRef spec1 w) := by dsimp only [pdats]

/-- What the body leaves, window by window (the proof data's `match` reduced). -/
theorem after_0 (t : Fin cfg1.N) : (pdats (U := U) V W₀ 0 c).after 0 t = iblk V c 0 t := by dsimp only [pdats]
theorem after_1 (t : Fin cfg1.N) : (pdats (U := U) V W₀ 0 c).after 1 t = iblk V c 1 t := by dsimp only [pdats]
theorem after_2 (t : Fin cfg1.N) : (pdats (U := U) V W₀ 0 c).after 2 t = iblk V c 2 t := by dsimp only [pdats]
theorem after_3 (t : Fin cfg1.N) : (pdats (U := U) V W₀ 0 c).after 3 t = iblk V c 3 t := by dsimp only [pdats]
theorem after_4 (t : Fin cfg1.N) : (pdats (U := U) V W₀ 0 c).after 4 t = iblk V c 4 t := by dsimp only [pdats]
theorem after_5 (t : Fin cfg1.N) : (pdats (U := U) V W₀ 0 c).after 5 t = iblk V c 5 t := by dsimp only [pdats]
theorem after_6 (t : Fin cfg1.N) : (pdats (U := U) V W₀ 0 c).after 6 t = iblk V c 6 t := by dsimp only [pdats]
theorem after_7 (t : Fin cfg1.N) : (pdats (U := U) V W₀ 0 c).after 7 t = iblk V c 7 t := by dsimp only [pdats]
theorem after_8 (t : Fin cfg1.N) : (pdats (U := U) V W₀ 0 c).after 8 t = iblk V c 8 t := by dsimp only [pdats]
theorem after_9 (t : Fin cfg1.N) : (pdats (U := U) V W₀ 0 c).after 9 t = iblk V c 9 t := by dsimp only [pdats]
theorem after_10 (t : Fin cfg1.N) : (pdats (U := U) V W₀ 0 c).after 10 t = oblk V c (Fin.cast N_1 t) := by dsimp only [pdats]

/-- Each input's current staging buffer holds its block at every point, fetched there or not. -/
theorem before_0 (t : Fin cfg1.N) (d) : (pdats (U := U) V W₀ 0 c).before 0 t d = iblk V c 0 t :=
  ((pdats (U := U) V W₀ 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg1.N) (d) : (pdats (U := U) V W₀ 0 c).before 1 t d = iblk V c 1 t :=
  ((pdats (U := U) V W₀ 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin cfg1.N) (d) : (pdats (U := U) V W₀ 0 c).before 2 t d = iblk V c 2 t :=
  ((pdats (U := U) V W₀ 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (t : Fin cfg1.N) (d) : (pdats (U := U) V W₀ 0 c).before 3 t d = iblk V c 3 t :=
  ((pdats (U := U) V W₀ 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (t : Fin cfg1.N) (d) : (pdats (U := U) V W₀ 0 c).before 4 t d = iblk V c 4 t :=
  ((pdats (U := U) V W₀ 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (t : Fin cfg1.N) (d) : (pdats (U := U) V W₀ 0 c).before 5 t d = iblk V c 5 t :=
  ((pdats (U := U) V W₀ 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (t : Fin cfg1.N) (d) : (pdats (U := U) V W₀ 0 c).before 6 t d = iblk V c 6 t :=
  ((pdats (U := U) V W₀ 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (t : Fin cfg1.N) (d) : (pdats (U := U) V W₀ 0 c).before 7 t d = iblk V c 7 t :=
  ((pdats (U := U) V W₀ 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (t : Fin cfg1.N) (d) : (pdats (U := U) V W₀ 0 c).before 8 t d = iblk V c 8 t :=
  ((pdats (U := U) V W₀ 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (t : Fin cfg1.N) (d) : (pdats (U := U) V W₀ 0 c).before 9 t d = iblk V c 9 t :=
  ((pdats (U := U) V W₀ 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-- No window is idle anywhere: the body leaves each at the proof data's `after`. -/
theorem leaves_0 (t : Fin cfg1.N) : (pdats (U := U) V W₀ 0 c).leavesExact 0 t = owns (c : Thread nD τ) (st1_0 t) fullShare ((pdats (U := U) V W₀ 0 c).after 0 t) := by
  unfold Dat.leavesExact; rfl
theorem leaves_1 (t : Fin cfg1.N) : (pdats (U := U) V W₀ 0 c).leavesExact 1 t = owns (c : Thread nD τ) (st1_1 t) fullShare ((pdats (U := U) V W₀ 0 c).after 1 t) := by
  unfold Dat.leavesExact; rfl
theorem leaves_2 (t : Fin cfg1.N) : (pdats (U := U) V W₀ 0 c).leavesExact 2 t = owns (c : Thread nD τ) (st1_2 t) fullShare ((pdats (U := U) V W₀ 0 c).after 2 t) := by
  unfold Dat.leavesExact; rfl
theorem leaves_3 (t : Fin cfg1.N) : (pdats (U := U) V W₀ 0 c).leavesExact 3 t = owns (c : Thread nD τ) (st1_3 t) fullShare ((pdats (U := U) V W₀ 0 c).after 3 t) := by
  unfold Dat.leavesExact; rfl
theorem leaves_4 (t : Fin cfg1.N) : (pdats (U := U) V W₀ 0 c).leavesExact 4 t = owns (c : Thread nD τ) (st1_4 t) fullShare ((pdats (U := U) V W₀ 0 c).after 4 t) := by
  unfold Dat.leavesExact; rfl
theorem leaves_5 (t : Fin cfg1.N) : (pdats (U := U) V W₀ 0 c).leavesExact 5 t = owns (c : Thread nD τ) (st1_5 t) fullShare ((pdats (U := U) V W₀ 0 c).after 5 t) := by
  unfold Dat.leavesExact; rfl
theorem leaves_6 (t : Fin cfg1.N) : (pdats (U := U) V W₀ 0 c).leavesExact 6 t = owns (c : Thread nD τ) (st1_6 t) fullShare ((pdats (U := U) V W₀ 0 c).after 6 t) := by
  unfold Dat.leavesExact; rfl
theorem leaves_7 (t : Fin cfg1.N) : (pdats (U := U) V W₀ 0 c).leavesExact 7 t = owns (c : Thread nD τ) (st1_7 t) fullShare ((pdats (U := U) V W₀ 0 c).after 7 t) := by
  unfold Dat.leavesExact; rfl
theorem leaves_8 (t : Fin cfg1.N) : (pdats (U := U) V W₀ 0 c).leavesExact 8 t = owns (c : Thread nD τ) (st1_8 t) fullShare ((pdats (U := U) V W₀ 0 c).after 8 t) := by
  unfold Dat.leavesExact; rfl
theorem leaves_9 (t : Fin cfg1.N) : (pdats (U := U) V W₀ 0 c).leavesExact 9 t = owns (c : Thread nD τ) (st1_9 t) fullShare ((pdats (U := U) V W₀ 0 c).after 9 t) := by
  unfold Dat.leavesExact; rfl
theorem leaves_10 (t : Fin cfg1.N) : (pdats (U := U) V W₀ 0 c).leavesExact 10 t = owns (c : Thread nD τ) (st1_10 t) fullShare ((pdats (U := U) V W₀ 0 c).after 10 t) := by
  unfold Dat.leavesExact; rfl

theorem Phi_castSucc (t : Fin cfg1.N) : (pdats (U := U) V W₀ 0 c).Φ t.castSucc = PhiT V c t.val := by
  dsimp only [pdats]; simp only [Fin.coe_castSucc]
theorem Phi_succ (t : Fin cfg1.N) : (pdats (U := U) V W₀ 0 c).Φ t.succ = PhiT V c (t.val + 1) := by
  dsimp only [pdats]; simp only [Fin.val_succ]

/-- What the body is called with at point `t`, the windows one by one, -/
def bodyPre (t : Fin cfg1.N) : sProp 𝕄 :=
  iprop((pdats (U := U) V W₀ 0 c).Φ t.castSucc ∗ (pdats (U := U) V W₀ 0 c).owesAt (none : HIx 1) t.castSucc
    ∗ (∃ d, owns (c : Thread nD τ) (st1_0 t) fullShare ((pdats (U := U) V W₀ 0 c).before 0 t d))
    ∗ (∃ d, owns (c : Thread nD τ) (st1_1 t) fullShare ((pdats (U := U) V W₀ 0 c).before 1 t d))
    ∗ (∃ d, owns (c : Thread nD τ) (st1_2 t) fullShare ((pdats (U := U) V W₀ 0 c).before 2 t d))
    ∗ (∃ d, owns (c : Thread nD τ) (st1_3 t) fullShare ((pdats (U := U) V W₀ 0 c).before 3 t d))
    ∗ (∃ d, owns (c : Thread nD τ) (st1_4 t) fullShare ((pdats (U := U) V W₀ 0 c).before 4 t d))
    ∗ (∃ d, owns (c : Thread nD τ) (st1_5 t) fullShare ((pdats (U := U) V W₀ 0 c).before 5 t d))
    ∗ (∃ d, owns (c : Thread nD τ) (st1_6 t) fullShare ((pdats (U := U) V W₀ 0 c).before 6 t d))
    ∗ (∃ d, owns (c : Thread nD τ) (st1_7 t) fullShare ((pdats (U := U) V W₀ 0 c).before 7 t d))
    ∗ (∃ d, owns (c : Thread nD τ) (st1_8 t) fullShare ((pdats (U := U) V W₀ 0 c).before 8 t d))
    ∗ (∃ d, owns (c : Thread nD τ) (st1_9 t) fullShare ((pdats (U := U) V W₀ 0 c).before 9 t d))
    ∗ (∃ d, owns (c : Thread nD τ) (st1_10 t) fullShare ((pdats (U := U) V W₀ 0 c).before 10 t d)))

/-- and what it returns. -/
def bodyPost (t : Fin cfg1.N) : sProp 𝕄 :=
  iprop((pdats (U := U) V W₀ 0 c).Φ t.succ ∗ (pdats (U := U) V W₀ 0 c).owesAt (none : HIx 1) t.succ
    ∗ (pdats (U := U) V W₀ 0 c).leavesExact 0 t
    ∗ (pdats (U := U) V W₀ 0 c).leavesExact 1 t
    ∗ (pdats (U := U) V W₀ 0 c).leavesExact 2 t
    ∗ (pdats (U := U) V W₀ 0 c).leavesExact 3 t
    ∗ (pdats (U := U) V W₀ 0 c).leavesExact 4 t
    ∗ (pdats (U := U) V W₀ 0 c).leavesExact 5 t
    ∗ (pdats (U := U) V W₀ 0 c).leavesExact 6 t
    ∗ (pdats (U := U) V W₀ 0 c).leavesExact 7 t
    ∗ (pdats (U := U) V W₀ 0 c).leavesExact 8 t
    ∗ (pdats (U := U) V W₀ 0 c).leavesExact 9 t
    ∗ (pdats (U := U) V W₀ 0 c).leavesExact 10 t)

set_option maxHeartbeats 4000000 in
/-- The body at any point: by cases on whether it is the first. -/
theorem sound_body (t : Fin cfg1.N) :
    bodyPre (U := U) V W₀ c t ⊢ wp frame (wpE (defs₀ (F := F)) Variants.none c none) Set.univ (bodyAt1 t) (fun _ => bodyPost (U := U) V W₀ c t) := by
  unfold bodyPre bodyPost bodyAt1
  simp only [before_0, before_1, before_2, before_3, before_4, before_5, before_6, before_7, before_8, before_9]
  rw [show (pdats (U := U) V W₀ 0 c).owesAt (none : HIx 1) t.succ = (pdats (U := U) V W₀ 0 c).owesAt (none : HIx 1) t.castSucc from rfl]
  rw [leaves_0, leaves_1, leaves_2, leaves_3, leaves_4, leaves_5, leaves_6, leaves_7, leaves_8, leaves_9, leaves_10]
  simp only [after_0, after_1, after_2, after_3, after_4, after_5, after_6, after_7, after_8, after_9, after_10]
  simp only [iblk_0, iblk_1, iblk_3, iblk_4, iblk_5, iblk_6, iblk_7, iblk_8, iblk_9]
  rw [← outB_eq V c t, Phi_castSucc, Phi_succ, PhiT_succ]
  by_cases hz : t.val = 0
  · rw [hz, PhiT_zero]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (kernelRun_A c (grid1.coords t) _ _ _ _ _ _ _ _ _ _ _ _ _ _ _ _ _ _ _ _ _ _ _ _ ((hcond1 t).mpr hz)
      (cs V c) (cr V c) (iblk V c 2 t) (ep V c) (ws V c) (wr V c) (wrbf V c) (brbf V c) (wq V c) (bout V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, H10, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [PhiT_pos V c _ hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (kernelRun_B c (grid1.coords t) _ _ _ _ _ _ _ _ _ _ _ _ _ _ _ _ _ _ _ _ _ _ _ _ (fun h => hz ((hcond1 t).mp h))
      (cs V c) (cr V c) (iblk V c 2 t) (ep V c) (ws V c) (wr V c) (wrbf V c) (brbf V c) (wq V c) (bout V c) (stbl V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, H10, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The library's body obligation, at every point. -/
theorem body_obligation : BodyObligation (pdats (U := U) V W₀ 0 c) (defs₀ (F := F)) Variants.none (none : HIx 1) Set.univ := fun t => by
  rw [bigSep_W1, bigSep_W1]
  exact sound_body V W₀ c t

end Body

end Cert.Kernel.Tc

end
-- ==== Proof.Bits.TcArr.lean ====
/-
  The TensorCore call's arrays after the run. The result array is written back at every one of the twenty grid points:
  point `t` writes the block of rows `16000 t … 16000 t + 15999`, all 128 columns. What it writes is the point's block
  of ONE whole-array function, the twenty blocks laid one under the other (row `r` is row `r % 16000` of block
  `r / 16000`), and the twenty row ranges cover every row; so after the last write-back the array holds that function.
  The ten other windows are inputs, and an input's array is never written: each holds at the end what it held at entry.
-/
import proofs.«206043_g84026740179769_cont_sun_m_427_41_alg».proof.Proof.Bits.TcDat
import Idealize.ShloMosaic.Lib.Pipeline.Value
import Idealize.ShloMosaic.Lib.Pipeline.Cells

noncomputable section

namespace Cert.Kernel.Tc

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

section Arr

variable (V : Dev nD → Valuation τ sig (Elt F)) (W₀ : Waits sig (HIx 1)) (c : Dev nD)

/-- The stacked array at row `16000 t + y₀`, column `y₁`, is block `t` at `(y₀, y₁)`. -/
theorem stack_apply (B : Fin 20 → FVec F S16000x128 .f32) (t : Fin 20) (y : S16000x128.Idx) (i : S320000x128.Idx)
    (h0 : (i 0).val = 16000 * t.val + (y 0).val) (h1 : (i 1).val = (y 1).val) : Spec.stack B i = B t y := by
  have hy0 : (y 0).val < 16000 := (y 0).isLt
  have e1 : (⟨(i 0).val / 16000, by have := (i 0).isLt; change (i 0).val < 320000 at this; omega⟩ : Fin 20) = t :=
    Fin.ext (by show (i 0).val / 16000 = t.val; omega)
  have e2 : ix2 (⟨(i 0).val % 16000, Nat.mod_lt _ (by norm_num)⟩ : Fin 16000)
      (⟨(i 1).val, by have := (i 1).isLt; change (i 1).val < 128 at this; omega⟩ : Fin 128) = y := by
    funext a
    match a with
    | ⟨0, _⟩ => exact Fin.ext (by show (i 0).val % 16000 = (y 0).val; omega)
    | ⟨1, _⟩ => exact Fin.ext (by show (i 1).val = (y 1).val; omega)
  show B _ _ = B t y
  rw [e1, e2]

/-- The output window's index map: block `t` of the rows, the one block of the columns. -/
theorem idx_facts : ∀ t : Fin cfg1.N, win1_10.index t (0 : Fin 2) = t.val ∧ win1_10.index t (1 : Fin 2) = 0 :=
  (by decide +kernel : ∀ t : Fin grid1.N, _)

/-- What point `t` writes back is block `t` of the stacked array. -/
theorem flushed_out (t : Fin cfg1.N) :
    (pdats (U := U) V W₀ 0 c).flushed 10 t = ((cfg1.win 10).blk t).view.read (Elt F) (Spec.stack (oblk V c)) := by
  show (cfg1.win 10).cut (grid1.coords t) ((pdats (U := U) V W₀ 0 c).after 10 t) = _
  dsimp only [pdats]
  funext j
  show oblk V c (Fin.cast N_1 t) j = Spec.stack (oblk V c) (((cfg1.win 10).blk t).view.emb j)
  refine (stack_apply (oblk V c) (Fin.cast N_1 t) j _ ?_ ?_).symm
  · show win1_10.index t (0 : Fin 2) * 16000 + 1 * (j 0).val = 16000 * t.val + (j 0).val
    rw [(idx_facts t).1]; omega
  · show win1_10.index t (1 : Fin 2) * 128 + 1 * (j 1).val = (j 1).val
    rw [(idx_facts t).2]; omega

/-- An index of the result array is in point `t`'s block when each coordinate is in the block's range on its axis. -/
theorem mem_blk_out (t : Fin cfg1.N) (i : S320000x128.Idx) :
    i ∈ ((cfg1.win 10).blk t).view.set ↔ ∀ a : Fin 2, win1_10.index t a * S16000x128.size a ≤ (i a).val
      ∧ (i a).val < win1_10.index t a * S16000x128.size a + S16000x128.size a := by
  show i ∈ ((View.whole main_v12).slice (win1_10.rect t)).set ↔ _
  rw [View.set_slice_whole, Rect.mem_set_unit]
  exact Iff.rfl

/-- Every index of the result array is in the block of the point its row names: row `r` is in block `r / 16000`. -/
theorem cover_out (i : S320000x128.Idx) :
    ∃ t : Fin cfg1.N, (cfg1.win 10).flush t = true ∧ i ∈ ((cfg1.win 10).blk t).view.set := by
  have hi0 : (i 0).val < 320000 := (i 0).isLt
  have hi1 : (i 1).val < 128 := (i 1).isLt
  have hN : cfg1.N = 20 := N_1
  refine ⟨⟨(i 0).val / 16000, by rw [hN]; omega⟩, flush1_10 _, ?_⟩
  rw [mem_blk_out]
  obtain ⟨e0, e1⟩ := idx_facts (⟨(i 0).val / 16000, by rw [hN]; omega⟩ : Fin cfg1.N)
  intro a
  match a with
  | ⟨0, _⟩ =>
    show win1_10.index _ (0 : Fin 2) * 16000 ≤ (i 0).val ∧ (i 0).val < win1_10.index _ (0 : Fin 2) * 16000 + 16000
    rw [e0]; show (i 0).val / 16000 * 16000 ≤ (i 0).val ∧ (i 0).val < (i 0).val / 16000 * 16000 + 16000; omega
  | ⟨1, _⟩ =>
    show win1_10.index _ (1 : Fin 2) * 128 ≤ (i 1).val ∧ (i 1).val < win1_10.index _ (1 : Fin 2) * 128 + 128
    rw [e1]; omega

/-- THE RESULT ARRAY after the run: the twenty blocks laid one under the other. -/
theorem arrAt_out : (pdats (U := U) V W₀ 0 c).arrAt 10 cfg1.N = Spec.stack (oblk V c) :=
  (pdats (U := U) V W₀ 0 c).arrAt_eq_of_cover 10 (Spec.stack (oblk V c)) (fun t _ => flushed_out V W₀ c t) cover_out

/-- Every other window is an input: its array is never written back. -/
theorem arrAt_inputs (w : Fin cfg1.W) (hw : w ≠ 10) :
    (pdats (U := U) V W₀ 0 c).arrAt w cfg1.N = Vb V c (Pipeline.arrRef spec1 w) :=
  (pdats (U := U) V W₀ 0 c).arrAt_in w ((by decide : ∀ w : Fin 11, w ≠ 10 → (win1 w).isOut = false) w hw) cfg1.N

end Arr

end Cert.Kernel.Tc

end
-- ==== Proof.Bits.TcEntail.lean ====
/-
  Two of the four entailments of the TensorCore call's region: what the carried invariant gives back at the last
  point, and how the region's exit reassembles the thread state.

  At the last point the invariant is the scratch buffer at the table: a whole scoped buffer at known contents is in
  particular that buffer at some contents, which is all the scoped rest asks; the kernel has no semaphore of its own.
  At the exit the eleven arrays sit at their final contents — the ten inputs as the region found them, the result at
  the stacked blocks — beside the unscoped buffers that are no window's array, untouched: together they are every
  unscoped buffer at the valuation that differs from the entry valuation at the result buffer only. The waits recorded
  by then lie within those recorded at entry and the loop's own, and each of the loop's own is tagged with no index.
-/
import proofs.«206043_g84026740179769_cont_sun_m_427_41_alg».proof.Proof.Bits.TcDat
import Idealize.ShloMosaic.Lib.Pipeline.RegionsLoop

noncomputable section

namespace Cert.Kernel.Tc

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

variable (V : Dev nD → Valuation τ sig (Elt F)) (W₀ : Waits sig (HIx 1))

set_option backward.isDefEq.respectTransparency.types false in
/-- The invariant at the last point gives back the scoped buffer no window stages (the scratch, at the table it then
    holds), no semaphore, and nothing else. -/
theorem hout (c : Dev nD) :
    ((pdats (U := U) V W₀ 0 c).Φ (Fin.last (Pipeline.pin (pcfgs (F := F)) adm 0).N) : sProp 𝕄)
      ⊢ iprop(iprop(emp) ∗ Pipeline.ownSems0 (fun k : PEmpty => k.elim) c
          ∗ Pipeline.scopedRest (Pipeline.pin (pcfgs (F := F)) adm 0).spec c) := by
  rw [Pipeline.ownSems0_none, show (Pipeline.pin (pcfgs (F := F)) adm 0).spec = spec1 from rfl, Gen.scopedRest1_eq,
    show ((pdats (U := U) V W₀ 0 c).Φ (Fin.last (Pipeline.pin (pcfgs (F := F)) adm 0).N) : sProp 𝕄)
      = owns (c.tc : Thread nD τ) scM fullShare (stbl V c) from rfl,
    owns_whole]
  iintro H
  isplitr; · iempintro
  isplitr; · iempintro
  iexists _; iexact H

set_option backward.isDefEq.respectTransparency.types false in
/-- The exit: given the arrays' final contents (the ten inputs unchanged, the result the stacked blocks), the arrays
    and the unscoped rest are the core's unscoped buffers at `V'`, and the tallies come back with the recorded waits
    among those of the entry and pairs tagged with no index. -/
theorem hexit (c : Dev nD)
    (harr_out : (pdats (U := U) V W₀ 0 c).arrAt 10 cfg1.N = Spec.stack (oblk V c))
    (harr_in : ∀ (w : Fin cfg1.W), w ≠ 10 → (pdats (U := U) V W₀ 0 c).arrAt w cfg1.N = Vb V c (Pipeline.arrRef spec1 w)) :
    (iprop((pdats (U := U) V W₀ 0 c).arrays ((pdats (U := U) V W₀ 0 c).arrAt · (Pipeline.pin (pcfgs (F := F)) adm 0).N)
        ∗ (pdats (U := U) V W₀ 0 c).owesAt (none : HIx 1) (Fin.last (Pipeline.pin (pcfgs (F := F)) adm 0).N)
        ∗ iprop(emp) ∗ Pipeline.unscopedRest spec1 c (Vb V c)) : sProp 𝕄)
      ⊢ |={Set.univ}=> iprop(StableHlo.held (c.tc : Thread nD τ) (Pipeline.ucRefs τ sig) (V' V c)
        ∗ ∃ W', ⌜∀ p ∈ W', p ∈ W₀ ∨ p.2 = none⌝ ∗ owes (c.tc : Thread nD τ) (0 : CellTallies nD τ sig (HIx 1)) W') := by
  have h12 : Pipeline.arrRef spec1 (10 : Fin cfg1.W) = main_v12 := rfl
  have hF : ∀ w : Fin (Pipeline.pin (pcfgs (F := F)) adm 0).W,
      (pdats (U := U) V W₀ 0 c).arrAt w (Pipeline.pin (pcfgs (F := F)) adm 0).N
        = (fun b : Ref sig .tc => V' V c (Proc.devRef .tc b)) (Pipeline.arrRef (Pipeline.pin (pcfgs (F := F)) adm 0).spec w) := by
    intro w
    by_cases hw : w = 10
    · subst hw; exact harr_out.trans (V'_out V c).symm
    · refine (harr_in w hw).trans (V'_of_ne V c _ fun e => hw ?_).symm
      exact launch1.win.arr_inj ((Proc.devRef_injective _ e).trans h12.symm)
  have hrest : ∀ b : Ref sig .tc, b ∉ Finset.univ.image (Pipeline.arrRef (Pipeline.pin (pcfgs (F := F)) adm 0).spec) →
      (fun b : Ref sig .tc => V' V c (Proc.devRef .tc b)) b = Vb V c b := fun b hb =>
    V'_of_ne V c _ fun e => hb (Finset.mem_image.mpr ⟨10, Finset.mem_univ _, h12.trans (Proc.devRef_injective _ e).symm⟩)
  have hub := Pipeline.unscopedBufs_of_arrays (pcfgs (F := F)) adm launch1.win launch1.arr_whole c (pdats (U := U) V W₀)
    ((pdats (U := U) V W₀ 0 c).share_full fun _ => rfl) (Vb V c) (fun b => V' V c (Proc.devRef .tc b)) _ hF hrest
  rw [← Pipeline.unscopedBufs_held]
  iintro ⟨Ha, HO, -, HZ⟩
  imodintro
  isplitl [Ha HZ]
  · iapply hub
    isplitl [Ha]; · iexact Ha
    iexact HZ
  · unfold Pipeline.Dat.owesAt Pipeline.owesWithin
    icases HO with ⟨%W, %hW, HO⟩
    iexists W
    isplitr
    · ipureintro
      intro p hp
      rcases hW (Finset.mem_coe.mpr hp) with h | ⟨w, s, rfl⟩
      · exact h
      · exact Or.inr rfl
    · iexact HO

end Cert.Kernel.Tc

end
-- ==== Proof.Bits.TcRegion.lean ====
/-
  The TensorCore call as a kernel region of @main: the launch kit's layout, the body obligation, and the region's
  protocol — entered holding the device's unscoped buffers at a valuation and the core's tallies, left holding them at
  the valuation with the result buffer at the stacked blocks. The windows' arrays enter the pipeline and come back at
  their final contents; the other unscoped buffers bypass the region; the scratch buffer is the invariant's.
-/
import proofs.«206043_g84026740179769_cont_sun_m_427_41_alg».proof.Proof.Bits.TcBody
import proofs.«206043_g84026740179769_cont_sun_m_427_41_alg».proof.Proof.Bits.TcArr
import proofs.«206043_g84026740179769_cont_sun_m_427_41_alg».proof.Proof.Bits.TcEntail

noncomputable section

namespace Cert.Kernel.Tc

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] {U : Type} [URA U]

local notation "𝕄" => MT nD τ sig (HIx 1) (Elt F) ℕ U ℕ

variable (V : Dev nD → Valuation τ sig (Elt F)) (W₀ : Waits sig (HIx 1))

/-- Every array is held at the full share. -/
theorem share_full (c : Dev nD) (w : Fin cfg1.W) : (pdats (U := U) V W₀ 0 c).share w = fullShare :=
  (pdats (U := U) V W₀ 0 c).share_full (fun _ => rfl) w

set_option backward.isDefEq.respectTransparency.types false in
/-- THE REGION: the launch kit's layout, no semaphore of the kernel's own, the body obligation; entered from the
    unscoped buffers at `V` and the core's tallies — the windows' arrays into the pipeline, the other unscoped buffers
    bypassing, the scratch buffer into the invariant —, left with the unscoped buffers at `V'`. -/
def region : Pipeline.RegionSeg (pcfgs (F := F)) adm (pdats (U := U) V W₀) (none : HIx 1) defs₀ Variants.none
    (sc (F := F)).L (sc (F := F)).lev 0 where
  win := launch1.win.to₀
  block_pos := launch1.block_pos
  stage_whole := launch1.stage_whole
  K := PEmpty
  osem := fun k => k.elim
  ho := Pipeline.OwnSemFacts.none _
  hbody c := (body_obligation V W₀ c).loose
  hwaits := Pipeline.hwaits_of_owed_zero _ _ _ _ (sc (F := F)).L (sc (F := F)).lev 0 fun _ _ => rfl
  pre c := iprop(StableHlo.held (c.tc : Thread nD τ) (Pipeline.ucRefs τ sig) (V c)
    ∗ owes (c.tc : Thread nD τ) (0 : CellTallies nD τ sig (HIx 1)) W₀)
  post c := iprop(StableHlo.held (c.tc : Thread nD τ) (Pipeline.ucRefs τ sig) (V' V c)
    ∗ ∃ W', ⌜∀ p ∈ W', p ∈ W₀ ∨ p.2 = none⌝ ∗ owes (c.tc : Thread nD τ) (0 : CellTallies nD τ sig (HIx 1)) W')
  X c := iprop(emp)
  Y c := iprop(emp)
  Z c := Pipeline.unscopedRest spec1 c (Vb V c)
  hentry c := by
    rw [show StableHlo.held (c.tc : Thread nD τ) (Pipeline.ucRefs τ sig) (V c) = unscopedBufs c (Vb V c) from (Pipeline.unscopedBufs_held c _).symm]
    have hsplit := Pipeline.arrays_of_unscopedBufs (pcfgs (F := F)) adm (pdats (U := U) V W₀) launch1.win launch1.arr_whole c
      (share_full V W₀ c) (Vb V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W₀; isplitr; · ipureintro; exact fun p hp => Or.inl (Or.inl hp)
      iexact HO
    isplitr; · iempintro
    iexact Hrest
  hin c := by
    rw [show (pdats (U := U) V W₀ 0 c).Φ 0 = PhiT V c 0 from rfl, PhiT_zero, scopedRest1_eq]
    simp only [scM, owns_whole]
    iintro ⟨-, -, Hr⟩; iexact Hr
  hout c := by
    rw [show (pdats (U := U) V W₀ 0 c).Φ (Fin.last cfg1.N) = PhiT V c cfg1.N from rfl, PhiT_pos V c _ (by rw [show cfg1.N = 20 from N_1]; omega), scopedRest1_eq]
    simp only [scM, owns_whole]
    iintro Hs
    isplitr; · iempintro
    isplitr; · unfold Pipeline.ownSems0; rw [show (Finset.univ : Finset PEmpty) = ∅ from rfl, BI.bigSep_empty]; iempintro
    iexists _; iexact Hs
  hexit c := hexit V W₀ c (arrAt_out V W₀ c) (fun w hw => arrAt_inputs V W₀ c w hw)

end Cert.Kernel.Tc

end
-- ==== Proof.Bits.Launch.lean ====
/-
  The kernel program's run: @main on the TensorCore, the launch, and what the final memory holds.

  @main hands the SparseCore call the charge table, the two index arrays and the two result arrays, and gets them back
  with the results at "the table read at the index array"; thirteen host lines then pad the embedding table, cut the
  output weights in three, transpose and narrow the radial basis; the TensorCore call, entered holding every unscoped
  buffer of the device at those contents, leaves the result buffer at the stacked blocks.  Through the whole run the
  ten argument arrays are only read.
-/
import proofs.«206043_g84026740179769_cont_sun_m_427_41_alg».proof.Proof.Bits.LaunchLemmas
import proofs.«206043_g84026740179769_cont_sun_m_427_41_alg».proof.Proof.Bits.KerHost
import proofs.«206043_g84026740179769_cont_sun_m_427_41_alg».proof.Proof.Bits.ScPay
import proofs.«206043_g84026740179769_cont_sun_m_427_41_alg».proof.Proof.Bits.TcRegion

noncomputable section

namespace Cert.Kernel.Launch

open Cert.Kernel Cert.Kernel.Gen Cert.Kernel.Common

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The device's buffers, stage by stage -/

/-- Device `d`'s buffers at launch, -/
abbrev V₀ (d : Dev nD) : Valuation τ sig (Elt F) := fun b => m (d, b)
/-- after the SparseCore call (the two result arrays at the gathered words), -/
def V₁ (d : Dev nD) : Valuation τ sig (Elt F) :=
  Function.update (Function.update (V₀ m d) (Proc.devRef .tc main_v0_0) (Sc.G0 m d)) (Proc.devRef .tc main_v0_1) (Sc.G1 m d)
/-- after the host lines, -/
def V₂ (d : Dev nD) : Valuation τ sig (Elt F) := StableHlo.after (Host.hostOps (F := F)) (V₁ m d)
/-- and after the TensorCore call. -/
def V₃ (d : Dev nD) : Valuation τ sig (Elt F) := Tc.V' (V₂ m) d

theorem V₁_v0_0 (d : Dev nD) : V₁ m d (Proc.devRef .tc main_v0_0) = Sc.G0 m d := by
  unfold V₁
  rw [Function.update_of_ne (by decide), Function.update_self]
theorem V₁_v0_1 (d : Dev nD) : V₁ m d (Proc.devRef .tc main_v0_1) = Sc.G1 m d := by
  unfold V₁
  rw [Function.update_self]
theorem V₁_of_ne (d : Dev nD) (b : DevRef τ sig) (h0 : b ≠ Proc.devRef .tc main_v0_0) (h1 : b ≠ Proc.devRef .tc main_v0_1) :
    V₁ m d b = m (d, b) := by
  unfold V₁
  rw [Function.update_of_ne h1, Function.update_of_ne h0]

/-! ## The SparseCore call's arrays back among the device's holdings -/

theorem mem_five_v0_0 : Proc.devRef .tc main_v0_0 ∈ (five : Finset (DevRef τ sig)) := by decide
theorem mem_five_v0_1 : Proc.devRef .tc main_v0_1 ∈ (five : Finset (DevRef τ sig)) := by decide

/-- The five arrays as the call left them, beside the rest as launched, are the device's unscoped buffers at the
    valuation after the call. -/
theorem held_rejoin (d : Dev nD) :
    (iprop((Sc.tLoc d ↦{fullShare} m (Sc.tLoc d)) ∗ (Sc.sLoc d ↦{fullShare} m (Sc.sLoc d)) ∗ (Sc.rLoc d ↦{fullShare} m (Sc.rLoc d))
        ∗ (Sc.o0Loc d ↦{fullShare} Sc.G0 m d) ∗ (Sc.o1Loc d ↦{fullShare} Sc.G1 m d)
        ∗ StableHlo.held (SparseCore.T d : Thread nD τ) (Pipeline.ucRefs τ sig \ five) (V₀ m d)) : sProp 𝕄)
      ⊢ StableHlo.held (SparseCore.T d : Thread nD τ) (Pipeline.ucRefs τ sig) (V₁ m d) := by
  rw [StableHlo.held_sub_split (SparseCore.T d : Thread nD τ) five_sub (V₁ m d), held_five, V₁_v0_0, V₁_v0_1,
    V₁_of_ne m d _ (by decide) (by decide), V₁_of_ne m d _ (by decide) (by decide), V₁_of_ne m d _ (by decide) (by decide),
    StableHlo.held_congr (SparseCore.T d : Thread nD τ) (S := Pipeline.ucRefs τ sig \ five) (V := V₁ m d) (V' := V₀ m d)
      (fun b hb => V₁_of_ne m d b (fun h => (Finset.mem_sdiff.mp hb).2 (h ▸ mem_five_v0_0)) (fun h => (Finset.mem_sdiff.mp hb).2 (h ▸ mem_five_v0_1)))]
  iintro ⟨H1, H3, H4, Ho0, Ho1, Hr⟩
  isplitl [H1 H3 H4 Ho0 Ho1]
  · isplitl [H1]; · iexact H1
    isplitl [H3]; · iexact H3
    isplitl [H4]; · iexact H4
    isplitl [Ho0]; · iexact Ho0
    iexact Ho1
  · iexact Hr

/-! ## @main on the TensorCore -/

/-- What device `d`'s TensorCore holds at the end: every unscoped buffer, at the final valuation. -/
abbrev FIN (d : Dev nD) : sProp 𝕄 := StableHlo.held (SparseCore.T d : Thread nD τ) (Pipeline.ucRefs τ sig) (V₃ m d)

theorem G_eq (d : Dev nD) :
    (G (F := F) d : sProp 𝕄) = iprop(Pipeline.cellsGhost cfgs (EP (F := F)) 0 d ∗ (Pipeline.toksInit cfgs (EP (F := F)) 0 d : sProp 𝕄)) := by
  unfold G
  rw [bigSep_univ_of_subsingleton (0 : Fin 1), bigSep_univ_of_subsingleton (0 : Fin 1)]

/-- The TensorCore call in @main is the inner program's entry call, lifted to the launch's extended signature. -/
theorem region_call_eq [FloatOps F] :
    (Prog.op (.customCall (SparseCore.inner (Pipeline.entry (0 : Fin 1))) ()) fun _ => Prog.ret ⟨⟩ :
        Prog (TpuEff nD τ sig (Elt F) (SparseCore.Sig (ΛP (F := F)) 1) .tc) PUnit)
      = SparseCore.liftProg (Q := 1) (Prog.op (.customCall (Pipeline.entry (0 : Fin 1)) ()) fun _ => Prog.ret ⟨⟩) := by
  rw [SparseCore.liftProg_op]
  rfl

set_option backward.isDefEq.respectTransparency.types false in
/-- The region is entered holding the device's unscoped buffers at the valuation after the host lines, -/
theorem region_pre (W₀ : Waits sig (HIx 1)) (c : Dev nD) :
    ((Tc.region (F := F) (U := UU) (V₂ m) W₀).pre c : sProp 𝕄)
      = iprop(StableHlo.held (c.tc : Thread nD τ) (Pipeline.ucRefs τ sig) (V₂ m c) ∗ owes (c.tc : Thread nD τ) (0 : CellTallies nD τ sig (HIx 1)) W₀) := rfl

set_option backward.isDefEq.respectTransparency.types false in
/-- and left holding them at the valuation with the result buffer at the stacked blocks, the recorded waits grown only
    by pairs at the index that sits below every level. -/
theorem region_post (W₀ : Waits sig (HIx 1)) (c : Dev nD) :
    ((Tc.region (F := F) (U := UU) (V₂ m) W₀).post c : sProp 𝕄)
      = iprop(StableHlo.held (c.tc : Thread nD τ) (Pipeline.ucRefs τ sig) (Tc.V' (V₂ m) c)
          ∗ ∃ W', ⌜∀ p ∈ W', p ∈ W₀ ∨ p.2 = none⌝ ∗ owes (c.tc : Thread nD τ) (0 : CellTallies nD τ sig (HIx 1)) W') := rfl

section Main

variable [Cert.Kernel.Facts] [∀ e, Nonempty (Elt F e)]
set_option backward.isDefEq.respectTransparency.types false in
/-- @main on device `d`'s TensorCore: the SparseCore call, the host lines, the TensorCore call. -/
theorem hmain
    (hst : ∀ d : Dev nD, (iprop((Sc.tLoc d ↦{fullShare} m (Sc.tLoc d)) ∗ (Sc.sLoc d ↦{fullShare} m (Sc.sLoc d)) ∗ (Sc.rLoc d ↦{fullShare} m (Sc.rLoc d))
      ∗ (Sc.o0Loc d ↦{fullShare} m (Sc.o0Loc d)) ∗ (Sc.o1Loc d ↦{fullShare} m (Sc.o1Loc d))) : sProp 𝕄)
    ⊢ bigSep Finset.univ fun c : Fin ((K (F := F)).nCore 0) => (Sc.P (F := F) (U := UU) m).st 0 d c)
    (hdn : ∀ d : Dev nD, (bigSep Finset.univ fun c : Fin ((K (F := F)).nCore 0) => (Sc.P (F := F) (U := UU) m).dn 0 d c)
    ⊢ (iprop((Sc.tLoc d ↦{fullShare} m (Sc.tLoc d)) ∗ (Sc.sLoc d ↦{fullShare} m (Sc.sLoc d)) ∗ (Sc.rLoc d ↦{fullShare} m (Sc.rLoc d))
      ∗ (Sc.o0Loc d ↦{fullShare} Sc.G0 m d) ∗ (Sc.o1Loc d ↦{fullShare} Sc.G1 m d)) : sProp 𝕄))
    (κ : GSem nD τ sig → ℕ) (d : Dev nD) :
    iprop((K (F := F)).ctx EH (Sc.P (F := F) (U := UU) m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [Host.main_eq, show (unscopedBufs d (fun b => m ((SparseCore.T d : Thread nD τ).loc b)) : sProp 𝕄)
        = StableHlo.held (SparseCore.T d : Thread nD τ) (Pipeline.ucRefs τ sig) (V₀ m d) from Pipeline.unscopedBufs_held d (V₀ m d),
    StableHlo.held_sub_split (SparseCore.T d : Thread nD τ) five_sub (V₀ m d), held_five, G_eq, wp_bind]
  iintro ⟨#Hctx, Hst, ⟨Hbd, ⟨⟨H1, H3, H4, Ho0, Ho1⟩, Hrest⟩, Hsems, Hprng⟩, ⟨Hcg, Htk⟩⟩
  iapply ((K (F := F)).wp_run (D (F := F)) 𝒱 (EH := EH) (P := Sc.P (F := F) (U := UU) m) κ d 0) $$ [Hst H1 H3 H4 Ho0 Ho1 Hbd Hrest Hcg Htk]
  isplitr; · iexact Hctx
  isplitl [Hst]; · iexact Hst
  isplitl [H1 H3 H4 Ho0 Ho1]
  · iapply (hst d)
    isplitl [H1]; · iexact H1
    isplitl [H3]; · iexact H3
    isplitl [H4]; · iexact H4
    isplitl [Ho0]; · iexact Ho0
    iexact Ho1
  iintro ⟨Hst, Hdn⟩
  ihave Hdn' := (hdn d) $$ Hdn
  icases Hdn' with ⟨H1, H3, H4, Ho0, Ho1⟩
  ihave Hheld := (held_rejoin m d) $$ [H1 H3 H4 Ho0 Ho1 Hrest]
  · isplitl [H1]; · iexact H1
    isplitl [H3]; · iexact H3
    isplitl [H4]; · iexact H4
    isplitl [Ho0]; · iexact Ho0
    isplitl [Ho1]; · iexact Ho1
    iexact Hrest
  -- the host lines
  iapply (StableHlo.wp_seq (defs := (K (F := F)).defs (D (F := F))) 𝒱 none Set.univ d (Pipeline.ucRefs τ sig) _ (Host.hostOps (F := F))
      Host.hostOps_sub Host.hostOps_fresh (V₁ m d)) $$ [Hbd Hheld]
  · isplitl [Hbd] <;> iassumption
  iintro ⟨Hbd, Hheld⟩
  -- what the TensorCore owes after its one call: nothing
  ihave Hst' := (Entails.of_eq (show ((K (F := F)).tcSt EH d ((0 : Fin 1).val + 1) : sProp 𝕄) = _ from tcSt_one d)) $$ Hst
  icases Hst' with ⟨⟨%W₀, %hW₀, HO⟩, Hrest1⟩
  -- the TensorCore call, a region of the inner program
  rw [region_call_eq]
  iapply ((K (F := F)).wp_liftProg (D (F := F)) 𝒱 (SparseCore.T d) Set.univ none
      (Prog.op (.customCall (Pipeline.entry 0) ()) fun _ => Prog.ret ⟨⟩) _)
  iapply (Pipeline.RegionSeg.wp (pcfgs (F := F)) Tc.adm (Tc.pdats (U := UU) (V₂ m) W₀) none cellOf_inj (EP (F := F)) defs₀ 𝒱₀
      (K (F := F)).L (K (F := F)).lev (Tc.region (U := UU) (V₂ m) W₀) d none (fun u hu => nomatch hu) _ _) $$ [Hbd Hheld HO Hcg Htk Hrest1]
  isplitl [Hrest1]
  · iintro ⟨Hbd, Hpost⟩
    rw [wp_ret]; imodintro
    ihave Hpost' := (Entails.of_eq (region_post m W₀ d)) $$ Hpost
    icases Hpost' with ⟨Hheld, %W', %hW', HO⟩
    rw [tcSt_one]
    isplitl [HO Hrest1]
    · isplitl [HO]
      · iexists W'; isplitr
        · ipureintro
          intro p hp
          rcases hW' p hp with h | h
          · exact hW₀ p h
          · show (K (F := F)).lev ((SparseCore.T d : Thread nD τ), p.1) p.2 ≤ 8
            rw [h]; exact Nat.zero_le _
        · iexact HO
      · iexact Hrest1
    · iexact Hheld
  isplitl [Hbd]; · iexact Hbd
  isplitl [Hheld HO]
  · rw [region_pre]
    isplitl [Hheld]; · iexact Hheld
    iexact HO
  isplitr
  · iapply ((K (F := F)).ctx_levAts (EH := EH) (P := Sc.P (F := F) (U := UU) m) κ); iexact Hctx
  isplitl [Hcg]; · iexact Hcg
  iexact Htk

end Main

/-! ## The launch element, whole -/

/-- The launch element, with nothing dealt to the SparseCore threads' kernels (their copies run on the counters). -/
theorem hu₀ [Cert.Kernel.Facts] : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (Sc.P (F := F) (U := UU) m).x q thr) := by
  rw [show (bigSep Finset.univ fun thr : Thread nD τ => bigSep Finset.univ fun q : Fin 1 => (Sc.P (F := F) (U := UU) m).x q thr)
      = (iprop(emp) : sProp 𝕄) from by
        simp only [Sc.P_x]
        rw [show (fun _ : Thread nD τ => bigSep Finset.univ fun _ : Fin 1 => (iprop(emp) : sProp 𝕄)) = fun _ => iprop(emp) from
          funext fun _ => BI.bigSep_emp_const _]
        exact BI.bigSep_emp_const _]
  iintro Hu
  imod (hu₀_core (F := F)) $$ Hu with ⟨HH, HG⟩
  imodintro
  isplitl [HH]; · iexact HH
  isplitl [HG]; · iexact HG
  iempintro

/-! ## What the buffers hold at the end -/

theorem V₂_v0_0 (d : Dev nD) : V₂ m d (Proc.devRef .tc main_v0_0) = Spec.gath (m (Sc.tLoc d)) (m (Sc.sLoc d)) := by
  unfold V₂; rw [Host.after_v0_0, V₁_v0_0]; rfl
theorem V₂_v0_1 (d : Dev nD) : V₂ m d (Proc.devRef .tc main_v0_1) = Spec.gath (m (Sc.tLoc d)) (m (Sc.rLoc d)) := by
  unfold V₂; rw [Host.after_v0_1, V₁_v0_1]; rfl
theorem V₂_v8 (d : Dev nD) : (V₂ m d (Proc.devRef .tc main_v8) : FVec F S16x320000 .bf16) = Spec.rbfT (m ((SparseCore.T d : Thread nD τ).loc main_arg0)) := by
  unfold V₂; rw [Host.after_v8, V₁_of_ne m d _ (by decide) (by decide)]
theorem V₂_v3 (d : Dev nD) : (V₂ m d (Proc.devRef .tc main_v3) : FVec F S128x128 .f32) = Spec.embPad (m ((SparseCore.T d : Thread nD τ).loc main_arg5)) := by
  unfold V₂; rw [Host.after_v3, V₁_of_ne m d _ (by decide) (by decide)]
theorem V₂_v4 (d : Dev nD) : (V₂ m d (Proc.devRef .tc main_v4) : FVec F S128x128 .f32) = Spec.wS (m ((SparseCore.T d : Thread nD τ).loc main_arg8)) := by
  unfold V₂; rw [Host.after_v4, V₁_of_ne m d _ (by decide) (by decide)]
theorem V₂_v5 (d : Dev nD) : (V₂ m d (Proc.devRef .tc main_v5) : FVec F S128x128 .f32) = Spec.wR (m ((SparseCore.T d : Thread nD τ).loc main_arg8)) := by
  unfold V₂; rw [Host.after_v5, V₁_of_ne m d _ (by decide) (by decide)]
theorem V₂_v6 (d : Dev nD) : (V₂ m d (Proc.devRef .tc main_v6) : FVec F S128x128 .f32) = Spec.wQ (m ((SparseCore.T d : Thread nD τ).loc main_arg8)) := by
  unfold V₂; rw [Host.after_v6, V₁_of_ne m d _ (by decide) (by decide)]
theorem V₂_v9 (d : Dev nD) : (V₂ m d (Proc.devRef .tc main_v9) : FVec F S16x128 .bf16) = Spec.wRbf (m ((SparseCore.T d : Thread nD τ).loc main_arg6)) := by
  unfold V₂; rw [Host.after_v9, V₁_of_ne m d _ (by decide) (by decide)]
theorem V₂_v10 (d : Dev nD) : (V₂ m d (Proc.devRef .tc main_v10) : FVec F S1x128 .f32) = Spec.rowOf (m ((SparseCore.T d : Thread nD τ).loc main_arg7)) := by
  unfold V₂; rw [Host.after_v10, V₁_of_ne m d _ (by decide) (by decide)]
theorem V₂_v11 (d : Dev nD) : (V₂ m d (Proc.devRef .tc main_v11) : FVec F S1x128 .f32) = Spec.rowOf (m ((SparseCore.T d : Thread nD τ).loc main_arg9)) := by
  unfold V₂; rw [Host.after_v11, V₁_of_ne m d _ (by decide) (by decide)]

/-- The result buffer ends at the kernel program's term of the launch memory's arguments. -/
theorem V₃_out [Cert.Kernel.Facts] (d : Dev nD) :
    (V₃ m d (Proc.devRef .tc main_v12) : FVec F S320000x128 .f32)
      = Spec.out (m ((SparseCore.T d : Thread nD τ).loc main_arg0)) (m ((SparseCore.T d : Thread nD τ).loc main_arg1))
          (m ((SparseCore.T d : Thread nD τ).loc main_arg3)) (m ((SparseCore.T d : Thread nD τ).loc main_arg4))
          (m ((SparseCore.T d : Thread nD τ).loc main_arg5)) (m ((SparseCore.T d : Thread nD τ).loc main_arg6))
          (m ((SparseCore.T d : Thread nD τ).loc main_arg7)) (m ((SparseCore.T d : Thread nD τ).loc main_arg8))
          (m ((SparseCore.T d : Thread nD τ).loc main_arg9)) := by
  unfold V₃
  rw [Tc.V'_out]
  show Spec.stack (Spec.outBlk (V₂ m d (Proc.devRef .tc main_v0_0)) (V₂ m d (Proc.devRef .tc main_v0_1)) (V₂ m d (Proc.devRef .tc main_v8))
    (V₂ m d (Proc.devRef .tc main_v3)) (V₂ m d (Proc.devRef .tc main_v4)) (V₂ m d (Proc.devRef .tc main_v5)) (V₂ m d (Proc.devRef .tc main_v6))
    (V₂ m d (Proc.devRef .tc main_v9)) (V₂ m d (Proc.devRef .tc main_v10)) (V₂ m d (Proc.devRef .tc main_v11))) = _
  rw [V₂_v0_0, V₂_v0_1, V₂_v8, V₂_v3, V₂_v4, V₂_v5, V₂_v6, V₂_v9, V₂_v10, V₂_v11]
  rfl

/-- An argument array is written by nobody. -/
theorem V₃_arg (d : Dev nD) (r : Ref sig .tc) (hk : StableHlo.after (Host.hostOps (F := F)) (V₁ m d) r = V₁ m d r)
    (h12 : (Proc.devRef .tc r : DevRef τ sig) ≠ Proc.devRef .tc main_v12)
    (h0 : (Proc.devRef .tc r : DevRef τ sig) ≠ Proc.devRef .tc main_v0_0) (h1 : (Proc.devRef .tc r : DevRef τ sig) ≠ Proc.devRef .tc main_v0_1) :
    V₃ m d (Proc.devRef .tc r) = m (d, Proc.devRef .tc r) := by
  unfold V₃
  rw [Tc.V'_of_ne _ _ _ h12]
  unfold V₂
  exact hk.trans (V₁_of_ne m d _ h0 h1)

/-! ## Reading the final memory -/

/-- The result buffer and the ten argument arrays, as device buffers. -/
def eleven : Finset (DevRef τ sig) :=
  {Proc.devRef .tc main_v12, Proc.devRef .tc main_arg0, Proc.devRef .tc main_arg1, Proc.devRef .tc main_arg2, Proc.devRef .tc main_arg3, Proc.devRef .tc main_arg4, Proc.devRef .tc main_arg5, Proc.devRef .tc main_arg6, Proc.devRef .tc main_arg7, Proc.devRef .tc main_arg8, Proc.devRef .tc main_arg9}

theorem eleven_sub : eleven ⊆ Pipeline.ucRefs τ sig := by decide

theorem held_eleven (d : Dev nD) (W : Valuation τ sig (Elt F)) :
    (StableHlo.held (SparseCore.T d : Thread nD τ) eleven W : sProp 𝕄)
      = iprop(((SparseCore.T d : Thread nD τ).loc main_v12 ↦{fullShare} W (Proc.devRef .tc main_v12))
          ∗ ((SparseCore.T d : Thread nD τ).loc main_arg0 ↦{fullShare} W (Proc.devRef .tc main_arg0))
          ∗ ((SparseCore.T d : Thread nD τ).loc main_arg1 ↦{fullShare} W (Proc.devRef .tc main_arg1))
          ∗ ((SparseCore.T d : Thread nD τ).loc main_arg2 ↦{fullShare} W (Proc.devRef .tc main_arg2))
          ∗ ((SparseCore.T d : Thread nD τ).loc main_arg3 ↦{fullShare} W (Proc.devRef .tc main_arg3))
          ∗ ((SparseCore.T d : Thread nD τ).loc main_arg4 ↦{fullShare} W (Proc.devRef .tc main_arg4))
          ∗ ((SparseCore.T d : Thread nD τ).loc main_arg5 ↦{fullShare} W (Proc.devRef .tc main_arg5))
          ∗ ((SparseCore.T d : Thread nD τ).loc main_arg6 ↦{fullShare} W (Proc.devRef .tc main_arg6))
          ∗ ((SparseCore.T d : Thread nD τ).loc main_arg7 ↦{fullShare} W (Proc.devRef .tc main_arg7))
          ∗ ((SparseCore.T d : Thread nD τ).loc main_arg8 ↦{fullShare} W (Proc.devRef .tc main_arg8))
          ∗ ((SparseCore.T d : Thread nD τ).loc main_arg9 ↦{fullShare} W (Proc.devRef .tc main_arg9))) := by
  unfold StableHlo.held eleven
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- What the final memory of device `d` must hold: the eleven buffers at the final valuation. -/
def fq (d : Dev nD) (s' : Phys nD τ sig (Elt F)) : Prop :=
  s'.mem.mem ((SparseCore.T d : Thread nD τ).loc main_v12) = V₃ m d (Proc.devRef .tc main_v12)
    ∧ s'.mem.mem ((SparseCore.T d : Thread nD τ).loc main_arg0) = V₃ m d (Proc.devRef .tc main_arg0)
    ∧ s'.mem.mem ((SparseCore.T d : Thread nD τ).loc main_arg1) = V₃ m d (Proc.devRef .tc main_arg1)
    ∧ s'.mem.mem ((SparseCore.T d : Thread nD τ).loc main_arg2) = V₃ m d (Proc.devRef .tc main_arg2)
    ∧ s'.mem.mem ((SparseCore.T d : Thread nD τ).loc main_arg3) = V₃ m d (Proc.devRef .tc main_arg3)
    ∧ s'.mem.mem ((SparseCore.T d : Thread nD τ).loc main_arg4) = V₃ m d (Proc.devRef .tc main_arg4)
    ∧ s'.mem.mem ((SparseCore.T d : Thread nD τ).loc main_arg5) = V₃ m d (Proc.devRef .tc main_arg5)
    ∧ s'.mem.mem ((SparseCore.T d : Thread nD τ).loc main_arg6) = V₃ m d (Proc.devRef .tc main_arg6)
    ∧ s'.mem.mem ((SparseCore.T d : Thread nD τ).loc main_arg7) = V₃ m d (Proc.devRef .tc main_arg7)
    ∧ s'.mem.mem ((SparseCore.T d : Thread nD τ).loc main_arg8) = V₃ m d (Proc.devRef .tc main_arg8)
    ∧ s'.mem.mem ((SparseCore.T d : Thread nD τ).loc main_arg9) = V₃ m d (Proc.devRef .tc main_arg9)

theorem hfin (d : Dev nD) (s' : Phys nD τ sig (Elt F)) : iprop(FIN m d ∗ SI s') ⊢ (⌜fq m d s'⌝ : sProp 𝕄) := by
  rw [show (FIN m d : sProp 𝕄) = StableHlo.held (SparseCore.T d : Thread nD τ) (Pipeline.ucRefs τ sig) (V₃ m d) from rfl,
    StableHlo.held_sub_split (SparseCore.T d : Thread nD τ) eleven_sub (V₃ m d), held_eleven]
  iintro ⟨⟨⟨H12, H0, H1, H2, H3, H4, H5, H6, H7, H8, H9⟩, -⟩, HSI⟩
  icombine HSI H12 gives %h12
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  icombine HSI H8 gives %h8
  icombine HSI H9 gives %h9
  ipureintro
  exact ⟨Buf.eq_of_forall_mem_univ h12, Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6, Buf.eq_of_forall_mem_univ h7, Buf.eq_of_forall_mem_univ h8, Buf.eq_of_forall_mem_univ h9⟩

/-! ## The run -/

/-- The run's post: on every device the result buffer at the kernel program's term of the arguments, the ten arguments
    as launched. -/
def QC [Cert.Kernel.Facts] : PUnit × MemSt nD τ sig (Elt F) → Prop := fun r => ∀ c : Dev nD,
  r.2.mem ((c.tc : Thread nD τ).loc main_v12)
      = Spec.out (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)

theorem hQ [Cert.Kernel.Facts] (s' : Phys nD τ sig (Elt F)) (h : ∀ d, fq m d s') : QC m (⟨⟩, s'.mem) := by
  intro c
  obtain ⟨h12, h0, h1, h2, h3, h4, h5, h6, h7, h8, h9⟩ := h c
  exact ⟨h12.trans (V₃_out m c),
    h0.trans (V₃_arg m c main_arg0 (Host.after_arg0 _) (by decide) (by decide) (by decide)),
    h1.trans (V₃_arg m c main_arg1 (Host.after_arg1 _) (by decide) (by decide) (by decide)),
    h2.trans (V₃_arg m c main_arg2 (Host.after_arg2 _) (by decide) (by decide) (by decide)),
    h3.trans (V₃_arg m c main_arg3 (Host.after_arg3 _) (by decide) (by decide) (by decide)),
    h4.trans (V₃_arg m c main_arg4 (Host.after_arg4 _) (by decide) (by decide) (by decide)),
    h5.trans (V₃_arg m c main_arg5 (Host.after_arg5 _) (by decide) (by decide) (by decide)),
    h6.trans (V₃_arg m c main_arg6 (Host.after_arg6 _) (by decide) (by decide) (by decide)),
    h7.trans (V₃_arg m c main_arg7 (Host.after_arg7 _) (by decide) (by decide) (by decide)),
    h8.trans (V₃_arg m c main_arg8 (Host.after_arg8 _) (by decide) (by decide) (by decide)),
    h9.trans (V₃_arg m c main_arg9 (Host.after_arg9 _) (by decide) (by decide) (by decide))⟩

section Run

variable [Cert.Kernel.Facts] [∀ e, Nonempty (Elt F e)]

/-- From a memory whose senders and receivers name entries of the charge table, every weakly fair execution of the
    device's threads terminates, nothing faulting, with the result buffer at the kernel program's term and the ten
    arguments unchanged — given one vector subcore's task (`htile`), the split of the call's operands among the
    tasks (`hvec`) and the hand-over of the five arrays to the call and back (`hst`, `hdn`). -/
theorem run_main
    (htile : (K (F := F)).TileObl (D (F := F)) 𝒱 (Sc.P (F := F) (U := UU) m) v₀ 0)
    (hvec : (K (F := F)).VecSplit' (Sc.P (F := F) (U := UU) m) 0)
    (hst : ∀ d : Dev nD, (iprop((Sc.tLoc d ↦{fullShare} m (Sc.tLoc d)) ∗ (Sc.sLoc d ↦{fullShare} m (Sc.sLoc d)) ∗ (Sc.rLoc d ↦{fullShare} m (Sc.rLoc d))
        ∗ (Sc.o0Loc d ↦{fullShare} m (Sc.o0Loc d)) ∗ (Sc.o1Loc d ↦{fullShare} m (Sc.o1Loc d))) : sProp 𝕄)
      ⊢ bigSep Finset.univ fun c : Fin ((K (F := F)).nCore 0) => (Sc.P (F := F) (U := UU) m).st 0 d c)
    (hdn : ∀ d : Dev nD, (bigSep Finset.univ fun c : Fin ((K (F := F)).nCore 0) => (Sc.P (F := F) (U := UU) m).dn 0 d c)
      ⊢ (iprop((Sc.tLoc d ↦{fullShare} m (Sc.tLoc d)) ∗ (Sc.sLoc d ↦{fullShare} m (Sc.sLoc d)) ∗ (Sc.rLoc d ↦{fullShare} m (Sc.rLoc d))
        ∗ (Sc.o0Loc d ↦{fullShare} Sc.G0 m d) ∗ (Sc.o1Loc d ↦{fullShare} Sc.G1 m d)) : sProp 𝕄)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := Sc.P (F := F) (U := UU) m) facts v₀
    (fun q hq => match q with | 0 => nomatch hq)
    (fun q _ => match q with | 0 => htile)
    (fun q _ => match q with | 0 => SparseCore.Cfg.VecSplit.of_plain hvec)
    m ρ main (G (F := F)) (FIN m) (u₀ (F := F)) (sep_elim_left.trans (hu₀ m)) (hmain m ρ hst hdn) (fq m) (hfin m) (QC m) (hQ m)

end Run

end Cert.Kernel.Launch

end
-- ==== Proof.Bits.ScBody.lean ====
/-
  The task of one vector subcore, proved once at a symbolic grid point.

  The task starts three copies — the whole charge table into its first scratch, its slice of the senders into the
  second, of the receivers into the third, each on a semaphore of its own — and waits for the first two.  A counted loop
  of 625 trips then reads sixteen senders at a time, reads the table scratch at them, and stores the sixteen words into
  the fourth scratch at the same place; the loop's invariant says that before trip k the first 16 k words of that
  scratch are the table read at the senders.  The scratch is copied out over the task's slice of the first result on the
  senders' semaphore, by then free again; the same loop runs over the receivers into the fifth scratch, which is copied
  out over the slice of the second result; the two copies out are waited for.  One copy at a time is outstanding on each
  semaphore, and no buffer is touched between a copy's start and its wait.  Every index read is below 10000 because the
  launch memory's senders and receivers are (the hypothesis `PreOK`).  What a result slice holds at the end is stated
  as the whole-array function "the table read at the index array" on the slice's entries.
-/
import proofs.«206043_g84026740179769_cont_sun_m_427_41_alg».proof.Proof.Bits.ScPay
import Idealize.ShloMosaic.Lib.SparseCore.Launch
import Idealize.ShloMosaic.Lib.SparseCore.Ops
import Idealize.ShloMosaic.Lib.Pipeline.Kit
import Idealize.ShloMosaic.Lib.Tactic

noncomputable section

namespace Cert.Kernel.Sc

open Cert.Kernel
open Cert.Kernel.Gen (cc0_k_eq_skeleton cc0_k_skel k0_t1_body k0_t2_body)
open Cert.Kernel.Facts₀ Cert.Kernel.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.Kernel.Facts] {U : Type} [URA U] [CountersIn U]

local notation "𝕄" => MT nD τ sig (HIx 1) (Elt F) ℕ U ℕ

variable (m : (ℓ : Loc nD τ sig) → Buf (Elt F) ℓ)

abbrev 𝒱₀ : Variants := Variants.none

/-! ## The kernel's memrefs, spelt as the body table passes them -/

local notation "tW" => (Memref.whole Cert.Kernel.main_arg1_scv : Memref Cert.Kernel.sig Kind.scVector Space.hbm Cert.Kernel.S10000 EltTy.i32)
local notation "sW" => (Memref.whole Cert.Kernel.main_arg3_scv : Memref Cert.Kernel.sig Kind.scVector Space.hbm Cert.Kernel.S320000 EltTy.i32)
local notation "rW" => (Memref.whole Cert.Kernel.main_arg4_scv : Memref Cert.Kernel.sig Kind.scVector Space.hbm Cert.Kernel.S320000 EltTy.i32)
local notation "aW" => (Memref.whole Cert.Kernel.main_v0_0_scv : Memref Cert.Kernel.sig Kind.scVector Space.hbm Cert.Kernel.S320000 EltTy.i32)
local notation "bW" => (Memref.whole Cert.Kernel.main_v0_1_scv : Memref Cert.Kernel.sig Kind.scVector Space.hbm Cert.Kernel.S320000 EltTy.i32)
local notation "c0W" => (Memref.whole Cert.Kernel.cc0_scratch0 : Memref Cert.Kernel.sig Kind.scVector Space.vmem Cert.Kernel.S10000 EltTy.i32)
local notation "c1W" => (Memref.whole Cert.Kernel.cc0_scratch1 : Memref Cert.Kernel.sig Kind.scVector Space.vmem Cert.Kernel.S10000 EltTy.i32)
local notation "c2W" => (Memref.whole Cert.Kernel.cc0_scratch2 : Memref Cert.Kernel.sig Kind.scVector Space.vmem Cert.Kernel.S10000 EltTy.i32)
local notation "c3W" => (Memref.whole Cert.Kernel.cc0_scratch3 : Memref Cert.Kernel.sig Kind.scVector Space.vmem Cert.Kernel.S10000 EltTy.i32)
local notation "c4W" => (Memref.whole Cert.Kernel.cc0_scratch4 : Memref Cert.Kernel.sig Kind.scVector Space.vmem Cert.Kernel.S10000 EltTy.i32)

section Tile

variable (d : Dev nD) (L : grid0.Coords)

abbrev cV (L : grid0.Coords) : Fin τ.nSC := (L 0).castLE hcore0
abbrev jV (L : grid0.Coords) : Fin τ.nSub := (L 1).castLE hsub0
abbrev thr (L : grid0.Coords) : Thread nD τ := V d (cV L) (jV L)

/-- The task's slices, as the kernel cuts them. -/
abbrev sSl (L : grid0.Coords) : Memref sig .scVector .hbm S10000 .i32 := (sW).slice (slR L) (fun _ => rfl)
abbrev rSl (L : grid0.Coords) : Memref sig .scVector .hbm S10000 .i32 := (rW).slice (slR L) (fun _ => rfl)
abbrev aSl (L : grid0.Coords) : Memref sig .scVector .hbm S10000 .i32 := (aW).slice (slR L) (fun _ => rfl)
abbrev bSl (L : grid0.Coords) : Memref sig .scVector .hbm S10000 .i32 := (bW).slice (slR L) (fun _ => rfl)

abbrev cell5 : GSem nD τ sig := (thr d L, .dma cc0_scratch5.sem)
abbrev cell6 : GSem nD τ sig := (thr d L, .dma cc0_scratch6.sem)
abbrev cell7 : GSem nD τ sig := (thr d L, .dma cc0_scratch7.sem)

omit [FloatOps F] [CountersIn U] in
theorem ownSems0_V :
    (ownSems0 (thr d L) : sProp 𝕄)
      = iprop(semVal (cell5 d L) 0 ∗ semVal (cell6 d L) 0 ∗ semVal (cell7 d L) 0
          ∗ bigSep ((((ownCells (thr d L)).erase (cell5 d L)).erase (cell6 d L)).erase (cell7 d L))
              fun g => semVal g 0) := by
  unfold SparseCore.Cfg.ownSems0
  rw [SparseCore.bigSep_erase' ((mem_ownCells (g := cell5 d L)).mpr ⟨rfl, by
      show (SemLoc.dma cc0_scratch5.sem : SemLoc sig).isScoped .scVector = true; decide⟩),
    SparseCore.bigSep_erase' (Finset.mem_erase.mpr ⟨by simp [cell5, cell6]; decide, (mem_ownCells (g := cell6 d L)).mpr ⟨rfl, by
      show (SemLoc.dma cc0_scratch6.sem : SemLoc sig).isScoped .scVector = true; decide⟩⟩),
    SparseCore.bigSep_erase' (Finset.mem_erase.mpr ⟨by simp [cell6, cell7]; decide, Finset.mem_erase.mpr ⟨by simp [cell5, cell7]; decide,
      (mem_ownCells (g := cell7 d L)).mpr ⟨rfl, by show (SemLoc.dma cc0_scratch7.sem : SemLoc sig).isScoped .scVector = true; decide⟩⟩⟩)]

omit [FloatOps F] [CountersIn U] in
/-- The five scratch buffers are among the subcore's own: they are them, at some contents, and the rest. -/
theorem ownBufs_V :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

omit [FloatOps F] [CountersIn U] in
theorem pts_t (q : PosShare TreeShare) (f : Buf (Elt F) (tLoc d)) :
    ((tW).view.loc (thr d L) ↦{q} f : sProp 𝕄) = tLoc d ↦{q} f := rfl
omit [FloatOps F] [CountersIn U] in
theorem pts_s (f : Buf (Elt F) (sLoc d)) :
    ((sSl L).view.loc (thr d L) ↦[(sSl L).view.set]{fullShare} f : sProp 𝕄) = sLoc d ↦[slSet L]{fullShare} f := rfl
omit [FloatOps F] [CountersIn U] in
theorem pts_r (f : Buf (Elt F) (rLoc d)) :
    ((rSl L).view.loc (thr d L) ↦[(rSl L).view.set]{fullShare} f : sProp 𝕄) = rLoc d ↦[slSet L]{fullShare} f := rfl
omit [FloatOps F] [CountersIn U] in
theorem pts_a (f : Buf (Elt F) (o0Loc d)) :
    ((aSl L).view.loc (thr d L) ↦[(aSl L).view.set]{fullShare} f : sProp 𝕄) = o0Loc d ↦[slSet L]{fullShare} f := rfl
omit [FloatOps F] [CountersIn U] in
theorem pts_b (f : Buf (Elt F) (o1Loc d)) :
    ((bSl L).view.loc (thr d L) ↦[(bSl L).view.set]{fullShare} f : sProp 𝕄) = o1Loc d ↦[slSet L]{fullShare} f := rfl
omit [FloatOps F] [CountersIn U] in
theorem pts_c0 (f : Buf (Elt F) ((thr d L).loc cc0_scratch0)) :
    ((c0W).view.loc (thr d L) ↦{fullShare} f : sProp 𝕄) = (thr d L).loc cc0_scratch0 ↦{fullShare} f := rfl
omit [FloatOps F] [CountersIn U] in
theorem pts_c1 (f : Buf (Elt F) ((thr d L).loc cc0_scratch1)) :
    ((c1W).view.loc (thr d L) ↦{fullShare} f : sProp 𝕄) = (thr d L).loc cc0_scratch1 ↦{fullShare} f := rfl
omit [FloatOps F] [CountersIn U] in
theorem pts_c2 (f : Buf (Elt F) ((thr d L).loc cc0_scratch2)) :
    ((c2W).view.loc (thr d L) ↦{fullShare} f : sProp 𝕄) = (thr d L).loc cc0_scratch2 ↦{fullShare} f := rfl
omit [FloatOps F] [CountersIn U] in
theorem pts_c3 (f : Buf (Elt F) ((thr d L).loc cc0_scratch3)) :
    ((c3W).view.loc (thr d L) ↦{fullShare} f : sProp 𝕄) = (thr d L).loc cc0_scratch3 ↦{fullShare} f := rfl
omit [FloatOps F] [CountersIn U] in
theorem pts_c4 (f : Buf (Elt F) ((thr d L).loc cc0_scratch4)) :
    ((c4W).view.loc (thr d L) ↦{fullShare} f : sProp 𝕄) = (thr d L).loc cc0_scratch4 ↦{fullShare} f := rfl

/-- A table of 10000 words read at each of 10000 indices (zero where an index names no entry). -/
def gat1 (tbl ix : IVec S10000 32) : IVec S10000 32 :=
  fun j => if h : (ix j).toNat < 10000 then tbl (ValueIdx.ix1 ⟨(ix j).toNat, h⟩) else 0#32

/-- Before trip `k` of the first gather loop: the table scratch at `X0`, the senders scratch at `X1`, and the first
    `16 k` words of the first out scratch the table read at those indices. -/
def inv1 (X0 : Buf (Elt F) ((thr d L).loc cc0_scratch0)) (X1 : Buf (Elt F) ((thr d L).loc cc0_scratch1)) (k : ℕ) (_ : PUnit) : sProp 𝕄 :=
  iprop(((c0W).view.loc (thr d L) ↦{fullShare} X0) ∗ ((c1W).view.loc (thr d L) ↦{fullShare} X1)
    ∗ ∃ f : Buf (Elt F) ((thr d L).loc cc0_scratch3), ((c3W).view.loc (thr d L) ↦{fullShare} f)
        ∗ ⌜∀ j : S10000.Idx, (j 0).val < 16 * k → f j = gat1 X0 X1 j⌝)

omit [FloatOps F] [CountersIn U] [URA U] in
/-- One trip's store extends the gathered prefix: below `16 k` the out scratch is unchanged, and each of the sixteen
    words stored at `16 k` is the table read at the index loaded from the same place. -/
theorem trip1_val (X0 X1 f : IVec S10000 32) (hX1 : ∀ j, (X1 j).toNat < 10000) (k : Fin k0_t1_loop.trips)
    (hchk : ∀ a x, ((![(c1W).view.readAt (Elt F) (Rect.unit (s := S10000) (k0_off2 k) S16.size (Facts₀.k0_off2_inb k)).toLoadRect X1] : Fin 1 → IVec S16 32) a x).toNat < S10000.size a)
    (hf : ∀ j : S10000.Idx, (j 0).val < 16 * k.val → f j = gat1 X0 X1 j) :
    ∀ j : S10000.Idx, (j 0).val < 16 * (k.val + 1) →
      View.write (Elt F) ((c3W).access (Rect.unit (s := S10000) (k0_off3 k) S16.size (Facts₀.k0_off3_inb k))) f
        (loadIdx (View.read (Elt F) ((c0W).access (Rect.whole S10000)) X0)
          ![(c1W).view.readAt (Elt F) (Rect.unit (s := S10000) (k0_off2 k) S16.size (Facts₀.k0_off2_inb k)).toLoadRect X1] hchk)
        Finset.univ j = gat1 X0 X1 j := by
  intro j hj
  have ho3 : k0_off3 k 0 = 16 * k.val := by rw [Gen.k0_off3_eq]; rfl
  have ho2 : k0_off2 k 0 = 16 * k.val := by rw [Gen.k0_off2_eq]; rfl
  by_cases hlt : (j 0).val < 16 * k.val
  · rw [View.write_of_not_mem, hf j hlt]
    rw [View.setOn_univ]
    show j ∉ ((View.whole cc0_scratch3).slice (Rect.unit (s := S10000) (k0_off3 k) S16.size (Facts₀.k0_off3_inb k))).set
    rw [View.set_slice_whole, Rect.mem_set_unit]
    intro h
    have := (h 0).1
    omega
  · have hx : (j 0).val - 16 * k.val < 16 := by omega
    have hjx : j = ((c3W).access (Rect.unit (s := S10000) (k0_off3 k) S16.size (Facts₀.k0_off3_inb k))).emb (ValueIdx.ix1 ⟨(j 0).val - 16 * k.val, hx⟩) := by
      funext a; obtain rfl : a = 0 := Subsingleton.elim _ _
      apply Fin.ext
      show (j 0).val = k0_off3 k 0 + 1 * ((j 0).val - 16 * k.val)
      rw [ho3]; omega
    have hjx2 : (Rect.unit (s := S10000) (k0_off2 k) S16.size (Facts₀.k0_off2_inb k)).toLoadRect.idx (ValueIdx.ix1 ⟨(j 0).val - 16 * k.val, hx⟩) = j := by
      funext a; obtain rfl : a = 0 := Subsingleton.elim _ _
      apply Fin.ext
      show k0_off2 k 0 + 1 * ((j 0).val - 16 * k.val) = (j 0).val
      rw [ho2]; omega
    refine (congrArg _ hjx).trans ?_
    rw [View.write_emb_of_mem _ _ (Finset.mem_univ _)]
    simp only [cast_eq]
    show (View.read (Elt F) ((c0W).access (Rect.whole S10000)) X0) (idxAt _ hchk _) = _
    rw [View.read_apply]; simp only [cast_eq]
    unfold gat1
    rw [dif_pos (hX1 j)]
    congr 1
    refine funext fun (a : Fin 1) => ?_
    obtain rfl : a = 0 := Subsingleton.elim _ _
    apply Fin.ext
    show 0 + 1 * ((c1W).view.readAt (Elt F) (Rect.unit (s := S10000) (k0_off2 k) S16.size (Facts₀.k0_off2_inb k)).toLoadRect X1 (ValueIdx.ix1 ⟨(j 0).val - 16 * k.val, hx⟩)).toNat = (X1 j).toNat
    rw [View.readAt_apply, hjx2]
    simp only [Memref.view_whole, View.read_whole]
    omega

section Trip

variable (X0 : Buf (Elt F) ((thr d L).loc cc0_scratch0)) (X1 : Buf (Elt F) ((thr d L).loc cc0_scratch1))

/-- The words a trip loads are indices of the table. -/
theorem chk1_of (hX1 : ∀ j, (X1 j).toNat < 10000) (k : Fin k0_t1_loop.trips) :
    k0_chk1 ((c1W).view.readAt (Elt F) (Rect.unit (s := S10000) (k0_off2 k) S16.size (Facts₀.k0_off2_inb k)).toLoadRect X1) := by
  intro a x
  obtain rfl : a = 0 := Subsingleton.elim _ _
  show ((c1W).view.readAt (Elt F) (Rect.unit (s := S10000) (k0_off2 k) S16.size (Facts₀.k0_off2_inb k)).toLoadRect X1 x).toNat < 10000
  simp only [View.readAt_apply, Memref.view_whole, View.read_whole]
  exact hX1 _

/-- One trip of the first loop keeps the invariant: a load of sixteen indices, their check, the indexed load of the
    table scratch, a load and a store of the out scratch. -/
theorem trip1 (hX1 : ∀ j, (X1 j).toNat < 10000) (k : Fin k0_t1_loop.trips) (acc : PUnit) :
    inv1 (U := U) d L X0 X1 k acc
      ⊢ wp frame (wpE (defs₀ (F := F)) 𝒱₀ (thr d L) none) Set.univ
          (k0_t1_body L tW (Memref.isWhole_whole _) sW (Memref.isWhole_whole _) rW (Memref.isWhole_whole _) aW (Memref.isWhole_whole _) bW (Memref.isWhole_whole _)
            c0W (Memref.isWhole_whole _) c1W (Memref.isWhole_whole _) c2W (Memref.isWhole_whole _) c3W (Memref.isWhole_whole _) c4W (Memref.isWhole_whole _)
            cc0_scratch5 cc0_scratch6 cc0_scratch7 k acc)
          (inv1 (U := U) d L X0 X1 (k.val + 1)) := by
  unfold inv1 k0_t1_body
  simp only [Prog.lift, Prog.bind_op, Prog.bind_ret, Prog.pure_eq_ret]
  iintro ⟨H0, H1, %f, H3, %hf⟩
  iapply (wp_load 𝒱₀ (thr d L) none Set.univ (m := c1W) (S := Finset.univ) (Finset.subset_univ _)) $$ H1; iintro H1
  rw [wp_assume_of _ _ _ _ (chk1_of d L X1 hX1 k)]
  iapply (SparseCore.wp_vectorLoadIdx 𝒱₀ (thr d L) none Set.univ (base := c0W) (S := Finset.univ) (q := fullShare) (Finset.subset_univ _)) $$ H0; iintro H0
  iapply (wp_load 𝒱₀ (thr d L) none Set.univ (m := c3W) (S := Finset.univ) (Finset.subset_univ _)) $$ H3; iintro H3
  iapply (wp_store 𝒱₀ (thr d L) none Set.univ (m := c3W) (r := Rect.unit (s := S10000) (k0_off3 k) S16.size (Facts₀.k0_off3_inb k)) (Mk := Finset.univ) (S := Finset.univ) (Finset.subset_univ _)) $$ H3; iintro H3
  rw [wp_ret]; imodintro
  isplitl [H0]; · iexact H0
  isplitl [H1]; · iexact H1
  iexists _; isplitl [H3]; · iexact H3
  ipureintro
  exact trip1_val (F := F) X0 X1 f hX1 k _ hf

end Trip

/-- The same before trip `k` of the second loop, over the receivers scratch and the second out scratch. -/
def inv2 (X0 : Buf (Elt F) ((thr d L).loc cc0_scratch0)) (X1 : Buf (Elt F) ((thr d L).loc cc0_scratch2)) (k : ℕ) (_ : PUnit) : sProp 𝕄 :=
  iprop(((c0W).view.loc (thr d L) ↦{fullShare} X0) ∗ ((c2W).view.loc (thr d L) ↦{fullShare} X1)
    ∗ ∃ f : Buf (Elt F) ((thr d L).loc cc0_scratch4), ((c4W).view.loc (thr d L) ↦{fullShare} f)
        ∗ ⌜∀ j : S10000.Idx, (j 0).val < 16 * k → f j = gat1 X0 X1 j⌝)

omit [FloatOps F] [CountersIn U] [URA U] in
/-- The same for a trip of the second loop. -/
theorem trip2_val (X0 X1 f : IVec S10000 32) (hX1 : ∀ j, (X1 j).toNat < 10000) (k : Fin k0_t2_loop.trips)
    (hchk : ∀ a x, ((![(c2W).view.readAt (Elt F) (Rect.unit (s := S10000) (k0_off4 k) S16.size (Facts₀.k0_off4_inb k)).toLoadRect X1] : Fin 1 → IVec S16 32) a x).toNat < S10000.size a)
    (hf : ∀ j : S10000.Idx, (j 0).val < 16 * k.val → f j = gat1 X0 X1 j) :
    ∀ j : S10000.Idx, (j 0).val < 16 * (k.val + 1) →
      View.write (Elt F) ((c4W).access (Rect.unit (s := S10000) (k0_off5 k) S16.size (Facts₀.k0_off5_inb k))) f
        (loadIdx (View.read (Elt F) ((c0W).access (Rect.whole S10000)) X0)
          ![(c2W).view.readAt (Elt F) (Rect.unit (s := S10000) (k0_off4 k) S16.size (Facts₀.k0_off4_inb k)).toLoadRect X1] hchk)
        Finset.univ j = gat1 X0 X1 j := by
  intro j hj
  have ho5 : k0_off5 k 0 = 16 * k.val := by rw [Gen.k0_off5_eq]; rfl
  have ho4 : k0_off4 k 0 = 16 * k.val := by rw [Gen.k0_off4_eq]; rfl
  by_cases hlt : (j 0).val < 16 * k.val
  · rw [View.write_of_not_mem, hf j hlt]
    rw [View.setOn_univ]
    show j ∉ ((View.whole cc0_scratch4).slice (Rect.unit (s := S10000) (k0_off5 k) S16.size (Facts₀.k0_off5_inb k))).set
    rw [View.set_slice_whole, Rect.mem_set_unit]
    intro h
    have := (h 0).1
    omega
  · have hx : (j 0).val - 16 * k.val < 16 := by omega
    have hjx : j = ((c4W).access (Rect.unit (s := S10000) (k0_off5 k) S16.size (Facts₀.k0_off5_inb k))).emb (ValueIdx.ix1 ⟨(j 0).val - 16 * k.val, hx⟩) := by
      funext a; obtain rfl : a = 0 := Subsingleton.elim _ _
      apply Fin.ext
      show (j 0).val = k0_off5 k 0 + 1 * ((j 0).val - 16 * k.val)
      rw [ho5]; omega
    have hjx2 : (Rect.unit (s := S10000) (k0_off4 k) S16.size (Facts₀.k0_off4_inb k)).toLoadRect.idx (ValueIdx.ix1 ⟨(j 0).val - 16 * k.val, hx⟩) = j := by
      funext a; obtain rfl : a = 0 := Subsingleton.elim _ _
      apply Fin.ext
      show k0_off4 k 0 + 1 * ((j 0).val - 16 * k.val) = (j 0).val
      rw [ho4]; omega
    refine (congrArg _ hjx).trans ?_
    rw [View.write_emb_of_mem _ _ (Finset.mem_univ _)]
    simp only [cast_eq]
    show (View.read (Elt F) ((c0W).access (Rect.whole S10000)) X0) (idxAt _ hchk _) = _
    rw [View.read_apply]; simp only [cast_eq]
    unfold gat1
    rw [dif_pos (hX1 j)]
    congr 1
    refine funext fun (a : Fin 1) => ?_
    obtain rfl : a = 0 := Subsingleton.elim _ _
    apply Fin.ext
    show 0 + 1 * ((c2W).view.readAt (Elt F) (Rect.unit (s := S10000) (k0_off4 k) S16.size (Facts₀.k0_off4_inb k)).toLoadRect X1 (ValueIdx.ix1 ⟨(j 0).val - 16 * k.val, hx⟩)).toNat = (X1 j).toNat
    rw [View.readAt_apply, hjx2]
    simp only [Memref.view_whole, View.read_whole]
    omega

section Trip2

variable (X0 : Buf (Elt F) ((thr d L).loc cc0_scratch0)) (X1 : Buf (Elt F) ((thr d L).loc cc0_scratch2))

/-- The words a trip loads are indices of the table. -/
theorem chk2_of (hX1 : ∀ j, (X1 j).toNat < 10000) (k : Fin k0_t2_loop.trips) :
    k0_chk2 ((c2W).view.readAt (Elt F) (Rect.unit (s := S10000) (k0_off4 k) S16.size (Facts₀.k0_off4_inb k)).toLoadRect X1) := by
  intro a x
  obtain rfl : a = 0 := Subsingleton.elim _ _
  show ((c2W).view.readAt (Elt F) (Rect.unit (s := S10000) (k0_off4 k) S16.size (Facts₀.k0_off4_inb k)).toLoadRect X1 x).toNat < 10000
  simp only [View.readAt_apply, Memref.view_whole, View.read_whole]
  exact hX1 _

/-- One trip of the second loop keeps its invariant. -/
theorem trip2 (hX1 : ∀ j, (X1 j).toNat < 10000) (k : Fin k0_t2_loop.trips) (acc : PUnit) :
    inv2 (U := U) d L X0 X1 k acc
      ⊢ wp frame (wpE (defs₀ (F := F)) 𝒱₀ (thr d L) none) Set.univ
          (k0_t2_body L tW (Memref.isWhole_whole _) sW (Memref.isWhole_whole _) rW (Memref.isWhole_whole _) aW (Memref.isWhole_whole _) bW (Memref.isWhole_whole _)
            c0W (Memref.isWhole_whole _) c2W (Memref.isWhole_whole _) c2W (Memref.isWhole_whole _) c4W (Memref.isWhole_whole _) c4W (Memref.isWhole_whole _)
            cc0_scratch5 cc0_scratch6 cc0_scratch7 k acc)
          (inv2 (U := U) d L X0 X1 (k.val + 1)) := by
  unfold inv2 k0_t2_body
  simp only [Prog.lift, Prog.bind_op, Prog.bind_ret, Prog.pure_eq_ret]
  iintro ⟨H0, H1, %f, H3, %hf⟩
  iapply (wp_load 𝒱₀ (thr d L) none Set.univ (m := c2W) (S := Finset.univ) (Finset.subset_univ _)) $$ H1; iintro H1
  rw [wp_assume_of _ _ _ _ (chk2_of d L X1 hX1 k)]
  iapply (SparseCore.wp_vectorLoadIdx 𝒱₀ (thr d L) none Set.univ (base := c0W) (S := Finset.univ) (q := fullShare) (Finset.subset_univ _)) $$ H0; iintro H0
  iapply (wp_load 𝒱₀ (thr d L) none Set.univ (m := c4W) (S := Finset.univ) (Finset.subset_univ _)) $$ H3; iintro H3
  iapply (wp_store 𝒱₀ (thr d L) none Set.univ (m := c4W) (r := Rect.unit (s := S10000) (k0_off5 k) S16.size (Facts₀.k0_off5_inb k)) (Mk := Finset.univ) (S := Finset.univ) (Finset.subset_univ _)) $$ H3; iintro H3
  rw [wp_ret]; imodintro
  isplitl [H0]; · iexact H0
  isplitl [H1]; · iexact H1
  iexists _; isplitl [H3]; · iexact H3
  ipureintro
  exact trip2_val (F := F) X0 X1 f hX1 k _ hf

end Trip2

/-- The first result's slice, once the gathered scratch has been copied out over it, holds on its entries the
    whole-array function: the table read at the senders. -/
theorem out_val_a (g X0 X1 : IVec S10000 32) (hg : ∀ j : S10000.Idx, (j 0).val < 16 * 625 → g j = gat1 X0 X1 j)
    (hX0 : X0 = m (tLoc d)) (hX1 : ∀ x, X1 x = m (sLoc d) ((sSl L).view.emb x)) (hb : ∀ x, (X1 x).toNat < 10000) :
    ∀ i ∈ slSet L, (aSl L).view.writes (Elt F) (m (o0Loc d)) [⟨Rect.whole S10000, (c3W).view.read (Elt F) g⟩] i = G0 m d i := by
  intro i hi
  obtain ⟨x, -, rfl⟩ := Finset.mem_map.mp hi
  have h1 := View.read_writes_cons_emb (aSl L).view (m (o0Loc d)) (Rect.whole S10000) ((c3W).view.read (Elt F) g) [] x
  have hw : (Rect.whole S10000).emb x = x := funext fun a => Fin.ext (by simp)
  rw [hw, View.read_apply] at h1
  simp only [cast_eq] at h1
  refine h1.trans ?_
  show g x = G0 m d ((sSl L).view.emb x)
  have hx : (x 0).val < 16 * 625 := by have := (x 0).isLt; change (x 0).val < 10000 at this; omega
  rw [hg x hx]
  have e := hX1 x
  have hb' : (m (sLoc d) ((sSl L).view.emb x)).toNat < 10000 := e ▸ hb x
  unfold gat1 G0 Spec.gath
  rw [dif_pos (hb x), dif_pos hb']
  subst hX0
  exact congrArg (m (tLoc d)) (congrArg ValueIdx.ix1 (Fin.ext (congrArg BitVec.toNat e)))

/-- The second result's slice, once the gathered scratch has been copied out over it, holds on its entries the
    whole-array function: the table read at the receivers. -/
theorem out_val_b (g X0 X1 : IVec S10000 32) (hg : ∀ j : S10000.Idx, (j 0).val < 16 * 625 → g j = gat1 X0 X1 j)
    (hX0 : X0 = m (tLoc d)) (hX1 : ∀ x, X1 x = m (rLoc d) ((rSl L).view.emb x)) (hb : ∀ x, (X1 x).toNat < 10000) :
    ∀ i ∈ slSet L, (bSl L).view.writes (Elt F) (m (o1Loc d)) [⟨Rect.whole S10000, (c4W).view.read (Elt F) g⟩] i = G1 m d i := by
  intro i hi
  obtain ⟨x, -, rfl⟩ := Finset.mem_map.mp hi
  have h1 := View.read_writes_cons_emb (bSl L).view (m (o1Loc d)) (Rect.whole S10000) ((c4W).view.read (Elt F) g) [] x
  have hw : (Rect.whole S10000).emb x = x := funext fun a => Fin.ext (by simp)
  rw [hw, View.read_apply] at h1
  simp only [cast_eq] at h1
  refine h1.trans ?_
  show g x = G1 m d ((rSl L).view.emb x)
  have hx : (x 0).val < 16 * 625 := by have := (x 0).isLt; change (x 0).val < 10000 at this; omega
  rw [hg x hx]
  have e := hX1 x
  have hb' : (m (rLoc d) ((rSl L).view.emb x)).toNat < 10000 := e ▸ hb x
  unfold gat1 G1 Spec.gath
  rw [dif_pos (hb x), dif_pos hb']
  subst hX0
  exact congrArg (m (tLoc d)) (congrArg ValueIdx.ix1 (Fin.ext (congrArg BitVec.toNat e)))

/-- The task at the grid point `L`, from its operands (a read share `q` of the table, its four slices) and the vector
    subcore's own scratches and semaphores: the operands back, the two result slices at the gathered arrays. -/
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp ∗ tilePtsL (U := U) m d q L (m (o0Loc d)) (m (o1Loc d))
        ∗ scopedBufs (thr d L) ∗ scopedSems0 (thr d L) ∗ owes (thr d L) O W)
      ⊢ wp frame (wpE (defs₀ (F := F)) 𝒱₀ (thr d L) none) Set.univ
          (cc0_k L tW (Memref.isWhole_whole _) sW (Memref.isWhole_whole _) rW (Memref.isWhole_whole _) aW (Memref.isWhole_whole _) bW (Memref.isWhole_whole _)
            c0W (Memref.isWhole_whole _) c1W (Memref.isWhole_whole _) c2W (Memref.isWhole_whole _) c3W (Memref.isWhole_whole _) c4W (Memref.isWhole_whole _)
            cc0_scratch5 cc0_scratch6 cc0_scratch7)
          fun _ => iprop(tilePtsL (U := U) m d q L (G0 m d) (G1 m d) ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold tilePtsL
  iintro ⟨#Hlv, -, ⟨Ht, Hs, Hr, Ha, Hb⟩, ⟨⟨%f0, H0⟩, ⟨%f1, H1⟩, ⟨%f2, H2⟩, ⟨%f3, H3⟩, ⟨%f4, H4⟩, Hbufs⟩, ⟨Hsem5, Hsem6, Hsem7, Hsems⟩, HO⟩
  ihave Hmw := ((K (F := F)).mayWaits_none (thr := thr d L) hO) $$ Hlv
  ihave Ht := (Entails.of_eq (pts_t (F := F) (U := U) d L _ _).symm) $$ Ht
  ihave Hs := (Entails.of_eq (pts_s (F := F) (U := U) d L _).symm) $$ Hs
  ihave Hr := (Entails.of_eq (pts_r (F := F) (U := U) d L _).symm) $$ Hr
  ihave Ha := (Entails.of_eq (pts_a (F := F) (U := U) d L _).symm) $$ Ha
  ihave Hb := (Entails.of_eq (pts_b (F := F) (U := U) d L _).symm) $$ Hb
  ihave H0 := (Entails.of_eq (pts_c0 (F := F) (U := U) d L _).symm) $$ H0
  ihave H1 := (Entails.of_eq (pts_c1 (F := F) (U := U) d L _).symm) $$ H1
  ihave H2 := (Entails.of_eq (pts_c2 (F := F) (U := U) d L _).symm) $$ H2
  ihave H3 := (Entails.of_eq (pts_c3 (F := F) (U := U) d L _).symm) $$ H3
  ihave H4 := (Entails.of_eq (pts_c4 (F := F) (U := U) d L _).symm) $$ H4
  sl_exec
  have hd0 : tile_body.sl.dma0 m d = (tW).view.read (Elt F) (m (tLoc d)) := rfl
  have hd1 : tile_body.sl.dma0_1 m d L = (sSl L).view.read (Elt F) (m (sLoc d)) := rfl
  have hX0 : View.write (Elt F) (c0W).view f0 (tile_body.sl.dma0 m d) Finset.univ = m (tLoc d) := by
    rw [hd0]; exact View.write_whole_univ _ _ _
  have hX1 : ∀ x, View.write (Elt F) (c1W).view f1 (tile_body.sl.dma0_1 m d L) Finset.univ x = m (sLoc d) ((sSl L).view.emb x) := by
    intro x; rw [hd1]
    exact (congrFun (View.write_whole_univ _ _ _) x).trans ((View.read_apply _ _).trans (cast_eq _ _))
  generalize View.write (Elt F) (c0W).view f0 (tile_body.sl.dma0 m d) Finset.univ = X0 at hX0
  generalize View.write (Elt F) (c1W).view f1 (tile_body.sl.dma0_1 m d L) Finset.univ = X1 at hX1
  have hX1b : ∀ j, (X1 j).toNat < 10000 := fun j => by rw [hX1]; exact Nat.lt_succ_of_le ((hpre d).1 _)
  sl_for (inv1 (U := U) d L X0 X1) $$ [H0 H1 H3]
  case region => exact fun k acc => trip1 d L X0 X1 hX1b k acc
  · unfold inv1
    isplitl [H0]; · iexact H0
    isplitl [H1]; · iexact H1
    iexists f3; isplitl [H3]; · iexact H3
    ipureintro; intro j hj; exact absurd hj (by omega)
  iintro %_ HI
  unfold inv1
  icases HI with ⟨H0, H1, %g3, H3, %hg3⟩
  sl_exec
  have hd2 : tile_body.sl.dma0_2 m d L = (rSl L).view.read (Elt F) (m (rLoc d)) := rfl
  have hX2 : ∀ x, View.write (Elt F) (c2W).view f2 (tile_body.sl.dma0_2 m d L) Finset.univ x = m (rLoc d) ((rSl L).view.emb x) := by
    intro x; rw [hd2]
    exact (congrFun (View.write_whole_univ _ _ _) x).trans ((View.read_apply _ _).trans (cast_eq _ _))
  generalize View.write (Elt F) (c2W).view f2 (tile_body.sl.dma0_2 m d L) Finset.univ = X2 at hX2
  have hX2b : ∀ j, (X2 j).toNat < 10000 := fun j => by rw [hX2]; exact Nat.lt_succ_of_le ((hpre d).2 _)
  sl_for (inv2 (U := U) d L X0 X2) $$ [H0 H2 H4]
  case region => exact fun k acc => trip2 d L X0 X2 hX2b k acc
  · unfold inv2
    isplitl [H0]; · iexact H0
    isplitl [H2]; · iexact H2
    iexists f4; isplitl [H4]; · iexact H4
    ipureintro; intro j hj; exact absurd hj (by omega)
  iintro %_ HI
  unfold inv2
  icases HI with ⟨H0, H2, %g4, H4, %hg4⟩
  sl_exec
  have hd3 : tile_body.sl.dma0_3 d L g3 = (c3W).view.read (Elt F) g3 := rfl
  have hd4 : tile_body.sl.dma0_4 d L g4 = (c4W).view.read (Elt F) g4 := rfl
  rw [hd3, hd4]
  ihave Ha := (Entails.of_eq ((pts_a (F := F) (U := U) d L _).trans (pointsTo_congr (out_val_a m d L g3 X0 X1 hg3 hX0 hX1 hX1b)))) $$ Ha
  ihave Hb := (Entails.of_eq ((pts_b (F := F) (U := U) d L _).trans (pointsTo_congr (out_val_b m d L g4 X0 X2 hg4 hX0 hX2 hX2b)))) $$ Hb
  rw [wp_ret]; imodintro
  isplitl [Ht Hs Hr Ha Hb]
  · isplitl [Ht]; · iexact Ht
    isplitl [Hs]; · iexact Hs
    isplitl [Hr]; · iexact Hr
    isplitl [Ha]; · iexact Ha
    iexact Hb
  isplitl [H0 H1 H2 H3 H4 Hbufs]
  · isplitl [H0]; · iexists _; iexact H0
    isplitl [H1]; · iexists _; iexact H1
    isplitl [H2]; · iexists _; iexact H2
    isplitl [H3]; · iexists _; iexact H3
    isplitl [H4]; · iexists _; iexact H4
    iexact Hbufs
  isplitl [Hsem5 Hsem6 Hsem7 Hsems]
  · isplitl [Hsem5]; · iexact Hsem5
    isplitl [Hsem6]; · iexact Hsem6
    isplitl [Hsem7]; · iexact Hsem7
    iexact Hsems
  iexists (insert (SemLoc.dma cc0_scratch7.sem, none) (insert (SemLoc.dma cc0_scratch6.sem, none) (insert (SemLoc.dma cc0_scratch7.sem, none)
    (insert (SemLoc.dma cc0_scratch6.sem, none) (insert (SemLoc.dma cc0_scratch5.sem, none) W))))); isplitr
  · ipureintro; intro p hp
    simp only [Finset.mem_insert] at hp
    rcases hp with rfl | rfl | rfl | rfl | rfl | hp
    · exact .inr rfl
    · exact .inr rfl
    · exact .inr rfl
    · exact .inr rfl
    · exact .inr rfl
    · exact .inl hp
  iexact HO

end Tile

end Cert.Kernel.Sc

end
-- ==== Proof.Bits.ScLaunch.lean ====
/-
  The SparseCore call's tile obligation for the launch theorem: the task's body, proved at a symbolic grid point, in the
  launch theorem's spelling of thread and program.
-/
import proofs.«206043_g84026740179769_cont_sun_m_427_41_alg».proof.Proof.Bits.ScBody
import Idealize.ShloMosaic.Lib.SparseCore.Launch
import Idealize.ShloMosaic.Lib.SparseCore.Ops
import Idealize.ShloMosaic.Lib.Pipeline.Kit
import Idealize.ShloMosaic.Lib.Tactic

noncomputable section

namespace Cert.Kernel.Sc

open Cert.Kernel
open Cert.Kernel.Gen (cc0_k_eq_skeleton cc0_k_skel k0_t1_body k0_t2_body)
open Cert.Kernel.Facts₀ Cert.Kernel.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.Kernel.Facts] {U : Type} [URA U] [CountersIn U]

local notation "𝕄" => MT nD τ sig (HIx 1) (Elt F) ℕ U ℕ

variable (m : (ℓ : Loc nD τ sig) → Buf (Elt F) ℓ)

local notation "tW" => (Memref.whole Cert.Kernel.main_arg1_scv : Memref Cert.Kernel.sig Kind.scVector Space.hbm Cert.Kernel.S10000 EltTy.i32)
local notation "sW" => (Memref.whole Cert.Kernel.main_arg3_scv : Memref Cert.Kernel.sig Kind.scVector Space.hbm Cert.Kernel.S320000 EltTy.i32)
local notation "rW" => (Memref.whole Cert.Kernel.main_arg4_scv : Memref Cert.Kernel.sig Kind.scVector Space.hbm Cert.Kernel.S320000 EltTy.i32)
local notation "aW" => (Memref.whole Cert.Kernel.main_v0_0_scv : Memref Cert.Kernel.sig Kind.scVector Space.hbm Cert.Kernel.S320000 EltTy.i32)
local notation "bW" => (Memref.whole Cert.Kernel.main_v0_1_scv : Memref Cert.Kernel.sig Kind.scVector Space.hbm Cert.Kernel.S320000 EltTy.i32)
local notation "c0W" => (Memref.whole Cert.Kernel.cc0_scratch0 : Memref Cert.Kernel.sig Kind.scVector Space.vmem Cert.Kernel.S10000 EltTy.i32)
local notation "c1W" => (Memref.whole Cert.Kernel.cc0_scratch1 : Memref Cert.Kernel.sig Kind.scVector Space.vmem Cert.Kernel.S10000 EltTy.i32)
local notation "c2W" => (Memref.whole Cert.Kernel.cc0_scratch2 : Memref Cert.Kernel.sig Kind.scVector Space.vmem Cert.Kernel.S10000 EltTy.i32)
local notation "c3W" => (Memref.whole Cert.Kernel.cc0_scratch3 : Memref Cert.Kernel.sig Kind.scVector Space.vmem Cert.Kernel.S10000 EltTy.i32)
local notation "c4W" => (Memref.whole Cert.Kernel.cc0_scratch4 : Memref Cert.Kernel.sig Kind.scVector Space.vmem Cert.Kernel.S10000 EltTy.i32)

abbrev 𝒱 : Variants := 𝒱₀.lift
abbrev v₀ : 𝒱.V := Sum.inl none

/-! ## The tile obligation -/

theorem defs₀_vector (c : Fin τ.nSC) (s : Fin τ.nSub) :
    defs₀ (F := F) (.scVector c s) 0 ()
      = SparseCore.onTile hcore0 hsub0 (fun c s => cc0_k (coordsV c s)
          tW (Memref.isWhole_whole _) sW (Memref.isWhole_whole _) rW (Memref.isWhole_whole _) aW (Memref.isWhole_whole _) bW (Memref.isWhole_whole _)
          c0W (Memref.isWhole_whole _) c1W (Memref.isWhole_whole _) c2W (Memref.isWhole_whole _) c3W (Memref.isWhole_whole _) c4W (Memref.isWhole_whole _)
          cc0_scratch5 cc0_scratch6 cc0_scratch7) ⟨⟩ c s := rfl

omit [FloatOps F] [CountersIn U] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) :
    (K (F := F)).TileObl (D (F := F)) 𝒱 (P (U := U) m) v₀ 0 := by
  intro d c i O W hO _ _
  -- this kernel owes nothing for a protocol of its own
  simp only [show (P (U := U) m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre _ O W hO).trans (wp_mono frame _ _ fun _ => obl_post)

end Cert.Kernel.Sc

end
-- ==== Proof.Bits.ScSplit.lean ====
/-
  The SparseCore call of the kernel program: how its operands are cut up and put back.

  A long array of 320000 words is cut into the 32 tasks' slices: task (c, s), numbered w = 2 s + c, holds entries
  [10000 w, 10000 w + 10000).  The slices are pairwise disjoint (two different task numbers are 10000 apart) and cover
  the array (entry e lies in the slice numbered e / 10000).  So a whole array held at the full share is the 32 slices
  held at the full share, grouped by SparseCore; the charge table, which every task reads, is held at read shares: the
  full share cut in two pieces, one per SparseCore, each cut in sixteen, one per task.  From these: a SparseCore's
  operands are its sixteen tasks' operands, and the two SparseCores' operands are the five arrays whole — at any
  contents of the two result arrays, so the same equations bring the results back.
-/
import proofs.«206043_g84026740179769_cont_sun_m_427_41_alg».proof.Proof.Bits.ScPay
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic

noncomputable section

namespace Cert.Kernel.Sc

open Cert.Kernel Cert.Kernel.Gen
open Cert.Kernel.Facts₀ Cert.Kernel.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.Kernel.Facts] {U : Type} [URA U] [CountersIn U]

local notation "𝕄" => MT nD τ sig (HIx 1) (Elt F) ℕ U ℕ

variable (m : (ℓ : Loc nD τ sig) → Buf (Elt F) ℓ)

/-! ## The slices: disjoint, covering -/

theorem slSet_eq (L : grid0.Coords) : slSet L = (slR L).set := View.set_slice_whole _ _

theorem off_eq (c : Fin 2) (s : Fin 16) : k0_off1 (coordsV c s) 0 = 20000 * s.val + 10000 * c.val := by
  rw [Gen.k0_off1_eq]; rfl

theorem sl_disjoint : ∀ p ∈ (Finset.univ : Finset (Fin 2 × Fin 16)), ∀ p' ∈ (Finset.univ : Finset (Fin 2 × Fin 16)), p ≠ p' →
    Disjoint (slSet (coordsV p.1 p.2)) (slSet (coordsV p'.1 p'.2)) := by
  intro p _ p' _ hne
  rw [slSet_eq, slSet_eq]
  refine Rect.unit_disjoint 0 ?_
  rw [off_eq, off_eq]
  have h1 := p.1.isLt; have h2 := p'.1.isLt
  have : ¬ (p.1.val = p'.1.val ∧ p.2.val = p'.2.val) := fun ⟨e1, e2⟩ => hne (Prod.ext (Fin.ext e1) (Fin.ext e2))
  show 20000 * p.2.val + 10000 * p.1.val + 10000 ≤ 20000 * p'.2.val + 10000 * p'.1.val
    ∨ 20000 * p'.2.val + 10000 * p'.1.val + 10000 ≤ 20000 * p.2.val + 10000 * p.1.val
  omega

theorem sl_cover : (Finset.univ : Finset (Fin 2 × Fin 16)).biUnion (fun p => slSet (coordsV p.1 p.2)) = Finset.univ := by
  ext i
  simp only [Finset.mem_biUnion, Finset.mem_univ, true_and, iff_true]
  have hi : (i 0).val < 320000 := (i 0).isLt
  refine ⟨(⟨(i 0).val / 10000 % 2, by omega⟩, ⟨(i 0).val / 20000, by omega⟩), ?_⟩
  rw [slSet_eq, Rect.mem_set_unit]
  intro a
  obtain rfl : a = 0 := Subsingleton.elim _ _
  rw [off_eq]
  show 20000 * ((i 0).val / 20000) + 10000 * ((i 0).val / 10000 % 2) ≤ (i 0).val
    ∧ (i 0).val < 20000 * ((i 0).val / 20000) + 10000 * ((i 0).val / 10000 % 2) + 10000
  omega

omit [FloatOps F] [CountersIn U] in
theorem slices_s (d : Dev nD) (f : Buf (Elt F) (sLoc d)) :
    (bigSep Finset.univ fun c : Fin 2 => bigSep Finset.univ fun s : Fin 16 => (sLoc d ↦[slSet (coordsV c s)]{fullShare} f : sProp 𝕄))
      = (sLoc d ↦{fullShare} f) := by
  rw [← bigSep_univ_prod (fun p : Fin 2 × Fin 16 => (sLoc d ↦[slSet (coordsV p.1 p.2)]{fullShare} f : sProp 𝕄)),
    ← pointsTo_biUnion Finset.univ (ℓ := sLoc d) (fun p : Fin 2 × Fin 16 => slSet (coordsV p.1 p.2)) sl_disjoint, sl_cover]

omit [FloatOps F] [CountersIn U] in
theorem slices_r (d : Dev nD) (f : Buf (Elt F) (rLoc d)) :
    (bigSep Finset.univ fun c : Fin 2 => bigSep Finset.univ fun s : Fin 16 => (rLoc d ↦[slSet (coordsV c s)]{fullShare} f : sProp 𝕄))
      = (rLoc d ↦{fullShare} f) := by
  rw [← bigSep_univ_prod (fun p : Fin 2 × Fin 16 => (rLoc d ↦[slSet (coordsV p.1 p.2)]{fullShare} f : sProp 𝕄)),
    ← pointsTo_biUnion Finset.univ (ℓ := rLoc d) (fun p : Fin 2 × Fin 16 => slSet (coordsV p.1 p.2)) sl_disjoint, sl_cover]

omit [FloatOps F] [CountersIn U] in
theorem slices_a (d : Dev nD) (f : Buf (Elt F) (o0Loc d)) :
    (bigSep Finset.univ fun c : Fin 2 => bigSep Finset.univ fun s : Fin 16 => (o0Loc d ↦[slSet (coordsV c s)]{fullShare} f : sProp 𝕄))
      = (o0Loc d ↦{fullShare} f) := by
  rw [← bigSep_univ_prod (fun p : Fin 2 × Fin 16 => (o0Loc d ↦[slSet (coordsV p.1 p.2)]{fullShare} f : sProp 𝕄)),
    ← pointsTo_biUnion Finset.univ (ℓ := o0Loc d) (fun p : Fin 2 × Fin 16 => slSet (coordsV p.1 p.2)) sl_disjoint, sl_cover]

omit [FloatOps F] [CountersIn U] in
theorem slices_b (d : Dev nD) (f : Buf (Elt F) (o1Loc d)) :
    (bigSep Finset.univ fun c : Fin 2 => bigSep Finset.univ fun s : Fin 16 => (o1Loc d ↦[slSet (coordsV c s)]{fullShare} f : sProp 𝕄))
      = (o1Loc d ↦{fullShare} f) := by
  rw [← bigSep_univ_prod (fun p : Fin 2 × Fin 16 => (o1Loc d ↦[slSet (coordsV p.1 p.2)]{fullShare} f : sProp 𝕄)),
    ← pointsTo_biUnion Finset.univ (ℓ := o1Loc d) (fun p : Fin 2 × Fin 16 => slSet (coordsV p.1 p.2)) sl_disjoint, sl_cover]

/-! ## A SparseCore's operands among its tasks; the TensorCore's arrays between the SparseCores -/

omit [FloatOps F] [CountersIn U] in
theorem corePts_eq (d : Dev nD) (c : Fin 2) (g0 : Buf (Elt F) (o0Loc d)) (g1 : Buf (Elt F) (o1Loc d)) :
    corePts (U := U) m d c g0 g1 = bigSep Finset.univ fun s : Fin 16 => tilePts (U := U) m d c s g0 g1 := by
  unfold corePts tilePts tilePtsL tileShare
  rw [pointsTo_pieces (ℓ := tLoc d) Finset.univ (m (tLoc d)) 15 (coreShare c), ← bigSep_sep']

omit [CountersIn U] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [CountersIn U] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P (U := U) m) 0 := by
  intro d c
  rw [P_st, P_dn]
  show _ ⊢ |={Set.univ}=> iprop((bigSep Finset.univ fun i : Fin ((K (F := F)).nSub 0) =>
        tilePts (U := U) m d (Fin.cast nCore_zero c) (Fin.cast nSub_zero i) (m (o0Loc d)) (m (o1Loc d)))
      ∗ ((bigSep Finset.univ fun i : Fin ((K (F := F)).nSub 0) =>
          tilePts (U := U) m d (Fin.cast nCore_zero c) (Fin.cast nSub_zero i) (G0 m d) (G1 m d)) -∗ _))
  rw [bigSep_tasks (F := F) (fun s => tilePts (U := U) m d (Fin.cast nCore_zero c) s (m (o0Loc d)) (m (o1Loc d))),
    bigSep_tasks (F := F) (fun s => tilePts (U := U) m d (Fin.cast nCore_zero c) s (G0 m d) (G1 m d)), corePts_eq, corePts_eq]
  iintro H; imodintro
  isplitl [H]; · iexact H
  iintro H; iexact H

omit [FloatOps F] [CountersIn U] in
/-- The two SparseCores' operands are the five arrays whole. -/
theorem cores_eq (d : Dev nD) (g0 : Buf (Elt F) (o0Loc d)) (g1 : Buf (Elt F) (o1Loc d)) :
    (bigSep Finset.univ fun c : Fin 2 => corePts (U := U) m d c g0 g1)
      = iprop((tLoc d ↦{fullShare} m (tLoc d)) ∗ (sLoc d ↦{fullShare} m (sLoc d)) ∗ (rLoc d ↦{fullShare} m (rLoc d))
          ∗ (o0Loc d ↦{fullShare} g0) ∗ (o1Loc d ↦{fullShare} g1)) := by
  unfold corePts coreShare
  simp only [bigSep_sep']
  rw [← pointsTo_pieces (ℓ := tLoc d) Finset.univ (m (tLoc d)) 1 fullShare, slices_s, slices_r, slices_a, slices_b]

theorem st_intro (d : Dev nD) :
    (iprop((tLoc d ↦{fullShare} m (tLoc d)) ∗ (sLoc d ↦{fullShare} m (sLoc d)) ∗ (rLoc d ↦{fullShare} m (rLoc d))
        ∗ (o0Loc d ↦{fullShare} m (o0Loc d)) ∗ (o1Loc d ↦{fullShare} m (o1Loc d))) : sProp 𝕄)
      ⊢ bigSep Finset.univ fun c : Fin ((K (F := F)).nCore 0) => (P (U := U) m).st 0 d c := by
  show _ ⊢ bigSep Finset.univ fun c : Fin ((K (F := F)).nCore 0) => corePts (U := U) m d (Fin.cast nCore_zero c) (m (o0Loc d)) (m (o1Loc d))
  rw [bigSep_cores (F := F) (fun c => corePts (U := U) m d c (m (o0Loc d)) (m (o1Loc d))), cores_eq]

theorem dn_elim (d : Dev nD) :
    (bigSep Finset.univ fun c : Fin ((K (F := F)).nCore 0) => (P (U := U) m).dn 0 d c)
      ⊢ (iprop((tLoc d ↦{fullShare} m (tLoc d)) ∗ (sLoc d ↦{fullShare} m (sLoc d)) ∗ (rLoc d ↦{fullShare} m (rLoc d))
        ∗ (o0Loc d ↦{fullShare} G0 m d) ∗ (o1Loc d ↦{fullShare} G1 m d)) : sProp 𝕄) := by
  show (bigSep Finset.univ fun c : Fin ((K (F := F)).nCore 0) => corePts (U := U) m d (Fin.cast nCore_zero c) (G0 m d) (G1 m d)) ⊢ _
  rw [bigSep_cores (F := F) (fun c => corePts (U := U) m d c (G0 m d) (G1 m d)), cores_eq]

end Cert.Kernel.Sc

end
-- ==== Proof.lean ====
/-
  The certificate's proof: the kernel program and its jnp reference compute the same array over the extended reals.

  The reference embeds each node's charge (a row of the 95-row table), gathers the sender's and the receiver's
  embedding for each of the 320000 edges, appends the edge's radial-basis embedding g·silu(rbf·W_rbf + b_rbf), and
  applies g·silu(· W_out + b_out), silu x = x·(1/(1 + exp(−x))).  The kernel program first reads the CHARGES at the
  senders and at the receivers (a SparseCore gather of words), then, block by block of 16000 edges, multiplies the row
  [one-hot of the sender's charge | one-hot of the receiver's charge | act(rbf·W_rbf + b_rbf)] by the 384-row table
  [E·W_s ; E·W_r ; g·W_q] (E the table under zero rows, W_s, W_r, W_q the three slabs of W_out), adds the bias and applies
  act x = x·(½·tanh(½x) + ½), times g.  The two agree because a one-hot row selects a row of a product (0·x = 0 and
  1·x = x on every extended real), a 384-term sum is three 128-term sums, the gain moves across a product, and
  1/(1 + exp(−r)) = ½·tanh(½r) + ½ on the reals — the only place where the inputs' finiteness is used; the integer
  ranges of the precondition keep every index inside its table.

  The pieces: the reference's run and frame (RefRun), the precondition read as plain facts (PreDecode), the two closed
  terms and their equality (KerSpec, RefSpec, Bridge), the kernel program's run at either float instance — one vector
  subcore's task at a symbolic tile, the TensorCore call as a kernel region with its table carried across grid points,
  @main under the SparseCore launch theorem (Launch, and its word-level twin) —, assembled by `Assemble.claim_of`.
-/
import proofs.«206043_g84026740179769_cont_sun_m_427_41_alg».proof.Proof.Assemble
import proofs.«206043_g84026740179769_cont_sun_m_427_41_alg».proof.Proof.Bridge
import proofs.«206043_g84026740179769_cont_sun_m_427_41_alg».proof.Proof.Launch
import proofs.«206043_g84026740179769_cont_sun_m_427_41_alg».proof.Proof.ScLaunch
import proofs.«206043_g84026740179769_cont_sun_m_427_41_alg».proof.Proof.ScSplit
import proofs.«206043_g84026740179769_cont_sun_m_427_41_alg».proof.Proof.Bits.Launch
import proofs.«206043_g84026740179769_cont_sun_m_427_41_alg».proof.Proof.Bits.ScLaunch
import proofs.«206043_g84026740179769_cont_sun_m_427_41_alg».proof.Proof.Bits.ScSplit

noncomputable section

namespace Cert.Proof

open Idealize.ShloMosaic Idealize.SL.Sem

/-- The word-level kernel program runs and keeps its arguments. -/
theorem run_bits (m : (ℓ : Loc Cert.Kernel.nD Cert.Kernel.τ Cert.Kernel.sig) → Buf (Elt Bits) ℓ) (g : Dev Cert.Kernel.nD → PrngReg)
    (h : Cert.Kernel.Sc.PreOK m) :
    θ_run (Cert.Kernel.defs (F := Bits)) (Cert.Kernel.threads (F := Bits)) ⟨m, fun _ => 0, g⟩ (Cert.Kernel.Launch.QC m) :=
  Cert.Kernel.Launch.run_main (F := Bits) m g
    (Cert.Kernel.Sc.tileObl (U := Cert.Kernel.Common.UU) m Cert.Kernel.Common.facts h) (Cert.Kernel.Sc.vecSplit (U := Cert.Kernel.Common.UU) m)
    (Cert.Kernel.Sc.st_intro (U := Cert.Kernel.Common.UU) m) (Cert.Kernel.Sc.dn_elim (U := Cert.Kernel.Common.UU) m)

/-- The idealized kernel program runs, ends at the kernel-side term and keeps its arguments. -/
theorem run_ideal (m : (ℓ : Loc Cert.KernelIdeal.nD Cert.KernelIdeal.τ Cert.KernelIdeal.sig) → Buf (Elt Ideal) ℓ)
    (g : Dev Cert.KernelIdeal.nD → PrngReg) (h : Cert.KernelIdeal.Sc.PreOK m) :
    θ_run (Cert.KernelIdeal.defs (F := Ideal)) (Cert.KernelIdeal.threads (F := Ideal)) ⟨m, fun _ => 0, g⟩ (Cert.KernelIdeal.Launch.QC m) :=
  Cert.KernelIdeal.Launch.run_main (F := Ideal) m g
    (Cert.KernelIdeal.Sc.tileObl (U := Cert.KernelIdeal.Common.UU) m Cert.KernelIdeal.Common.facts h) (Cert.KernelIdeal.Sc.vecSplit (U := Cert.KernelIdeal.Common.UU) m)
    (Cert.KernelIdeal.Sc.st_intro (U := Cert.KernelIdeal.Common.UU) m) (Cert.KernelIdeal.Sc.dn_elim (U := Cert.KernelIdeal.Common.UU) m)

theorem claim : Cert.Claim :=
  Cert.Proof.Assemble.claim_of
    (fun m g h => (θ_run (Cert.Kernel.defs (F := Bits)) _ _).mono (fun _ hr c => (hr c).2) (run_bits m g h))
    (fun m g h => run_ideal m g h)
    (fun rbf charges senders receivers emb wrbf brbf wout bout h1 h2 h3 h4 h5 h6 hc hs hr =>
      Cert.Bridge.out_eq rbf charges senders receivers emb wrbf brbf wout bout h1 h2 h3 h4 h5 h6 hc hs hr)

end Cert.Proof

end
